-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v59)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v59) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v63) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x8x1024x1024 : Shape := ⟨4, ![8, 8, 1024, 1024]⟩
abbrev S_ : Shape := ⟨0, ![]⟩

class Facts : Prop where
  bcast_S_S8x8x1024x1024 : S_.BroadcastsInDim S8x8x1024x1024 (![] : Fin 0 → Fin S8x8x1024x1024.rank)
  reducesTo_S8x8x1024x1024_S_d0_1_2_3 : S8x8x1024x1024.ReducesTo [0, 1, 2, 3] S_
  h_S_ : 0 < S_.numel

variable [Facts]

def fn {F : FTy → Type} [FloatOps F] (main_arg0 : FVec F S8x8x1024x1024 .f32) (main_arg1 : FVec F S8x8x1024x1024 .f32) : IVec S_ 1 :=
  let main_v0 : FVec F S8x8x1024x1024 .f32 := Host.absf main_arg0
  let main_cst : FVec F S_ .f32 := constant S_ .f32 0x7F800000#32
  let main_v1 : FVec F S8x8x1024x1024 .f32 := broadcastInDim S8x8x1024x1024 ![] bcast_S_S8x8x1024x1024 main_cst
  let main_v2 : IVec S8x8x1024x1024 1 := cmpf .olt main_v0 main_v1
  let main_c : IVec S_ 1 := constantI S_ 1 1#1
  let main_v3 : IVec S_ 1 := (fun x v => Host.reduce IntOp.andi x v reducesTo_S8x8x1024x1024_S_d0_1_2_3 h_S_) main_v2 main_c
  let main_v4 : FVec F S8x8x1024x1024 .f32 := Host.absf main_arg1
  let main_cst_0 : FVec F S_ .f32 := constant S_ .f32 0x7F800000#32
  let main_v5 : FVec F S8x8x1024x1024 .f32 := broadcastInDim S8x8x1024x1024 ![] bcast_S_S8x8x1024x1024 main_cst_0
  let main_v6 : IVec S8x8x1024x1024 1 := cmpf .olt main_v4 main_v5
  let main_c_1 : IVec S_ 1 := constantI S_ 1 1#1
  let main_v7 : IVec S_ 1 := (fun x v => Host.reduce IntOp.andi x v reducesTo_S8x8x1024x1024_S_d0_1_2_3 h_S_) main_v6 main_c_1
  let main_v8 : IVec S_ 1 := andi main_v3 main_v7
  main_v8
-- ==== Kernel.lean ====
abbrev S8x8x1024x1024 : Shape := ⟨4, ![8, 8, 1024, 1024]⟩
abbrev S8x8x128 : Shape := ⟨3, ![8, 8, 128]⟩
abbrev S1x1x1024x1024 : Shape := ⟨4, ![1, 1, 1024, 1024]⟩
abbrev S1x8x128 : Shape := ⟨3, ![1, 8, 128]⟩
abbrev S8x128 : Shape := ⟨2, ![8, 128]⟩
abbrev S1024x1024 : Shape := ⟨2, ![1024, 1024]⟩
abbrev S1024 : Shape := ⟨1, ![1024]⟩
abbrev S1024x1 : Shape := ⟨2, ![1024, 1]⟩
abbrev S1 : Shape := ⟨1, ![1]⟩
abbrev S1x1 : Shape := ⟨2, ![1, 1]⟩
abbrev S8x1x1 : Shape := ⟨3, ![8, 1, 1]⟩
abbrev S8 : Shape := ⟨1, ![8]⟩
abbrev S_ : Shape := ⟨0, ![]⟩

abbrev nBuf : Space → Nat
  | .hbm => 82
  | .vmem => 20
  | .smem => 0
  | _ => 0

abbrev bufTy : (tb : Table) → Fin (tcTables nBuf tb) → BufTy
  | .hbm, ⟨0, _⟩ => ⟨S8x8x1024x1024, .f32⟩
  | .hbm, ⟨1, _⟩ => ⟨S8x8x1024x1024, .f32⟩
  | .hbm, ⟨2, _⟩ => ⟨S8x8x128, .f32⟩
  | .hbm, ⟨3, _⟩ => ⟨S8x8x128, .f32⟩
  | .hbm, ⟨4, _⟩ => ⟨S8x8x128, .f32⟩
  | .hbm, ⟨5, _⟩ => ⟨S8x8x128, .f32⟩
  | .hbm, ⟨6, _⟩ => ⟨S8x1x1, .f32⟩
  | .hbm, ⟨7, _⟩ => ⟨S8, .f32⟩
  | .hbm, ⟨8, _⟩ => ⟨S8x1x1, .f32⟩
  | .hbm, ⟨9, _⟩ => ⟨S8, .f32⟩
  | .hbm, ⟨10, _⟩ => ⟨S8x1x1, .f32⟩
  | .hbm, ⟨11, _⟩ => ⟨S8, .f32⟩
  | .hbm, ⟨12, _⟩ => ⟨S8x1x1, .f32⟩
  | .hbm, ⟨13, _⟩ => ⟨S8, .f32⟩
  | .hbm, ⟨14, _⟩ => ⟨S_, .f32⟩
  | .hbm, ⟨15, _⟩ => ⟨S8, .f32⟩
  | .hbm, ⟨16, _⟩ => ⟨S8, .f32⟩
  | .hbm, ⟨17, _⟩ => ⟨S8, .f32⟩
  | .hbm, ⟨18, _⟩ => ⟨S_, .f32⟩
  | .hbm, ⟨19, _⟩ => ⟨S8, .f32⟩
  | .hbm, ⟨20, _⟩ => ⟨S8, .f32⟩
  | .hbm, ⟨21, _⟩ => ⟨S8, .f32⟩
  | .hbm, ⟨22, _⟩ => ⟨S_, .f32⟩
  | .hbm, ⟨23, _⟩ => ⟨S8, .f32⟩
  | .hbm, ⟨24, _⟩ => ⟨S8, .f32⟩
  | .hbm, ⟨25, _⟩ => ⟨S_, .f32⟩
  | .hbm, ⟨26, _⟩ => ⟨S8, .f32⟩
  | .hbm, ⟨27, _⟩ => ⟨S8, .f32⟩
  | .hbm, ⟨28, _⟩ => ⟨S8, .f32⟩
  | .hbm, ⟨29, _⟩ => ⟨S8, .f32⟩
  | .hbm, ⟨30, _⟩ => ⟨S_, .f32⟩
  | .hbm, ⟨31, _⟩ => ⟨S8, .f32⟩
  | .hbm, ⟨32, _⟩ => ⟨S8, .f32⟩
  | .hbm, ⟨33, _⟩ => ⟨S8, .f32⟩
  | .hbm, ⟨34, _⟩ => ⟨S8, .f32⟩
  | .hbm, ⟨35, _⟩ => ⟨S8, .f32⟩
  | .hbm, ⟨36, _⟩ => ⟨S_, .f32⟩
  | .hbm, ⟨37, _⟩ => ⟨S8, .f32⟩
  | .hbm, ⟨38, _⟩ => ⟨S8, .f32⟩
  | .hbm, ⟨39, _⟩ => ⟨S_, .f32⟩
  | .hbm, ⟨40, _⟩ => ⟨S_, .f32⟩
  | .hbm, ⟨41, _⟩ => ⟨S8x8x128, .f32⟩
  | .hbm, ⟨42, _⟩ => ⟨S8x8x128, .f32⟩
  | .hbm, ⟨43, _⟩ => ⟨S8x8x128, .f32⟩
  | .hbm, ⟨44, _⟩ => ⟨S8x8x128, .f32⟩
  | .hbm, ⟨45, _⟩ => ⟨S8x1x1, .f32⟩
  | .hbm, ⟨46, _⟩ => ⟨S8, .f32⟩
  | .hbm, ⟨47, _⟩ => ⟨S8x1x1, .f32⟩
  | .hbm, ⟨48, _⟩ => ⟨S8, .f32⟩
  | .hbm, ⟨49, _⟩ => ⟨S8x1x1, .f32⟩
  | .hbm, ⟨50, _⟩ => ⟨S8, .f32⟩
  | .hbm, ⟨51, _⟩ => ⟨S8x1x1, .f32⟩
  | .hbm, ⟨52, _⟩ => ⟨S8, .f32⟩
  | .hbm, ⟨53, _⟩ => ⟨S_, .f32⟩
  | .hbm, ⟨54, _⟩ => ⟨S8, .f32⟩
  | .hbm, ⟨55, _⟩ => ⟨S8, .f32⟩
  | .hbm, ⟨56, _⟩ => ⟨S8, .f32⟩
  | .hbm, ⟨57, _⟩ => ⟨S_, .f32⟩
  | .hbm, ⟨58, _⟩ => ⟨S8, .f32⟩
  | .hbm, ⟨59, _⟩ => ⟨S8, .f32⟩
  | .hbm, ⟨60, _⟩ => ⟨S8, .f32⟩
  | .hbm, ⟨61, _⟩ => ⟨S_, .f32⟩
  | .hbm, ⟨62, _⟩ => ⟨S8, .f32⟩
  | .hbm, ⟨63, _⟩ => ⟨S8, .f32⟩
  | .hbm, ⟨64, _⟩ => ⟨S_, .f32⟩
  | .hbm, ⟨65, _⟩ => ⟨S8, .f32⟩
  | .hbm, ⟨66, _⟩ => ⟨S8, .f32⟩
  | .hbm, ⟨67, _⟩ => ⟨S8, .f32⟩
  | .hbm, ⟨68, _⟩ => ⟨S8, .f32⟩
  | .hbm, ⟨69, _⟩ => ⟨S_, .f32⟩
  | .hbm, ⟨70, _⟩ => ⟨S8, .f32⟩
  | .hbm, ⟨71, _⟩ => ⟨S8, .f32⟩
  | .hbm, ⟨72, _⟩ => ⟨S8, .f32⟩
  | .hbm, ⟨73, _⟩ => ⟨S8, .f32⟩
  | .hbm, ⟨74, _⟩ => ⟨S8, .f32⟩
  | .hbm, ⟨75, _⟩ => ⟨S_, .f32⟩
  | .hbm, ⟨76, _⟩ => ⟨S8, .f32⟩
  | .hbm, ⟨77, _⟩ => ⟨S8, .f32⟩
  | .hbm, ⟨78, _⟩ => ⟨S_, .f32⟩
  | .hbm, ⟨79, _⟩ => ⟨S_, .f32⟩
  | .hbm, ⟨80, _⟩ => ⟨S_, .f32⟩
  | .hbm, ⟨81, _⟩ => ⟨S_, .f32⟩
  | .local _ .vmem, ⟨0, _⟩ => ⟨S1x1x1024x1024, .f32⟩
  | .local _ .vmem, ⟨1, _⟩ => ⟨S1x1x1024x1024, .f32⟩
  | .local _ .vmem, ⟨2, _⟩ => ⟨S1x8x128, .f32⟩
  | .local _ .vmem, ⟨3, _⟩ => ⟨S1x8x128, .f32⟩
  | .local _ .vmem, ⟨4, _⟩ => ⟨S1x8x128, .f32⟩
  | .local _ .vmem, ⟨5, _⟩ => ⟨S1x8x128, .f32⟩
  | .local _ .vmem, ⟨6, _⟩ => ⟨S1x8x128, .f32⟩
  | .local _ .vmem, ⟨7, _⟩ => ⟨S1x8x128, .f32⟩
  | .local _ .vmem, ⟨8, _⟩ => ⟨S1x8x128, .f32⟩
  | .local _ .vmem, ⟨9, _⟩ => ⟨S1x8x128, .f32⟩
  | .local _ .vmem, ⟨10, _⟩ => ⟨S1x1x1024x1024, .f32⟩
  | .local _ .vmem, ⟨11, _⟩ => ⟨S1x1x1024x1024, .f32⟩
  | .local _ .vmem, ⟨12, _⟩ => ⟨S1x8x128, .f32⟩
  | .local _ .vmem, ⟨13, _⟩ => ⟨S1x8x128, .f32⟩
  | .local _ .vmem, ⟨14, _⟩ => ⟨S1x8x128, .f32⟩
  | .local _ .vmem, ⟨15, _⟩ => ⟨S1x8x128, .f32⟩
  | .local _ .vmem, ⟨16, _⟩ => ⟨S1x8x128, .f32⟩
  | .local _ .vmem, ⟨17, _⟩ => ⟨S1x8x128, .f32⟩
  | .local _ .vmem, ⟨18, _⟩ => ⟨S1x8x128, .f32⟩
  | .local _ .vmem, ⟨19, _⟩ => ⟨S1x8x128, .f32⟩
  | _, _ => ⟨S8x8x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev main_v0_3 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_0 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_1 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_4 : Ref sig .tc := ⟨.hbm, 36, rfl⟩
abbrev main_v26 : Ref sig .tc := ⟨.hbm, 37, rfl⟩
abbrev main_v27 : Ref sig .tc := ⟨.hbm, 38, rfl⟩
abbrev main_cst_5 : Ref sig .tc := ⟨.hbm, 39, rfl⟩
abbrev main_v28 : Ref sig .tc := ⟨.hbm, 40, rfl⟩
abbrev main_v29_0 : Ref sig .tc := ⟨.hbm, 41, rfl⟩
abbrev main_v29_1 : Ref sig .tc := ⟨.hbm, 42, rfl⟩
abbrev main_v29_2 : Ref sig .tc := ⟨.hbm, 43, rfl⟩
abbrev main_v29_3 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_cst_6 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_7 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_cst_8 : Ref sig .tc := ⟨.hbm, 61, rfl⟩
abbrev main_v44 : Ref sig .tc := ⟨.hbm, 62, rfl⟩
abbrev main_v45 : Ref sig .tc := ⟨.hbm, 63, rfl⟩
abbrev main_cst_9 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_cst_10 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_cst_11 : Ref sig .tc := ⟨.hbm, 75, rfl⟩
abbrev main_v55 : Ref sig .tc := ⟨.hbm, 76, rfl⟩
abbrev main_v56 : Ref sig .tc := ⟨.hbm, 77, rfl⟩
abbrev main_cst_12 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc1_stg4_0 : Ref sig .tc := ⟨.vmem, 18, rfl⟩
abbrev cc1_stg4_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc1_sem4_0 : DmaSem sig := 18
abbrev cc1_sem4_1 : DmaSem sig := 19

abbrev nD : Nat := 1
abbrev τ : Topo := Topo.v7x

variable {F : FTy → Type} [FloatOps F]

abbrev grid0 : Pipeline.Grid := ⟨2, ![8, 8], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let arg1 : BitVec 32 := BitVec.ofNat 32 (i 1).val
  let v30 : BitVec 1 := Scalar.cmpi .eq arg0 arg1
  let v31 : BitVec 32 := Scalar.extui v30
  let c0_i32_19 : BitVec 32 := 0#32
  let v32 : BitVec 1 := Scalar.cmpi .ne v31 c0_i32_19
  v32

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev grid1 : Pipeline.Grid := ⟨2, ![8, 8], ![false, false]⟩

def k1_cond1 (i : grid1.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k1_cond2 (i : grid1.Coords) : BitVec 1 :=
  let arg0 : BitVec 32 := BitVec.ofNat 32 (i 0).val
  let arg1 : BitVec 32 := BitVec.ofNat 32 (i 1).val
  let v30 : BitVec 1 := Scalar.cmpi .eq arg0 arg1
  let v31 : BitVec 32 := Scalar.extui v30
  let c0_i32_19 : BitVec 32 := 0#32
  let v32 : BitVec 1 := Scalar.cmpi .ne v31 c0_i32_19
  v32

def cc1_transform_0 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x1x1024x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x8x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x8x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x8x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S1x8x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

class Facts₀ : Prop where
  inb_S1x8x128_S1x8x128_0_0_0 : ∀ a, (![0, 0, 0] : Fin 3 → Nat) a + S1x8x128.size a ≤ S1x8x128.size a
  h_S1x8x128 : 0 < S1x8x128.numel
  shapeCasts_S1x8x128_S8x128 : S1x8x128.ShapeCasts S8x128
  shapeCasts_S8x128_S1x8x128 : S8x128.ShapeCasts S1x8x128
  inb_S1x1x1024x1024_S1x1x1024x1024_0_0_0_0 : ∀ a, (![0, 0, 0, 0] : Fin 4 → Nat) a + S1x1x1024x1024.size a ≤ S1x1x1024x1024.size a
  h_S1x1x1024x1024 : 0 < S1x1x1024x1024.numel
  shapeCasts_S1x1x1024x1024_S1024x1024 : S1x1x1024x1024.ShapeCasts S1024x1024
  reduces_S1024x1024_S1024 : S1024x1024.Reduces [1] S1024
  shapeCasts_S1024_S1024x1 : S1024.ShapeCasts S1024x1
  reduces_S1024x1_S1 : S1024x1.Reduces [0] S1
  shapeCasts_S1_S1x1 : S1.ShapeCasts S1x1
  shapeCasts_S1x1_S1x1 : S1x1.ShapeCasts S1x1
  broadcasts_S1x1_S8x128 : S1x1.Broadcasts S8x128
  slices_S8x8x128_S8x1x1_0_0_0 : S8x8x128.Slices ![0, 0, 0] S8x1x1
  shapeCasts_S8x1x1_S8 : S8x1x1.ShapeCasts S8
  bcast_S_S8 : S_.BroadcastsInDim S8 (![] : Fin 0 → Fin S8.rank)
  reducesTo_S8_S_d0 : S8.ReducesTo [0] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x1024x1024.size a ≤ S8x8x1024x1024.size a
  hwx0_0 : ∀ i : grid0.Coords, EltTy.bits .f32 = 32 ∨ (Rect.block (s := S8x8x1024x1024) S1x1x1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x8x128.size a ≤ S8x8x128.size a
  hwx0_1 : ∀ i : grid0.Coords, EltTy.bits .f32 = 32 ∨ (Rect.block (s := S8x8x128) S1x8x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x8x128.size a ≤ S8x8x128.size a
  hwx0_2 : ∀ i : grid0.Coords, EltTy.bits .f32 = 32 ∨ (Rect.block (s := S8x8x128) S1x8x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x8x128.size a ≤ S8x8x128.size a
  hwx0_3 : ∀ i : grid0.Coords, EltTy.bits .f32 = 32 ∨ (Rect.block (s := S8x8x128) S1x8x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x8x128.size a ≤ S8x8x128.size a
  hwx0_4 : ∀ i : grid0.Coords, EltTy.bits .f32 = 32 ∨ (Rect.block (s := S8x8x128) S1x8x128.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1x1024x1024.size a ≤ S8x8x1024x1024.size a
  hwx1_0 : ∀ i : grid1.Coords, EltTy.bits .f32 = 32 ∨ (Rect.block (s := S8x8x1024x1024) S1x1x1024x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x8x128.size a ≤ S8x8x128.size a
  hwx1_1 : ∀ i : grid1.Coords, EltTy.bits .f32 = 32 ∨ (Rect.block (s := S8x8x128) S1x8x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x8x128.size a ≤ S8x8x128.size a
  hwx1_2 : ∀ i : grid1.Coords, EltTy.bits .f32 = 32 ∨ (Rect.block (s := S8x8x128) S1x8x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x8x128.size a ≤ S8x8x128.size a
  hwx1_3 : ∀ i : grid1.Coords, EltTy.bits .f32 = 32 ∨ (Rect.block (s := S8x8x128) S1x8x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x8x128.size a ≤ S8x8x128.size a
  hwx1_4 : ∀ i : grid1.Coords, EltTy.bits .f32 = 32 ∨ (Rect.block (s := S8x8x128) S1x8x128.size (cc1_transform_4 i) (hinb1_4 i)).WholeWords (EltTy.packing .f32)

variable [Facts₀]

abbrev win0_0 : Pipeline.Window sig grid0 :=
  Pipeline.Window.ofSpec (Memref.whole main_arg0) S1x1x1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0_0) S1x8x128.size cc0_transform_1 reads0_1 true false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_1) S1x8x128.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_2) S1x8x128.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_3) S1x8x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun i => !(k0_cond1 i == 1#1) && !(k0_cond2 i == 1#1) | 4 => fun i => !(k0_cond1 i == 1#1) && !(k0_cond2 i == 1#1) | ⟨_ + 5, h⟩ => absurd h (Nat.not_lt.2 (Nat.le_add_left _ _))

abbrev win1_0 : Pipeline.Window sig grid1 :=
  Pipeline.Window.ofSpec (Memref.whole main_arg1) S1x1x1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v29_0) S1x8x128.size cc1_transform_1 reads1_1 true false 2 stage1_1 sem1_1
    hrank1 hreads1_1 hinb1_1 nbuf1_1 (Memref.isWhole_whole _) hwx1_1 hstage1_1

abbrev win1_2 : Pipeline.Window sig grid1 :=
  Pipeline.Window.ofSpec (Memref.whole main_v29_1) S1x8x128.size cc1_transform_2 reads1_2 true false 2 stage1_2 sem1_2
    hrank1 hreads1_2 hinb1_2 nbuf1_2 (Memref.isWhole_whole _) hwx1_2 hstage1_2

abbrev win1_3 : Pipeline.Window sig grid1 :=
  Pipeline.Window.ofSpec (Memref.whole main_v29_2) S1x8x128.size cc1_transform_3 reads1_3 true false 2 stage1_3 sem1_3
    hrank1 hreads1_3 hinb1_3 nbuf1_3 (Memref.isWhole_whole _) hwx1_3 hstage1_3

abbrev win1_4 : Pipeline.Window sig grid1 :=
  Pipeline.Window.ofSpec (Memref.whole main_v29_3) S1x8x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev idle1 : Fin 5 → grid1.Coords → Bool := fun | 0 => fun _ => false | 1 => fun _ => false | 2 => fun _ => false | 3 => fun i => !(k1_cond1 i == 1#1) && !(k1_cond2 i == 1#1) | 4 => fun i => !(k1_cond1 i == 1#1) && !(k1_cond2 i == 1#1) | ⟨_ + 5, h⟩ => absurd h (Nat.not_lt.2 (Nat.le_add_left _ _))

class Facts : Prop extends Facts₀ where

variable [Facts]
-- ==== ReferenceIdeal.lean ====
abbrev S8x8x1024x1024 : Shape := ⟨4, ![8, 8, 1024, 1024]⟩
abbrev S_ : Shape := ⟨0, ![]⟩
abbrev S8 : Shape := ⟨1, ![8]⟩
abbrev S8x1x1x1 : Shape := ⟨4, ![8, 1, 1, 1]⟩
abbrev S8x1 : Shape := ⟨2, ![8, 1]⟩
abbrev S8x2 : Shape := ⟨2, ![8, 2]⟩
abbrev S8x1024x1024 : Shape := ⟨3, ![8, 1024, 1024]⟩
abbrev S8x1x1 : Shape := ⟨3, ![8, 1, 1]⟩

abbrev nBuf : Space → Nat
  | .hbm => 128
  | .vmem => 0
  | .smem => 0
  | _ => 0

abbrev bufTy : (tb : Table) → Fin (tcTables nBuf tb) → BufTy
  | .hbm, ⟨0, _⟩ => ⟨S8x8x1024x1024, .f32⟩
  | .hbm, ⟨1, _⟩ => ⟨S8x8x1024x1024, .f32⟩
  | .hbm, ⟨2, _⟩ => ⟨S_, .f32⟩
  | .hbm, ⟨3, _⟩ => ⟨S8, .f32⟩
  | .hbm, ⟨4, _⟩ => ⟨S_, .f32⟩
  | .hbm, ⟨5, _⟩ => ⟨S8, .f32⟩
  | .hbm, ⟨6, _⟩ => ⟨S8, .f32⟩
  | .hbm, ⟨7, _⟩ => ⟨S_, .i32⟩
  | .hbm, ⟨8, _⟩ => ⟨S_, .f32⟩
  | .hbm, ⟨9, _⟩ => ⟨S8, .f32⟩
  | .hbm, ⟨10, _⟩ => ⟨S8x1x1x1, .f32⟩
  | .hbm, ⟨11, _⟩ => ⟨S_, .f32⟩
  | .hbm, ⟨12, _⟩ => ⟨S8x1x1x1, .f32⟩
  | .hbm, ⟨13, _⟩ => ⟨S8x1x1x1, .f32⟩
  | .hbm, ⟨14, _⟩ => ⟨S8x8x1024x1024, .f32⟩
  | .hbm, ⟨15, _⟩ => ⟨S8x8x1024x1024, .f32⟩
  | .hbm, ⟨16, _⟩ => ⟨S8x8x1024x1024, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S8, .f32⟩
  | .hbm, ⟨22, _⟩ => ⟨S8, .f32⟩
  | .hbm, ⟨23, _⟩ => ⟨S8, .f32⟩
  | .hbm, ⟨24, _⟩ => ⟨S_, .f32⟩
  | .hbm, ⟨25, _⟩ => ⟨S_, .i1⟩
  | .hbm, ⟨26, _⟩ => ⟨S_, .f32⟩
  | .hbm, ⟨27, _⟩ => ⟨S_, .f32⟩
  | .hbm, ⟨28, _⟩ => ⟨S8, .f32⟩
  | .hbm, ⟨29, _⟩ => ⟨S8, .f32⟩
  | .hbm, ⟨30, _⟩ => ⟨S8, .f32⟩
  | .hbm, ⟨31, _⟩ => ⟨S8, .i32⟩
  | .hbm, ⟨32, _⟩ => ⟨S_, .i32⟩
  | .hbm, ⟨33, _⟩ => ⟨S8, .i32⟩
  | .hbm, ⟨34, _⟩ => ⟨S8, .i1⟩
  | .hbm, ⟨35, _⟩ => ⟨S_, .i32⟩
  | .hbm, ⟨36, _⟩ => ⟨S8, .i32⟩
  | .hbm, ⟨37, _⟩ => ⟨S8, .i32⟩
  | .hbm, ⟨38, _⟩ => ⟨S8, .i32⟩
  | .hbm, ⟨39, _⟩ => ⟨S_, .i32⟩
  | .hbm, ⟨40, _⟩ => ⟨S8, .i32⟩
  | .hbm, ⟨41, _⟩ => ⟨S8, .i1⟩
  | .hbm, ⟨42, _⟩ => ⟨S_, .i32⟩
  | .hbm, ⟨43, _⟩ => ⟨S8, .i32⟩
  | .hbm, ⟨44, _⟩ => ⟨S8, .i32⟩
  | .hbm, ⟨45, _⟩ => ⟨S8, .i32⟩
  | .hbm, ⟨46, _⟩ => ⟨S8x1, .i32⟩
  | .hbm, ⟨47, _⟩ => ⟨S8x1, .i32⟩
  | .hbm, ⟨48, _⟩ => ⟨S8x2, .i32⟩
  | .hbm, ⟨49, _⟩ => ⟨S8x1024x1024, .f32⟩
  | .hbm, ⟨50, _⟩ => ⟨S8x1x1, .f32⟩
  | .hbm, ⟨51, _⟩ => ⟨S8x1024x1024, .f32⟩
  | .hbm, ⟨52, _⟩ => ⟨S8x1024x1024, .f32⟩
  | .hbm, ⟨53, _⟩ => ⟨S8x1x1, .f32⟩
  | .hbm, ⟨54, _⟩ => ⟨S8x1024x1024, .f32⟩
  | .hbm, ⟨55, _⟩ => ⟨S8x1024x1024, .f32⟩
  | .hbm, ⟨56, _⟩ => ⟨S8x1024x1024, .f32⟩
  | .hbm, ⟨57, _⟩ => ⟨S_, .f32⟩
  | .hbm, ⟨58, _⟩ => ⟨S8, .f32⟩
  | .hbm, ⟨59, _⟩ => ⟨S_, .f32⟩
  | .hbm, ⟨60, _⟩ => ⟨S8, .f32⟩
  | .hbm, ⟨61, _⟩ => ⟨S8, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S8, .f32⟩
  | .hbm, ⟨66, _⟩ => ⟨S_, .f32⟩
  | .hbm, ⟨67, _⟩ => ⟨S8, .f32⟩
  | .hbm, ⟨68, _⟩ => ⟨S8, .f32⟩
  | .hbm, ⟨69, _⟩ => ⟨S_, .i32⟩
  | .hbm, ⟨70, _⟩ => ⟨S_, .f32⟩
  | .hbm, ⟨71, _⟩ => ⟨S8, .f32⟩
  | .hbm, ⟨72, _⟩ => ⟨S8x1x1x1, .f32⟩
  | .hbm, ⟨73, _⟩ => ⟨S_, .f32⟩
  | .hbm, ⟨74, _⟩ => ⟨S8x1x1x1, .f32⟩
  | .hbm, ⟨75, _⟩ => ⟨S8x1x1x1, .f32⟩
  | .hbm, ⟨76, _⟩ => ⟨S8x8x1024x1024, .f32⟩
  | .hbm, ⟨77, _⟩ => ⟨S8x8x1024x1024, .f32⟩
  | .hbm, ⟨78, _⟩ => ⟨S8x8x1024x1024, .f32⟩
  | .hbm, ⟨79, _⟩ => ⟨S_, .f32⟩
  | .hbm, ⟨80, _⟩ => ⟨S_, .f32⟩
  | .hbm, ⟨81, _⟩ => ⟨S_, .f32⟩
  | .hbm, ⟨82, _⟩ => ⟨S_, .f32⟩
  | .hbm, ⟨83, _⟩ => ⟨S8, .f32⟩
  | .hbm, ⟨84, _⟩ => ⟨S8, .f32⟩
  | .hbm, ⟨85, _⟩ => ⟨S8, .f32⟩
  | .hbm, ⟨86, _⟩ => ⟨S_, .f32⟩
  | .hbm, ⟨87, _⟩ => ⟨S_, .i1⟩
  | .hbm, ⟨88, _⟩ => ⟨S_, .f32⟩
  | .hbm, ⟨89, _⟩ => ⟨S_, .f32⟩
  | .hbm, ⟨90, _⟩ => ⟨S8, .f32⟩
  | .hbm, ⟨91, _⟩ => ⟨S8, .f32⟩
  | .hbm, ⟨92, _⟩ => ⟨S8, .f32⟩
  | .hbm, ⟨93, _⟩ => ⟨S8, .i32⟩
  | .hbm, ⟨94, _⟩ => ⟨S_, .i32⟩
  | .hbm, ⟨95, _⟩ => ⟨S8, .i32⟩
  | .hbm, ⟨96, _⟩ => ⟨S8, .i1⟩
  | .hbm, ⟨97, _⟩ => ⟨S_, .i32⟩
  | .hbm, ⟨98, _⟩ => ⟨S8, .i32⟩
  | .hbm, ⟨99, _⟩ => ⟨S8, .i32⟩
  | .hbm, ⟨100, _⟩ => ⟨S8, .i32⟩
  | .hbm, ⟨101, _⟩ => ⟨S_, .i32⟩
  | .hbm, ⟨102, _⟩ => ⟨S8, .i32⟩
  | .hbm, ⟨103, _⟩ => ⟨S8, .i1⟩
  | .hbm, ⟨104, _⟩ => ⟨S_, .i32⟩
  | .hbm, ⟨105, _⟩ => ⟨S8, .i32⟩
  | .hbm, ⟨106, _⟩ => ⟨S8, .i32⟩
  | .hbm, ⟨107, _⟩ => ⟨S8, .i32⟩
  | .hbm, ⟨108, _⟩ => ⟨S8x1, .i32⟩
  | .hbm, ⟨109, _⟩ => ⟨S8x1, .i32⟩
  | .hbm, ⟨110, _⟩ => ⟨S8x2, .i32⟩
  | .hbm, ⟨111, _⟩ => ⟨S8x1024x1024, .f32⟩
  | .hbm, ⟨112, _⟩ => ⟨S8x1x1, .f32⟩
  | .hbm, ⟨113, _⟩ => ⟨S8x1024x1024, .f32⟩
  | .hbm, ⟨114, _⟩ => ⟨S8x1024x1024, .f32⟩
  | .hbm, ⟨115, _⟩ => ⟨S8x1x1, .f32⟩
  | .hbm, ⟨116, _⟩ => ⟨S8x1024x1024, .f32⟩
  | .hbm, ⟨117, _⟩ => ⟨S8x1024x1024, .f32⟩
  | .hbm, ⟨118, _⟩ => ⟨S8x1024x1024, .f32⟩
  | .hbm, ⟨119, _⟩ => ⟨S_, .f32⟩
  | .hbm, ⟨120, _⟩ => ⟨S8, .f32⟩
  | .hbm, ⟨121, _⟩ => ⟨S_, .f32⟩
  | .hbm, ⟨122, _⟩ => ⟨S8, .f32⟩
  | .hbm, ⟨123, _⟩ => ⟨S8, .f32⟩
  | .hbm, ⟨124, _⟩ => ⟨S_, .f32⟩
  | .hbm, ⟨125, _⟩ => ⟨S_, .f32⟩
  | .hbm, ⟨126, _⟩ => ⟨S_, .f32⟩
  | .hbm, ⟨127, _⟩ => ⟨S_, .f32⟩
  | _, _ => ⟨S8x8x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_c : Ref sig .tc := ⟨.hbm, 7, rfl⟩
abbrev main_call0_cst : Ref sig .tc := ⟨.hbm, 8, rfl⟩
abbrev main_call0_v0 : Ref sig .tc := ⟨.hbm, 9, rfl⟩
abbrev main_call0_v1 : Ref sig .tc := ⟨.hbm, 10, rfl⟩
abbrev main_call0_cst_0 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_v6 : Ref sig .tc := ⟨.hbm, 16, rfl⟩
abbrev main_call0_v7 : Ref sig .tc := ⟨.hbm, 17, rfl⟩
abbrev main_call0_cst_1 : Ref sig .tc := ⟨.hbm, 18, rfl⟩
abbrev main_call0_v8 : Ref sig .tc := ⟨.hbm, 19, rfl⟩
abbrev main_call0_cst_2 : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_cst_3 : Ref sig .tc := ⟨.hbm, 24, rfl⟩
abbrev main_call0_v12 : Ref sig .tc := ⟨.hbm, 25, rfl⟩
abbrev main_call0_cst_4 : Ref sig .tc := ⟨.hbm, 26, rfl⟩
abbrev main_call0_call0_v0 : Ref sig .tc := ⟨.hbm, 27, rfl⟩
abbrev main_call0_call0_v1 : Ref sig .tc := ⟨.hbm, 28, rfl⟩
abbrev main_v3 : Ref sig .tc := ⟨.hbm, 29, rfl⟩
abbrev main_v4 : Ref sig .tc := ⟨.hbm, 30, rfl⟩
abbrev main_v5 : Ref sig .tc := ⟨.hbm, 31, rfl⟩
abbrev main_c_1 : Ref sig .tc := ⟨.hbm, 32, rfl⟩
abbrev main_v6 : Ref sig .tc := ⟨.hbm, 33, rfl⟩
abbrev main_v7 : Ref sig .tc := ⟨.hbm, 34, rfl⟩
abbrev main_c_2 : Ref sig .tc := ⟨.hbm, 35, rfl⟩
abbrev main_v8 : Ref sig .tc := ⟨.hbm, 36, rfl⟩
abbrev main_v9 : Ref sig .tc := ⟨.hbm, 37, rfl⟩
abbrev main_v10 : Ref sig .tc := ⟨.hbm, 38, rfl⟩
abbrev main_c_3 : Ref sig .tc := ⟨.hbm, 39, rfl⟩
abbrev main_v11 : Ref sig .tc := ⟨.hbm, 40, rfl⟩
abbrev main_v12 : Ref sig .tc := ⟨.hbm, 41, rfl⟩
abbrev main_c_4 : Ref sig .tc := ⟨.hbm, 42, rfl⟩
abbrev main_v13 : Ref sig .tc := ⟨.hbm, 43, rfl⟩
abbrev main_v14 : Ref sig .tc := ⟨.hbm, 44, rfl⟩
abbrev main_v15 : Ref sig .tc := ⟨.hbm, 45, rfl⟩
abbrev main_v16 : Ref sig .tc := ⟨.hbm, 46, rfl⟩
abbrev main_v17 : Ref sig .tc := ⟨.hbm, 47, rfl⟩
abbrev main_v18 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_cst_5 : Ref sig .tc := ⟨.hbm, 57, rfl⟩
abbrev main_v27 : Ref sig .tc := ⟨.hbm, 58, rfl⟩
abbrev main_cst_6 : Ref sig .tc := ⟨.hbm, 59, rfl⟩
abbrev main_v28 : Ref sig .tc := ⟨.hbm, 60, rfl⟩
abbrev main_v29 : Ref sig .tc := ⟨.hbm, 61, rfl⟩
abbrev main_cst_7 : Ref sig .tc := ⟨.hbm, 62, rfl⟩
abbrev main_v30 : Ref sig .tc := ⟨.hbm, 63, rfl⟩
abbrev main_cst_8 : Ref sig .tc := ⟨.hbm, 64, rfl⟩
abbrev main_v31 : Ref sig .tc := ⟨.hbm, 65, rfl⟩
abbrev main_cst_9 : Ref sig .tc := ⟨.hbm, 66, rfl⟩
abbrev main_v32 : Ref sig .tc := ⟨.hbm, 67, rfl⟩
abbrev main_v33 : Ref sig .tc := ⟨.hbm, 68, rfl⟩
abbrev main_c_10 : Ref sig .tc := ⟨.hbm, 69, rfl⟩
abbrev main_call1_cst : Ref sig .tc := ⟨.hbm, 70, rfl⟩
abbrev main_call1_v0 : Ref sig .tc := ⟨.hbm, 71, rfl⟩
abbrev main_call1_v1 : Ref sig .tc := ⟨.hbm, 72, rfl⟩
abbrev main_call1_cst_0 : Ref sig .tc := ⟨.hbm, 73, rfl⟩
abbrev main_call1_v2 : Ref sig .tc := ⟨.hbm, 74, rfl⟩
abbrev main_call1_v3 : Ref sig .tc := ⟨.hbm, 75, rfl⟩
abbrev main_call1_v4 : Ref sig .tc := ⟨.hbm, 76, rfl⟩
abbrev main_call1_v5 : Ref sig .tc := ⟨.hbm, 77, rfl⟩
abbrev main_call1_v6 : Ref sig .tc := ⟨.hbm, 78, rfl⟩
abbrev main_call1_v7 : Ref sig .tc := ⟨.hbm, 79, rfl⟩
abbrev main_call1_cst_1 : Ref sig .tc := ⟨.hbm, 80, rfl⟩
abbrev main_call1_v8 : Ref sig .tc := ⟨.hbm, 81, rfl⟩
abbrev main_call1_cst_2 : Ref sig .tc := ⟨.hbm, 82, rfl⟩
abbrev main_call1_v9 : Ref sig .tc := ⟨.hbm, 83, rfl⟩
abbrev main_call1_v10 : Ref sig .tc := ⟨.hbm, 84, rfl⟩
abbrev main_call1_v11 : Ref sig .tc := ⟨.hbm, 85, rfl⟩
abbrev main_call1_cst_3 : Ref sig .tc := ⟨.hbm, 86, rfl⟩
abbrev main_call1_v12 : Ref sig .tc := ⟨.hbm, 87, rfl⟩
abbrev main_call1_cst_4 : Ref sig .tc := ⟨.hbm, 88, rfl⟩
abbrev main_call1_call0_v0 : Ref sig .tc := ⟨.hbm, 89, rfl⟩
abbrev main_call1_call0_v1 : Ref sig .tc := ⟨.hbm, 90, rfl⟩
abbrev main_v34 : Ref sig .tc := ⟨.hbm, 91, rfl⟩
abbrev main_v35 : Ref sig .tc := ⟨.hbm, 92, rfl⟩
abbrev main_v36 : Ref sig .tc := ⟨.hbm, 93, rfl⟩
abbrev main_c_11 : Ref sig .tc := ⟨.hbm, 94, rfl⟩
abbrev main_v37 : Ref sig .tc := ⟨.hbm, 95, rfl⟩
abbrev main_v38 : Ref sig .tc := ⟨.hbm, 96, rfl⟩
abbrev main_c_12 : Ref sig .tc := ⟨.hbm, 97, rfl⟩
abbrev main_v39 : Ref sig .tc := ⟨.hbm, 98, rfl⟩
abbrev main_v40 : Ref sig .tc := ⟨.hbm, 99, rfl⟩
abbrev main_v41 : Ref sig .tc := ⟨.hbm, 100, rfl⟩
abbrev main_c_13 : Ref sig .tc := ⟨.hbm, 101, rfl⟩
abbrev main_v42 : Ref sig .tc := ⟨.hbm, 102, rfl⟩
abbrev main_v43 : Ref sig .tc := ⟨.hbm, 103, rfl⟩
abbrev main_c_14 : Ref sig .tc := ⟨.hbm, 104, rfl⟩
abbrev main_v44 : Ref sig .tc := ⟨.hbm, 105, rfl⟩
abbrev main_v45 : Ref sig .tc := ⟨.hbm, 106, rfl⟩
abbrev main_v46 : Ref sig .tc := ⟨.hbm, 107, rfl⟩
abbrev main_v47 : Ref sig .tc := ⟨.hbm, 108, rfl⟩
abbrev main_v48 : Ref sig .tc := ⟨.hbm, 109, rfl⟩
abbrev main_v49 : Ref sig .tc := ⟨.hbm, 110, rfl⟩
abbrev main_v50 : Ref sig .tc := ⟨.hbm, 111, rfl⟩
abbrev main_v51 : Ref sig .tc := ⟨.hbm, 112, rfl⟩
abbrev main_v52 : Ref sig .tc := ⟨.hbm, 113, rfl⟩
abbrev main_v53 : Ref sig .tc := ⟨.hbm, 114, rfl⟩
abbrev main_v54 : Ref sig .tc := ⟨.hbm, 115, rfl⟩
abbrev main_v55 : Ref sig .tc := ⟨.hbm, 116, rfl⟩
abbrev main_v56 : Ref sig .tc := ⟨.hbm, 117, rfl⟩
abbrev main_v57 : Ref sig .tc := ⟨.hbm, 118, rfl⟩
abbrev main_cst_15 : Ref sig .tc := ⟨.hbm, 119, rfl⟩
abbrev main_v58 : Ref sig .tc := ⟨.hbm, 120, rfl⟩
abbrev main_cst_16 : Ref sig .tc := ⟨.hbm, 121, rfl⟩
abbrev main_v59 : Ref sig .tc := ⟨.hbm, 122, rfl⟩
abbrev main_v60 : Ref sig .tc := ⟨.hbm, 123, rfl⟩
abbrev main_cst_17 : Ref sig .tc := ⟨.hbm, 124, rfl⟩
abbrev main_v61 : Ref sig .tc := ⟨.hbm, 125, rfl⟩
abbrev main_v62 : Ref sig .tc := ⟨.hbm, 126, rfl⟩
abbrev main_v63 : Ref sig .tc := ⟨.hbm, 127, rfl⟩

abbrev nD : Nat := 1
abbrev τ : Topo := Topo.v7x

variable {F : FTy → Type} [FloatOps F]

class Facts₀ : Prop where
  reducesTo_S8x8x1024x1024_S8_d1_2_3 : S8x8x1024x1024.ReducesTo [1, 2, 3] S8
  h_S_ : 0 < S_.numel
  bcast_S_S8 : S_.BroadcastsInDim S8 (![] : Fin 0 → Fin S8.rank)
  bcast_S8_S8x1x1x1_0 : S8.BroadcastsInDim S8x1x1x1 (![0] : Fin 1 → Fin S8x1x1x1.rank)
  bcast_S_S8x1x1x1 : S_.BroadcastsInDim S8x1x1x1 (![] : Fin 0 → Fin S8x1x1x1.rank)
  bcast_S8x1x1x1_S8x8x1024x1024_0_1_2_3 : S8x1x1x1.BroadcastsInDim S8x8x1024x1024 (![0, 1, 2, 3] : Fin 4 → Fin S8x8x1024x1024.rank)
  bcast_S8_S8x1_0 : S8.BroadcastsInDim S8x1 (![0] : Fin 1 → Fin S8x1.rank)
  concatenates_S8x1_S8x1_S8x2_d1 : Shape.Concatenates [S8x1, S8x1] S8x2 1
  bcast_S8_S8x1x1_0 : S8.BroadcastsInDim S8x1x1 (![0] : Fin 1 → Fin S8x1x1.rank)
  bcast_S8x1x1_S8x1024x1024_0_1_2 : S8x1x1.BroadcastsInDim S8x1024x1024 (![0, 1, 2] : Fin 3 → Fin S8x1024x1024.rank)
  reducesTo_S8x1024x1024_S8_d1_2 : S8x1024x1024.ReducesTo [1, 2] S8
  reducesTo_S8_S_d0 : S8.ReducesTo [0] S_
  gather_S8x8x1024x1024_S8x2_S8x1024x1024_12_01_n_n_01_1_1110241024_wf : GatherDims.WF S8x8x1024x1024 S8x2 S8x1024x1024 [1, 2] [0, 1] [] [0, 1] [] 1 ![1, 1, 1024, 1024]

variable [Facts₀]

def gather_S8x8x1024x1024_S8x2_S8x1024x1024_12_01_n_n_01_1_1110241024 : GatherDims S8x8x1024x1024 S8x2 S8x1024x1024 where
  offsetDims := [1, 2]
  collapsedSliceDims := [0, 1]
  operandBatchingDims := []
  startIndicesBatchingDims := []
  startIndexMap := [0, 1]
  indexVectorDim := 1
  sliceSizes := ![1, 1, 1024, 1024]
  wf := gather_S8x8x1024x1024_S8x2_S8x1024x1024_12_01_n_n_01_1_1110241024_wf

class Facts : Prop extends Facts₀ where

variable [Facts]
-- ==== Proof.KB.Runs0.lean ====
/-
  The body of pallas_call 0 run case by case on whole staging buffers: what each of the four accumulators holds
  after the body, as a function of the input block and of what the accumulator held before.
-/
import proofs.«160249_j59768764891231_2_alg».proof.Proof.Gen.Kernel.Launch
import proofs.«160249_j59768764891231_2_alg».proof.Proof.Gen.Kernel.Skeleton
import proofs.«160249_j59768764891231_2_alg».proof.Proof.Gen.Kernel.Points
import Idealize.ShloMosaic.Lib.Pipeline.Value
import Idealize.ShloMosaic.Lib.Pipeline.FrameBody
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Whole-buffer accesses

Every access of the body is through the rectangle that is the whole staging buffer, at zero offsets: a load reads the
buffer's contents, and the last store's payload is what the buffer holds. -/

theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- The last store through the whole-buffer rectangle decides what the buffer reads back. -/
theorem read_writes_whole {sig : RefSig} {κ : Kind} {sp : Space} {S : Shape} {e : EltTy} {Val : EltTy → Type} [∀ e, Nonempty (Val e)]
    (v : View sig κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  rw [View.read_writes_eq_canon _ _ _ (fun y => ⟨_, List.mem_cons_self, View.mem_set_unit_zero h inb y⟩), View.canon_cons_unit_zero h]

/-! ## The body, case by case

The body has two conditionals on the grid point (b, c): "c = 0" (zero the four accumulators) and "b = c" (also add
this block's sums to the two diagonal accumulators). Every store is of a whole buffer, so after the body each
accumulator holds its last store's payload, as a function of the input block `x0` and of what the accumulator held
(`a·`) where the body reads it before storing. -/

set_option maxHeartbeats 4000000 in
/-- c = 0 and b = c: all four accumulators are zeroed, then all four take this block's sums. -/
theorem run0_A (c : Dev nD) (i : grid0.Coords) (arg2 : Memref sig .tc .vmem S1x1x1024x1024 .f32) (harg2 : arg2.IsWhole)
    (arg3 : Memref sig .tc .vmem S1x8x128 .f32) (harg3 : arg3.IsWhole) (arg4 : Memref sig .tc .vmem S1x8x128 .f32) (harg4 : arg4.IsWhole)
    (arg5 : Memref sig .tc .vmem S1x8x128 .f32) (harg5 : arg5.IsWhole) (arg6 : Memref sig .tc .vmem S1x8x128 .f32) (harg6 : arg6.IsWhole)
    (hc1 : k0_cond1 i = 1#1) (hc2 : k0_cond2 i = 1#1)
    (x0 : Vec F S1x1x1024x1024 .f32) (E : Set ℕ) (K : PUnit → sProp 𝕄) :
    iprop(owns (c : Thread nD τ) arg2 fullShare x0 ∗ (∃ d, owns (c : Thread nD τ) arg3 fullShare d) ∗ (∃ d, owns (c : Thread nD τ) arg4 fullShare d)
        ∗ (∃ d, owns (c : Thread nD τ) arg5 fullShare d) ∗ (∃ d, owns (c : Thread nD τ) arg6 fullShare d)
        ∗ (iprop(owns (c : Thread nD τ) arg2 fullShare x0 ∗ owns (c : Thread nD τ) arg3 fullShare (k0_pay10 x0 k0_pay3) ∗ owns (c : Thread nD τ) arg4 fullShare (k0_pay11 x0 k0_pay4)
            ∗ owns (c : Thread nD τ) arg5 fullShare (k0_pay1 (k0_pay8 x0) k0_pay5) ∗ owns (c : Thread nD τ) arg6 fullShare (k0_pay2 (k0_pay9 x0) k0_pay6)) -∗ K ⟨⟩))
      ⊢ wp frame (wpE (defs₀ (F := F)) Variants.none c none) E (cc0__stats_kernel i arg2 harg2 arg3 harg3 arg4 harg4 arg5 harg5 arg6 harg6) K := by
  simp only [cc0__stats_kernel_eq_skeleton]; unfold cc0__stats_kernel_skel
  simp only [k0_part1_eq_skeleton]; unfold k0_part1_skel
  unfold owns
  iintro ⟨⟨%f0, %hf0, H0⟩, ⟨%d1, %f1, -, H1⟩, ⟨%d2, %f2, -, H2⟩, ⟨%d3, %f3, -, H3⟩, ⟨%d4, %f4, -, H4⟩, Hk⟩
  obtain rfl := harg2.eq_unread hf0
  sl_exec (disch := first | exact hc1 | exact hc2)
  sl_step
  iapply Hk
  isplitl [H0]
  · iexists _; isplitr; · ipureintro; exact harg2.read_unread _
    iexact H0
  isplitl [H1]
  · iexists _; isplitr; swap; · iexact H1
    ipureintro; sl_unfold_words; simp only [read_writes_whole (S := S1x8x128) _ _ hz3, View.readAt_eq_ld, harg2.read_unread, View.ld_unit_zero (S := S1x1x1024x1024) hz4, View.ld_unit_zero (S := S1x8x128) hz3, View.readCov_unit_zero (S := S1x8x128) _ hz3]
  isplitl [H2]
  · iexists _; isplitr; swap; · iexact H2
    ipureintro; sl_unfold_words; simp only [read_writes_whole (S := S1x8x128) _ _ hz3, View.readAt_eq_ld, harg2.read_unread, View.ld_unit_zero (S := S1x1x1024x1024) hz4, View.ld_unit_zero (S := S1x8x128) hz3, View.readCov_unit_zero (S := S1x8x128) _ hz3]
  isplitl [H3]
  · iexists _; isplitr; swap; · iexact H3
    ipureintro; sl_unfold_words; simp only [read_writes_whole (S := S1x8x128) _ _ hz3, View.readAt_eq_ld, harg2.read_unread, View.ld_unit_zero (S := S1x1x1024x1024) hz4, View.ld_unit_zero (S := S1x8x128) hz3, View.readCov_unit_zero (S := S1x8x128) _ hz3]
  iexists _; isplitr; swap; · iexact H4
  ipureintro; sl_unfold_words; simp only [read_writes_whole (S := S1x8x128) _ _ hz3, View.readAt_eq_ld, harg2.read_unread, View.ld_unit_zero (S := S1x1x1024x1024) hz4, View.ld_unit_zero (S := S1x8x128) hz3, View.readCov_unit_zero (S := S1x8x128) _ hz3]

set_option maxHeartbeats 4000000 in
/-- c = 0 and b ≠ c: all four accumulators are zeroed, the two whole-item ones take this block's sums. -/
theorem run0_B (c : Dev nD) (i : grid0.Coords) (arg2 : Memref sig .tc .vmem S1x1x1024x1024 .f32) (harg2 : arg2.IsWhole)
    (arg3 : Memref sig .tc .vmem S1x8x128 .f32) (harg3 : arg3.IsWhole) (arg4 : Memref sig .tc .vmem S1x8x128 .f32) (harg4 : arg4.IsWhole)
    (arg5 : Memref sig .tc .vmem S1x8x128 .f32) (harg5 : arg5.IsWhole) (arg6 : Memref sig .tc .vmem S1x8x128 .f32) (harg6 : arg6.IsWhole)
    (hc1 : k0_cond1 i = 1#1) (hc2 : ¬ k0_cond2 i = 1#1)
    (x0 : Vec F S1x1x1024x1024 .f32) (E : Set ℕ) (K : PUnit → sProp 𝕄) :
    iprop(owns (c : Thread nD τ) arg2 fullShare x0 ∗ (∃ d, owns (c : Thread nD τ) arg3 fullShare d) ∗ (∃ d, owns (c : Thread nD τ) arg4 fullShare d)
        ∗ (∃ d, owns (c : Thread nD τ) arg5 fullShare d) ∗ (∃ d, owns (c : Thread nD τ) arg6 fullShare d)
        ∗ (iprop(owns (c : Thread nD τ) arg2 fullShare x0 ∗ owns (c : Thread nD τ) arg3 fullShare (k0_pay10 x0 k0_pay3) ∗ owns (c : Thread nD τ) arg4 fullShare (k0_pay11 x0 k0_pay4)
            ∗ owns (c : Thread nD τ) arg5 fullShare (k0_pay5 (F := F)) ∗ owns (c : Thread nD τ) arg6 fullShare (k0_pay6 (F := F))) -∗ K ⟨⟩))
      ⊢ wp frame (wpE (defs₀ (F := F)) Variants.none c none) E (cc0__stats_kernel i arg2 harg2 arg3 harg3 arg4 harg4 arg5 harg5 arg6 harg6) K := by
  simp only [cc0__stats_kernel_eq_skeleton]; unfold cc0__stats_kernel_skel
  simp only [k0_part1_eq_skeleton]; unfold k0_part1_skel
  unfold owns
  iintro ⟨⟨%f0, %hf0, H0⟩, ⟨%d1, %f1, -, H1⟩, ⟨%d2, %f2, -, H2⟩, ⟨%d3, %f3, -, H3⟩, ⟨%d4, %f4, -, H4⟩, Hk⟩
  obtain rfl := harg2.eq_unread hf0
  sl_exec (disch := first | exact hc1 | exact hc2)
  sl_step
  iapply Hk
  isplitl [H0]
  · iexists _; isplitr; · ipureintro; exact harg2.read_unread _
    iexact H0
  isplitl [H1]
  · iexists _; isplitr; swap; · iexact H1
    ipureintro; sl_unfold_words; simp only [read_writes_whole (S := S1x8x128) _ _ hz3, View.readAt_eq_ld, harg2.read_unread, View.ld_unit_zero (S := S1x1x1024x1024) hz4, View.ld_unit_zero (S := S1x8x128) hz3, View.readCov_unit_zero (S := S1x8x128) _ hz3]
  isplitl [H2]
  · iexists _; isplitr; swap; · iexact H2
    ipureintro; sl_unfold_words; simp only [read_writes_whole (S := S1x8x128) _ _ hz3, View.readAt_eq_ld, harg2.read_unread, View.ld_unit_zero (S := S1x1x1024x1024) hz4, View.ld_unit_zero (S := S1x8x128) hz3, View.readCov_unit_zero (S := S1x8x128) _ hz3]
  isplitl [H3]
  · iexists _; isplitr; swap; · iexact H3
    ipureintro; sl_unfold_words; simp only [read_writes_whole (S := S1x8x128) _ _ hz3, View.readAt_eq_ld, harg2.read_unread, View.ld_unit_zero (S := S1x1x1024x1024) hz4, View.ld_unit_zero (S := S1x8x128) hz3, View.readCov_unit_zero (S := S1x8x128) _ hz3]
  iexists _; isplitr; swap; · iexact H4
  ipureintro; sl_unfold_words; simp only [read_writes_whole (S := S1x8x128) _ _ hz3, View.readAt_eq_ld, harg2.read_unread, View.ld_unit_zero (S := S1x1x1024x1024) hz4, View.ld_unit_zero (S := S1x8x128) hz3, View.readCov_unit_zero (S := S1x8x128) _ hz3]

set_option maxHeartbeats 4000000 in
/-- c ≠ 0 and b = c: all four accumulators, at `a·`, take this block's sums. -/
theorem run0_C (c : Dev nD) (i : grid0.Coords) (arg2 : Memref sig .tc .vmem S1x1x1024x1024 .f32) (harg2 : arg2.IsWhole)
    (arg3 : Memref sig .tc .vmem S1x8x128 .f32) (harg3 : arg3.IsWhole) (arg4 : Memref sig .tc .vmem S1x8x128 .f32) (harg4 : arg4.IsWhole)
    (arg5 : Memref sig .tc .vmem S1x8x128 .f32) (harg5 : arg5.IsWhole) (arg6 : Memref sig .tc .vmem S1x8x128 .f32) (harg6 : arg6.IsWhole)
    (hc1 : ¬ k0_cond1 i = 1#1) (hc2 : k0_cond2 i = 1#1)
    (x0 : Vec F S1x1x1024x1024 .f32) (a1 a2 a3 a4 : Vec F S1x8x128 .f32) (E : Set ℕ) (K : PUnit → sProp 𝕄) :
    iprop(owns (c : Thread nD τ) arg2 fullShare x0 ∗ owns (c : Thread nD τ) arg3 fullShare a1 ∗ owns (c : Thread nD τ) arg4 fullShare a2
        ∗ owns (c : Thread nD τ) arg5 fullShare a3 ∗ owns (c : Thread nD τ) arg6 fullShare a4
        ∗ (iprop(owns (c : Thread nD τ) arg2 fullShare x0 ∗ owns (c : Thread nD τ) arg3 fullShare (k0_pay10 x0 a1) ∗ owns (c : Thread nD τ) arg4 fullShare (k0_pay11 x0 a2)
            ∗ owns (c : Thread nD τ) arg5 fullShare (k0_pay1 (k0_pay8 x0) a3) ∗ owns (c : Thread nD τ) arg6 fullShare (k0_pay2 (k0_pay9 x0) a4)) -∗ K ⟨⟩))
      ⊢ wp frame (wpE (defs₀ (F := F)) Variants.none c none) E (cc0__stats_kernel i arg2 harg2 arg3 harg3 arg4 harg4 arg5 harg5 arg6 harg6) K := by
  simp only [cc0__stats_kernel_eq_skeleton]; unfold cc0__stats_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, Hk⟩
  obtain rfl := harg2.eq_unread hf0; obtain rfl := harg3.eq_unread hf1; obtain rfl := harg4.eq_unread hf2
  obtain rfl := harg5.eq_unread hf3; obtain rfl := harg6.eq_unread hf4
  sl_exec (disch := first | exact hc1 | exact hc2)
  sl_step
  iapply Hk
  isplitl [H0]
  · iexists _; isplitr; · ipureintro; exact harg2.read_unread _
    iexact H0
  isplitl [H1]
  · iexists _; isplitr; swap; · iexact H1
    ipureintro; sl_unfold_words; simp only [read_writes_whole (S := S1x8x128) _ _ hz3, View.readAt_eq_ld, harg2.read_unread, harg3.read_unread, View.ld_unit_zero (S := S1x1x1024x1024) hz4, View.ld_unit_zero (S := S1x8x128) hz3, View.readCov_unit_zero (S := S1x8x128) _ hz3]
  isplitl [H2]
  · iexists _; isplitr; swap; · iexact H2
    ipureintro; sl_unfold_words; simp only [read_writes_whole (S := S1x8x128) _ _ hz3, View.readAt_eq_ld, harg2.read_unread, harg4.read_unread, View.ld_unit_zero (S := S1x1x1024x1024) hz4, View.ld_unit_zero (S := S1x8x128) hz3, View.readCov_unit_zero (S := S1x8x128) _ hz3]
  isplitl [H3]
  · iexists _; isplitr; swap; · iexact H3
    ipureintro; sl_unfold_words; simp only [read_writes_whole (S := S1x8x128) _ _ hz3, View.readAt_eq_ld, harg2.read_unread, harg5.read_unread, View.ld_unit_zero (S := S1x1x1024x1024) hz4, View.ld_unit_zero (S := S1x8x128) hz3, View.readCov_unit_zero (S := S1x8x128) _ hz3]
  iexists _; isplitr; swap; · iexact H4
  ipureintro; sl_unfold_words; simp only [read_writes_whole (S := S1x8x128) _ _ hz3, View.readAt_eq_ld, harg2.read_unread, harg6.read_unread, View.ld_unit_zero (S := S1x1x1024x1024) hz4, View.ld_unit_zero (S := S1x8x128) hz3, View.readCov_unit_zero (S := S1x8x128) _ hz3]

set_option maxHeartbeats 4000000 in
/-- c ≠ 0 and b ≠ c: the two whole-item accumulators, at `a·`, take this block's sums; the diagonal ones are not touched. -/
theorem run0_D (c : Dev nD) (i : grid0.Coords) (arg2 : Memref sig .tc .vmem S1x1x1024x1024 .f32) (harg2 : arg2.IsWhole)
    (arg3 : Memref sig .tc .vmem S1x8x128 .f32) (harg3 : arg3.IsWhole) (arg4 : Memref sig .tc .vmem S1x8x128 .f32) (harg4 : arg4.IsWhole)
    (arg5 : Memref sig .tc .vmem S1x8x128 .f32) (harg5 : arg5.IsWhole) (arg6 : Memref sig .tc .vmem S1x8x128 .f32) (harg6 : arg6.IsWhole)
    (hc1 : ¬ k0_cond1 i = 1#1) (hc2 : ¬ k0_cond2 i = 1#1)
    (x0 : Vec F S1x1x1024x1024 .f32) (a1 a2 : Vec F S1x8x128 .f32) (E : Set ℕ) (K : PUnit → sProp 𝕄) :
    iprop(owns (c : Thread nD τ) arg2 fullShare x0 ∗ owns (c : Thread nD τ) arg3 fullShare a1 ∗ owns (c : Thread nD τ) arg4 fullShare a2
        ∗ (iprop(owns (c : Thread nD τ) arg2 fullShare x0 ∗ owns (c : Thread nD τ) arg3 fullShare (k0_pay10 x0 a1) ∗ owns (c : Thread nD τ) arg4 fullShare (k0_pay11 x0 a2)) -∗ K ⟨⟩))
      ⊢ wp frame (wpE (defs₀ (F := F)) Variants.none c none) E (cc0__stats_kernel i arg2 harg2 arg3 harg3 arg4 harg4 arg5 harg5 arg6 harg6) K := by
  simp only [cc0__stats_kernel_eq_skeleton]; unfold cc0__stats_kernel_skel
  simp only [k0_part1_eq_skeleton]; unfold k0_part1_skel
  unfold owns
  iintro ⟨⟨%f0, %hf0, H0⟩, ⟨%f1, %hf1, H1⟩, ⟨%f2, %hf2, H2⟩, Hk⟩
  obtain rfl := harg2.eq_unread hf0; obtain rfl := harg3.eq_unread hf1; obtain rfl := harg4.eq_unread hf2
  sl_exec (disch := first | exact hc1 | exact hc2)
  sl_step
  iapply Hk
  isplitl [H0]
  · iexists _; isplitr; · ipureintro; exact harg2.read_unread _
    iexact H0
  isplitl [H1]
  · iexists _; isplitr; swap; · iexact H1
    ipureintro; simp only [read_writes_whole (S := S1x8x128) _ _ hz3, View.readAt_eq_ld, harg2.read_unread, harg3.read_unread, View.ld_unit_zero (S := S1x1x1024x1024) hz4, View.ld_unit_zero (S := S1x8x128) hz3, View.readCov_unit_zero (S := S1x8x128) _ hz3]
  iexists _; isplitr; swap; · iexact H2
  ipureintro; simp only [read_writes_whole (S := S1x8x128) _ _ hz3, View.readAt_eq_ld, harg2.read_unread, harg4.read_unread, View.ld_unit_zero (S := S1x1x1024x1024) hz4, View.ld_unit_zero (S := S1x8x128) hz3, View.readCov_unit_zero (S := S1x8x128) _ hz3]

end Cert.Kernel.Gen

end
-- ==== Proof.KB.Dat0.lean ====
/-
  pallas_call 0: what the four accumulators hold point by point, the pipeline's proof data over them, and what each
  staging buffer holds when the body runs.
-/
import proofs.«160249_j59768764891231_2_alg».proof.Proof.Gen.Kernel.Launch
import proofs.«160249_j59768764891231_2_alg».proof.Proof.Gen.Kernel.Skeleton
import proofs.«160249_j59768764891231_2_alg».proof.Proof.Gen.Kernel.Points
import proofs.«160249_j59768764891231_2_alg».proof.Proof.KB.Runs0
import Idealize.ShloMosaic.Lib.Pipeline.FrameBody
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region

/-! # pallas_call 0: the accumulators point by point, and the body obligation

The grid is 8 × 8, point n = 8·b + c. Window 0 is the image block (b, c), fetched at every point. Windows 1–4 are the four
accumulator tiles of batch item b: their block index depends on b only, so each is carried in its staging buffer across
c = 0 … 7 and written back after c = 7. The body zeroes all four at c = 0, adds the block's sum and sum of squares to
windows 1 and 2 at every point, and to windows 3 and 4 at the point b = c only; at the other points windows 3 and 4 are
not touched and keep what they held. -/

-- the TensorCore's buffer contents when the region is entered
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's staging buffer holds its block at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-! ## The conditions in closed form -/

/-- "c = 0" at point n is n % 8 = 0. -/
theorem hcond0_1 : ∀ t : Fin cfg0.N, k0_cond1 (grid0.coords t) = 1#1 ↔ t.val % 8 = 0 :=
  (by decide +kernel : ∀ t : Fin grid0.N, k0_cond1 (grid0.coords t) = 1#1 ↔ t.val % 8 = 0)
/-- "b = c" at point n is n / 8 = n % 8. -/
theorem hcond0_2 : ∀ t : Fin cfg0.N, k0_cond2 (grid0.coords t) = 1#1 ↔ t.val / 8 = t.val % 8 :=
  (by decide +kernel : ∀ t : Fin grid0.N, k0_cond2 (grid0.coords t) = 1#1 ↔ t.val / 8 = t.val % 8)
/-- The diagonal accumulators are untouched exactly where neither holds. -/
theorem hidle0_3 : ∀ t : Fin cfg0.N, cfg0.idle 3 (cfg0.grid.coords t) = true ↔ (¬ t.val % 8 = 0 ∧ ¬ t.val / 8 = t.val % 8) :=
  (by decide +kernel : ∀ t : Fin grid0.N, cfg0.idle 3 (cfg0.grid.coords t) = true ↔ (¬ t.val % 8 = 0 ∧ ¬ t.val / 8 = t.val % 8))
theorem hidle0_4 : ∀ t : Fin cfg0.N, cfg0.idle 4 (cfg0.grid.coords t) = true ↔ (¬ t.val % 8 = 0 ∧ ¬ t.val / 8 = t.val % 8) :=
  (by decide +kernel : ∀ t : Fin grid0.N, cfg0.idle 4 (cfg0.grid.coords t) = true ↔ (¬ t.val % 8 = 0 ∧ ¬ t.val / 8 = t.val % 8))

/-! ## The accumulators -/

/-- A diagonal accumulator's step at point n: add the block's sum where b = c, else keep. -/
def step0_3 (x : Vec F S1x1x1024x1024 .f32) (n : ℕ) (p : Vec F S1x8x128 .f32) : Vec F S1x8x128 .f32 :=
  if n / 8 = n % 8 then k0_pay1 (k0_pay8 x) p else p
def step0_4 (x : Vec F S1x1x1024x1024 .f32) (n : ℕ) (p : Vec F S1x8x128 .f32) : Vec F S1x8x128 .f32 :=
  if n / 8 = n % 8 then k0_pay2 (k0_pay9 x) p else p

/-- Window 1 (sums) after the body at point n: zero at c = 0, else what the point before left, plus this block's sum. -/
def acc0_1 (c : Dev nD) : (n : ℕ) → n < cfg0.N → Vec F S1x8x128 .f32
  | 0, hn => k0_pay10 (iblk0 V c 0 ⟨0, hn⟩) k0_pay3
  | n + 1, hn => k0_pay10 (iblk0 V c 0 ⟨n + 1, hn⟩) (if (n + 1) % 8 = 0 then k0_pay3 else acc0_1 c n (Nat.lt_of_succ_lt hn))
/-- Window 2 (sums of squares). -/
def acc0_2 (c : Dev nD) : (n : ℕ) → n < cfg0.N → Vec F S1x8x128 .f32
  | 0, hn => k0_pay11 (iblk0 V c 0 ⟨0, hn⟩) k0_pay4
  | n + 1, hn => k0_pay11 (iblk0 V c 0 ⟨n + 1, hn⟩) (if (n + 1) % 8 = 0 then k0_pay4 else acc0_2 c n (Nat.lt_of_succ_lt hn))
/-- Window 3 (diagonal sums). -/
def acc0_3 (c : Dev nD) : (n : ℕ) → n < cfg0.N → Vec F S1x8x128 .f32
  | 0, hn => step0_3 (iblk0 V c 0 ⟨0, hn⟩) 0 k0_pay5
  | n + 1, hn => step0_3 (iblk0 V c 0 ⟨n + 1, hn⟩) (n + 1) (if (n + 1) % 8 = 0 then k0_pay5 else acc0_3 c n (Nat.lt_of_succ_lt hn))
/-- Window 4 (diagonal sums of squares). -/
def acc0_4 (c : Dev nD) : (n : ℕ) → n < cfg0.N → Vec F S1x8x128 .f32
  | 0, hn => step0_4 (iblk0 V c 0 ⟨0, hn⟩) 0 k0_pay6
  | n + 1, hn => step0_4 (iblk0 V c 0 ⟨n + 1, hn⟩) (n + 1) (if (n + 1) % 8 = 0 then k0_pay6 else acc0_4 c n (Nat.lt_of_succ_lt hn))

theorem acc0_1_eq (c : Dev nD) (t : Fin cfg0.N) :
    acc0_1 V c t.val t.isLt = k0_pay10 (iblk0 V c 0 t)
      (if t.val % 8 = 0 then k0_pay3 else acc0_1 V c (t.val - 1) (Nat.lt_of_le_of_lt (Nat.sub_le _ _) t.isLt)) := by
  obtain ⟨n, hn⟩ := t
  cases n with
  | zero => rfl
  | succ n => rfl
theorem acc0_2_eq (c : Dev nD) (t : Fin cfg0.N) :
    acc0_2 V c t.val t.isLt = k0_pay11 (iblk0 V c 0 t)
      (if t.val % 8 = 0 then k0_pay4 else acc0_2 V c (t.val - 1) (Nat.lt_of_le_of_lt (Nat.sub_le _ _) t.isLt)) := by
  obtain ⟨n, hn⟩ := t
  cases n with
  | zero => rfl
  | succ n => rfl
theorem acc0_3_eq (c : Dev nD) (t : Fin cfg0.N) :
    acc0_3 V c t.val t.isLt = step0_3 (iblk0 V c 0 t) t.val
      (if t.val % 8 = 0 then k0_pay5 else acc0_3 V c (t.val - 1) (Nat.lt_of_le_of_lt (Nat.sub_le _ _) t.isLt)) := by
  obtain ⟨n, hn⟩ := t
  cases n with
  | zero => rfl
  | succ n => rfl
theorem acc0_4_eq (c : Dev nD) (t : Fin cfg0.N) :
    acc0_4 V c t.val t.isLt = step0_4 (iblk0 V c 0 t) t.val
      (if t.val % 8 = 0 then k0_pay6 else acc0_4 V c (t.val - 1) (Nat.lt_of_le_of_lt (Nat.sub_le _ _) t.isLt)) := by
  obtain ⟨n, hn⟩ := t
  cases n with
  | zero => rfl
  | succ n => rfl

/-! ## The proof data -/

/-- The arrays as the region finds them; after the body at point `t` the input's buffer at its block, each accumulator's
    at its running value (also where the body does not touch it: it keeps the value). -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => acc0_1 V c t.val t.isLt
    | ⟨2, _⟩ => acc0_2 V c t.val t.isLt
    | ⟨3, _⟩ => acc0_3 V c t.val t.isLt
    | ⟨4, _⟩ => acc0_4 V c t.val t.isLt
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = acc0_1 V c t.val t.isLt := by dsimp only [dat0]
theorem after0_2 (c : Dev nD) (t : Fin cfg0.N) : (dat0 V c).after 2 t = acc0_2 V c t.val t.isLt := by dsimp only [dat0]
theorem after0_3 (c : Dev nD) (t : Fin cfg0.N) : (dat0 V c).after 3 t = acc0_3 V c t.val t.isLt := by dsimp only [dat0]
theorem after0_4 (c : Dev nD) (t : Fin cfg0.N) : (dat0 V c).after 4 t = acc0_4 V c t.val t.isLt := by dsimp only [dat0]

/-! ## What each staging buffer holds when the body runs -/

theorem before0_0 (c : Dev nD) (t : Fin cfg0.N) (d) : (dat0 V c).before 0 t d = iblk0 V c 0 t :=
  before0_0_of V (dat0 V c) (A_eq0 V c 0) (after0_0 V c) t d

/-- Away from c = 0 a whole-item accumulator holds what the point before left: no write-back in between. -/
theorem before0_1_pos (c : Dev nD) (t : Fin cfg0.N) (h0 : ¬ t.val % 8 = 0) (d) :
    (dat0 V c).before 1 t d = acc0_1 V c (t.val - 1) (Nat.lt_of_le_of_lt (Nat.sub_le _ _) t.isLt) := by
  have hN : t.val < 64 := lt_of_lt_of_eq t.isLt (show cfg0.N = 64 from N_0)
  rw [Dat.before_out_kept _ 1 rfl t (by omega) (Bool.eq_false_iff.mpr fun h => by have := (flush0_1 _).mp h; dsimp only at this; omega)
    (fun _ => rfl) (fun _ _ => rfl)]
  dsimp only [dat0]
theorem before0_2_pos (c : Dev nD) (t : Fin cfg0.N) (h0 : ¬ t.val % 8 = 0) (d) :
    (dat0 V c).before 2 t d = acc0_2 V c (t.val - 1) (Nat.lt_of_le_of_lt (Nat.sub_le _ _) t.isLt) := by
  have hN : t.val < 64 := lt_of_lt_of_eq t.isLt (show cfg0.N = 64 from N_0)
  rw [Dat.before_out_kept _ 2 rfl t (by omega) (Bool.eq_false_iff.mpr fun h => by have := (flush0_2 _).mp h; dsimp only at this; omega)
    (fun _ => rfl) (fun _ _ => rfl)]
  dsimp only [dat0]

/-- What a live point leaves in a diagonal accumulator's (uncut) buffer is all of `after`. -/
theorem kept0_3 (c : Dev nD) (t : Fin cfg0.N) (d) : (dat0 V c).kept 3 t d = acc0_3 V c t.val t.isLt := by
  unfold Dat.kept
  rw [Pipeline.fill_of_clip_none (cfg := cfg0) 3 _ (fun _ => rfl) d ((dat0 V c).after 3 t), Window.fill_cut]
  dsimp only [dat0]
theorem kept0_4 (c : Dev nD) (t : Fin cfg0.N) (d) : (dat0 V c).kept 4 t d = acc0_4 V c t.val t.isLt := by
  unfold Dat.kept
  rw [Pipeline.fill_of_clip_none (cfg := cfg0) 4 _ (fun _ => rfl) d ((dat0 V c).after 4 t), Window.fill_cut]
  dsimp only [dat0]

/-- Away from c = 0 a diagonal accumulator holds its running value of the point before — through any run of points
    that did not touch it, by induction on the point. -/
theorem before0_3_pos (c : Dev nD) : ∀ (n : ℕ) (hn : n < cfg0.N), ¬ n % 8 = 0 → ∀ d,
    (dat0 V c).before 3 ⟨n, hn⟩ d = acc0_3 V c (n - 1) (Nat.lt_of_le_of_lt (Nat.sub_le _ _) hn) := by
  intro n
  induction n using Nat.strong_induction_on with
  | _ n ih =>
    intro hn h0 d
    have hN : n < 64 := lt_of_lt_of_eq hn (show cfg0.N = 64 from N_0)
    have hn0 : n ≠ 0 := fun h => h0 (by rw [h])
    rw [Dat.before_of_pos _ 3 ⟨n, hn⟩ hn0 ((cfg0.win 3).fetch_out rfl _) d,
      if_neg (fun h => by have := (flush0_3 _).mp h; dsimp only at this; omega)]
    unfold Dat.left
    by_cases hi : cfg0.idle 3 (cfg0.grid.coords ⟨n - 1, Nat.lt_of_le_of_lt (Nat.sub_le _ _) hn⟩) = true
    · rw [hi]
      have hc := (hidle0_3 _).mp hi
      dsimp only at hc ⊢
      rw [ih (n - 1) (by omega) _ hc.1 d]
      have e := acc0_3_eq V c ⟨n - 1, Nat.lt_of_le_of_lt (Nat.sub_le _ _) hn⟩
      dsimp only at e
      rw [e, if_neg hc.1]; unfold step0_3; rw [if_neg hc.2]
    · rw [Bool.not_eq_true] at hi
      rw [hi]
      exact kept0_3 V c _ d
theorem before0_4_pos (c : Dev nD) : ∀ (n : ℕ) (hn : n < cfg0.N), ¬ n % 8 = 0 → ∀ d,
    (dat0 V c).before 4 ⟨n, hn⟩ d = acc0_4 V c (n - 1) (Nat.lt_of_le_of_lt (Nat.sub_le _ _) hn) := by
  intro n
  induction n using Nat.strong_induction_on with
  | _ n ih =>
    intro hn h0 d
    have hN : n < 64 := lt_of_lt_of_eq hn (show cfg0.N = 64 from N_0)
    have hn0 : n ≠ 0 := fun h => h0 (by rw [h])
    rw [Dat.before_of_pos _ 4 ⟨n, hn⟩ hn0 ((cfg0.win 4).fetch_out rfl _) d,
      if_neg (fun h => by have := (flush0_4 _).mp h; dsimp only at this; omega)]
    unfold Dat.left
    by_cases hi : cfg0.idle 4 (cfg0.grid.coords ⟨n - 1, Nat.lt_of_le_of_lt (Nat.sub_le _ _) hn⟩) = true
    · rw [hi]
      have hc := (hidle0_4 _).mp hi
      dsimp only at hc ⊢
      rw [ih (n - 1) (by omega) _ hc.1 d]
      have e := acc0_4_eq V c ⟨n - 1, Nat.lt_of_le_of_lt (Nat.sub_le _ _) hn⟩
      dsimp only at e
      rw [e, if_neg hc.1]; unfold step0_4; rw [if_neg hc.2]
    · rw [Bool.not_eq_true] at hi
      rw [hi]
      exact kept0_4 V c _ d

end Region

end Cert.Kernel.Gen

end
-- ==== Proof.KB.Body0.lean ====
/-
  pallas_call 0: the body obligation — at every grid point the body, handed each staging buffer at what it then holds,
  leaves each at what the proof data say.
-/
import proofs.«160249_j59768764891231_2_alg».proof.Proof.Gen.Kernel.Launch
import proofs.«160249_j59768764891231_2_alg».proof.Proof.Gen.Kernel.Skeleton
import proofs.«160249_j59768764891231_2_alg».proof.Proof.Gen.Kernel.Points
import proofs.«160249_j59768764891231_2_alg».proof.Proof.KB.Dat0
import Idealize.ShloMosaic.Lib.Pipeline.FrameBody
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region

variable (V : (c : Dev nD) → (b : Ref sig .tc) → Buf (Elt F) ((c : Thread nD τ).loc b))

/-! ## The body obligation's post for a diagonal accumulator, case by case -/

theorem leaves0_live (c : Dev nD) (w : Fin cfg0.W) (t : Fin cfg0.N) (h : cfg0.idle w (cfg0.grid.coords t) = false) :
    (dat0 V c).leavesExact w t = (owns (c : Thread nD τ) ((cfg0.win w).stage (cfg0.slots t w)) fullShare ((dat0 V c).after w t) : sProp 𝕄) := by
  unfold Dat.leavesExact; rw [h]
theorem leaves0_flush (c : Dev nD) (w : Fin cfg0.W) (t : Fin cfg0.N) (h : (cfg0.win w).flush t = true) :
    (dat0 V c).leavesExact w t = (owns (c : Thread nD τ) ((cfg0.win w).stage (cfg0.slots t w)) fullShare ((dat0 V c).after w t) : sProp 𝕄) := by
  unfold Dat.leavesExact; cases cfg0.idle w (cfg0.grid.coords t) <;> simp only [h]

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns: the input and the whole-item accumulators at `after`, the diagonal accumulators at `after`
    where the body stores into them or the block is written back, and as they were found elsewhere. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ (dat0 V c).leavesExact 3 t
    ∗ (dat0 V c).leavesExact 4 t)

set_option maxHeartbeats 1600000 in
/-- The body at any point: the closed forms say which of the four cases the point is in; the input's buffer holds its
    block; away from c = 0 each accumulator holds its running value of the point before; so that case's run applies. Where
    the body does not touch the diagonal accumulators they are handed back as found — which at the row's last point, where
    the block is written back, is their running value. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1, after0_2]
  have hN : t.val < 64 := lt_of_lt_of_eq t.isLt (show cfg0.N = 64 from N_0)
  have e1 := acc0_1_eq V c t
  have e2 := acc0_2_eq V c t
  have e3 := acc0_3_eq V c t
  have e4 := acc0_4_eq V c t
  by_cases h1 : t.val % 8 = 0
  · -- c = 0: every window is stored into
    have hl3 : cfg0.idle 3 (cfg0.grid.coords t) = false := by
      rw [← Bool.not_eq_true]; exact fun h => ((hidle0_3 t).mp h).1 h1
    have hl4 : cfg0.idle 4 (cfg0.grid.coords t) = false := by
      rw [← Bool.not_eq_true]; exact fun h => ((hidle0_4 t).mp h).1 h1
    rw [leaves0_live V c 3 t hl3, leaves0_live V c 4 t hl4, after0_3, after0_4, e1, e2, e3, e4, if_pos h1, if_pos h1, if_pos h1, if_pos h1]
    unfold step0_3 step0_4
    by_cases h2 : t.val / 8 = t.val % 8
    · rw [if_pos h2, if_pos h2]
      iintro ⟨HΦ, Ho, ⟨%d0, H0⟩, ⟨%d1, H1⟩, ⟨%d2, H2⟩, ⟨%d3, H3⟩, ⟨%d4, H4⟩⟩
      iapply (run0_A c (grid0.coords t) _ _ _ _ _ _ _ _ _ _ ((hcond0_1 t).mpr h1) ((hcond0_2 t).mpr h2) (iblk0 V c 0 t) Set.univ _)
      isplitl [H0]; · iexact H0
      isplitl [H1]; · iexists _; iexact H1
      isplitl [H2]; · iexists _; iexact H2
      isplitl [H3]; · iexists _; iexact H3
      isplitl [H4]; · iexists _; iexact H4
      iintro ⟨H0, H1, H2, H3, H4⟩
      isplitl [HΦ]; · iexact HΦ
      isplitl [Ho]; · iexact Ho
      isplitl [H0]; · iexact H0
      isplitl [H1]; · iexact H1
      isplitl [H2]; · iexact H2
      isplitl [H3]; · iexact H3
      iexact H4
    · rw [if_neg h2, if_neg h2]
      iintro ⟨HΦ, Ho, ⟨%d0, H0⟩, ⟨%d1, H1⟩, ⟨%d2, H2⟩, ⟨%d3, H3⟩, ⟨%d4, H4⟩⟩
      iapply (run0_B c (grid0.coords t) _ _ _ _ _ _ _ _ _ _ ((hcond0_1 t).mpr h1) (fun h => h2 ((hcond0_2 t).mp h)) (iblk0 V c 0 t) Set.univ _)
      isplitl [H0]; · iexact H0
      isplitl [H1]; · iexists _; iexact H1
      isplitl [H2]; · iexists _; iexact H2
      isplitl [H3]; · iexists _; iexact H3
      isplitl [H4]; · iexists _; iexact H4
      iintro ⟨H0, H1, H2, H3, H4⟩
      isplitl [HΦ]; · iexact HΦ
      isplitl [Ho]; · iexact Ho
      isplitl [H0]; · iexact H0
      isplitl [H1]; · iexact H1
      isplitl [H2]; · iexact H2
      isplitl [H3]; · iexact H3
      iexact H4
  · -- c ≠ 0: each accumulator holds its running value of the point before
    simp only [before0_1_pos V c t h1, before0_2_pos V c t h1, before0_3_pos V c t.val t.isLt h1, before0_4_pos V c t.val t.isLt h1]
    rw [e1, e2, if_neg h1, if_neg h1]
    by_cases h2 : t.val / 8 = t.val % 8
    · have hl3 : cfg0.idle 3 (cfg0.grid.coords t) = false := by
        rw [← Bool.not_eq_true]; exact fun h => ((hidle0_3 t).mp h).2 h2
      have hl4 : cfg0.idle 4 (cfg0.grid.coords t) = false := by
        rw [← Bool.not_eq_true]; exact fun h => ((hidle0_4 t).mp h).2 h2
      rw [leaves0_live V c 3 t hl3, leaves0_live V c 4 t hl4, after0_3, after0_4, e3, e4, if_neg h1, if_neg h1]
      unfold step0_3 step0_4
      rw [if_pos h2, if_pos h2]
      iintro ⟨HΦ, Ho, ⟨%d0, H0⟩, ⟨%d1, H1⟩, ⟨%d2, H2⟩, ⟨%d3, H3⟩, ⟨%d4, H4⟩⟩
      iapply (run0_C c (grid0.coords t) _ _ _ _ _ _ _ _ _ _ (fun h => h1 ((hcond0_1 t).mp h)) ((hcond0_2 t).mpr h2) (iblk0 V c 0 t) _ _ _ _ Set.univ _)
      isplitl [H0]; · iexact H0
      isplitl [H1]; · iexact H1
      isplitl [H2]; · iexact H2
      isplitl [H3]; · iexact H3
      isplitl [H4]; · iexact H4
      iintro ⟨H0, H1, H2, H3, H4⟩
      isplitl [HΦ]; · iexact HΦ
      isplitl [Ho]; · iexact Ho
      isplitl [H0]; · iexact H0
      isplitl [H1]; · iexact H1
      isplitl [H2]; · iexact H2
      isplitl [H3]; · iexact H3
      iexact H4
    · have hi3 : cfg0.idle 3 (cfg0.grid.coords t) = true := (hidle0_3 t).mpr ⟨h1, h2⟩
      have hi4 : cfg0.idle 4 (cfg0.grid.coords t) = true := (hidle0_4 t).mpr ⟨h1, h2⟩
      by_cases h7 : t.val % 8 = 7
      · -- the row's last point: the diagonal accumulators, untouched here, are written back at their running value
        rw [leaves0_flush V c 3 t ((flush0_3 t).mpr h7), leaves0_flush V c 4 t ((flush0_4 t).mpr h7), after0_3, after0_4, e3, e4, if_neg h1, if_neg h1]
        unfold step0_3 step0_4
        rw [if_neg h2, if_neg h2]
        iintro ⟨HΦ, Ho, ⟨%d0, H0⟩, ⟨%d1, H1⟩, ⟨%d2, H2⟩, ⟨%d3, H3⟩, ⟨%d4, H4⟩⟩
        iapply (run0_D c (grid0.coords t) _ _ _ _ _ _ _ _ _ _ (fun h => h1 ((hcond0_1 t).mp h)) (fun h => h2 ((hcond0_2 t).mp h)) (iblk0 V c 0 t) _ _ Set.univ _)
        isplitl [H0]; · iexact H0
        isplitl [H1]; · iexact H1
        isplitl [H2]; · iexact H2
        iintro ⟨H0, H1, H2⟩
        isplitl [HΦ]; · iexact HΦ
        isplitl [Ho]; · iexact Ho
        isplitl [H0]; · iexact H0
        isplitl [H1]; · iexact H1
        isplitl [H2]; · iexact H2
        isplitl [H3]; · iexact H3
        iexact H4
      · -- elsewhere they are handed back as found
        have hf3 : (cfg0.win 3).flush t = false := Bool.eq_false_iff.mpr fun h => h7 ((flush0_3 t).mp h)
        have hf4 : (cfg0.win 4).flush t = false := Bool.eq_false_iff.mpr fun h => h7 ((flush0_4 t).mp h)
        rw [Dat.leavesExact_idle _ 3 t hi3 hf3, Dat.leavesExact_idle _ 4 t hi4 hf4]
        simp only [before0_3_pos V c t.val t.isLt h1, before0_4_pos V c t.val t.isLt h1]
        iintro ⟨HΦ, Ho, ⟨%d0, H0⟩, ⟨%d1, H1⟩, ⟨%d2, H2⟩, ⟨%d3, H3⟩, ⟨%d4, H4⟩⟩
        iapply (run0_D c (grid0.coords t) _ _ _ _ _ _ _ _ _ _ (fun h => h1 ((hcond0_1 t).mp h)) (fun h => h2 ((hcond0_2 t).mp h)) (iblk0 V c 0 t) _ _ Set.univ _)
        isplitl [H0]; · iexact H0
        isplitl [H1]; · iexact H1
        isplitl [H2]; · iexact H2
        iintro ⟨H0, H1, H2⟩
        isplitl [HΦ]; · iexact HΦ
        isplitl [Ho]; · iexact Ho
        isplitl [H0]; · iexact H0
        isplitl [H1]; · iexact H1
        isplitl [H2]; · iexact H2
        isplitl [H3]; · iexists d3; iexact H3
        iexists d4; iexact H4

/-- The library's body obligation, at every point. -/
theorem body_obligation0 (c : Dev nD) : BodyObligation (dat0 (F := F) V c) (defs₀ (F := F)) Variants.none () Set.univ := fun t => by
  rw [bigSep_W0, bigSep_W0]
  exact sound_body0 V c t

end Region

end Cert.Kernel.Gen

end
-- ==== Proof.KB.Runs1.lean ====
/-
  The body of pallas_call 1 run case by case on whole staging buffers: what each of the four accumulators holds
  after the body, as a function of the input block and of what the accumulator held before.
-/
import proofs.«160249_j59768764891231_2_alg».proof.Proof.Gen.Kernel.Launch
import proofs.«160249_j59768764891231_2_alg».proof.Proof.Gen.Kernel.Skeleton
import proofs.«160249_j59768764891231_2_alg».proof.Proof.Gen.Kernel.Points
import Idealize.ShloMosaic.Lib.Pipeline.Value
import proofs.«160249_j59768764891231_2_alg».proof.Proof.KB.Runs0
import Idealize.ShloMosaic.Lib.Pipeline.FrameBody
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body, case by case

The body has two conditionals on the grid point (b, c): "c = 0" (zero the four accumulators) and "b = c" (also add
this block's sums to the two diagonal accumulators). Every store is of a whole buffer, so after the body each
accumulator holds its last store's payload, as a function of the input block `x0` and of what the accumulator held
(`a·`) where the body reads it before storing. -/

set_option maxHeartbeats 4000000 in
/-- c = 0 and b = c: all four accumulators are zeroed, then all four take this block's sums. -/
theorem run1_A (c : Dev nD) (i : grid1.Coords) (arg2 : Memref sig .tc .vmem S1x1x1024x1024 .f32) (harg2 : arg2.IsWhole)
    (arg3 : Memref sig .tc .vmem S1x8x128 .f32) (harg3 : arg3.IsWhole) (arg4 : Memref sig .tc .vmem S1x8x128 .f32) (harg4 : arg4.IsWhole)
    (arg5 : Memref sig .tc .vmem S1x8x128 .f32) (harg5 : arg5.IsWhole) (arg6 : Memref sig .tc .vmem S1x8x128 .f32) (harg6 : arg6.IsWhole)
    (hc1 : k1_cond1 i = 1#1) (hc2 : k1_cond2 i = 1#1)
    (x0 : Vec F S1x1x1024x1024 .f32) (E : Set ℕ) (K : PUnit → sProp 𝕄) :
    iprop(owns (c : Thread nD τ) arg2 fullShare x0 ∗ (∃ d, owns (c : Thread nD τ) arg3 fullShare d) ∗ (∃ d, owns (c : Thread nD τ) arg4 fullShare d)
        ∗ (∃ d, owns (c : Thread nD τ) arg5 fullShare d) ∗ (∃ d, owns (c : Thread nD τ) arg6 fullShare d)
        ∗ (iprop(owns (c : Thread nD τ) arg2 fullShare x0 ∗ owns (c : Thread nD τ) arg3 fullShare (k1_pay10 x0 k1_pay3) ∗ owns (c : Thread nD τ) arg4 fullShare (k1_pay11 x0 k1_pay4)
            ∗ owns (c : Thread nD τ) arg5 fullShare (k1_pay1 (k1_pay8 x0) k1_pay5) ∗ owns (c : Thread nD τ) arg6 fullShare (k1_pay2 (k1_pay9 x0) k1_pay6)) -∗ K ⟨⟩))
      ⊢ wp frame (wpE (defs₀ (F := F)) Variants.none c none) E (cc1__stats_kernel i arg2 harg2 arg3 harg3 arg4 harg4 arg5 harg5 arg6 harg6) K := by
  simp only [cc1__stats_kernel_eq_skeleton]; unfold cc1__stats_kernel_skel
  simp only [k1_part1_eq_skeleton]; unfold k1_part1_skel
  unfold owns
  iintro ⟨⟨%f0, %hf0, H0⟩, ⟨%d1, %f1, -, H1⟩, ⟨%d2, %f2, -, H2⟩, ⟨%d3, %f3, -, H3⟩, ⟨%d4, %f4, -, H4⟩, Hk⟩
  obtain rfl := harg2.eq_unread hf0
  sl_exec (disch := first | exact hc1 | exact hc2)
  sl_step
  iapply Hk
  isplitl [H0]
  · iexists _; isplitr; · ipureintro; exact harg2.read_unread _
    iexact H0
  isplitl [H1]
  · iexists _; isplitr; swap; · iexact H1
    ipureintro; sl_unfold_words; simp only [read_writes_whole (S := S1x8x128) _ _ hz3, View.readAt_eq_ld, harg2.read_unread, View.ld_unit_zero (S := S1x1x1024x1024) hz4, View.ld_unit_zero (S := S1x8x128) hz3, View.readCov_unit_zero (S := S1x8x128) _ hz3]
  isplitl [H2]
  · iexists _; isplitr; swap; · iexact H2
    ipureintro; sl_unfold_words; simp only [read_writes_whole (S := S1x8x128) _ _ hz3, View.readAt_eq_ld, harg2.read_unread, View.ld_unit_zero (S := S1x1x1024x1024) hz4, View.ld_unit_zero (S := S1x8x128) hz3, View.readCov_unit_zero (S := S1x8x128) _ hz3]
  isplitl [H3]
  · iexists _; isplitr; swap; · iexact H3
    ipureintro; sl_unfold_words; simp only [read_writes_whole (S := S1x8x128) _ _ hz3, View.readAt_eq_ld, harg2.read_unread, View.ld_unit_zero (S := S1x1x1024x1024) hz4, View.ld_unit_zero (S := S1x8x128) hz3, View.readCov_unit_zero (S := S1x8x128) _ hz3]
  iexists _; isplitr; swap; · iexact H4
  ipureintro; sl_unfold_words; simp only [read_writes_whole (S := S1x8x128) _ _ hz3, View.readAt_eq_ld, harg2.read_unread, View.ld_unit_zero (S := S1x1x1024x1024) hz4, View.ld_unit_zero (S := S1x8x128) hz3, View.readCov_unit_zero (S := S1x8x128) _ hz3]

set_option maxHeartbeats 4000000 in
/-- c = 0 and b ≠ c: all four accumulators are zeroed, the two whole-item ones take this block's sums. -/
theorem run1_B (c : Dev nD) (i : grid1.Coords) (arg2 : Memref sig .tc .vmem S1x1x1024x1024 .f32) (harg2 : arg2.IsWhole)
    (arg3 : Memref sig .tc .vmem S1x8x128 .f32) (harg3 : arg3.IsWhole) (arg4 : Memref sig .tc .vmem S1x8x128 .f32) (harg4 : arg4.IsWhole)
    (arg5 : Memref sig .tc .vmem S1x8x128 .f32) (harg5 : arg5.IsWhole) (arg6 : Memref sig .tc .vmem S1x8x128 .f32) (harg6 : arg6.IsWhole)
    (hc1 : k1_cond1 i = 1#1) (hc2 : ¬ k1_cond2 i = 1#1)
    (x0 : Vec F S1x1x1024x1024 .f32) (E : Set ℕ) (K : PUnit → sProp 𝕄) :
    iprop(owns (c : Thread nD τ) arg2 fullShare x0 ∗ (∃ d, owns (c : Thread nD τ) arg3 fullShare d) ∗ (∃ d, owns (c : Thread nD τ) arg4 fullShare d)
        ∗ (∃ d, owns (c : Thread nD τ) arg5 fullShare d) ∗ (∃ d, owns (c : Thread nD τ) arg6 fullShare d)
        ∗ (iprop(owns (c : Thread nD τ) arg2 fullShare x0 ∗ owns (c : Thread nD τ) arg3 fullShare (k1_pay10 x0 k1_pay3) ∗ owns (c : Thread nD τ) arg4 fullShare (k1_pay11 x0 k1_pay4)
            ∗ owns (c : Thread nD τ) arg5 fullShare (k1_pay5 (F := F)) ∗ owns (c : Thread nD τ) arg6 fullShare (k1_pay6 (F := F))) -∗ K ⟨⟩))
      ⊢ wp frame (wpE (defs₀ (F := F)) Variants.none c none) E (cc1__stats_kernel i arg2 harg2 arg3 harg3 arg4 harg4 arg5 harg5 arg6 harg6) K := by
  simp only [cc1__stats_kernel_eq_skeleton]; unfold cc1__stats_kernel_skel
  simp only [k1_part1_eq_skeleton]; unfold k1_part1_skel
  unfold owns
  iintro ⟨⟨%f0, %hf0, H0⟩, ⟨%d1, %f1, -, H1⟩, ⟨%d2, %f2, -, H2⟩, ⟨%d3, %f3, -, H3⟩, ⟨%d4, %f4, -, H4⟩, Hk⟩
  obtain rfl := harg2.eq_unread hf0
  sl_exec (disch := first | exact hc1 | exact hc2)
  sl_step
  iapply Hk
  isplitl [H0]
  · iexists _; isplitr; · ipureintro; exact harg2.read_unread _
    iexact H0
  isplitl [H1]
  · iexists _; isplitr; swap; · iexact H1
    ipureintro; sl_unfold_words; simp only [read_writes_whole (S := S1x8x128) _ _ hz3, View.readAt_eq_ld, harg2.read_unread, View.ld_unit_zero (S := S1x1x1024x1024) hz4, View.ld_unit_zero (S := S1x8x128) hz3, View.readCov_unit_zero (S := S1x8x128) _ hz3]
  isplitl [H2]
  · iexists _; isplitr; swap; · iexact H2
    ipureintro; sl_unfold_words; simp only [read_writes_whole (S := S1x8x128) _ _ hz3, View.readAt_eq_ld, harg2.read_unread, View.ld_unit_zero (S := S1x1x1024x1024) hz4, View.ld_unit_zero (S := S1x8x128) hz3, View.readCov_unit_zero (S := S1x8x128) _ hz3]
  isplitl [H3]
  · iexists _; isplitr; swap; · iexact H3
    ipureintro; sl_unfold_words; simp only [read_writes_whole (S := S1x8x128) _ _ hz3, View.readAt_eq_ld, harg2.read_unread, View.ld_unit_zero (S := S1x1x1024x1024) hz4, View.ld_unit_zero (S := S1x8x128) hz3, View.readCov_unit_zero (S := S1x8x128) _ hz3]
  iexists _; isplitr; swap; · iexact H4
  ipureintro; sl_unfold_words; simp only [read_writes_whole (S := S1x8x128) _ _ hz3, View.readAt_eq_ld, harg2.read_unread, View.ld_unit_zero (S := S1x1x1024x1024) hz4, View.ld_unit_zero (S := S1x8x128) hz3, View.readCov_unit_zero (S := S1x8x128) _ hz3]

set_option maxHeartbeats 4000000 in
/-- c ≠ 0 and b = c: all four accumulators, at `a·`, take this block's sums. -/
theorem run1_C (c : Dev nD) (i : grid1.Coords) (arg2 : Memref sig .tc .vmem S1x1x1024x1024 .f32) (harg2 : arg2.IsWhole)
    (arg3 : Memref sig .tc .vmem S1x8x128 .f32) (harg3 : arg3.IsWhole) (arg4 : Memref sig .tc .vmem S1x8x128 .f32) (harg4 : arg4.IsWhole)
    (arg5 : Memref sig .tc .vmem S1x8x128 .f32) (harg5 : arg5.IsWhole) (arg6 : Memref sig .tc .vmem S1x8x128 .f32) (harg6 : arg6.IsWhole)
    (hc1 : ¬ k1_cond1 i = 1#1) (hc2 : k1_cond2 i = 1#1)
    (x0 : Vec F S1x1x1024x1024 .f32) (a1 a2 a3 a4 : Vec F S1x8x128 .f32) (E : Set ℕ) (K : PUnit → sProp 𝕄) :
    iprop(owns (c : Thread nD τ) arg2 fullShare x0 ∗ owns (c : Thread nD τ) arg3 fullShare a1 ∗ owns (c : Thread nD τ) arg4 fullShare a2
        ∗ owns (c : Thread nD τ) arg5 fullShare a3 ∗ owns (c : Thread nD τ) arg6 fullShare a4
        ∗ (iprop(owns (c : Thread nD τ) arg2 fullShare x0 ∗ owns (c : Thread nD τ) arg3 fullShare (k1_pay10 x0 a1) ∗ owns (c : Thread nD τ) arg4 fullShare (k1_pay11 x0 a2)
            ∗ owns (c : Thread nD τ) arg5 fullShare (k1_pay1 (k1_pay8 x0) a3) ∗ owns (c : Thread nD τ) arg6 fullShare (k1_pay2 (k1_pay9 x0) a4)) -∗ K ⟨⟩))
      ⊢ wp frame (wpE (defs₀ (F := F)) Variants.none c none) E (cc1__stats_kernel i arg2 harg2 arg3 harg3 arg4 harg4 arg5 harg5 arg6 harg6) K := by
  simp only [cc1__stats_kernel_eq_skeleton]; unfold cc1__stats_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, Hk⟩
  obtain rfl := harg2.eq_unread hf0; obtain rfl := harg3.eq_unread hf1; obtain rfl := harg4.eq_unread hf2
  obtain rfl := harg5.eq_unread hf3; obtain rfl := harg6.eq_unread hf4
  sl_exec (disch := first | exact hc1 | exact hc2)
  sl_step
  iapply Hk
  isplitl [H0]
  · iexists _; isplitr; · ipureintro; exact harg2.read_unread _
    iexact H0
  isplitl [H1]
  · iexists _; isplitr; swap; · iexact H1
    ipureintro; sl_unfold_words; simp only [read_writes_whole (S := S1x8x128) _ _ hz3, View.readAt_eq_ld, harg2.read_unread, harg3.read_unread, View.ld_unit_zero (S := S1x1x1024x1024) hz4, View.ld_unit_zero (S := S1x8x128) hz3, View.readCov_unit_zero (S := S1x8x128) _ hz3]
  isplitl [H2]
  · iexists _; isplitr; swap; · iexact H2
    ipureintro; sl_unfold_words; simp only [read_writes_whole (S := S1x8x128) _ _ hz3, View.readAt_eq_ld, harg2.read_unread, harg4.read_unread, View.ld_unit_zero (S := S1x1x1024x1024) hz4, View.ld_unit_zero (S := S1x8x128) hz3, View.readCov_unit_zero (S := S1x8x128) _ hz3]
  isplitl [H3]
  · iexists _; isplitr; swap; · iexact H3
    ipureintro; sl_unfold_words; simp only [read_writes_whole (S := S1x8x128) _ _ hz3, View.readAt_eq_ld, harg2.read_unread, harg5.read_unread, View.ld_unit_zero (S := S1x1x1024x1024) hz4, View.ld_unit_zero (S := S1x8x128) hz3, View.readCov_unit_zero (S := S1x8x128) _ hz3]
  iexists _; isplitr; swap; · iexact H4
  ipureintro; sl_unfold_words; simp only [read_writes_whole (S := S1x8x128) _ _ hz3, View.readAt_eq_ld, harg2.read_unread, harg6.read_unread, View.ld_unit_zero (S := S1x1x1024x1024) hz4, View.ld_unit_zero (S := S1x8x128) hz3, View.readCov_unit_zero (S := S1x8x128) _ hz3]

set_option maxHeartbeats 4000000 in
/-- c ≠ 0 and b ≠ c: the two whole-item accumulators, at `a·`, take this block's sums; the diagonal ones are not touched. -/
theorem run1_D (c : Dev nD) (i : grid1.Coords) (arg2 : Memref sig .tc .vmem S1x1x1024x1024 .f32) (harg2 : arg2.IsWhole)
    (arg3 : Memref sig .tc .vmem S1x8x128 .f32) (harg3 : arg3.IsWhole) (arg4 : Memref sig .tc .vmem S1x8x128 .f32) (harg4 : arg4.IsWhole)
    (arg5 : Memref sig .tc .vmem S1x8x128 .f32) (harg5 : arg5.IsWhole) (arg6 : Memref sig .tc .vmem S1x8x128 .f32) (harg6 : arg6.IsWhole)
    (hc1 : ¬ k1_cond1 i = 1#1) (hc2 : ¬ k1_cond2 i = 1#1)
    (x0 : Vec F S1x1x1024x1024 .f32) (a1 a2 : Vec F S1x8x128 .f32) (E : Set ℕ) (K : PUnit → sProp 𝕄) :
    iprop(owns (c : Thread nD τ) arg2 fullShare x0 ∗ owns (c : Thread nD τ) arg3 fullShare a1 ∗ owns (c : Thread nD τ) arg4 fullShare a2
        ∗ (iprop(owns (c : Thread nD τ) arg2 fullShare x0 ∗ owns (c : Thread nD τ) arg3 fullShare (k1_pay10 x0 a1) ∗ owns (c : Thread nD τ) arg4 fullShare (k1_pay11 x0 a2)) -∗ K ⟨⟩))
      ⊢ wp frame (wpE (defs₀ (F := F)) Variants.none c none) E (cc1__stats_kernel i arg2 harg2 arg3 harg3 arg4 harg4 arg5 harg5 arg6 harg6) K := by
  simp only [cc1__stats_kernel_eq_skeleton]; unfold cc1__stats_kernel_skel
  simp only [k1_part1_eq_skeleton]; unfold k1_part1_skel
  unfold owns
  iintro ⟨⟨%f0, %hf0, H0⟩, ⟨%f1, %hf1, H1⟩, ⟨%f2, %hf2, H2⟩, Hk⟩
  obtain rfl := harg2.eq_unread hf0; obtain rfl := harg3.eq_unread hf1; obtain rfl := harg4.eq_unread hf2
  sl_exec (disch := first | exact hc1 | exact hc2)
  sl_step
  iapply Hk
  isplitl [H0]
  · iexists _; isplitr; · ipureintro; exact harg2.read_unread _
    iexact H0
  isplitl [H1]
  · iexists _; isplitr; swap; · iexact H1
    ipureintro; simp only [read_writes_whole (S := S1x8x128) _ _ hz3, View.readAt_eq_ld, harg2.read_unread, harg3.read_unread, View.ld_unit_zero (S := S1x1x1024x1024) hz4, View.ld_unit_zero (S := S1x8x128) hz3, View.readCov_unit_zero (S := S1x8x128) _ hz3]
  iexists _; isplitr; swap; · iexact H2
  ipureintro; simp only [read_writes_whole (S := S1x8x128) _ _ hz3, View.readAt_eq_ld, harg2.read_unread, harg4.read_unread, View.ld_unit_zero (S := S1x1x1024x1024) hz4, View.ld_unit_zero (S := S1x8x128) hz3, View.readCov_unit_zero (S := S1x8x128) _ hz3]

end Cert.Kernel.Gen

end
-- ==== Proof.KB.Dat1.lean ====
/-
  pallas_call 1: what the four accumulators hold point by point, the pipeline's proof data over them, and what each
  staging buffer holds when the body runs.
-/
import proofs.«160249_j59768764891231_2_alg».proof.Proof.Gen.Kernel.Launch
import proofs.«160249_j59768764891231_2_alg».proof.Proof.Gen.Kernel.Skeleton
import proofs.«160249_j59768764891231_2_alg».proof.Proof.Gen.Kernel.Points
import proofs.«160249_j59768764891231_2_alg».proof.Proof.KB.Runs1
import Idealize.ShloMosaic.Lib.Pipeline.FrameBody
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region

/-! # pallas_call 1: the accumulators point by point, and the body obligation

The grid is 8 × 8, point n = 8·b + c. Window 0 is the image block (b, c), fetched at every point. Windows 1–4 are the four
accumulator tiles of batch item b: their block index depends on b only, so each is carried in its staging buffer across
c = 0 … 7 and written back after c = 7. The body zeroes all four at c = 0, adds the block's sum and sum of squares to
windows 1 and 2 at every point, and to windows 3 and 4 at the point b = c only; at the other points windows 3 and 4 are
not touched and keep what they held. -/

-- the TensorCore's buffer contents when the region is entered
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The input window's staging buffer holds its block at every point. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-! ## The conditions in closed form -/

/-- "c = 0" at point n is n % 8 = 0. -/
theorem hcond1_1 : ∀ t : Fin cfg1.N, k1_cond1 (grid1.coords t) = 1#1 ↔ t.val % 8 = 0 :=
  (by decide +kernel : ∀ t : Fin grid1.N, k1_cond1 (grid1.coords t) = 1#1 ↔ t.val % 8 = 0)
/-- "b = c" at point n is n / 8 = n % 8. -/
theorem hcond1_2 : ∀ t : Fin cfg1.N, k1_cond2 (grid1.coords t) = 1#1 ↔ t.val / 8 = t.val % 8 :=
  (by decide +kernel : ∀ t : Fin grid1.N, k1_cond2 (grid1.coords t) = 1#1 ↔ t.val / 8 = t.val % 8)
/-- The diagonal accumulators are untouched exactly where neither holds. -/
theorem hidle1_3 : ∀ t : Fin cfg1.N, cfg1.idle 3 (cfg1.grid.coords t) = true ↔ (¬ t.val % 8 = 0 ∧ ¬ t.val / 8 = t.val % 8) :=
  (by decide +kernel : ∀ t : Fin grid1.N, cfg1.idle 3 (cfg1.grid.coords t) = true ↔ (¬ t.val % 8 = 0 ∧ ¬ t.val / 8 = t.val % 8))
theorem hidle1_4 : ∀ t : Fin cfg1.N, cfg1.idle 4 (cfg1.grid.coords t) = true ↔ (¬ t.val % 8 = 0 ∧ ¬ t.val / 8 = t.val % 8) :=
  (by decide +kernel : ∀ t : Fin grid1.N, cfg1.idle 4 (cfg1.grid.coords t) = true ↔ (¬ t.val % 8 = 0 ∧ ¬ t.val / 8 = t.val % 8))

/-! ## The accumulators -/

/-- A diagonal accumulator's step at point n: add the block's sum where b = c, else keep. -/
def step1_3 (x : Vec F S1x1x1024x1024 .f32) (n : ℕ) (p : Vec F S1x8x128 .f32) : Vec F S1x8x128 .f32 :=
  if n / 8 = n % 8 then k1_pay1 (k1_pay8 x) p else p
def step1_4 (x : Vec F S1x1x1024x1024 .f32) (n : ℕ) (p : Vec F S1x8x128 .f32) : Vec F S1x8x128 .f32 :=
  if n / 8 = n % 8 then k1_pay2 (k1_pay9 x) p else p

/-- Window 1 (sums) after the body at point n: zero at c = 0, else what the point before left, plus this block's sum. -/
def acc1_1 (c : Dev nD) : (n : ℕ) → n < cfg1.N → Vec F S1x8x128 .f32
  | 0, hn => k1_pay10 (iblk1 V c 0 ⟨0, hn⟩) k1_pay3
  | n + 1, hn => k1_pay10 (iblk1 V c 0 ⟨n + 1, hn⟩) (if (n + 1) % 8 = 0 then k1_pay3 else acc1_1 c n (Nat.lt_of_succ_lt hn))
/-- Window 2 (sums of squares). -/
def acc1_2 (c : Dev nD) : (n : ℕ) → n < cfg1.N → Vec F S1x8x128 .f32
  | 0, hn => k1_pay11 (iblk1 V c 0 ⟨0, hn⟩) k1_pay4
  | n + 1, hn => k1_pay11 (iblk1 V c 0 ⟨n + 1, hn⟩) (if (n + 1) % 8 = 0 then k1_pay4 else acc1_2 c n (Nat.lt_of_succ_lt hn))
/-- Window 3 (diagonal sums). -/
def acc1_3 (c : Dev nD) : (n : ℕ) → n < cfg1.N → Vec F S1x8x128 .f32
  | 0, hn => step1_3 (iblk1 V c 0 ⟨0, hn⟩) 0 k1_pay5
  | n + 1, hn => step1_3 (iblk1 V c 0 ⟨n + 1, hn⟩) (n + 1) (if (n + 1) % 8 = 0 then k1_pay5 else acc1_3 c n (Nat.lt_of_succ_lt hn))
/-- Window 4 (diagonal sums of squares). -/
def acc1_4 (c : Dev nD) : (n : ℕ) → n < cfg1.N → Vec F S1x8x128 .f32
  | 0, hn => step1_4 (iblk1 V c 0 ⟨0, hn⟩) 0 k1_pay6
  | n + 1, hn => step1_4 (iblk1 V c 0 ⟨n + 1, hn⟩) (n + 1) (if (n + 1) % 8 = 0 then k1_pay6 else acc1_4 c n (Nat.lt_of_succ_lt hn))

theorem acc1_1_eq (c : Dev nD) (t : Fin cfg1.N) :
    acc1_1 V c t.val t.isLt = k1_pay10 (iblk1 V c 0 t)
      (if t.val % 8 = 0 then k1_pay3 else acc1_1 V c (t.val - 1) (Nat.lt_of_le_of_lt (Nat.sub_le _ _) t.isLt)) := by
  obtain ⟨n, hn⟩ := t
  cases n with
  | zero => rfl
  | succ n => rfl
theorem acc1_2_eq (c : Dev nD) (t : Fin cfg1.N) :
    acc1_2 V c t.val t.isLt = k1_pay11 (iblk1 V c 0 t)
      (if t.val % 8 = 0 then k1_pay4 else acc1_2 V c (t.val - 1) (Nat.lt_of_le_of_lt (Nat.sub_le _ _) t.isLt)) := by
  obtain ⟨n, hn⟩ := t
  cases n with
  | zero => rfl
  | succ n => rfl
theorem acc1_3_eq (c : Dev nD) (t : Fin cfg1.N) :
    acc1_3 V c t.val t.isLt = step1_3 (iblk1 V c 0 t) t.val
      (if t.val % 8 = 0 then k1_pay5 else acc1_3 V c (t.val - 1) (Nat.lt_of_le_of_lt (Nat.sub_le _ _) t.isLt)) := by
  obtain ⟨n, hn⟩ := t
  cases n with
  | zero => rfl
  | succ n => rfl
theorem acc1_4_eq (c : Dev nD) (t : Fin cfg1.N) :
    acc1_4 V c t.val t.isLt = step1_4 (iblk1 V c 0 t) t.val
      (if t.val % 8 = 0 then k1_pay6 else acc1_4 V c (t.val - 1) (Nat.lt_of_le_of_lt (Nat.sub_le _ _) t.isLt)) := by
  obtain ⟨n, hn⟩ := t
  cases n with
  | zero => rfl
  | succ n => rfl

/-! ## The proof data -/

/-- The arrays as the region finds them; after the body at point `t` the input's buffer at its block, each accumulator's
    at its running value (also where the body does not touch it: it keeps the value). -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => acc1_1 V c t.val t.isLt
    | ⟨2, _⟩ => acc1_2 V c t.val t.isLt
    | ⟨3, _⟩ => acc1_3 V c t.val t.isLt
    | ⟨4, _⟩ => acc1_4 V c t.val t.isLt
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = acc1_1 V c t.val t.isLt := by dsimp only [dat1]
theorem after1_2 (c : Dev nD) (t : Fin cfg1.N) : (dat1 V c).after 2 t = acc1_2 V c t.val t.isLt := by dsimp only [dat1]
theorem after1_3 (c : Dev nD) (t : Fin cfg1.N) : (dat1 V c).after 3 t = acc1_3 V c t.val t.isLt := by dsimp only [dat1]
theorem after1_4 (c : Dev nD) (t : Fin cfg1.N) : (dat1 V c).after 4 t = acc1_4 V c t.val t.isLt := by dsimp only [dat1]

/-! ## What each staging buffer holds when the body runs -/

theorem before1_0 (c : Dev nD) (t : Fin cfg1.N) (d) : (dat1 V c).before 0 t d = iblk1 V c 0 t :=
  before1_0_of V (dat1 V c) (A_eq1 V c 0) (after1_0 V c) t d

/-- Away from c = 0 a whole-item accumulator holds what the point before left: no write-back in between. -/
theorem before1_1_pos (c : Dev nD) (t : Fin cfg1.N) (h0 : ¬ t.val % 8 = 0) (d) :
    (dat1 V c).before 1 t d = acc1_1 V c (t.val - 1) (Nat.lt_of_le_of_lt (Nat.sub_le _ _) t.isLt) := by
  have hN : t.val < 64 := lt_of_lt_of_eq t.isLt (show cfg1.N = 64 from N_1)
  rw [Dat.before_out_kept _ 1 rfl t (by omega) (Bool.eq_false_iff.mpr fun h => by have := (flush1_1 _).mp h; dsimp only at this; omega)
    (fun _ => rfl) (fun _ _ => rfl)]
  dsimp only [dat1]
theorem before1_2_pos (c : Dev nD) (t : Fin cfg1.N) (h0 : ¬ t.val % 8 = 0) (d) :
    (dat1 V c).before 2 t d = acc1_2 V c (t.val - 1) (Nat.lt_of_le_of_lt (Nat.sub_le _ _) t.isLt) := by
  have hN : t.val < 64 := lt_of_lt_of_eq t.isLt (show cfg1.N = 64 from N_1)
  rw [Dat.before_out_kept _ 2 rfl t (by omega) (Bool.eq_false_iff.mpr fun h => by have := (flush1_2 _).mp h; dsimp only at this; omega)
    (fun _ => rfl) (fun _ _ => rfl)]
  dsimp only [dat1]

/-- What a live point leaves in a diagonal accumulator's (uncut) buffer is all of `after`. -/
theorem kept1_3 (c : Dev nD) (t : Fin cfg1.N) (d) : (dat1 V c).kept 3 t d = acc1_3 V c t.val t.isLt := by
  unfold Dat.kept
  rw [Pipeline.fill_of_clip_none (cfg := cfg1) 3 _ (fun _ => rfl) d ((dat1 V c).after 3 t), Window.fill_cut]
  dsimp only [dat1]
theorem kept1_4 (c : Dev nD) (t : Fin cfg1.N) (d) : (dat1 V c).kept 4 t d = acc1_4 V c t.val t.isLt := by
  unfold Dat.kept
  rw [Pipeline.fill_of_clip_none (cfg := cfg1) 4 _ (fun _ => rfl) d ((dat1 V c).after 4 t), Window.fill_cut]
  dsimp only [dat1]

/-- Away from c = 0 a diagonal accumulator holds its running value of the point before — through any run of points
    that did not touch it, by induction on the point. -/
theorem before1_3_pos (c : Dev nD) : ∀ (n : ℕ) (hn : n < cfg1.N), ¬ n % 8 = 0 → ∀ d,
    (dat1 V c).before 3 ⟨n, hn⟩ d = acc1_3 V c (n - 1) (Nat.lt_of_le_of_lt (Nat.sub_le _ _) hn) := by
  intro n
  induction n using Nat.strong_induction_on with
  | _ n ih =>
    intro hn h0 d
    have hN : n < 64 := lt_of_lt_of_eq hn (show cfg1.N = 64 from N_1)
    have hn0 : n ≠ 0 := fun h => h0 (by rw [h])
    rw [Dat.before_of_pos _ 3 ⟨n, hn⟩ hn0 ((cfg1.win 3).fetch_out rfl _) d,
      if_neg (fun h => by have := (flush1_3 _).mp h; dsimp only at this; omega)]
    unfold Dat.left
    by_cases hi : cfg1.idle 3 (cfg1.grid.coords ⟨n - 1, Nat.lt_of_le_of_lt (Nat.sub_le _ _) hn⟩) = true
    · rw [hi]
      have hc := (hidle1_3 _).mp hi
      dsimp only at hc ⊢
      rw [ih (n - 1) (by omega) _ hc.1 d]
      have e := acc1_3_eq V c ⟨n - 1, Nat.lt_of_le_of_lt (Nat.sub_le _ _) hn⟩
      dsimp only at e
      rw [e, if_neg hc.1]; unfold step1_3; rw [if_neg hc.2]
    · rw [Bool.not_eq_true] at hi
      rw [hi]
      exact kept1_3 V c _ d
theorem before1_4_pos (c : Dev nD) : ∀ (n : ℕ) (hn : n < cfg1.N), ¬ n % 8 = 0 → ∀ d,
    (dat1 V c).before 4 ⟨n, hn⟩ d = acc1_4 V c (n - 1) (Nat.lt_of_le_of_lt (Nat.sub_le _ _) hn) := by
  intro n
  induction n using Nat.strong_induction_on with
  | _ n ih =>
    intro hn h0 d
    have hN : n < 64 := lt_of_lt_of_eq hn (show cfg1.N = 64 from N_1)
    have hn0 : n ≠ 0 := fun h => h0 (by rw [h])
    rw [Dat.before_of_pos _ 4 ⟨n, hn⟩ hn0 ((cfg1.win 4).fetch_out rfl _) d,
      if_neg (fun h => by have := (flush1_4 _).mp h; dsimp only at this; omega)]
    unfold Dat.left
    by_cases hi : cfg1.idle 4 (cfg1.grid.coords ⟨n - 1, Nat.lt_of_le_of_lt (Nat.sub_le _ _) hn⟩) = true
    · rw [hi]
      have hc := (hidle1_4 _).mp hi
      dsimp only at hc ⊢
      rw [ih (n - 1) (by omega) _ hc.1 d]
      have e := acc1_4_eq V c ⟨n - 1, Nat.lt_of_le_of_lt (Nat.sub_le _ _) hn⟩
      dsimp only at e
      rw [e, if_neg hc.1]; unfold step1_4; rw [if_neg hc.2]
    · rw [Bool.not_eq_true] at hi
      rw [hi]
      exact kept1_4 V c _ d

end Region

end Cert.Kernel.Gen

end
-- ==== Proof.KB.Body1.lean ====
/-
  pallas_call 1: the body obligation — at every grid point the body, handed each staging buffer at what it then holds,
  leaves each at what the proof data say.
-/
import proofs.«160249_j59768764891231_2_alg».proof.Proof.Gen.Kernel.Launch
import proofs.«160249_j59768764891231_2_alg».proof.Proof.Gen.Kernel.Skeleton
import proofs.«160249_j59768764891231_2_alg».proof.Proof.Gen.Kernel.Points
import proofs.«160249_j59768764891231_2_alg».proof.Proof.KB.Dat1
import Idealize.ShloMosaic.Lib.Pipeline.FrameBody
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region

variable (V : (c : Dev nD) → (b : Ref sig .tc) → Buf (Elt F) ((c : Thread nD τ).loc b))

/-! ## The body obligation's post for a diagonal accumulator, case by case -/

theorem leaves1_live (c : Dev nD) (w : Fin cfg1.W) (t : Fin cfg1.N) (h : cfg1.idle w (cfg1.grid.coords t) = false) :
    (dat1 V c).leavesExact w t = (owns (c : Thread nD τ) ((cfg1.win w).stage (cfg1.slots t w)) fullShare ((dat1 V c).after w t) : sProp 𝕄) := by
  unfold Dat.leavesExact; rw [h]
theorem leaves1_flush (c : Dev nD) (w : Fin cfg1.W) (t : Fin cfg1.N) (h : (cfg1.win w).flush t = true) :
    (dat1 V c).leavesExact w t = (owns (c : Thread nD τ) ((cfg1.win w).stage (cfg1.slots t w)) fullShare ((dat1 V c).after w t) : sProp 𝕄) := by
  unfold Dat.leavesExact; cases cfg1.idle w (cfg1.grid.coords t) <;> simp only [h]

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns: the input and the whole-item accumulators at `after`, the diagonal accumulators at `after`
    where the body stores into them or the block is written back, and as they were found elsewhere. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ (dat1 V c).leavesExact 3 t
    ∗ (dat1 V c).leavesExact 4 t)

set_option maxHeartbeats 1600000 in
/-- The body at any point: the closed forms say which of the four cases the point is in; the input's buffer holds its
    block; away from c = 0 each accumulator holds its running value of the point before; so that case's run applies. Where
    the body does not touch the diagonal accumulators they are handed back as found — which at the row's last point, where
    the block is written back, is their running value. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0]
  rw [show (dat1 V c).Φ t.succ = (dat1 V c).Φ t.castSucc from rfl,
    show (dat1 V c).owesAt () t.succ = (dat1 V c).owesAt () t.castSucc from rfl,
    after1_0, after1_1, after1_2]
  have hN : t.val < 64 := lt_of_lt_of_eq t.isLt (show cfg1.N = 64 from N_1)
  have e1 := acc1_1_eq V c t
  have e2 := acc1_2_eq V c t
  have e3 := acc1_3_eq V c t
  have e4 := acc1_4_eq V c t
  by_cases h1 : t.val % 8 = 0
  · -- c = 0: every window is stored into
    have hl3 : cfg1.idle 3 (cfg1.grid.coords t) = false := by
      rw [← Bool.not_eq_true]; exact fun h => ((hidle1_3 t).mp h).1 h1
    have hl4 : cfg1.idle 4 (cfg1.grid.coords t) = false := by
      rw [← Bool.not_eq_true]; exact fun h => ((hidle1_4 t).mp h).1 h1
    rw [leaves1_live V c 3 t hl3, leaves1_live V c 4 t hl4, after1_3, after1_4, e1, e2, e3, e4, if_pos h1, if_pos h1, if_pos h1, if_pos h1]
    unfold step1_3 step1_4
    by_cases h2 : t.val / 8 = t.val % 8
    · rw [if_pos h2, if_pos h2]
      iintro ⟨HΦ, Ho, ⟨%d0, H0⟩, ⟨%d1, H1⟩, ⟨%d2, H2⟩, ⟨%d3, H3⟩, ⟨%d4, H4⟩⟩
      iapply (run1_A c (grid1.coords t) _ _ _ _ _ _ _ _ _ _ ((hcond1_1 t).mpr h1) ((hcond1_2 t).mpr h2) (iblk1 V c 0 t) Set.univ _)
      isplitl [H0]; · iexact H0
      isplitl [H1]; · iexists _; iexact H1
      isplitl [H2]; · iexists _; iexact H2
      isplitl [H3]; · iexists _; iexact H3
      isplitl [H4]; · iexists _; iexact H4
      iintro ⟨H0, H1, H2, H3, H4⟩
      isplitl [HΦ]; · iexact HΦ
      isplitl [Ho]; · iexact Ho
      isplitl [H0]; · iexact H0
      isplitl [H1]; · iexact H1
      isplitl [H2]; · iexact H2
      isplitl [H3]; · iexact H3
      iexact H4
    · rw [if_neg h2, if_neg h2]
      iintro ⟨HΦ, Ho, ⟨%d0, H0⟩, ⟨%d1, H1⟩, ⟨%d2, H2⟩, ⟨%d3, H3⟩, ⟨%d4, H4⟩⟩
      iapply (run1_B c (grid1.coords t) _ _ _ _ _ _ _ _ _ _ ((hcond1_1 t).mpr h1) (fun h => h2 ((hcond1_2 t).mp h)) (iblk1 V c 0 t) Set.univ _)
      isplitl [H0]; · iexact H0
      isplitl [H1]; · iexists _; iexact H1
      isplitl [H2]; · iexists _; iexact H2
      isplitl [H3]; · iexists _; iexact H3
      isplitl [H4]; · iexists _; iexact H4
      iintro ⟨H0, H1, H2, H3, H4⟩
      isplitl [HΦ]; · iexact HΦ
      isplitl [Ho]; · iexact Ho
      isplitl [H0]; · iexact H0
      isplitl [H1]; · iexact H1
      isplitl [H2]; · iexact H2
      isplitl [H3]; · iexact H3
      iexact H4
  · -- c ≠ 0: each accumulator holds its running value of the point before
    simp only [before1_1_pos V c t h1, before1_2_pos V c t h1, before1_3_pos V c t.val t.isLt h1, before1_4_pos V c t.val t.isLt h1]
    rw [e1, e2, if_neg h1, if_neg h1]
    by_cases h2 : t.val / 8 = t.val % 8
    · have hl3 : cfg1.idle 3 (cfg1.grid.coords t) = false := by
        rw [← Bool.not_eq_true]; exact fun h => ((hidle1_3 t).mp h).2 h2
      have hl4 : cfg1.idle 4 (cfg1.grid.coords t) = false := by
        rw [← Bool.not_eq_true]; exact fun h => ((hidle1_4 t).mp h).2 h2
      rw [leaves1_live V c 3 t hl3, leaves1_live V c 4 t hl4, after1_3, after1_4, e3, e4, if_neg h1, if_neg h1]
      unfold step1_3 step1_4
      rw [if_pos h2, if_pos h2]
      iintro ⟨HΦ, Ho, ⟨%d0, H0⟩, ⟨%d1, H1⟩, ⟨%d2, H2⟩, ⟨%d3, H3⟩, ⟨%d4, H4⟩⟩
      iapply (run1_C c (grid1.coords t) _ _ _ _ _ _ _ _ _ _ (fun h => h1 ((hcond1_1 t).mp h)) ((hcond1_2 t).mpr h2) (iblk1 V c 0 t) _ _ _ _ Set.univ _)
      isplitl [H0]; · iexact H0
      isplitl [H1]; · iexact H1
      isplitl [H2]; · iexact H2
      isplitl [H3]; · iexact H3
      isplitl [H4]; · iexact H4
      iintro ⟨H0, H1, H2, H3, H4⟩
      isplitl [HΦ]; · iexact HΦ
      isplitl [Ho]; · iexact Ho
      isplitl [H0]; · iexact H0
      isplitl [H1]; · iexact H1
      isplitl [H2]; · iexact H2
      isplitl [H3]; · iexact H3
      iexact H4
    · have hi3 : cfg1.idle 3 (cfg1.grid.coords t) = true := (hidle1_3 t).mpr ⟨h1, h2⟩
      have hi4 : cfg1.idle 4 (cfg1.grid.coords t) = true := (hidle1_4 t).mpr ⟨h1, h2⟩
      by_cases h7 : t.val % 8 = 7
      · -- the row's last point: the diagonal accumulators, untouched here, are written back at their running value
        rw [leaves1_flush V c 3 t ((flush1_3 t).mpr h7), leaves1_flush V c 4 t ((flush1_4 t).mpr h7), after1_3, after1_4, e3, e4, if_neg h1, if_neg h1]
        unfold step1_3 step1_4
        rw [if_neg h2, if_neg h2]
        iintro ⟨HΦ, Ho, ⟨%d0, H0⟩, ⟨%d1, H1⟩, ⟨%d2, H2⟩, ⟨%d3, H3⟩, ⟨%d4, H4⟩⟩
        iapply (run1_D c (grid1.coords t) _ _ _ _ _ _ _ _ _ _ (fun h => h1 ((hcond1_1 t).mp h)) (fun h => h2 ((hcond1_2 t).mp h)) (iblk1 V c 0 t) _ _ Set.univ _)
        isplitl [H0]; · iexact H0
        isplitl [H1]; · iexact H1
        isplitl [H2]; · iexact H2
        iintro ⟨H0, H1, H2⟩
        isplitl [HΦ]; · iexact HΦ
        isplitl [Ho]; · iexact Ho
        isplitl [H0]; · iexact H0
        isplitl [H1]; · iexact H1
        isplitl [H2]; · iexact H2
        isplitl [H3]; · iexact H3
        iexact H4
      · -- elsewhere they are handed back as found
        have hf3 : (cfg1.win 3).flush t = false := Bool.eq_false_iff.mpr fun h => h7 ((flush1_3 t).mp h)
        have hf4 : (cfg1.win 4).flush t = false := Bool.eq_false_iff.mpr fun h => h7 ((flush1_4 t).mp h)
        rw [Dat.leavesExact_idle _ 3 t hi3 hf3, Dat.leavesExact_idle _ 4 t hi4 hf4]
        simp only [before1_3_pos V c t.val t.isLt h1, before1_4_pos V c t.val t.isLt h1]
        iintro ⟨HΦ, Ho, ⟨%d0, H0⟩, ⟨%d1, H1⟩, ⟨%d2, H2⟩, ⟨%d3, H3⟩, ⟨%d4, H4⟩⟩
        iapply (run1_D c (grid1.coords t) _ _ _ _ _ _ _ _ _ _ (fun h => h1 ((hcond1_1 t).mp h)) (fun h => h2 ((hcond1_2 t).mp h)) (iblk1 V c 0 t) _ _ Set.univ _)
        isplitl [H0]; · iexact H0
        isplitl [H1]; · iexact H1
        isplitl [H2]; · iexact H2
        iintro ⟨H0, H1, H2⟩
        isplitl [HΦ]; · iexact HΦ
        isplitl [Ho]; · iexact Ho
        isplitl [H0]; · iexact H0
        isplitl [H1]; · iexact H1
        isplitl [H2]; · iexact H2
        isplitl [H3]; · iexists d3; iexact H3
        iexists d4; iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

end Region

end Cert.Kernel.Gen

end
-- ==== Proof.KB.Frame.lean ====
/-
  The whole run of @main: pallas_call 0, a stretch of host operations, pallas_call 1, a second stretch. The buffer contents at
  each boundary are a fold from the launch memory — a region's arrays at what its write-backs leave, a stretch's results
  at its operations' values — and every weakly fair execution terminates with every unscoped buffer at the last
  boundary's contents.
-/
import proofs.«160249_j59768764891231_2_alg».proof.Proof.Gen.Kernel.Launch
import proofs.«160249_j59768764891231_2_alg».proof.Proof.Gen.Kernel.Skeleton
import proofs.«160249_j59768764891231_2_alg».proof.Proof.Gen.Kernel.Points
import proofs.«160249_j59768764891231_2_alg».proof.Proof.KB.Body0
import proofs.«160249_j59768764891231_2_alg».proof.Proof.KB.Body1
import proofs.«160249_j59768764891231_2_alg».proof.Proof.Gen.Kernel.Regions
import Idealize.ShloMosaic.Lib.Pipeline.RegionsLoop
import Idealize.ShloMosaic.Lib.Pipeline.FrameSuffix
import Idealize.ShloMosaic.Lib.Pipeline.FrameBody
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch (pallas_call 0's entry). -/
abbrev rW0 : Dev nD → Valuation τ sig (Elt F) := fun c b => m ((c : Dev nD), b)
abbrev rV0 : (c : Dev nD) → (b : Ref sig .tc) → Buf (Elt F) ((c : Thread nD τ).loc b) := fun c b => rW0 m c b
/-- After pallas_call 0: its arrays at what the pipeline leaves, every other buffer as entered. -/
def rW1 (c : Dev nD) : Valuation τ sig (Elt F) :=
  Pipeline.withArrays spec0 c (rW0 m c) fun w => (dat0 (rV0 m) c).arrAt w cfg0.N
theorem rW1_arr (c : Dev nD) (w : Fin cfg0.W) :
    rW1 m c (Proc.devRef .tc (Pipeline.arrRef spec0 w)) = (dat0 (rV0 m) c).arrAt w cfg0.N := by
  unfold rW1; exact Pipeline.withArrays_arr spec0 launch0.win.arr_inj c _ _ w
theorem rW1_of_ne (c : Dev nD) (b : Ref sig .tc) (hb : ∀ w, Pipeline.arrRef spec0 w ≠ b) :
    rW1 m c (Proc.devRef .tc b) = rW0 m c (Proc.devRef .tc b) := by
  unfold rW1; exact Pipeline.withArrays_of_ne spec0 c _ _ b hb
abbrev rV1 : (c : Dev nD) → (b : Ref sig .tc) → Buf (Elt F) ((c : Thread nD τ).loc b) := fun c b => rW1 m c b
theorem rhF0 (c : Dev nD) (w : Fin cfg0.W) : (dat0 (rV0 m) c).arrAt w cfg0.N = rV1 m c (Pipeline.arrRef spec0 w) :=
  (rW1_arr m c w).symm
theorem rhrest0 (c : Dev nD) : ∀ b, b ∉ Finset.univ.image (Pipeline.arrRef spec0) → rV1 m c b = rV0 m c b :=
  fun b hb => rW1_of_ne m c b fun w e => hb (Finset.mem_image.mpr ⟨w, Finset.mem_univ _, e⟩)
/-- After the first stretch (pallas_call 1's entry). -/
abbrev rW2 : Dev nD → Valuation τ sig (Elt F) := fun c => StableHlo.after hostOps1 (rW1 m c)
abbrev rV2 : (c : Dev nD) → (b : Ref sig .tc) → Buf (Elt F) ((c : Thread nD τ).loc b) := fun c b => rW2 m c b
/-- After pallas_call 1. -/
def rW3 (c : Dev nD) : Valuation τ sig (Elt F) :=
  Pipeline.withArrays spec1 c (rW2 m c) fun w => (dat1 (rV2 m) c).arrAt w cfg1.N
theorem rW3_arr (c : Dev nD) (w : Fin cfg1.W) :
    rW3 m c (Proc.devRef .tc (Pipeline.arrRef spec1 w)) = (dat1 (rV2 m) c).arrAt w cfg1.N := by
  unfold rW3; exact Pipeline.withArrays_arr spec1 launch1.win.arr_inj c _ _ w
theorem rW3_of_ne (c : Dev nD) (b : Ref sig .tc) (hb : ∀ w, Pipeline.arrRef spec1 w ≠ b) :
    rW3 m c (Proc.devRef .tc b) = rW2 m c (Proc.devRef .tc b) := by
  unfold rW3; exact Pipeline.withArrays_of_ne spec1 c _ _ b hb
abbrev rV3 : (c : Dev nD) → (b : Ref sig .tc) → Buf (Elt F) ((c : Thread nD τ).loc b) := fun c b => rW3 m c b
theorem rhF1 (c : Dev nD) (w : Fin cfg1.W) : (dat1 (rV2 m) c).arrAt w cfg1.N = rV3 m c (Pipeline.arrRef spec1 w) :=
  (rW3_arr m c w).symm
theorem rhrest1 (c : Dev nD) : ∀ b, b ∉ Finset.univ.image (Pipeline.arrRef spec1) → rV3 m c b = rV2 m c b :=
  fun b hb => rW3_of_ne m c b fun w e => hb (Finset.mem_image.mpr ⟨w, Finset.mem_univ _, e⟩)
/-- After the second stretch: the end. -/
abbrev rW4 : Dev nD → Valuation τ sig (Elt F) := fun c => StableHlo.after hostOps2 (rW3 m c)

/-! ### The arguments end as launched: no host operation and no region writes one -/

theorem rW2_of (c : Dev nD) (r : Ref sig .tc) (h : r ∉ hostOps1_W) : rW2 m c (Proc.devRef .tc r) = rW1 m c (Proc.devRef .tc r) :=
  StableHlo.after_of_writes_sub hostOps1 _ hostOps1_writes h
theorem rW4_of (c : Dev nD) (r : Ref sig .tc) (h : r ∉ hostOps2_W) : rW4 m c (Proc.devRef .tc r) = rW3 m c (Proc.devRef .tc r) :=
  StableHlo.after_of_writes_sub hostOps2 _ hostOps2_writes h

theorem rW1_main_arg0 (c : Dev nD) : rW1 m c (Proc.devRef .tc main_arg0) = m ((c : Thread nD τ).loc main_arg0) :=
  (rW1_arr m c 0).trans (((dat0 (rV0 m) c).arrAt_in 0 rfl _).trans (A_eq0 (rV0 m) c 0))
theorem rW2_main_arg1 (c : Dev nD) : rW2 m c (Proc.devRef .tc main_arg1) = m ((c : Thread nD τ).loc main_arg1) :=
  (rW2_of m c main_arg1 (by decide)).trans (rW1_of_ne m c main_arg1 (by decide))
theorem rW4_main_arg0 (c : Dev nD) : rW4 m c (Proc.devRef .tc main_arg0) = m ((c : Thread nD τ).loc main_arg0) :=
  (rW4_of m c main_arg0 (by decide)).trans <| (rW3_of_ne m c main_arg0 (by decide)).trans <|
    (rW2_of m c main_arg0 (by decide)).trans (rW1_main_arg0 m c)
theorem rW4_main_arg1 (c : Dev nD) : rW4 m c (Proc.devRef .tc main_arg1) = m ((c : Thread nD τ).loc main_arg1) :=
  (rW4_of m c main_arg1 (by decide)).trans <| (rW3_arr m c 0).trans <|
    ((dat1 (rV2 m) c).arrAt_in 0 rfl _).trans <| (A_eq1 (rV2 m) c 0).trans (rW2_main_arg1 m c)

/-! ## The proof data family and the thread state -/

/-- Every pipeline's proof data, each at its region's entry contents. -/
def rpdats : (p : Fin 2) → (c : Dev nD) → Dat τ (Elt F) Unit ℕ (UR sig nD τ) ℕ (Pipeline.pin (pcfgs (F := F)) adm p) c
  | ⟨0, _⟩ => fun c => dat0 (rV0 m) c
  | ⟨1, _⟩ => fun c => dat1 (rV2 m) c
abbrev r𝒱₀ : Variants := Variants.none
abbrev rL : GSem nD τ sig → Finset Unit := fun _ => ∅
abbrev rlv : GSem nD τ sig → Unit → ℕ := fun _ _ => 0
/-- What rides beside the buffers through every segment: the generator register at some state, and nothing owed. -/
abbrev rR (c : Dev nD) : sProp 𝕄 := iprop((∃ r, prngReg c r) ∗ ∃ W, owes (c : Thread nD τ) (0 : CellTallies nD τ sig Unit) W)
abbrev rhseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ r𝒱₀ rL rlv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W rR
theorem rmem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev rTn (c : Dev nD) : sProp 𝕄 := iprop(StableHlo.held (c : Thread nD τ) (Pipeline.ucRefs τ sig) (rW4 m c) ∗ ∃ r, prngReg c r)

/-! ## The regions as segments -/

-- `iapply` of a library lemma stated over `pin pcs a p` unifies with the pinned configuration only when unification may
-- unfold plain definitions in a metavariable's type
set_option backward.isDefEq.respectTransparency.types false in
/-- pallas_call 0 over the thread state: entered from every unscoped buffer at `rW0`, left at `rW1`: its arrays split
    out of the unscoped buffers and put back at what the write-backs leave; the generator register into the pipeline's
    invariant and out; nothing owed; no semaphore of the kernel's own. -/
def rreg0 : Pipeline.RegionSeg (pcfgs (F := F)) adm (rpdats m) () defs₀ r𝒱₀ rL rlv 0 where
  win := launch0.win.to₀
  block_pos := launch0.block_pos
  stage_whole := launch0.stage_whole
  K := PEmpty
  osem k := k.elim
  ho := Pipeline.OwnSemFacts.none _
  hbody c := (body_obligation0 (rV0 m) c).loose
  hwaits := Pipeline.hwaits_of_owed_zero _ _ _ _ rL rlv 0 fun _ _ => rfl
  pre c := iprop(StableHlo.held (c : Thread nD τ) (Pipeline.ucRefs τ sig) (rW0 m c) ∗ rR c)
  post c := iprop(StableHlo.held (c : Thread nD τ) (Pipeline.ucRefs τ sig) (rW1 m c) ∗ rR c)
  X c := iprop(∃ r, prngReg c r)
  Y c := iprop(∃ r, prngReg c r)
  Z c := Pipeline.unscopedRest (Ix := Unit) (Name := ℕ) (U := UR sig nD τ) (Lvl := ℕ) spec0 c (rV0 m c)
  hentry c := by
    rw [Pipeline.ownSems0_none]
    have hsplit := Pipeline.arrays_of_unscopedBufs (p := 0) (pcfgs (F := F)) adm (rpdats m) launch0.win launch0.arr_whole c
      ((rpdats m 0 c).share_full fun _ => rfl) (rV0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (rpdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (rpdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (rpdats m) ((rpdats m 0 c).share_full fun _ => rfl)
      (rV0 m c) (rV1 m c) ((rpdats m 0 c).arrAt · cfg0.N) (rhF0 m c) (rhrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- pallas_call 1 over the thread state: entered from every unscoped buffer at `rW2`, left at `rW3`: its arrays split
    out of the unscoped buffers and put back at what the write-backs leave; the generator register into the pipeline's
    invariant and out; nothing owed; no semaphore of the kernel's own. -/
def rreg1 : Pipeline.RegionSeg (pcfgs (F := F)) adm (rpdats m) () defs₀ r𝒱₀ rL rlv 1 where
  win := launch1.win.to₀
  block_pos := launch1.block_pos
  stage_whole := launch1.stage_whole
  K := PEmpty
  osem k := k.elim
  ho := Pipeline.OwnSemFacts.none _
  hbody c := (body_obligation1 (rV2 m) c).loose
  hwaits := Pipeline.hwaits_of_owed_zero _ _ _ _ rL rlv 1 fun _ _ => rfl
  pre c := iprop(StableHlo.held (c : Thread nD τ) (Pipeline.ucRefs τ sig) (rW2 m c) ∗ rR c)
  post c := iprop(StableHlo.held (c : Thread nD τ) (Pipeline.ucRefs τ sig) (rW3 m c) ∗ rR c)
  X c := iprop(∃ r, prngReg c r)
  Y c := iprop(∃ r, prngReg c r)
  Z c := Pipeline.unscopedRest (Ix := Unit) (Name := ℕ) (U := UR sig nD τ) (Lvl := ℕ) spec1 c (rV2 m c)
  hentry c := by
    rw [Pipeline.ownSems0_none]
    have hsplit := Pipeline.arrays_of_unscopedBufs (p := 1) (pcfgs (F := F)) adm (rpdats m) launch1.win launch1.arr_whole c
      ((rpdats m 1 c).share_full fun _ => rfl) (rV2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (rpdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (rpdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (rpdats m) ((rpdats m 1 c).share_full fun _ => rfl)
      (rV2 m c) (rV3 m c) ((rpdats m 1 c).arrAt · cfg1.N) (rhF1 m c) (rhrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev rsegs : List (Pipeline.Seg (pcfgs (F := F)) adm (rpdats m) () defs₀ r𝒱₀ rL rlv) :=
  [ .region (rreg0 m),
    .host (rhseg hostOps1 hostOps1_sub hostOps1_fresh (rW1 m)),
    .region (rreg1 m),
    .host (rhseg hostOps2 hostOps2_sub hostOps2_fresh (rW3 m)) ]

-- the kit's implicit arguments are found by unifying its conclusion with this one, which takes unfolding plain
-- definitions in a metavariable's type
set_option backward.isDefEq.respectTransparency.types false in
/-- THE RUN. From any memory with zero counters every weakly fair execution of @main on the TensorCores terminates, nothing
    faulting, and every final state has every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = rW4 m c b) :=
  Pipeline.θ_run_regions_kit (pcfgs (F := F)) adm (rpdats m) () cellOf_inj emb₁ defs₀ r𝒱₀ rL rlv m ρ main (rsegs m)
    (fun c Q => by
      rewrite [main_chain c, Pipeline.Seg.run_eq_chain,
        show (rsegs m).map Pipeline.Seg.prog = [
          Prog.lift (.customCall (Pipeline.entry 0) ()),
          StableHlo.seq hostOps1,
          Prog.lift (.customCall (Pipeline.entry 1) ()),
          StableHlo.seq hostOps2 ] from rfl]
      exact .rfl)
    (by simp only [rsegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (rW0 m c) ∗ rR c)) (Tₙ := rTn m)
    (hch := ⟨fun _ => .rfl, fun _ => .rfl, fun _ => .rfl, fun _ => .rfl, fun c => by
      show (iprop(StableHlo.held (c : Thread nD τ) (Pipeline.ucRefs τ sig) (rW4 m c) ∗ rR c) : sProp 𝕄) ⊢ _
      iintro ⟨Hh, Hp, HO⟩
      isplitl [Hh Hp]
      · isplitl [Hh]; · iexact Hh
        iexact Hp
      iexact HO⟩)
    (hinit := by
      refine Pipeline.initEach rL rlv fun c => ?_
      rw [show unscopedBufs c (fun b => m ((c : Thread nD τ).loc b)) = StableHlo.held (c : Thread nD τ) (Pipeline.ucRefs τ sig) (rW0 m c)
        from Pipeline.unscopedBufs_held c (rW0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = rW4 m c b)
    (hfin := fun c s' => by
      iintro ⟨⟨Hh, -⟩, HSI⟩
      unfold StableHlo.held
      imodintro
      iapply (pointsTo_read_all (Pipeline.ucRefs τ sig) (fun b => (((c : Thread nD τ)).1, b)) (rW4 m c) s')
      isplitl [Hh] <;> iassumption)
    (hQ := fun s h c => h c)

/-- THE FRAME: the arguments end as launched. -/
theorem frame_all : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(h c _ (rmem_uc main_arg0 (by decide))).trans (rW4_main_arg0 m c),
     (h c _ (rmem_uc main_arg1 (by decide))).trans (rW4_main_arg1 m c)⟩) (run_all m ρ)

end Cert.Kernel.Gen

end
-- ==== Proof.KI.Runs0.lean ====
/-
  The body of pallas_call 0 run case by case on whole staging buffers: what each of the four accumulators holds
  after the body, as a function of the input block and of what the accumulator held before.
-/
import proofs.«160249_j59768764891231_2_alg».proof.Proof.Gen.KernelIdeal.Launch
import proofs.«160249_j59768764891231_2_alg».proof.Proof.Gen.KernelIdeal.Skeleton
import proofs.«160249_j59768764891231_2_alg».proof.Proof.Gen.KernelIdeal.Points
import Idealize.ShloMosaic.Lib.Pipeline.Value
import Idealize.ShloMosaic.Lib.Pipeline.FrameBody
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Whole-buffer accesses

Every access of the body is through the rectangle that is the whole staging buffer, at zero offsets: a load reads the
buffer's contents, and the last store's payload is what the buffer holds. -/

theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- The last store through the whole-buffer rectangle decides what the buffer reads back. -/
theorem read_writes_whole {sig : RefSig} {κ : Kind} {sp : Space} {S : Shape} {e : EltTy} {Val : EltTy → Type} [∀ e, Nonempty (Val e)]
    (v : View sig κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  rw [View.read_writes_eq_canon _ _ _ (fun y => ⟨_, List.mem_cons_self, View.mem_set_unit_zero h inb y⟩), View.canon_cons_unit_zero h]

/-! ## The body, case by case

The body has two conditionals on the grid point (b, c): "c = 0" (zero the four accumulators) and "b = c" (also add
this block's sums to the two diagonal accumulators). Every store is of a whole buffer, so after the body each
accumulator holds its last store's payload, as a function of the input block `x0` and of what the accumulator held
(`a·`) where the body reads it before storing. -/

set_option maxHeartbeats 4000000 in
/-- c = 0 and b = c: all four accumulators are zeroed, then all four take this block's sums. -/
theorem run0_A (c : Dev nD) (i : grid0.Coords) (arg2 : Memref sig .tc .vmem S1x1x1024x1024 .f32) (harg2 : arg2.IsWhole)
    (arg3 : Memref sig .tc .vmem S1x8x128 .f32) (harg3 : arg3.IsWhole) (arg4 : Memref sig .tc .vmem S1x8x128 .f32) (harg4 : arg4.IsWhole)
    (arg5 : Memref sig .tc .vmem S1x8x128 .f32) (harg5 : arg5.IsWhole) (arg6 : Memref sig .tc .vmem S1x8x128 .f32) (harg6 : arg6.IsWhole)
    (hc1 : k0_cond1 i = 1#1) (hc2 : k0_cond2 i = 1#1)
    (x0 : Vec F S1x1x1024x1024 .f32) (E : Set ℕ) (K : PUnit → sProp 𝕄) :
    iprop(owns (c : Thread nD τ) arg2 fullShare x0 ∗ (∃ d, owns (c : Thread nD τ) arg3 fullShare d) ∗ (∃ d, owns (c : Thread nD τ) arg4 fullShare d)
        ∗ (∃ d, owns (c : Thread nD τ) arg5 fullShare d) ∗ (∃ d, owns (c : Thread nD τ) arg6 fullShare d)
        ∗ (iprop(owns (c : Thread nD τ) arg2 fullShare x0 ∗ owns (c : Thread nD τ) arg3 fullShare (k0_pay10 x0 k0_pay3) ∗ owns (c : Thread nD τ) arg4 fullShare (k0_pay11 x0 k0_pay4)
            ∗ owns (c : Thread nD τ) arg5 fullShare (k0_pay1 (k0_pay8 x0) k0_pay5) ∗ owns (c : Thread nD τ) arg6 fullShare (k0_pay2 (k0_pay9 x0) k0_pay6)) -∗ K ⟨⟩))
      ⊢ wp frame (wpE (defs₀ (F := F)) Variants.none c none) E (cc0__stats_kernel i arg2 harg2 arg3 harg3 arg4 harg4 arg5 harg5 arg6 harg6) K := by
  simp only [cc0__stats_kernel_eq_skeleton]; unfold cc0__stats_kernel_skel
  simp only [k0_part1_eq_skeleton]; unfold k0_part1_skel
  unfold owns
  iintro ⟨⟨%f0, %hf0, H0⟩, ⟨%d1, %f1, -, H1⟩, ⟨%d2, %f2, -, H2⟩, ⟨%d3, %f3, -, H3⟩, ⟨%d4, %f4, -, H4⟩, Hk⟩
  obtain rfl := harg2.eq_unread hf0
  sl_exec (disch := first | exact hc1 | exact hc2)
  sl_step
  iapply Hk
  isplitl [H0]
  · iexists _; isplitr; · ipureintro; exact harg2.read_unread _
    iexact H0
  isplitl [H1]
  · iexists _; isplitr; swap; · iexact H1
    ipureintro; sl_unfold_words; simp only [read_writes_whole (S := S1x8x128) _ _ hz3, View.readAt_eq_ld, harg2.read_unread, View.ld_unit_zero (S := S1x1x1024x1024) hz4, View.ld_unit_zero (S := S1x8x128) hz3, View.readCov_unit_zero (S := S1x8x128) _ hz3]
  isplitl [H2]
  · iexists _; isplitr; swap; · iexact H2
    ipureintro; sl_unfold_words; simp only [read_writes_whole (S := S1x8x128) _ _ hz3, View.readAt_eq_ld, harg2.read_unread, View.ld_unit_zero (S := S1x1x1024x1024) hz4, View.ld_unit_zero (S := S1x8x128) hz3, View.readCov_unit_zero (S := S1x8x128) _ hz3]
  isplitl [H3]
  · iexists _; isplitr; swap; · iexact H3
    ipureintro; sl_unfold_words; simp only [read_writes_whole (S := S1x8x128) _ _ hz3, View.readAt_eq_ld, harg2.read_unread, View.ld_unit_zero (S := S1x1x1024x1024) hz4, View.ld_unit_zero (S := S1x8x128) hz3, View.readCov_unit_zero (S := S1x8x128) _ hz3]
  iexists _; isplitr; swap; · iexact H4
  ipureintro; sl_unfold_words; simp only [read_writes_whole (S := S1x8x128) _ _ hz3, View.readAt_eq_ld, harg2.read_unread, View.ld_unit_zero (S := S1x1x1024x1024) hz4, View.ld_unit_zero (S := S1x8x128) hz3, View.readCov_unit_zero (S := S1x8x128) _ hz3]

set_option maxHeartbeats 4000000 in
/-- c = 0 and b ≠ c: all four accumulators are zeroed, the two whole-item ones take this block's sums. -/
theorem run0_B (c : Dev nD) (i : grid0.Coords) (arg2 : Memref sig .tc .vmem S1x1x1024x1024 .f32) (harg2 : arg2.IsWhole)
    (arg3 : Memref sig .tc .vmem S1x8x128 .f32) (harg3 : arg3.IsWhole) (arg4 : Memref sig .tc .vmem S1x8x128 .f32) (harg4 : arg4.IsWhole)
    (arg5 : Memref sig .tc .vmem S1x8x128 .f32) (harg5 : arg5.IsWhole) (arg6 : Memref sig .tc .vmem S1x8x128 .f32) (harg6 : arg6.IsWhole)
    (hc1 : k0_cond1 i = 1#1) (hc2 : ¬ k0_cond2 i = 1#1)
    (x0 : Vec F S1x1x1024x1024 .f32) (E : Set ℕ) (K : PUnit → sProp 𝕄) :
    iprop(owns (c : Thread nD τ) arg2 fullShare x0 ∗ (∃ d, owns (c : Thread nD τ) arg3 fullShare d) ∗ (∃ d, owns (c : Thread nD τ) arg4 fullShare d)
        ∗ (∃ d, owns (c : Thread nD τ) arg5 fullShare d) ∗ (∃ d, owns (c : Thread nD τ) arg6 fullShare d)
        ∗ (iprop(owns (c : Thread nD τ) arg2 fullShare x0 ∗ owns (c : Thread nD τ) arg3 fullShare (k0_pay10 x0 k0_pay3) ∗ owns (c : Thread nD τ) arg4 fullShare (k0_pay11 x0 k0_pay4)
            ∗ owns (c : Thread nD τ) arg5 fullShare (k0_pay5 (F := F)) ∗ owns (c : Thread nD τ) arg6 fullShare (k0_pay6 (F := F))) -∗ K ⟨⟩))
      ⊢ wp frame (wpE (defs₀ (F := F)) Variants.none c none) E (cc0__stats_kernel i arg2 harg2 arg3 harg3 arg4 harg4 arg5 harg5 arg6 harg6) K := by
  simp only [cc0__stats_kernel_eq_skeleton]; unfold cc0__stats_kernel_skel
  simp only [k0_part1_eq_skeleton]; unfold k0_part1_skel
  unfold owns
  iintro ⟨⟨%f0, %hf0, H0⟩, ⟨%d1, %f1, -, H1⟩, ⟨%d2, %f2, -, H2⟩, ⟨%d3, %f3, -, H3⟩, ⟨%d4, %f4, -, H4⟩, Hk⟩
  obtain rfl := harg2.eq_unread hf0
  sl_exec (disch := first | exact hc1 | exact hc2)
  sl_step
  iapply Hk
  isplitl [H0]
  · iexists _; isplitr; · ipureintro; exact harg2.read_unread _
    iexact H0
  isplitl [H1]
  · iexists _; isplitr; swap; · iexact H1
    ipureintro; sl_unfold_words; simp only [read_writes_whole (S := S1x8x128) _ _ hz3, View.readAt_eq_ld, harg2.read_unread, View.ld_unit_zero (S := S1x1x1024x1024) hz4, View.ld_unit_zero (S := S1x8x128) hz3, View.readCov_unit_zero (S := S1x8x128) _ hz3]
  isplitl [H2]
  · iexists _; isplitr; swap; · iexact H2
    ipureintro; sl_unfold_words; simp only [read_writes_whole (S := S1x8x128) _ _ hz3, View.readAt_eq_ld, harg2.read_unread, View.ld_unit_zero (S := S1x1x1024x1024) hz4, View.ld_unit_zero (S := S1x8x128) hz3, View.readCov_unit_zero (S := S1x8x128) _ hz3]
  isplitl [H3]
  · iexists _; isplitr; swap; · iexact H3
    ipureintro; sl_unfold_words; simp only [read_writes_whole (S := S1x8x128) _ _ hz3, View.readAt_eq_ld, harg2.read_unread, View.ld_unit_zero (S := S1x1x1024x1024) hz4, View.ld_unit_zero (S := S1x8x128) hz3, View.readCov_unit_zero (S := S1x8x128) _ hz3]
  iexists _; isplitr; swap; · iexact H4
  ipureintro; sl_unfold_words; simp only [read_writes_whole (S := S1x8x128) _ _ hz3, View.readAt_eq_ld, harg2.read_unread, View.ld_unit_zero (S := S1x1x1024x1024) hz4, View.ld_unit_zero (S := S1x8x128) hz3, View.readCov_unit_zero (S := S1x8x128) _ hz3]

set_option maxHeartbeats 4000000 in
/-- c ≠ 0 and b = c: all four accumulators, at `a·`, take this block's sums. -/
theorem run0_C (c : Dev nD) (i : grid0.Coords) (arg2 : Memref sig .tc .vmem S1x1x1024x1024 .f32) (harg2 : arg2.IsWhole)
    (arg3 : Memref sig .tc .vmem S1x8x128 .f32) (harg3 : arg3.IsWhole) (arg4 : Memref sig .tc .vmem S1x8x128 .f32) (harg4 : arg4.IsWhole)
    (arg5 : Memref sig .tc .vmem S1x8x128 .f32) (harg5 : arg5.IsWhole) (arg6 : Memref sig .tc .vmem S1x8x128 .f32) (harg6 : arg6.IsWhole)
    (hc1 : ¬ k0_cond1 i = 1#1) (hc2 : k0_cond2 i = 1#1)
    (x0 : Vec F S1x1x1024x1024 .f32) (a1 a2 a3 a4 : Vec F S1x8x128 .f32) (E : Set ℕ) (K : PUnit → sProp 𝕄) :
    iprop(owns (c : Thread nD τ) arg2 fullShare x0 ∗ owns (c : Thread nD τ) arg3 fullShare a1 ∗ owns (c : Thread nD τ) arg4 fullShare a2
        ∗ owns (c : Thread nD τ) arg5 fullShare a3 ∗ owns (c : Thread nD τ) arg6 fullShare a4
        ∗ (iprop(owns (c : Thread nD τ) arg2 fullShare x0 ∗ owns (c : Thread nD τ) arg3 fullShare (k0_pay10 x0 a1) ∗ owns (c : Thread nD τ) arg4 fullShare (k0_pay11 x0 a2)
            ∗ owns (c : Thread nD τ) arg5 fullShare (k0_pay1 (k0_pay8 x0) a3) ∗ owns (c : Thread nD τ) arg6 fullShare (k0_pay2 (k0_pay9 x0) a4)) -∗ K ⟨⟩))
      ⊢ wp frame (wpE (defs₀ (F := F)) Variants.none c none) E (cc0__stats_kernel i arg2 harg2 arg3 harg3 arg4 harg4 arg5 harg5 arg6 harg6) K := by
  simp only [cc0__stats_kernel_eq_skeleton]; unfold cc0__stats_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, Hk⟩
  obtain rfl := harg2.eq_unread hf0; obtain rfl := harg3.eq_unread hf1; obtain rfl := harg4.eq_unread hf2
  obtain rfl := harg5.eq_unread hf3; obtain rfl := harg6.eq_unread hf4
  sl_exec (disch := first | exact hc1 | exact hc2)
  sl_step
  iapply Hk
  isplitl [H0]
  · iexists _; isplitr; · ipureintro; exact harg2.read_unread _
    iexact H0
  isplitl [H1]
  · iexists _; isplitr; swap; · iexact H1
    ipureintro; sl_unfold_words; simp only [read_writes_whole (S := S1x8x128) _ _ hz3, View.readAt_eq_ld, harg2.read_unread, harg3.read_unread, View.ld_unit_zero (S := S1x1x1024x1024) hz4, View.ld_unit_zero (S := S1x8x128) hz3, View.readCov_unit_zero (S := S1x8x128) _ hz3]
  isplitl [H2]
  · iexists _; isplitr; swap; · iexact H2
    ipureintro; sl_unfold_words; simp only [read_writes_whole (S := S1x8x128) _ _ hz3, View.readAt_eq_ld, harg2.read_unread, harg4.read_unread, View.ld_unit_zero (S := S1x1x1024x1024) hz4, View.ld_unit_zero (S := S1x8x128) hz3, View.readCov_unit_zero (S := S1x8x128) _ hz3]
  isplitl [H3]
  · iexists _; isplitr; swap; · iexact H3
    ipureintro; sl_unfold_words; simp only [read_writes_whole (S := S1x8x128) _ _ hz3, View.readAt_eq_ld, harg2.read_unread, harg5.read_unread, View.ld_unit_zero (S := S1x1x1024x1024) hz4, View.ld_unit_zero (S := S1x8x128) hz3, View.readCov_unit_zero (S := S1x8x128) _ hz3]
  iexists _; isplitr; swap; · iexact H4
  ipureintro; sl_unfold_words; simp only [read_writes_whole (S := S1x8x128) _ _ hz3, View.readAt_eq_ld, harg2.read_unread, harg6.read_unread, View.ld_unit_zero (S := S1x1x1024x1024) hz4, View.ld_unit_zero (S := S1x8x128) hz3, View.readCov_unit_zero (S := S1x8x128) _ hz3]

set_option maxHeartbeats 4000000 in
/-- c ≠ 0 and b ≠ c: the two whole-item accumulators, at `a·`, take this block's sums; the diagonal ones are not touched. -/
theorem run0_D (c : Dev nD) (i : grid0.Coords) (arg2 : Memref sig .tc .vmem S1x1x1024x1024 .f32) (harg2 : arg2.IsWhole)
    (arg3 : Memref sig .tc .vmem S1x8x128 .f32) (harg3 : arg3.IsWhole) (arg4 : Memref sig .tc .vmem S1x8x128 .f32) (harg4 : arg4.IsWhole)
    (arg5 : Memref sig .tc .vmem S1x8x128 .f32) (harg5 : arg5.IsWhole) (arg6 : Memref sig .tc .vmem S1x8x128 .f32) (harg6 : arg6.IsWhole)
    (hc1 : ¬ k0_cond1 i = 1#1) (hc2 : ¬ k0_cond2 i = 1#1)
    (x0 : Vec F S1x1x1024x1024 .f32) (a1 a2 : Vec F S1x8x128 .f32) (E : Set ℕ) (K : PUnit → sProp 𝕄) :
    iprop(owns (c : Thread nD τ) arg2 fullShare x0 ∗ owns (c : Thread nD τ) arg3 fullShare a1 ∗ owns (c : Thread nD τ) arg4 fullShare a2
        ∗ (iprop(owns (c : Thread nD τ) arg2 fullShare x0 ∗ owns (c : Thread nD τ) arg3 fullShare (k0_pay10 x0 a1) ∗ owns (c : Thread nD τ) arg4 fullShare (k0_pay11 x0 a2)) -∗ K ⟨⟩))
      ⊢ wp frame (wpE (defs₀ (F := F)) Variants.none c none) E (cc0__stats_kernel i arg2 harg2 arg3 harg3 arg4 harg4 arg5 harg5 arg6 harg6) K := by
  simp only [cc0__stats_kernel_eq_skeleton]; unfold cc0__stats_kernel_skel
  simp only [k0_part1_eq_skeleton]; unfold k0_part1_skel
  unfold owns
  iintro ⟨⟨%f0, %hf0, H0⟩, ⟨%f1, %hf1, H1⟩, ⟨%f2, %hf2, H2⟩, Hk⟩
  obtain rfl := harg2.eq_unread hf0; obtain rfl := harg3.eq_unread hf1; obtain rfl := harg4.eq_unread hf2
  sl_exec (disch := first | exact hc1 | exact hc2)
  sl_step
  iapply Hk
  isplitl [H0]
  · iexists _; isplitr; · ipureintro; exact harg2.read_unread _
    iexact H0
  isplitl [H1]
  · iexists _; isplitr; swap; · iexact H1
    ipureintro; simp only [read_writes_whole (S := S1x8x128) _ _ hz3, View.readAt_eq_ld, harg2.read_unread, harg3.read_unread, View.ld_unit_zero (S := S1x1x1024x1024) hz4, View.ld_unit_zero (S := S1x8x128) hz3, View.readCov_unit_zero (S := S1x8x128) _ hz3]
  iexists _; isplitr; swap; · iexact H2
  ipureintro; simp only [read_writes_whole (S := S1x8x128) _ _ hz3, View.readAt_eq_ld, harg2.read_unread, harg4.read_unread, View.ld_unit_zero (S := S1x1x1024x1024) hz4, View.ld_unit_zero (S := S1x8x128) hz3, View.readCov_unit_zero (S := S1x8x128) _ hz3]

end Cert.KernelIdeal.Gen

end
-- ==== Proof.KI.Dat0.lean ====
/-
  pallas_call 0: what the four accumulators hold point by point, the pipeline's proof data over them, and what each
  staging buffer holds when the body runs.
-/
import proofs.«160249_j59768764891231_2_alg».proof.Proof.Gen.KernelIdeal.Launch
import proofs.«160249_j59768764891231_2_alg».proof.Proof.Gen.KernelIdeal.Skeleton
import proofs.«160249_j59768764891231_2_alg».proof.Proof.Gen.KernelIdeal.Points
import proofs.«160249_j59768764891231_2_alg».proof.Proof.KI.Runs0
import Idealize.ShloMosaic.Lib.Pipeline.FrameBody
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region

/-! # pallas_call 0: the accumulators point by point, and the body obligation

The grid is 8 × 8, point n = 8·b + c. Window 0 is the image block (b, c), fetched at every point. Windows 1–4 are the four
accumulator tiles of batch item b: their block index depends on b only, so each is carried in its staging buffer across
c = 0 … 7 and written back after c = 7. The body zeroes all four at c = 0, adds the block's sum and sum of squares to
windows 1 and 2 at every point, and to windows 3 and 4 at the point b = c only; at the other points windows 3 and 4 are
not touched and keep what they held. -/

-- the TensorCore's buffer contents when the region is entered
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's staging buffer holds its block at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-! ## The conditions in closed form -/

/-- "c = 0" at point n is n % 8 = 0. -/
theorem hcond0_1 : ∀ t : Fin cfg0.N, k0_cond1 (grid0.coords t) = 1#1 ↔ t.val % 8 = 0 :=
  (by decide +kernel : ∀ t : Fin grid0.N, k0_cond1 (grid0.coords t) = 1#1 ↔ t.val % 8 = 0)
/-- "b = c" at point n is n / 8 = n % 8. -/
theorem hcond0_2 : ∀ t : Fin cfg0.N, k0_cond2 (grid0.coords t) = 1#1 ↔ t.val / 8 = t.val % 8 :=
  (by decide +kernel : ∀ t : Fin grid0.N, k0_cond2 (grid0.coords t) = 1#1 ↔ t.val / 8 = t.val % 8)
/-- The diagonal accumulators are untouched exactly where neither holds. -/
theorem hidle0_3 : ∀ t : Fin cfg0.N, cfg0.idle 3 (cfg0.grid.coords t) = true ↔ (¬ t.val % 8 = 0 ∧ ¬ t.val / 8 = t.val % 8) :=
  (by decide +kernel : ∀ t : Fin grid0.N, cfg0.idle 3 (cfg0.grid.coords t) = true ↔ (¬ t.val % 8 = 0 ∧ ¬ t.val / 8 = t.val % 8))
theorem hidle0_4 : ∀ t : Fin cfg0.N, cfg0.idle 4 (cfg0.grid.coords t) = true ↔ (¬ t.val % 8 = 0 ∧ ¬ t.val / 8 = t.val % 8) :=
  (by decide +kernel : ∀ t : Fin grid0.N, cfg0.idle 4 (cfg0.grid.coords t) = true ↔ (¬ t.val % 8 = 0 ∧ ¬ t.val / 8 = t.val % 8))

/-! ## The accumulators -/

/-- A diagonal accumulator's step at point n: add the block's sum where b = c, else keep. -/
def step0_3 (x : Vec F S1x1x1024x1024 .f32) (n : ℕ) (p : Vec F S1x8x128 .f32) : Vec F S1x8x128 .f32 :=
  if n / 8 = n % 8 then k0_pay1 (k0_pay8 x) p else p
def step0_4 (x : Vec F S1x1x1024x1024 .f32) (n : ℕ) (p : Vec F S1x8x128 .f32) : Vec F S1x8x128 .f32 :=
  if n / 8 = n % 8 then k0_pay2 (k0_pay9 x) p else p

/-- Window 1 (sums) after the body at point n: zero at c = 0, else what the point before left, plus this block's sum. -/
def acc0_1 (c : Dev nD) : (n : ℕ) → n < cfg0.N → Vec F S1x8x128 .f32
  | 0, hn => k0_pay10 (iblk0 V c 0 ⟨0, hn⟩) k0_pay3
  | n + 1, hn => k0_pay10 (iblk0 V c 0 ⟨n + 1, hn⟩) (if (n + 1) % 8 = 0 then k0_pay3 else acc0_1 c n (Nat.lt_of_succ_lt hn))
/-- Window 2 (sums of squares). -/
def acc0_2 (c : Dev nD) : (n : ℕ) → n < cfg0.N → Vec F S1x8x128 .f32
  | 0, hn => k0_pay11 (iblk0 V c 0 ⟨0, hn⟩) k0_pay4
  | n + 1, hn => k0_pay11 (iblk0 V c 0 ⟨n + 1, hn⟩) (if (n + 1) % 8 = 0 then k0_pay4 else acc0_2 c n (Nat.lt_of_succ_lt hn))
/-- Window 3 (diagonal sums). -/
def acc0_3 (c : Dev nD) : (n : ℕ) → n < cfg0.N → Vec F S1x8x128 .f32
  | 0, hn => step0_3 (iblk0 V c 0 ⟨0, hn⟩) 0 k0_pay5
  | n + 1, hn => step0_3 (iblk0 V c 0 ⟨n + 1, hn⟩) (n + 1) (if (n + 1) % 8 = 0 then k0_pay5 else acc0_3 c n (Nat.lt_of_succ_lt hn))
/-- Window 4 (diagonal sums of squares). -/
def acc0_4 (c : Dev nD) : (n : ℕ) → n < cfg0.N → Vec F S1x8x128 .f32
  | 0, hn => step0_4 (iblk0 V c 0 ⟨0, hn⟩) 0 k0_pay6
  | n + 1, hn => step0_4 (iblk0 V c 0 ⟨n + 1, hn⟩) (n + 1) (if (n + 1) % 8 = 0 then k0_pay6 else acc0_4 c n (Nat.lt_of_succ_lt hn))

theorem acc0_1_eq (c : Dev nD) (t : Fin cfg0.N) :
    acc0_1 V c t.val t.isLt = k0_pay10 (iblk0 V c 0 t)
      (if t.val % 8 = 0 then k0_pay3 else acc0_1 V c (t.val - 1) (Nat.lt_of_le_of_lt (Nat.sub_le _ _) t.isLt)) := by
  obtain ⟨n, hn⟩ := t
  cases n with
  | zero => rfl
  | succ n => rfl
theorem acc0_2_eq (c : Dev nD) (t : Fin cfg0.N) :
    acc0_2 V c t.val t.isLt = k0_pay11 (iblk0 V c 0 t)
      (if t.val % 8 = 0 then k0_pay4 else acc0_2 V c (t.val - 1) (Nat.lt_of_le_of_lt (Nat.sub_le _ _) t.isLt)) := by
  obtain ⟨n, hn⟩ := t
  cases n with
  | zero => rfl
  | succ n => rfl
theorem acc0_3_eq (c : Dev nD) (t : Fin cfg0.N) :
    acc0_3 V c t.val t.isLt = step0_3 (iblk0 V c 0 t) t.val
      (if t.val % 8 = 0 then k0_pay5 else acc0_3 V c (t.val - 1) (Nat.lt_of_le_of_lt (Nat.sub_le _ _) t.isLt)) := by
  obtain ⟨n, hn⟩ := t
  cases n with
  | zero => rfl
  | succ n => rfl
theorem acc0_4_eq (c : Dev nD) (t : Fin cfg0.N) :
    acc0_4 V c t.val t.isLt = step0_4 (iblk0 V c 0 t) t.val
      (if t.val % 8 = 0 then k0_pay6 else acc0_4 V c (t.val - 1) (Nat.lt_of_le_of_lt (Nat.sub_le _ _) t.isLt)) := by
  obtain ⟨n, hn⟩ := t
  cases n with
  | zero => rfl
  | succ n => rfl

/-! ## The proof data -/

/-- The arrays as the region finds them; after the body at point `t` the input's buffer at its block, each accumulator's
    at its running value (also where the body does not touch it: it keeps the value). -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => acc0_1 V c t.val t.isLt
    | ⟨2, _⟩ => acc0_2 V c t.val t.isLt
    | ⟨3, _⟩ => acc0_3 V c t.val t.isLt
    | ⟨4, _⟩ => acc0_4 V c t.val t.isLt
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = acc0_1 V c t.val t.isLt := by dsimp only [dat0]
theorem after0_2 (c : Dev nD) (t : Fin cfg0.N) : (dat0 V c).after 2 t = acc0_2 V c t.val t.isLt := by dsimp only [dat0]
theorem after0_3 (c : Dev nD) (t : Fin cfg0.N) : (dat0 V c).after 3 t = acc0_3 V c t.val t.isLt := by dsimp only [dat0]
theorem after0_4 (c : Dev nD) (t : Fin cfg0.N) : (dat0 V c).after 4 t = acc0_4 V c t.val t.isLt := by dsimp only [dat0]

/-! ## What each staging buffer holds when the body runs -/

theorem before0_0 (c : Dev nD) (t : Fin cfg0.N) (d) : (dat0 V c).before 0 t d = iblk0 V c 0 t :=
  before0_0_of V (dat0 V c) (A_eq0 V c 0) (after0_0 V c) t d

/-- Away from c = 0 a whole-item accumulator holds what the point before left: no write-back in between. -/
theorem before0_1_pos (c : Dev nD) (t : Fin cfg0.N) (h0 : ¬ t.val % 8 = 0) (d) :
    (dat0 V c).before 1 t d = acc0_1 V c (t.val - 1) (Nat.lt_of_le_of_lt (Nat.sub_le _ _) t.isLt) := by
  have hN : t.val < 64 := lt_of_lt_of_eq t.isLt (show cfg0.N = 64 from N_0)
  rw [Dat.before_out_kept _ 1 rfl t (by omega) (Bool.eq_false_iff.mpr fun h => by have := (flush0_1 _).mp h; dsimp only at this; omega)
    (fun _ => rfl) (fun _ _ => rfl)]
  dsimp only [dat0]
theorem before0_2_pos (c : Dev nD) (t : Fin cfg0.N) (h0 : ¬ t.val % 8 = 0) (d) :
    (dat0 V c).before 2 t d = acc0_2 V c (t.val - 1) (Nat.lt_of_le_of_lt (Nat.sub_le _ _) t.isLt) := by
  have hN : t.val < 64 := lt_of_lt_of_eq t.isLt (show cfg0.N = 64 from N_0)
  rw [Dat.before_out_kept _ 2 rfl t (by omega) (Bool.eq_false_iff.mpr fun h => by have := (flush0_2 _).mp h; dsimp only at this; omega)
    (fun _ => rfl) (fun _ _ => rfl)]
  dsimp only [dat0]

/-- What a live point leaves in a diagonal accumulator's (uncut) buffer is all of `after`. -/
theorem kept0_3 (c : Dev nD) (t : Fin cfg0.N) (d) : (dat0 V c).kept 3 t d = acc0_3 V c t.val t.isLt := by
  unfold Dat.kept
  rw [Pipeline.fill_of_clip_none (cfg := cfg0) 3 _ (fun _ => rfl) d ((dat0 V c).after 3 t), Window.fill_cut]
  dsimp only [dat0]
theorem kept0_4 (c : Dev nD) (t : Fin cfg0.N) (d) : (dat0 V c).kept 4 t d = acc0_4 V c t.val t.isLt := by
  unfold Dat.kept
  rw [Pipeline.fill_of_clip_none (cfg := cfg0) 4 _ (fun _ => rfl) d ((dat0 V c).after 4 t), Window.fill_cut]
  dsimp only [dat0]

/-- Away from c = 0 a diagonal accumulator holds its running value of the point before — through any run of points
    that did not touch it, by induction on the point. -/
theorem before0_3_pos (c : Dev nD) : ∀ (n : ℕ) (hn : n < cfg0.N), ¬ n % 8 = 0 → ∀ d,
    (dat0 V c).before 3 ⟨n, hn⟩ d = acc0_3 V c (n - 1) (Nat.lt_of_le_of_lt (Nat.sub_le _ _) hn) := by
  intro n
  induction n using Nat.strong_induction_on with
  | _ n ih =>
    intro hn h0 d
    have hN : n < 64 := lt_of_lt_of_eq hn (show cfg0.N = 64 from N_0)
    have hn0 : n ≠ 0 := fun h => h0 (by rw [h])
    rw [Dat.before_of_pos _ 3 ⟨n, hn⟩ hn0 ((cfg0.win 3).fetch_out rfl _) d,
      if_neg (fun h => by have := (flush0_3 _).mp h; dsimp only at this; omega)]
    unfold Dat.left
    by_cases hi : cfg0.idle 3 (cfg0.grid.coords ⟨n - 1, Nat.lt_of_le_of_lt (Nat.sub_le _ _) hn⟩) = true
    · rw [hi]
      have hc := (hidle0_3 _).mp hi
      dsimp only at hc ⊢
      rw [ih (n - 1) (by omega) _ hc.1 d]
      have e := acc0_3_eq V c ⟨n - 1, Nat.lt_of_le_of_lt (Nat.sub_le _ _) hn⟩
      dsimp only at e
      rw [e, if_neg hc.1]; unfold step0_3; rw [if_neg hc.2]
    · rw [Bool.not_eq_true] at hi
      rw [hi]
      exact kept0_3 V c _ d
theorem before0_4_pos (c : Dev nD) : ∀ (n : ℕ) (hn : n < cfg0.N), ¬ n % 8 = 0 → ∀ d,
    (dat0 V c).before 4 ⟨n, hn⟩ d = acc0_4 V c (n - 1) (Nat.lt_of_le_of_lt (Nat.sub_le _ _) hn) := by
  intro n
  induction n using Nat.strong_induction_on with
  | _ n ih =>
    intro hn h0 d
    have hN : n < 64 := lt_of_lt_of_eq hn (show cfg0.N = 64 from N_0)
    have hn0 : n ≠ 0 := fun h => h0 (by rw [h])
    rw [Dat.before_of_pos _ 4 ⟨n, hn⟩ hn0 ((cfg0.win 4).fetch_out rfl _) d,
      if_neg (fun h => by have := (flush0_4 _).mp h; dsimp only at this; omega)]
    unfold Dat.left
    by_cases hi : cfg0.idle 4 (cfg0.grid.coords ⟨n - 1, Nat.lt_of_le_of_lt (Nat.sub_le _ _) hn⟩) = true
    · rw [hi]
      have hc := (hidle0_4 _).mp hi
      dsimp only at hc ⊢
      rw [ih (n - 1) (by omega) _ hc.1 d]
      have e := acc0_4_eq V c ⟨n - 1, Nat.lt_of_le_of_lt (Nat.sub_le _ _) hn⟩
      dsimp only at e
      rw [e, if_neg hc.1]; unfold step0_4; rw [if_neg hc.2]
    · rw [Bool.not_eq_true] at hi
      rw [hi]
      exact kept0_4 V c _ d

end Region

end Cert.KernelIdeal.Gen

end
-- ==== Proof.KI.Body0.lean ====
/-
  pallas_call 0: the body obligation — at every grid point the body, handed each staging buffer at what it then holds,
  leaves each at what the proof data say.
-/
import proofs.«160249_j59768764891231_2_alg».proof.Proof.Gen.KernelIdeal.Launch
import proofs.«160249_j59768764891231_2_alg».proof.Proof.Gen.KernelIdeal.Skeleton
import proofs.«160249_j59768764891231_2_alg».proof.Proof.Gen.KernelIdeal.Points
import proofs.«160249_j59768764891231_2_alg».proof.Proof.KI.Dat0
import Idealize.ShloMosaic.Lib.Pipeline.FrameBody
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region

variable (V : (c : Dev nD) → (b : Ref sig .tc) → Buf (Elt F) ((c : Thread nD τ).loc b))

/-! ## The body obligation's post for a diagonal accumulator, case by case -/

theorem leaves0_live (c : Dev nD) (w : Fin cfg0.W) (t : Fin cfg0.N) (h : cfg0.idle w (cfg0.grid.coords t) = false) :
    (dat0 V c).leavesExact w t = (owns (c : Thread nD τ) ((cfg0.win w).stage (cfg0.slots t w)) fullShare ((dat0 V c).after w t) : sProp 𝕄) := by
  unfold Dat.leavesExact; rw [h]
theorem leaves0_flush (c : Dev nD) (w : Fin cfg0.W) (t : Fin cfg0.N) (h : (cfg0.win w).flush t = true) :
    (dat0 V c).leavesExact w t = (owns (c : Thread nD τ) ((cfg0.win w).stage (cfg0.slots t w)) fullShare ((dat0 V c).after w t) : sProp 𝕄) := by
  unfold Dat.leavesExact; cases cfg0.idle w (cfg0.grid.coords t) <;> simp only [h]

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns: the input and the whole-item accumulators at `after`, the diagonal accumulators at `after`
    where the body stores into them or the block is written back, and as they were found elsewhere. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ (dat0 V c).leavesExact 3 t
    ∗ (dat0 V c).leavesExact 4 t)

set_option maxHeartbeats 1600000 in
/-- The body at any point: the closed forms say which of the four cases the point is in; the input's buffer holds its
    block; away from c = 0 each accumulator holds its running value of the point before; so that case's run applies. Where
    the body does not touch the diagonal accumulators they are handed back as found — which at the row's last point, where
    the block is written back, is their running value. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1, after0_2]
  have hN : t.val < 64 := lt_of_lt_of_eq t.isLt (show cfg0.N = 64 from N_0)
  have e1 := acc0_1_eq V c t
  have e2 := acc0_2_eq V c t
  have e3 := acc0_3_eq V c t
  have e4 := acc0_4_eq V c t
  by_cases h1 : t.val % 8 = 0
  · -- c = 0: every window is stored into
    have hl3 : cfg0.idle 3 (cfg0.grid.coords t) = false := by
      rw [← Bool.not_eq_true]; exact fun h => ((hidle0_3 t).mp h).1 h1
    have hl4 : cfg0.idle 4 (cfg0.grid.coords t) = false := by
      rw [← Bool.not_eq_true]; exact fun h => ((hidle0_4 t).mp h).1 h1
    rw [leaves0_live V c 3 t hl3, leaves0_live V c 4 t hl4, after0_3, after0_4, e1, e2, e3, e4, if_pos h1, if_pos h1, if_pos h1, if_pos h1]
    unfold step0_3 step0_4
    by_cases h2 : t.val / 8 = t.val % 8
    · rw [if_pos h2, if_pos h2]
      iintro ⟨HΦ, Ho, ⟨%d0, H0⟩, ⟨%d1, H1⟩, ⟨%d2, H2⟩, ⟨%d3, H3⟩, ⟨%d4, H4⟩⟩
      iapply (run0_A c (grid0.coords t) _ _ _ _ _ _ _ _ _ _ ((hcond0_1 t).mpr h1) ((hcond0_2 t).mpr h2) (iblk0 V c 0 t) Set.univ _)
      isplitl [H0]; · iexact H0
      isplitl [H1]; · iexists _; iexact H1
      isplitl [H2]; · iexists _; iexact H2
      isplitl [H3]; · iexists _; iexact H3
      isplitl [H4]; · iexists _; iexact H4
      iintro ⟨H0, H1, H2, H3, H4⟩
      isplitl [HΦ]; · iexact HΦ
      isplitl [Ho]; · iexact Ho
      isplitl [H0]; · iexact H0
      isplitl [H1]; · iexact H1
      isplitl [H2]; · iexact H2
      isplitl [H3]; · iexact H3
      iexact H4
    · rw [if_neg h2, if_neg h2]
      iintro ⟨HΦ, Ho, ⟨%d0, H0⟩, ⟨%d1, H1⟩, ⟨%d2, H2⟩, ⟨%d3, H3⟩, ⟨%d4, H4⟩⟩
      iapply (run0_B c (grid0.coords t) _ _ _ _ _ _ _ _ _ _ ((hcond0_1 t).mpr h1) (fun h => h2 ((hcond0_2 t).mp h)) (iblk0 V c 0 t) Set.univ _)
      isplitl [H0]; · iexact H0
      isplitl [H1]; · iexists _; iexact H1
      isplitl [H2]; · iexists _; iexact H2
      isplitl [H3]; · iexists _; iexact H3
      isplitl [H4]; · iexists _; iexact H4
      iintro ⟨H0, H1, H2, H3, H4⟩
      isplitl [HΦ]; · iexact HΦ
      isplitl [Ho]; · iexact Ho
      isplitl [H0]; · iexact H0
      isplitl [H1]; · iexact H1
      isplitl [H2]; · iexact H2
      isplitl [H3]; · iexact H3
      iexact H4
  · -- c ≠ 0: each accumulator holds its running value of the point before
    simp only [before0_1_pos V c t h1, before0_2_pos V c t h1, before0_3_pos V c t.val t.isLt h1, before0_4_pos V c t.val t.isLt h1]
    rw [e1, e2, if_neg h1, if_neg h1]
    by_cases h2 : t.val / 8 = t.val % 8
    · have hl3 : cfg0.idle 3 (cfg0.grid.coords t) = false := by
        rw [← Bool.not_eq_true]; exact fun h => ((hidle0_3 t).mp h).2 h2
      have hl4 : cfg0.idle 4 (cfg0.grid.coords t) = false := by
        rw [← Bool.not_eq_true]; exact fun h => ((hidle0_4 t).mp h).2 h2
      rw [leaves0_live V c 3 t hl3, leaves0_live V c 4 t hl4, after0_3, after0_4, e3, e4, if_neg h1, if_neg h1]
      unfold step0_3 step0_4
      rw [if_pos h2, if_pos h2]
      iintro ⟨HΦ, Ho, ⟨%d0, H0⟩, ⟨%d1, H1⟩, ⟨%d2, H2⟩, ⟨%d3, H3⟩, ⟨%d4, H4⟩⟩
      iapply (run0_C c (grid0.coords t) _ _ _ _ _ _ _ _ _ _ (fun h => h1 ((hcond0_1 t).mp h)) ((hcond0_2 t).mpr h2) (iblk0 V c 0 t) _ _ _ _ Set.univ _)
      isplitl [H0]; · iexact H0
      isplitl [H1]; · iexact H1
      isplitl [H2]; · iexact H2
      isplitl [H3]; · iexact H3
      isplitl [H4]; · iexact H4
      iintro ⟨H0, H1, H2, H3, H4⟩
      isplitl [HΦ]; · iexact HΦ
      isplitl [Ho]; · iexact Ho
      isplitl [H0]; · iexact H0
      isplitl [H1]; · iexact H1
      isplitl [H2]; · iexact H2
      isplitl [H3]; · iexact H3
      iexact H4
    · have hi3 : cfg0.idle 3 (cfg0.grid.coords t) = true := (hidle0_3 t).mpr ⟨h1, h2⟩
      have hi4 : cfg0.idle 4 (cfg0.grid.coords t) = true := (hidle0_4 t).mpr ⟨h1, h2⟩
      by_cases h7 : t.val % 8 = 7
      · -- the row's last point: the diagonal accumulators, untouched here, are written back at their running value
        rw [leaves0_flush V c 3 t ((flush0_3 t).mpr h7), leaves0_flush V c 4 t ((flush0_4 t).mpr h7), after0_3, after0_4, e3, e4, if_neg h1, if_neg h1]
        unfold step0_3 step0_4
        rw [if_neg h2, if_neg h2]
        iintro ⟨HΦ, Ho, ⟨%d0, H0⟩, ⟨%d1, H1⟩, ⟨%d2, H2⟩, ⟨%d3, H3⟩, ⟨%d4, H4⟩⟩
        iapply (run0_D c (grid0.coords t) _ _ _ _ _ _ _ _ _ _ (fun h => h1 ((hcond0_1 t).mp h)) (fun h => h2 ((hcond0_2 t).mp h)) (iblk0 V c 0 t) _ _ Set.univ _)
        isplitl [H0]; · iexact H0
        isplitl [H1]; · iexact H1
        isplitl [H2]; · iexact H2
        iintro ⟨H0, H1, H2⟩
        isplitl [HΦ]; · iexact HΦ
        isplitl [Ho]; · iexact Ho
        isplitl [H0]; · iexact H0
        isplitl [H1]; · iexact H1
        isplitl [H2]; · iexact H2
        isplitl [H3]; · iexact H3
        iexact H4
      · -- elsewhere they are handed back as found
        have hf3 : (cfg0.win 3).flush t = false := Bool.eq_false_iff.mpr fun h => h7 ((flush0_3 t).mp h)
        have hf4 : (cfg0.win 4).flush t = false := Bool.eq_false_iff.mpr fun h => h7 ((flush0_4 t).mp h)
        rw [Dat.leavesExact_idle _ 3 t hi3 hf3, Dat.leavesExact_idle _ 4 t hi4 hf4]
        simp only [before0_3_pos V c t.val t.isLt h1, before0_4_pos V c t.val t.isLt h1]
        iintro ⟨HΦ, Ho, ⟨%d0, H0⟩, ⟨%d1, H1⟩, ⟨%d2, H2⟩, ⟨%d3, H3⟩, ⟨%d4, H4⟩⟩
        iapply (run0_D c (grid0.coords t) _ _ _ _ _ _ _ _ _ _ (fun h => h1 ((hcond0_1 t).mp h)) (fun h => h2 ((hcond0_2 t).mp h)) (iblk0 V c 0 t) _ _ Set.univ _)
        isplitl [H0]; · iexact H0
        isplitl [H1]; · iexact H1
        isplitl [H2]; · iexact H2
        iintro ⟨H0, H1, H2⟩
        isplitl [HΦ]; · iexact HΦ
        isplitl [Ho]; · iexact Ho
        isplitl [H0]; · iexact H0
        isplitl [H1]; · iexact H1
        isplitl [H2]; · iexact H2
        isplitl [H3]; · iexists d3; iexact H3
        iexists d4; iexact H4

/-- The library's body obligation, at every point. -/
theorem body_obligation0 (c : Dev nD) : BodyObligation (dat0 (F := F) V c) (defs₀ (F := F)) Variants.none () Set.univ := fun t => by
  rw [bigSep_W0, bigSep_W0]
  exact sound_body0 V c t

end Region

end Cert.KernelIdeal.Gen

end
-- ==== Proof.KI.Runs1.lean ====
/-
  The body of pallas_call 1 run case by case on whole staging buffers: what each of the four accumulators holds
  after the body, as a function of the input block and of what the accumulator held before.
-/
import proofs.«160249_j59768764891231_2_alg».proof.Proof.Gen.KernelIdeal.Launch
import proofs.«160249_j59768764891231_2_alg».proof.Proof.Gen.KernelIdeal.Skeleton
import proofs.«160249_j59768764891231_2_alg».proof.Proof.Gen.KernelIdeal.Points
import Idealize.ShloMosaic.Lib.Pipeline.Value
import proofs.«160249_j59768764891231_2_alg».proof.Proof.KI.Runs0
import Idealize.ShloMosaic.Lib.Pipeline.FrameBody
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body, case by case

The body has two conditionals on the grid point (b, c): "c = 0" (zero the four accumulators) and "b = c" (also add
this block's sums to the two diagonal accumulators). Every store is of a whole buffer, so after the body each
accumulator holds its last store's payload, as a function of the input block `x0` and of what the accumulator held
(`a·`) where the body reads it before storing. -/

set_option maxHeartbeats 4000000 in
/-- c = 0 and b = c: all four accumulators are zeroed, then all four take this block's sums. -/
theorem run1_A (c : Dev nD) (i : grid1.Coords) (arg2 : Memref sig .tc .vmem S1x1x1024x1024 .f32) (harg2 : arg2.IsWhole)
    (arg3 : Memref sig .tc .vmem S1x8x128 .f32) (harg3 : arg3.IsWhole) (arg4 : Memref sig .tc .vmem S1x8x128 .f32) (harg4 : arg4.IsWhole)
    (arg5 : Memref sig .tc .vmem S1x8x128 .f32) (harg5 : arg5.IsWhole) (arg6 : Memref sig .tc .vmem S1x8x128 .f32) (harg6 : arg6.IsWhole)
    (hc1 : k1_cond1 i = 1#1) (hc2 : k1_cond2 i = 1#1)
    (x0 : Vec F S1x1x1024x1024 .f32) (E : Set ℕ) (K : PUnit → sProp 𝕄) :
    iprop(owns (c : Thread nD τ) arg2 fullShare x0 ∗ (∃ d, owns (c : Thread nD τ) arg3 fullShare d) ∗ (∃ d, owns (c : Thread nD τ) arg4 fullShare d)
        ∗ (∃ d, owns (c : Thread nD τ) arg5 fullShare d) ∗ (∃ d, owns (c : Thread nD τ) arg6 fullShare d)
        ∗ (iprop(owns (c : Thread nD τ) arg2 fullShare x0 ∗ owns (c : Thread nD τ) arg3 fullShare (k1_pay10 x0 k1_pay3) ∗ owns (c : Thread nD τ) arg4 fullShare (k1_pay11 x0 k1_pay4)
            ∗ owns (c : Thread nD τ) arg5 fullShare (k1_pay1 (k1_pay8 x0) k1_pay5) ∗ owns (c : Thread nD τ) arg6 fullShare (k1_pay2 (k1_pay9 x0) k1_pay6)) -∗ K ⟨⟩))
      ⊢ wp frame (wpE (defs₀ (F := F)) Variants.none c none) E (cc1__stats_kernel i arg2 harg2 arg3 harg3 arg4 harg4 arg5 harg5 arg6 harg6) K := by
  simp only [cc1__stats_kernel_eq_skeleton]; unfold cc1__stats_kernel_skel
  simp only [k1_part1_eq_skeleton]; unfold k1_part1_skel
  unfold owns
  iintro ⟨⟨%f0, %hf0, H0⟩, ⟨%d1, %f1, -, H1⟩, ⟨%d2, %f2, -, H2⟩, ⟨%d3, %f3, -, H3⟩, ⟨%d4, %f4, -, H4⟩, Hk⟩
  obtain rfl := harg2.eq_unread hf0
  sl_exec (disch := first | exact hc1 | exact hc2)
  sl_step
  iapply Hk
  isplitl [H0]
  · iexists _; isplitr; · ipureintro; exact harg2.read_unread _
    iexact H0
  isplitl [H1]
  · iexists _; isplitr; swap; · iexact H1
    ipureintro; sl_unfold_words; simp only [read_writes_whole (S := S1x8x128) _ _ hz3, View.readAt_eq_ld, harg2.read_unread, View.ld_unit_zero (S := S1x1x1024x1024) hz4, View.ld_unit_zero (S := S1x8x128) hz3, View.readCov_unit_zero (S := S1x8x128) _ hz3]
  isplitl [H2]
  · iexists _; isplitr; swap; · iexact H2
    ipureintro; sl_unfold_words; simp only [read_writes_whole (S := S1x8x128) _ _ hz3, View.readAt_eq_ld, harg2.read_unread, View.ld_unit_zero (S := S1x1x1024x1024) hz4, View.ld_unit_zero (S := S1x8x128) hz3, View.readCov_unit_zero (S := S1x8x128) _ hz3]
  isplitl [H3]
  · iexists _; isplitr; swap; · iexact H3
    ipureintro; sl_unfold_words; simp only [read_writes_whole (S := S1x8x128) _ _ hz3, View.readAt_eq_ld, harg2.read_unread, View.ld_unit_zero (S := S1x1x1024x1024) hz4, View.ld_unit_zero (S := S1x8x128) hz3, View.readCov_unit_zero (S := S1x8x128) _ hz3]
  iexists _; isplitr; swap; · iexact H4
  ipureintro; sl_unfold_words; simp only [read_writes_whole (S := S1x8x128) _ _ hz3, View.readAt_eq_ld, harg2.read_unread, View.ld_unit_zero (S := S1x1x1024x1024) hz4, View.ld_unit_zero (S := S1x8x128) hz3, View.readCov_unit_zero (S := S1x8x128) _ hz3]

set_option maxHeartbeats 4000000 in
/-- c = 0 and b ≠ c: all four accumulators are zeroed, the two whole-item ones take this block's sums. -/
theorem run1_B (c : Dev nD) (i : grid1.Coords) (arg2 : Memref sig .tc .vmem S1x1x1024x1024 .f32) (harg2 : arg2.IsWhole)
    (arg3 : Memref sig .tc .vmem S1x8x128 .f32) (harg3 : arg3.IsWhole) (arg4 : Memref sig .tc .vmem S1x8x128 .f32) (harg4 : arg4.IsWhole)
    (arg5 : Memref sig .tc .vmem S1x8x128 .f32) (harg5 : arg5.IsWhole) (arg6 : Memref sig .tc .vmem S1x8x128 .f32) (harg6 : arg6.IsWhole)
    (hc1 : k1_cond1 i = 1#1) (hc2 : ¬ k1_cond2 i = 1#1)
    (x0 : Vec F S1x1x1024x1024 .f32) (E : Set ℕ) (K : PUnit → sProp 𝕄) :
    iprop(owns (c : Thread nD τ) arg2 fullShare x0 ∗ (∃ d, owns (c : Thread nD τ) arg3 fullShare d) ∗ (∃ d, owns (c : Thread nD τ) arg4 fullShare d)
        ∗ (∃ d, owns (c : Thread nD τ) arg5 fullShare d) ∗ (∃ d, owns (c : Thread nD τ) arg6 fullShare d)
        ∗ (iprop(owns (c : Thread nD τ) arg2 fullShare x0 ∗ owns (c : Thread nD τ) arg3 fullShare (k1_pay10 x0 k1_pay3) ∗ owns (c : Thread nD τ) arg4 fullShare (k1_pay11 x0 k1_pay4)
            ∗ owns (c : Thread nD τ) arg5 fullShare (k1_pay5 (F := F)) ∗ owns (c : Thread nD τ) arg6 fullShare (k1_pay6 (F := F))) -∗ K ⟨⟩))
      ⊢ wp frame (wpE (defs₀ (F := F)) Variants.none c none) E (cc1__stats_kernel i arg2 harg2 arg3 harg3 arg4 harg4 arg5 harg5 arg6 harg6) K := by
  simp only [cc1__stats_kernel_eq_skeleton]; unfold cc1__stats_kernel_skel
  simp only [k1_part1_eq_skeleton]; unfold k1_part1_skel
  unfold owns
  iintro ⟨⟨%f0, %hf0, H0⟩, ⟨%d1, %f1, -, H1⟩, ⟨%d2, %f2, -, H2⟩, ⟨%d3, %f3, -, H3⟩, ⟨%d4, %f4, -, H4⟩, Hk⟩
  obtain rfl := harg2.eq_unread hf0
  sl_exec (disch := first | exact hc1 | exact hc2)
  sl_step
  iapply Hk
  isplitl [H0]
  · iexists _; isplitr; · ipureintro; exact harg2.read_unread _
    iexact H0
  isplitl [H1]
  · iexists _; isplitr; swap; · iexact H1
    ipureintro; sl_unfold_words; simp only [read_writes_whole (S := S1x8x128) _ _ hz3, View.readAt_eq_ld, harg2.read_unread, View.ld_unit_zero (S := S1x1x1024x1024) hz4, View.ld_unit_zero (S := S1x8x128) hz3, View.readCov_unit_zero (S := S1x8x128) _ hz3]
  isplitl [H2]
  · iexists _; isplitr; swap; · iexact H2
    ipureintro; sl_unfold_words; simp only [read_writes_whole (S := S1x8x128) _ _ hz3, View.readAt_eq_ld, harg2.read_unread, View.ld_unit_zero (S := S1x1x1024x1024) hz4, View.ld_unit_zero (S := S1x8x128) hz3, View.readCov_unit_zero (S := S1x8x128) _ hz3]
  isplitl [H3]
  · iexists _; isplitr; swap; · iexact H3
    ipureintro; sl_unfold_words; simp only [read_writes_whole (S := S1x8x128) _ _ hz3, View.readAt_eq_ld, harg2.read_unread, View.ld_unit_zero (S := S1x1x1024x1024) hz4, View.ld_unit_zero (S := S1x8x128) hz3, View.readCov_unit_zero (S := S1x8x128) _ hz3]
  iexists _; isplitr; swap; · iexact H4
  ipureintro; sl_unfold_words; simp only [read_writes_whole (S := S1x8x128) _ _ hz3, View.readAt_eq_ld, harg2.read_unread, View.ld_unit_zero (S := S1x1x1024x1024) hz4, View.ld_unit_zero (S := S1x8x128) hz3, View.readCov_unit_zero (S := S1x8x128) _ hz3]

set_option maxHeartbeats 4000000 in
/-- c ≠ 0 and b = c: all four accumulators, at `a·`, take this block's sums. -/
theorem run1_C (c : Dev nD) (i : grid1.Coords) (arg2 : Memref sig .tc .vmem S1x1x1024x1024 .f32) (harg2 : arg2.IsWhole)
    (arg3 : Memref sig .tc .vmem S1x8x128 .f32) (harg3 : arg3.IsWhole) (arg4 : Memref sig .tc .vmem S1x8x128 .f32) (harg4 : arg4.IsWhole)
    (arg5 : Memref sig .tc .vmem S1x8x128 .f32) (harg5 : arg5.IsWhole) (arg6 : Memref sig .tc .vmem S1x8x128 .f32) (harg6 : arg6.IsWhole)
    (hc1 : ¬ k1_cond1 i = 1#1) (hc2 : k1_cond2 i = 1#1)
    (x0 : Vec F S1x1x1024x1024 .f32) (a1 a2 a3 a4 : Vec F S1x8x128 .f32) (E : Set ℕ) (K : PUnit → sProp 𝕄) :
    iprop(owns (c : Thread nD τ) arg2 fullShare x0 ∗ owns (c : Thread nD τ) arg3 fullShare a1 ∗ owns (c : Thread nD τ) arg4 fullShare a2
        ∗ owns (c : Thread nD τ) arg5 fullShare a3 ∗ owns (c : Thread nD τ) arg6 fullShare a4
        ∗ (iprop(owns (c : Thread nD τ) arg2 fullShare x0 ∗ owns (c : Thread nD τ) arg3 fullShare (k1_pay10 x0 a1) ∗ owns (c : Thread nD τ) arg4 fullShare (k1_pay11 x0 a2)
            ∗ owns (c : Thread nD τ) arg5 fullShare (k1_pay1 (k1_pay8 x0) a3) ∗ owns (c : Thread nD τ) arg6 fullShare (k1_pay2 (k1_pay9 x0) a4)) -∗ K ⟨⟩))
      ⊢ wp frame (wpE (defs₀ (F := F)) Variants.none c none) E (cc1__stats_kernel i arg2 harg2 arg3 harg3 arg4 harg4 arg5 harg5 arg6 harg6) K := by
  simp only [cc1__stats_kernel_eq_skeleton]; unfold cc1__stats_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, Hk⟩
  obtain rfl := harg2.eq_unread hf0; obtain rfl := harg3.eq_unread hf1; obtain rfl := harg4.eq_unread hf2
  obtain rfl := harg5.eq_unread hf3; obtain rfl := harg6.eq_unread hf4
  sl_exec (disch := first | exact hc1 | exact hc2)
  sl_step
  iapply Hk
  isplitl [H0]
  · iexists _; isplitr; · ipureintro; exact harg2.read_unread _
    iexact H0
  isplitl [H1]
  · iexists _; isplitr; swap; · iexact H1
    ipureintro; sl_unfold_words; simp only [read_writes_whole (S := S1x8x128) _ _ hz3, View.readAt_eq_ld, harg2.read_unread, harg3.read_unread, View.ld_unit_zero (S := S1x1x1024x1024) hz4, View.ld_unit_zero (S := S1x8x128) hz3, View.readCov_unit_zero (S := S1x8x128) _ hz3]
  isplitl [H2]
  · iexists _; isplitr; swap; · iexact H2
    ipureintro; sl_unfold_words; simp only [read_writes_whole (S := S1x8x128) _ _ hz3, View.readAt_eq_ld, harg2.read_unread, harg4.read_unread, View.ld_unit_zero (S := S1x1x1024x1024) hz4, View.ld_unit_zero (S := S1x8x128) hz3, View.readCov_unit_zero (S := S1x8x128) _ hz3]
  isplitl [H3]
  · iexists _; isplitr; swap; · iexact H3
    ipureintro; sl_unfold_words; simp only [read_writes_whole (S := S1x8x128) _ _ hz3, View.readAt_eq_ld, harg2.read_unread, harg5.read_unread, View.ld_unit_zero (S := S1x1x1024x1024) hz4, View.ld_unit_zero (S := S1x8x128) hz3, View.readCov_unit_zero (S := S1x8x128) _ hz3]
  iexists _; isplitr; swap; · iexact H4
  ipureintro; sl_unfold_words; simp only [read_writes_whole (S := S1x8x128) _ _ hz3, View.readAt_eq_ld, harg2.read_unread, harg6.read_unread, View.ld_unit_zero (S := S1x1x1024x1024) hz4, View.ld_unit_zero (S := S1x8x128) hz3, View.readCov_unit_zero (S := S1x8x128) _ hz3]

set_option maxHeartbeats 4000000 in
/-- c ≠ 0 and b ≠ c: the two whole-item accumulators, at `a·`, take this block's sums; the diagonal ones are not touched. -/
theorem run1_D (c : Dev nD) (i : grid1.Coords) (arg2 : Memref sig .tc .vmem S1x1x1024x1024 .f32) (harg2 : arg2.IsWhole)
    (arg3 : Memref sig .tc .vmem S1x8x128 .f32) (harg3 : arg3.IsWhole) (arg4 : Memref sig .tc .vmem S1x8x128 .f32) (harg4 : arg4.IsWhole)
    (arg5 : Memref sig .tc .vmem S1x8x128 .f32) (harg5 : arg5.IsWhole) (arg6 : Memref sig .tc .vmem S1x8x128 .f32) (harg6 : arg6.IsWhole)
    (hc1 : ¬ k1_cond1 i = 1#1) (hc2 : ¬ k1_cond2 i = 1#1)
    (x0 : Vec F S1x1x1024x1024 .f32) (a1 a2 : Vec F S1x8x128 .f32) (E : Set ℕ) (K : PUnit → sProp 𝕄) :
    iprop(owns (c : Thread nD τ) arg2 fullShare x0 ∗ owns (c : Thread nD τ) arg3 fullShare a1 ∗ owns (c : Thread nD τ) arg4 fullShare a2
        ∗ (iprop(owns (c : Thread nD τ) arg2 fullShare x0 ∗ owns (c : Thread nD τ) arg3 fullShare (k1_pay10 x0 a1) ∗ owns (c : Thread nD τ) arg4 fullShare (k1_pay11 x0 a2)) -∗ K ⟨⟩))
      ⊢ wp frame (wpE (defs₀ (F := F)) Variants.none c none) E (cc1__stats_kernel i arg2 harg2 arg3 harg3 arg4 harg4 arg5 harg5 arg6 harg6) K := by
  simp only [cc1__stats_kernel_eq_skeleton]; unfold cc1__stats_kernel_skel
  simp only [k1_part1_eq_skeleton]; unfold k1_part1_skel
  unfold owns
  iintro ⟨⟨%f0, %hf0, H0⟩, ⟨%f1, %hf1, H1⟩, ⟨%f2, %hf2, H2⟩, Hk⟩
  obtain rfl := harg2.eq_unread hf0; obtain rfl := harg3.eq_unread hf1; obtain rfl := harg4.eq_unread hf2
  sl_exec (disch := first | exact hc1 | exact hc2)
  sl_step
  iapply Hk
  isplitl [H0]
  · iexists _; isplitr; · ipureintro; exact harg2.read_unread _
    iexact H0
  isplitl [H1]
  · iexists _; isplitr; swap; · iexact H1
    ipureintro; simp only [read_writes_whole (S := S1x8x128) _ _ hz3, View.readAt_eq_ld, harg2.read_unread, harg3.read_unread, View.ld_unit_zero (S := S1x1x1024x1024) hz4, View.ld_unit_zero (S := S1x8x128) hz3, View.readCov_unit_zero (S := S1x8x128) _ hz3]
  iexists _; isplitr; swap; · iexact H2
  ipureintro; simp only [read_writes_whole (S := S1x8x128) _ _ hz3, View.readAt_eq_ld, harg2.read_unread, harg4.read_unread, View.ld_unit_zero (S := S1x1x1024x1024) hz4, View.ld_unit_zero (S := S1x8x128) hz3, View.readCov_unit_zero (S := S1x8x128) _ hz3]

end Cert.KernelIdeal.Gen

end
-- ==== Proof.KI.Dat1.lean ====
/-
  pallas_call 1: what the four accumulators hold point by point, the pipeline's proof data over them, and what each
  staging buffer holds when the body runs.
-/
import proofs.«160249_j59768764891231_2_alg».proof.Proof.Gen.KernelIdeal.Launch
import proofs.«160249_j59768764891231_2_alg».proof.Proof.Gen.KernelIdeal.Skeleton
import proofs.«160249_j59768764891231_2_alg».proof.Proof.Gen.KernelIdeal.Points
import proofs.«160249_j59768764891231_2_alg».proof.Proof.KI.Runs1
import Idealize.ShloMosaic.Lib.Pipeline.FrameBody
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region

/-! # pallas_call 1: the accumulators point by point, and the body obligation

The grid is 8 × 8, point n = 8·b + c. Window 0 is the image block (b, c), fetched at every point. Windows 1–4 are the four
accumulator tiles of batch item b: their block index depends on b only, so each is carried in its staging buffer across
c = 0 … 7 and written back after c = 7. The body zeroes all four at c = 0, adds the block's sum and sum of squares to
windows 1 and 2 at every point, and to windows 3 and 4 at the point b = c only; at the other points windows 3 and 4 are
not touched and keep what they held. -/

-- the TensorCore's buffer contents when the region is entered
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The input window's staging buffer holds its block at every point. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-! ## The conditions in closed form -/

/-- "c = 0" at point n is n % 8 = 0. -/
theorem hcond1_1 : ∀ t : Fin cfg1.N, k1_cond1 (grid1.coords t) = 1#1 ↔ t.val % 8 = 0 :=
  (by decide +kernel : ∀ t : Fin grid1.N, k1_cond1 (grid1.coords t) = 1#1 ↔ t.val % 8 = 0)
/-- "b = c" at point n is n / 8 = n % 8. -/
theorem hcond1_2 : ∀ t : Fin cfg1.N, k1_cond2 (grid1.coords t) = 1#1 ↔ t.val / 8 = t.val % 8 :=
  (by decide +kernel : ∀ t : Fin grid1.N, k1_cond2 (grid1.coords t) = 1#1 ↔ t.val / 8 = t.val % 8)
/-- The diagonal accumulators are untouched exactly where neither holds. -/
theorem hidle1_3 : ∀ t : Fin cfg1.N, cfg1.idle 3 (cfg1.grid.coords t) = true ↔ (¬ t.val % 8 = 0 ∧ ¬ t.val / 8 = t.val % 8) :=
  (by decide +kernel : ∀ t : Fin grid1.N, cfg1.idle 3 (cfg1.grid.coords t) = true ↔ (¬ t.val % 8 = 0 ∧ ¬ t.val / 8 = t.val % 8))
theorem hidle1_4 : ∀ t : Fin cfg1.N, cfg1.idle 4 (cfg1.grid.coords t) = true ↔ (¬ t.val % 8 = 0 ∧ ¬ t.val / 8 = t.val % 8) :=
  (by decide +kernel : ∀ t : Fin grid1.N, cfg1.idle 4 (cfg1.grid.coords t) = true ↔ (¬ t.val % 8 = 0 ∧ ¬ t.val / 8 = t.val % 8))

/-! ## The accumulators -/

/-- A diagonal accumulator's step at point n: add the block's sum where b = c, else keep. -/
def step1_3 (x : Vec F S1x1x1024x1024 .f32) (n : ℕ) (p : Vec F S1x8x128 .f32) : Vec F S1x8x128 .f32 :=
  if n / 8 = n % 8 then k1_pay1 (k1_pay8 x) p else p
def step1_4 (x : Vec F S1x1x1024x1024 .f32) (n : ℕ) (p : Vec F S1x8x128 .f32) : Vec F S1x8x128 .f32 :=
  if n / 8 = n % 8 then k1_pay2 (k1_pay9 x) p else p

/-- Window 1 (sums) after the body at point n: zero at c = 0, else what the point before left, plus this block's sum. -/
def acc1_1 (c : Dev nD) : (n : ℕ) → n < cfg1.N → Vec F S1x8x128 .f32
  | 0, hn => k1_pay10 (iblk1 V c 0 ⟨0, hn⟩) k1_pay3
  | n + 1, hn => k1_pay10 (iblk1 V c 0 ⟨n + 1, hn⟩) (if (n + 1) % 8 = 0 then k1_pay3 else acc1_1 c n (Nat.lt_of_succ_lt hn))
/-- Window 2 (sums of squares). -/
def acc1_2 (c : Dev nD) : (n : ℕ) → n < cfg1.N → Vec F S1x8x128 .f32
  | 0, hn => k1_pay11 (iblk1 V c 0 ⟨0, hn⟩) k1_pay4
  | n + 1, hn => k1_pay11 (iblk1 V c 0 ⟨n + 1, hn⟩) (if (n + 1) % 8 = 0 then k1_pay4 else acc1_2 c n (Nat.lt_of_succ_lt hn))
/-- Window 3 (diagonal sums). -/
def acc1_3 (c : Dev nD) : (n : ℕ) → n < cfg1.N → Vec F S1x8x128 .f32
  | 0, hn => step1_3 (iblk1 V c 0 ⟨0, hn⟩) 0 k1_pay5
  | n + 1, hn => step1_3 (iblk1 V c 0 ⟨n + 1, hn⟩) (n + 1) (if (n + 1) % 8 = 0 then k1_pay5 else acc1_3 c n (Nat.lt_of_succ_lt hn))
/-- Window 4 (diagonal sums of squares). -/
def acc1_4 (c : Dev nD) : (n : ℕ) → n < cfg1.N → Vec F S1x8x128 .f32
  | 0, hn => step1_4 (iblk1 V c 0 ⟨0, hn⟩) 0 k1_pay6
  | n + 1, hn => step1_4 (iblk1 V c 0 ⟨n + 1, hn⟩) (n + 1) (if (n + 1) % 8 = 0 then k1_pay6 else acc1_4 c n (Nat.lt_of_succ_lt hn))

theorem acc1_1_eq (c : Dev nD) (t : Fin cfg1.N) :
    acc1_1 V c t.val t.isLt = k1_pay10 (iblk1 V c 0 t)
      (if t.val % 8 = 0 then k1_pay3 else acc1_1 V c (t.val - 1) (Nat.lt_of_le_of_lt (Nat.sub_le _ _) t.isLt)) := by
  obtain ⟨n, hn⟩ := t
  cases n with
  | zero => rfl
  | succ n => rfl
theorem acc1_2_eq (c : Dev nD) (t : Fin cfg1.N) :
    acc1_2 V c t.val t.isLt = k1_pay11 (iblk1 V c 0 t)
      (if t.val % 8 = 0 then k1_pay4 else acc1_2 V c (t.val - 1) (Nat.lt_of_le_of_lt (Nat.sub_le _ _) t.isLt)) := by
  obtain ⟨n, hn⟩ := t
  cases n with
  | zero => rfl
  | succ n => rfl
theorem acc1_3_eq (c : Dev nD) (t : Fin cfg1.N) :
    acc1_3 V c t.val t.isLt = step1_3 (iblk1 V c 0 t) t.val
      (if t.val % 8 = 0 then k1_pay5 else acc1_3 V c (t.val - 1) (Nat.lt_of_le_of_lt (Nat.sub_le _ _) t.isLt)) := by
  obtain ⟨n, hn⟩ := t
  cases n with
  | zero => rfl
  | succ n => rfl
theorem acc1_4_eq (c : Dev nD) (t : Fin cfg1.N) :
    acc1_4 V c t.val t.isLt = step1_4 (iblk1 V c 0 t) t.val
      (if t.val % 8 = 0 then k1_pay6 else acc1_4 V c (t.val - 1) (Nat.lt_of_le_of_lt (Nat.sub_le _ _) t.isLt)) := by
  obtain ⟨n, hn⟩ := t
  cases n with
  | zero => rfl
  | succ n => rfl

/-! ## The proof data -/

/-- The arrays as the region finds them; after the body at point `t` the input's buffer at its block, each accumulator's
    at its running value (also where the body does not touch it: it keeps the value). -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => acc1_1 V c t.val t.isLt
    | ⟨2, _⟩ => acc1_2 V c t.val t.isLt
    | ⟨3, _⟩ => acc1_3 V c t.val t.isLt
    | ⟨4, _⟩ => acc1_4 V c t.val t.isLt
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = acc1_1 V c t.val t.isLt := by dsimp only [dat1]
theorem after1_2 (c : Dev nD) (t : Fin cfg1.N) : (dat1 V c).after 2 t = acc1_2 V c t.val t.isLt := by dsimp only [dat1]
theorem after1_3 (c : Dev nD) (t : Fin cfg1.N) : (dat1 V c).after 3 t = acc1_3 V c t.val t.isLt := by dsimp only [dat1]
theorem after1_4 (c : Dev nD) (t : Fin cfg1.N) : (dat1 V c).after 4 t = acc1_4 V c t.val t.isLt := by dsimp only [dat1]

/-! ## What each staging buffer holds when the body runs -/

theorem before1_0 (c : Dev nD) (t : Fin cfg1.N) (d) : (dat1 V c).before 0 t d = iblk1 V c 0 t :=
  before1_0_of V (dat1 V c) (A_eq1 V c 0) (after1_0 V c) t d

/-- Away from c = 0 a whole-item accumulator holds what the point before left: no write-back in between. -/
theorem before1_1_pos (c : Dev nD) (t : Fin cfg1.N) (h0 : ¬ t.val % 8 = 0) (d) :
    (dat1 V c).before 1 t d = acc1_1 V c (t.val - 1) (Nat.lt_of_le_of_lt (Nat.sub_le _ _) t.isLt) := by
  have hN : t.val < 64 := lt_of_lt_of_eq t.isLt (show cfg1.N = 64 from N_1)
  rw [Dat.before_out_kept _ 1 rfl t (by omega) (Bool.eq_false_iff.mpr fun h => by have := (flush1_1 _).mp h; dsimp only at this; omega)
    (fun _ => rfl) (fun _ _ => rfl)]
  dsimp only [dat1]
theorem before1_2_pos (c : Dev nD) (t : Fin cfg1.N) (h0 : ¬ t.val % 8 = 0) (d) :
    (dat1 V c).before 2 t d = acc1_2 V c (t.val - 1) (Nat.lt_of_le_of_lt (Nat.sub_le _ _) t.isLt) := by
  have hN : t.val < 64 := lt_of_lt_of_eq t.isLt (show cfg1.N = 64 from N_1)
  rw [Dat.before_out_kept _ 2 rfl t (by omega) (Bool.eq_false_iff.mpr fun h => by have := (flush1_2 _).mp h; dsimp only at this; omega)
    (fun _ => rfl) (fun _ _ => rfl)]
  dsimp only [dat1]

/-- What a live point leaves in a diagonal accumulator's (uncut) buffer is all of `after`. -/
theorem kept1_3 (c : Dev nD) (t : Fin cfg1.N) (d) : (dat1 V c).kept 3 t d = acc1_3 V c t.val t.isLt := by
  unfold Dat.kept
  rw [Pipeline.fill_of_clip_none (cfg := cfg1) 3 _ (fun _ => rfl) d ((dat1 V c).after 3 t), Window.fill_cut]
  dsimp only [dat1]
theorem kept1_4 (c : Dev nD) (t : Fin cfg1.N) (d) : (dat1 V c).kept 4 t d = acc1_4 V c t.val t.isLt := by
  unfold Dat.kept
  rw [Pipeline.fill_of_clip_none (cfg := cfg1) 4 _ (fun _ => rfl) d ((dat1 V c).after 4 t), Window.fill_cut]
  dsimp only [dat1]

/-- Away from c = 0 a diagonal accumulator holds its running value of the point before — through any run of points
    that did not touch it, by induction on the point. -/
theorem before1_3_pos (c : Dev nD) : ∀ (n : ℕ) (hn : n < cfg1.N), ¬ n % 8 = 0 → ∀ d,
    (dat1 V c).before 3 ⟨n, hn⟩ d = acc1_3 V c (n - 1) (Nat.lt_of_le_of_lt (Nat.sub_le _ _) hn) := by
  intro n
  induction n using Nat.strong_induction_on with
  | _ n ih =>
    intro hn h0 d
    have hN : n < 64 := lt_of_lt_of_eq hn (show cfg1.N = 64 from N_1)
    have hn0 : n ≠ 0 := fun h => h0 (by rw [h])
    rw [Dat.before_of_pos _ 3 ⟨n, hn⟩ hn0 ((cfg1.win 3).fetch_out rfl _) d,
      if_neg (fun h => by have := (flush1_3 _).mp h; dsimp only at this; omega)]
    unfold Dat.left
    by_cases hi : cfg1.idle 3 (cfg1.grid.coords ⟨n - 1, Nat.lt_of_le_of_lt (Nat.sub_le _ _) hn⟩) = true
    · rw [hi]
      have hc := (hidle1_3 _).mp hi
      dsimp only at hc ⊢
      rw [ih (n - 1) (by omega) _ hc.1 d]
      have e := acc1_3_eq V c ⟨n - 1, Nat.lt_of_le_of_lt (Nat.sub_le _ _) hn⟩
      dsimp only at e
      rw [e, if_neg hc.1]; unfold step1_3; rw [if_neg hc.2]
    · rw [Bool.not_eq_true] at hi
      rw [hi]
      exact kept1_3 V c _ d
theorem before1_4_pos (c : Dev nD) : ∀ (n : ℕ) (hn : n < cfg1.N), ¬ n % 8 = 0 → ∀ d,
    (dat1 V c).before 4 ⟨n, hn⟩ d = acc1_4 V c (n - 1) (Nat.lt_of_le_of_lt (Nat.sub_le _ _) hn) := by
  intro n
  induction n using Nat.strong_induction_on with
  | _ n ih =>
    intro hn h0 d
    have hN : n < 64 := lt_of_lt_of_eq hn (show cfg1.N = 64 from N_1)
    have hn0 : n ≠ 0 := fun h => h0 (by rw [h])
    rw [Dat.before_of_pos _ 4 ⟨n, hn⟩ hn0 ((cfg1.win 4).fetch_out rfl _) d,
      if_neg (fun h => by have := (flush1_4 _).mp h; dsimp only at this; omega)]
    unfold Dat.left
    by_cases hi : cfg1.idle 4 (cfg1.grid.coords ⟨n - 1, Nat.lt_of_le_of_lt (Nat.sub_le _ _) hn⟩) = true
    · rw [hi]
      have hc := (hidle1_4 _).mp hi
      dsimp only at hc ⊢
      rw [ih (n - 1) (by omega) _ hc.1 d]
      have e := acc1_4_eq V c ⟨n - 1, Nat.lt_of_le_of_lt (Nat.sub_le _ _) hn⟩
      dsimp only at e
      rw [e, if_neg hc.1]; unfold step1_4; rw [if_neg hc.2]
    · rw [Bool.not_eq_true] at hi
      rw [hi]
      exact kept1_4 V c _ d

end Region

end Cert.KernelIdeal.Gen

end
-- ==== Proof.KI.Body1.lean ====
/-
  pallas_call 1: the body obligation — at every grid point the body, handed each staging buffer at what it then holds,
  leaves each at what the proof data say.
-/
import proofs.«160249_j59768764891231_2_alg».proof.Proof.Gen.KernelIdeal.Launch
import proofs.«160249_j59768764891231_2_alg».proof.Proof.Gen.KernelIdeal.Skeleton
import proofs.«160249_j59768764891231_2_alg».proof.Proof.Gen.KernelIdeal.Points
import proofs.«160249_j59768764891231_2_alg».proof.Proof.KI.Dat1
import Idealize.ShloMosaic.Lib.Pipeline.FrameBody
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region

variable (V : (c : Dev nD) → (b : Ref sig .tc) → Buf (Elt F) ((c : Thread nD τ).loc b))

/-! ## The body obligation's post for a diagonal accumulator, case by case -/

theorem leaves1_live (c : Dev nD) (w : Fin cfg1.W) (t : Fin cfg1.N) (h : cfg1.idle w (cfg1.grid.coords t) = false) :
    (dat1 V c).leavesExact w t = (owns (c : Thread nD τ) ((cfg1.win w).stage (cfg1.slots t w)) fullShare ((dat1 V c).after w t) : sProp 𝕄) := by
  unfold Dat.leavesExact; rw [h]
theorem leaves1_flush (c : Dev nD) (w : Fin cfg1.W) (t : Fin cfg1.N) (h : (cfg1.win w).flush t = true) :
    (dat1 V c).leavesExact w t = (owns (c : Thread nD τ) ((cfg1.win w).stage (cfg1.slots t w)) fullShare ((dat1 V c).after w t) : sProp 𝕄) := by
  unfold Dat.leavesExact; cases cfg1.idle w (cfg1.grid.coords t) <;> simp only [h]

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns: the input and the whole-item accumulators at `after`, the diagonal accumulators at `after`
    where the body stores into them or the block is written back, and as they were found elsewhere. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ (dat1 V c).leavesExact 3 t
    ∗ (dat1 V c).leavesExact 4 t)

set_option maxHeartbeats 1600000 in
/-- The body at any point: the closed forms say which of the four cases the point is in; the input's buffer holds its
    block; away from c = 0 each accumulator holds its running value of the point before; so that case's run applies. Where
    the body does not touch the diagonal accumulators they are handed back as found — which at the row's last point, where
    the block is written back, is their running value. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0]
  rw [show (dat1 V c).Φ t.succ = (dat1 V c).Φ t.castSucc from rfl,
    show (dat1 V c).owesAt () t.succ = (dat1 V c).owesAt () t.castSucc from rfl,
    after1_0, after1_1, after1_2]
  have hN : t.val < 64 := lt_of_lt_of_eq t.isLt (show cfg1.N = 64 from N_1)
  have e1 := acc1_1_eq V c t
  have e2 := acc1_2_eq V c t
  have e3 := acc1_3_eq V c t
  have e4 := acc1_4_eq V c t
  by_cases h1 : t.val % 8 = 0
  · -- c = 0: every window is stored into
    have hl3 : cfg1.idle 3 (cfg1.grid.coords t) = false := by
      rw [← Bool.not_eq_true]; exact fun h => ((hidle1_3 t).mp h).1 h1
    have hl4 : cfg1.idle 4 (cfg1.grid.coords t) = false := by
      rw [← Bool.not_eq_true]; exact fun h => ((hidle1_4 t).mp h).1 h1
    rw [leaves1_live V c 3 t hl3, leaves1_live V c 4 t hl4, after1_3, after1_4, e1, e2, e3, e4, if_pos h1, if_pos h1, if_pos h1, if_pos h1]
    unfold step1_3 step1_4
    by_cases h2 : t.val / 8 = t.val % 8
    · rw [if_pos h2, if_pos h2]
      iintro ⟨HΦ, Ho, ⟨%d0, H0⟩, ⟨%d1, H1⟩, ⟨%d2, H2⟩, ⟨%d3, H3⟩, ⟨%d4, H4⟩⟩
      iapply (run1_A c (grid1.coords t) _ _ _ _ _ _ _ _ _ _ ((hcond1_1 t).mpr h1) ((hcond1_2 t).mpr h2) (iblk1 V c 0 t) Set.univ _)
      isplitl [H0]; · iexact H0
      isplitl [H1]; · iexists _; iexact H1
      isplitl [H2]; · iexists _; iexact H2
      isplitl [H3]; · iexists _; iexact H3
      isplitl [H4]; · iexists _; iexact H4
      iintro ⟨H0, H1, H2, H3, H4⟩
      isplitl [HΦ]; · iexact HΦ
      isplitl [Ho]; · iexact Ho
      isplitl [H0]; · iexact H0
      isplitl [H1]; · iexact H1
      isplitl [H2]; · iexact H2
      isplitl [H3]; · iexact H3
      iexact H4
    · rw [if_neg h2, if_neg h2]
      iintro ⟨HΦ, Ho, ⟨%d0, H0⟩, ⟨%d1, H1⟩, ⟨%d2, H2⟩, ⟨%d3, H3⟩, ⟨%d4, H4⟩⟩
      iapply (run1_B c (grid1.coords t) _ _ _ _ _ _ _ _ _ _ ((hcond1_1 t).mpr h1) (fun h => h2 ((hcond1_2 t).mp h)) (iblk1 V c 0 t) Set.univ _)
      isplitl [H0]; · iexact H0
      isplitl [H1]; · iexists _; iexact H1
      isplitl [H2]; · iexists _; iexact H2
      isplitl [H3]; · iexists _; iexact H3
      isplitl [H4]; · iexists _; iexact H4
      iintro ⟨H0, H1, H2, H3, H4⟩
      isplitl [HΦ]; · iexact HΦ
      isplitl [Ho]; · iexact Ho
      isplitl [H0]; · iexact H0
      isplitl [H1]; · iexact H1
      isplitl [H2]; · iexact H2
      isplitl [H3]; · iexact H3
      iexact H4
  · -- c ≠ 0: each accumulator holds its running value of the point before
    simp only [before1_1_pos V c t h1, before1_2_pos V c t h1, before1_3_pos V c t.val t.isLt h1, before1_4_pos V c t.val t.isLt h1]
    rw [e1, e2, if_neg h1, if_neg h1]
    by_cases h2 : t.val / 8 = t.val % 8
    · have hl3 : cfg1.idle 3 (cfg1.grid.coords t) = false := by
        rw [← Bool.not_eq_true]; exact fun h => ((hidle1_3 t).mp h).2 h2
      have hl4 : cfg1.idle 4 (cfg1.grid.coords t) = false := by
        rw [← Bool.not_eq_true]; exact fun h => ((hidle1_4 t).mp h).2 h2
      rw [leaves1_live V c 3 t hl3, leaves1_live V c 4 t hl4, after1_3, after1_4, e3, e4, if_neg h1, if_neg h1]
      unfold step1_3 step1_4
      rw [if_pos h2, if_pos h2]
      iintro ⟨HΦ, Ho, ⟨%d0, H0⟩, ⟨%d1, H1⟩, ⟨%d2, H2⟩, ⟨%d3, H3⟩, ⟨%d4, H4⟩⟩
      iapply (run1_C c (grid1.coords t) _ _ _ _ _ _ _ _ _ _ (fun h => h1 ((hcond1_1 t).mp h)) ((hcond1_2 t).mpr h2) (iblk1 V c 0 t) _ _ _ _ Set.univ _)
      isplitl [H0]; · iexact H0
      isplitl [H1]; · iexact H1
      isplitl [H2]; · iexact H2
      isplitl [H3]; · iexact H3
      isplitl [H4]; · iexact H4
      iintro ⟨H0, H1, H2, H3, H4⟩
      isplitl [HΦ]; · iexact HΦ
      isplitl [Ho]; · iexact Ho
      isplitl [H0]; · iexact H0
      isplitl [H1]; · iexact H1
      isplitl [H2]; · iexact H2
      isplitl [H3]; · iexact H3
      iexact H4
    · have hi3 : cfg1.idle 3 (cfg1.grid.coords t) = true := (hidle1_3 t).mpr ⟨h1, h2⟩
      have hi4 : cfg1.idle 4 (cfg1.grid.coords t) = true := (hidle1_4 t).mpr ⟨h1, h2⟩
      by_cases h7 : t.val % 8 = 7
      · -- the row's last point: the diagonal accumulators, untouched here, are written back at their running value
        rw [leaves1_flush V c 3 t ((flush1_3 t).mpr h7), leaves1_flush V c 4 t ((flush1_4 t).mpr h7), after1_3, after1_4, e3, e4, if_neg h1, if_neg h1]
        unfold step1_3 step1_4
        rw [if_neg h2, if_neg h2]
        iintro ⟨HΦ, Ho, ⟨%d0, H0⟩, ⟨%d1, H1⟩, ⟨%d2, H2⟩, ⟨%d3, H3⟩, ⟨%d4, H4⟩⟩
        iapply (run1_D c (grid1.coords t) _ _ _ _ _ _ _ _ _ _ (fun h => h1 ((hcond1_1 t).mp h)) (fun h => h2 ((hcond1_2 t).mp h)) (iblk1 V c 0 t) _ _ Set.univ _)
        isplitl [H0]; · iexact H0
        isplitl [H1]; · iexact H1
        isplitl [H2]; · iexact H2
        iintro ⟨H0, H1, H2⟩
        isplitl [HΦ]; · iexact HΦ
        isplitl [Ho]; · iexact Ho
        isplitl [H0]; · iexact H0
        isplitl [H1]; · iexact H1
        isplitl [H2]; · iexact H2
        isplitl [H3]; · iexact H3
        iexact H4
      · -- elsewhere they are handed back as found
        have hf3 : (cfg1.win 3).flush t = false := Bool.eq_false_iff.mpr fun h => h7 ((flush1_3 t).mp h)
        have hf4 : (cfg1.win 4).flush t = false := Bool.eq_false_iff.mpr fun h => h7 ((flush1_4 t).mp h)
        rw [Dat.leavesExact_idle _ 3 t hi3 hf3, Dat.leavesExact_idle _ 4 t hi4 hf4]
        simp only [before1_3_pos V c t.val t.isLt h1, before1_4_pos V c t.val t.isLt h1]
        iintro ⟨HΦ, Ho, ⟨%d0, H0⟩, ⟨%d1, H1⟩, ⟨%d2, H2⟩, ⟨%d3, H3⟩, ⟨%d4, H4⟩⟩
        iapply (run1_D c (grid1.coords t) _ _ _ _ _ _ _ _ _ _ (fun h => h1 ((hcond1_1 t).mp h)) (fun h => h2 ((hcond1_2 t).mp h)) (iblk1 V c 0 t) _ _ Set.univ _)
        isplitl [H0]; · iexact H0
        isplitl [H1]; · iexact H1
        isplitl [H2]; · iexact H2
        iintro ⟨H0, H1, H2⟩
        isplitl [HΦ]; · iexact HΦ
        isplitl [Ho]; · iexact Ho
        isplitl [H0]; · iexact H0
        isplitl [H1]; · iexact H1
        isplitl [H2]; · iexact H2
        isplitl [H3]; · iexists d3; iexact H3
        iexists d4; iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

end Region

end Cert.KernelIdeal.Gen

end
-- ==== Proof.KI.Frame.lean ====
/-
  The whole run of @main: pallas_call 0, a stretch of host operations, pallas_call 1, a second stretch. The buffer contents at
  each boundary are a fold from the launch memory — a region's arrays at what its write-backs leave, a stretch's results
  at its operations' values — and every weakly fair execution terminates with every unscoped buffer at the last
  boundary's contents.
-/
import proofs.«160249_j59768764891231_2_alg».proof.Proof.Gen.KernelIdeal.Launch
import proofs.«160249_j59768764891231_2_alg».proof.Proof.Gen.KernelIdeal.Skeleton
import proofs.«160249_j59768764891231_2_alg».proof.Proof.Gen.KernelIdeal.Points
import proofs.«160249_j59768764891231_2_alg».proof.Proof.KI.Body0
import proofs.«160249_j59768764891231_2_alg».proof.Proof.KI.Body1
import proofs.«160249_j59768764891231_2_alg».proof.Proof.Gen.KernelIdeal.Regions
import Idealize.ShloMosaic.Lib.Pipeline.RegionsLoop
import Idealize.ShloMosaic.Lib.Pipeline.FrameSuffix
import Idealize.ShloMosaic.Lib.Pipeline.FrameBody
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch (pallas_call 0's entry). -/
abbrev rW0 : Dev nD → Valuation τ sig (Elt F) := fun c b => m ((c : Dev nD), b)
abbrev rV0 : (c : Dev nD) → (b : Ref sig .tc) → Buf (Elt F) ((c : Thread nD τ).loc b) := fun c b => rW0 m c b
/-- After pallas_call 0: its arrays at what the pipeline leaves, every other buffer as entered. -/
def rW1 (c : Dev nD) : Valuation τ sig (Elt F) :=
  Pipeline.withArrays spec0 c (rW0 m c) fun w => (dat0 (rV0 m) c).arrAt w cfg0.N
theorem rW1_arr (c : Dev nD) (w : Fin cfg0.W) :
    rW1 m c (Proc.devRef .tc (Pipeline.arrRef spec0 w)) = (dat0 (rV0 m) c).arrAt w cfg0.N := by
  unfold rW1; exact Pipeline.withArrays_arr spec0 launch0.win.arr_inj c _ _ w
theorem rW1_of_ne (c : Dev nD) (b : Ref sig .tc) (hb : ∀ w, Pipeline.arrRef spec0 w ≠ b) :
    rW1 m c (Proc.devRef .tc b) = rW0 m c (Proc.devRef .tc b) := by
  unfold rW1; exact Pipeline.withArrays_of_ne spec0 c _ _ b hb
abbrev rV1 : (c : Dev nD) → (b : Ref sig .tc) → Buf (Elt F) ((c : Thread nD τ).loc b) := fun c b => rW1 m c b
theorem rhF0 (c : Dev nD) (w : Fin cfg0.W) : (dat0 (rV0 m) c).arrAt w cfg0.N = rV1 m c (Pipeline.arrRef spec0 w) :=
  (rW1_arr m c w).symm
theorem rhrest0 (c : Dev nD) : ∀ b, b ∉ Finset.univ.image (Pipeline.arrRef spec0) → rV1 m c b = rV0 m c b :=
  fun b hb => rW1_of_ne m c b fun w e => hb (Finset.mem_image.mpr ⟨w, Finset.mem_univ _, e⟩)
/-- After the first stretch (pallas_call 1's entry). -/
abbrev rW2 : Dev nD → Valuation τ sig (Elt F) := fun c => StableHlo.after hostOps1 (rW1 m c)
abbrev rV2 : (c : Dev nD) → (b : Ref sig .tc) → Buf (Elt F) ((c : Thread nD τ).loc b) := fun c b => rW2 m c b
/-- After pallas_call 1. -/
def rW3 (c : Dev nD) : Valuation τ sig (Elt F) :=
  Pipeline.withArrays spec1 c (rW2 m c) fun w => (dat1 (rV2 m) c).arrAt w cfg1.N
theorem rW3_arr (c : Dev nD) (w : Fin cfg1.W) :
    rW3 m c (Proc.devRef .tc (Pipeline.arrRef spec1 w)) = (dat1 (rV2 m) c).arrAt w cfg1.N := by
  unfold rW3; exact Pipeline.withArrays_arr spec1 launch1.win.arr_inj c _ _ w
theorem rW3_of_ne (c : Dev nD) (b : Ref sig .tc) (hb : ∀ w, Pipeline.arrRef spec1 w ≠ b) :
    rW3 m c (Proc.devRef .tc b) = rW2 m c (Proc.devRef .tc b) := by
  unfold rW3; exact Pipeline.withArrays_of_ne spec1 c _ _ b hb
abbrev rV3 : (c : Dev nD) → (b : Ref sig .tc) → Buf (Elt F) ((c : Thread nD τ).loc b) := fun c b => rW3 m c b
theorem rhF1 (c : Dev nD) (w : Fin cfg1.W) : (dat1 (rV2 m) c).arrAt w cfg1.N = rV3 m c (Pipeline.arrRef spec1 w) :=
  (rW3_arr m c w).symm
theorem rhrest1 (c : Dev nD) : ∀ b, b ∉ Finset.univ.image (Pipeline.arrRef spec1) → rV3 m c b = rV2 m c b :=
  fun b hb => rW3_of_ne m c b fun w e => hb (Finset.mem_image.mpr ⟨w, Finset.mem_univ _, e⟩)
/-- After the second stretch: the end. -/
abbrev rW4 : Dev nD → Valuation τ sig (Elt F) := fun c => StableHlo.after hostOps2 (rW3 m c)

/-! ### The arguments end as launched: no host operation and no region writes one -/

theorem rW2_of (c : Dev nD) (r : Ref sig .tc) (h : r ∉ hostOps1_W) : rW2 m c (Proc.devRef .tc r) = rW1 m c (Proc.devRef .tc r) :=
  StableHlo.after_of_writes_sub hostOps1 _ hostOps1_writes h
theorem rW4_of (c : Dev nD) (r : Ref sig .tc) (h : r ∉ hostOps2_W) : rW4 m c (Proc.devRef .tc r) = rW3 m c (Proc.devRef .tc r) :=
  StableHlo.after_of_writes_sub hostOps2 _ hostOps2_writes h

theorem rW1_main_arg0 (c : Dev nD) : rW1 m c (Proc.devRef .tc main_arg0) = m ((c : Thread nD τ).loc main_arg0) :=
  (rW1_arr m c 0).trans (((dat0 (rV0 m) c).arrAt_in 0 rfl _).trans (A_eq0 (rV0 m) c 0))
theorem rW2_main_arg1 (c : Dev nD) : rW2 m c (Proc.devRef .tc main_arg1) = m ((c : Thread nD τ).loc main_arg1) :=
  (rW2_of m c main_arg1 (by decide)).trans (rW1_of_ne m c main_arg1 (by decide))
theorem rW4_main_arg0 (c : Dev nD) : rW4 m c (Proc.devRef .tc main_arg0) = m ((c : Thread nD τ).loc main_arg0) :=
  (rW4_of m c main_arg0 (by decide)).trans <| (rW3_of_ne m c main_arg0 (by decide)).trans <|
    (rW2_of m c main_arg0 (by decide)).trans (rW1_main_arg0 m c)
theorem rW4_main_arg1 (c : Dev nD) : rW4 m c (Proc.devRef .tc main_arg1) = m ((c : Thread nD τ).loc main_arg1) :=
  (rW4_of m c main_arg1 (by decide)).trans <| (rW3_arr m c 0).trans <|
    ((dat1 (rV2 m) c).arrAt_in 0 rfl _).trans <| (A_eq1 (rV2 m) c 0).trans (rW2_main_arg1 m c)

/-! ## The proof data family and the thread state -/

/-- Every pipeline's proof data, each at its region's entry contents. -/
def rpdats : (p : Fin 2) → (c : Dev nD) → Dat τ (Elt F) Unit ℕ (UR sig nD τ) ℕ (Pipeline.pin (pcfgs (F := F)) adm p) c
  | ⟨0, _⟩ => fun c => dat0 (rV0 m) c
  | ⟨1, _⟩ => fun c => dat1 (rV2 m) c
abbrev r𝒱₀ : Variants := Variants.none
abbrev rL : GSem nD τ sig → Finset Unit := fun _ => ∅
abbrev rlv : GSem nD τ sig → Unit → ℕ := fun _ _ => 0
/-- What rides beside the buffers through every segment: the generator register at some state, and nothing owed. -/
abbrev rR (c : Dev nD) : sProp 𝕄 := iprop((∃ r, prngReg c r) ∗ ∃ W, owes (c : Thread nD τ) (0 : CellTallies nD τ sig Unit) W)
abbrev rhseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ r𝒱₀ rL rlv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W rR
theorem rmem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev rTn (c : Dev nD) : sProp 𝕄 := iprop(StableHlo.held (c : Thread nD τ) (Pipeline.ucRefs τ sig) (rW4 m c) ∗ ∃ r, prngReg c r)

/-! ## The regions as segments -/

-- `iapply` of a library lemma stated over `pin pcs a p` unifies with the pinned configuration only when unification may
-- unfold plain definitions in a metavariable's type
set_option backward.isDefEq.respectTransparency.types false in
/-- pallas_call 0 over the thread state: entered from every unscoped buffer at `rW0`, left at `rW1`: its arrays split
    out of the unscoped buffers and put back at what the write-backs leave; the generator register into the pipeline's
    invariant and out; nothing owed; no semaphore of the kernel's own. -/
def rreg0 : Pipeline.RegionSeg (pcfgs (F := F)) adm (rpdats m) () defs₀ r𝒱₀ rL rlv 0 where
  win := launch0.win.to₀
  block_pos := launch0.block_pos
  stage_whole := launch0.stage_whole
  K := PEmpty
  osem k := k.elim
  ho := Pipeline.OwnSemFacts.none _
  hbody c := (body_obligation0 (rV0 m) c).loose
  hwaits := Pipeline.hwaits_of_owed_zero _ _ _ _ rL rlv 0 fun _ _ => rfl
  pre c := iprop(StableHlo.held (c : Thread nD τ) (Pipeline.ucRefs τ sig) (rW0 m c) ∗ rR c)
  post c := iprop(StableHlo.held (c : Thread nD τ) (Pipeline.ucRefs τ sig) (rW1 m c) ∗ rR c)
  X c := iprop(∃ r, prngReg c r)
  Y c := iprop(∃ r, prngReg c r)
  Z c := Pipeline.unscopedRest (Ix := Unit) (Name := ℕ) (U := UR sig nD τ) (Lvl := ℕ) spec0 c (rV0 m c)
  hentry c := by
    rw [Pipeline.ownSems0_none]
    have hsplit := Pipeline.arrays_of_unscopedBufs (p := 0) (pcfgs (F := F)) adm (rpdats m) launch0.win launch0.arr_whole c
      ((rpdats m 0 c).share_full fun _ => rfl) (rV0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (rpdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (rpdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (rpdats m) ((rpdats m 0 c).share_full fun _ => rfl)
      (rV0 m c) (rV1 m c) ((rpdats m 0 c).arrAt · cfg0.N) (rhF0 m c) (rhrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- pallas_call 1 over the thread state: entered from every unscoped buffer at `rW2`, left at `rW3`: its arrays split
    out of the unscoped buffers and put back at what the write-backs leave; the generator register into the pipeline's
    invariant and out; nothing owed; no semaphore of the kernel's own. -/
def rreg1 : Pipeline.RegionSeg (pcfgs (F := F)) adm (rpdats m) () defs₀ r𝒱₀ rL rlv 1 where
  win := launch1.win.to₀
  block_pos := launch1.block_pos
  stage_whole := launch1.stage_whole
  K := PEmpty
  osem k := k.elim
  ho := Pipeline.OwnSemFacts.none _
  hbody c := (body_obligation1 (rV2 m) c).loose
  hwaits := Pipeline.hwaits_of_owed_zero _ _ _ _ rL rlv 1 fun _ _ => rfl
  pre c := iprop(StableHlo.held (c : Thread nD τ) (Pipeline.ucRefs τ sig) (rW2 m c) ∗ rR c)
  post c := iprop(StableHlo.held (c : Thread nD τ) (Pipeline.ucRefs τ sig) (rW3 m c) ∗ rR c)
  X c := iprop(∃ r, prngReg c r)
  Y c := iprop(∃ r, prngReg c r)
  Z c := Pipeline.unscopedRest (Ix := Unit) (Name := ℕ) (U := UR sig nD τ) (Lvl := ℕ) spec1 c (rV2 m c)
  hentry c := by
    rw [Pipeline.ownSems0_none]
    have hsplit := Pipeline.arrays_of_unscopedBufs (p := 1) (pcfgs (F := F)) adm (rpdats m) launch1.win launch1.arr_whole c
      ((rpdats m 1 c).share_full fun _ => rfl) (rV2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (rpdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (rpdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (rpdats m) ((rpdats m 1 c).share_full fun _ => rfl)
      (rV2 m c) (rV3 m c) ((rpdats m 1 c).arrAt · cfg1.N) (rhF1 m c) (rhrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev rsegs : List (Pipeline.Seg (pcfgs (F := F)) adm (rpdats m) () defs₀ r𝒱₀ rL rlv) :=
  [ .region (rreg0 m),
    .host (rhseg hostOps1 hostOps1_sub hostOps1_fresh (rW1 m)),
    .region (rreg1 m),
    .host (rhseg hostOps2 hostOps2_sub hostOps2_fresh (rW3 m)) ]

-- the kit's implicit arguments are found by unifying its conclusion with this one, which takes unfolding plain
-- definitions in a metavariable's type
set_option backward.isDefEq.respectTransparency.types false in
/-- THE RUN. From any memory with zero counters every weakly fair execution of @main on the TensorCores terminates, nothing
    faulting, and every final state has every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = rW4 m c b) :=
  Pipeline.θ_run_regions_kit (pcfgs (F := F)) adm (rpdats m) () cellOf_inj emb₁ defs₀ r𝒱₀ rL rlv m ρ main (rsegs m)
    (fun c Q => by
      rewrite [main_chain c, Pipeline.Seg.run_eq_chain,
        show (rsegs m).map Pipeline.Seg.prog = [
          Prog.lift (.customCall (Pipeline.entry 0) ()),
          StableHlo.seq hostOps1,
          Prog.lift (.customCall (Pipeline.entry 1) ()),
          StableHlo.seq hostOps2 ] from rfl]
      exact .rfl)
    (by simp only [rsegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (rW0 m c) ∗ rR c)) (Tₙ := rTn m)
    (hch := ⟨fun _ => .rfl, fun _ => .rfl, fun _ => .rfl, fun _ => .rfl, fun c => by
      show (iprop(StableHlo.held (c : Thread nD τ) (Pipeline.ucRefs τ sig) (rW4 m c) ∗ rR c) : sProp 𝕄) ⊢ _
      iintro ⟨Hh, Hp, HO⟩
      isplitl [Hh Hp]
      · isplitl [Hh]; · iexact Hh
        iexact Hp
      iexact HO⟩)
    (hinit := by
      refine Pipeline.initEach rL rlv fun c => ?_
      rw [show unscopedBufs c (fun b => m ((c : Thread nD τ).loc b)) = StableHlo.held (c : Thread nD τ) (Pipeline.ucRefs τ sig) (rW0 m c)
        from Pipeline.unscopedBufs_held c (rW0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = rW4 m c b)
    (hfin := fun c s' => by
      iintro ⟨⟨Hh, -⟩, HSI⟩
      unfold StableHlo.held
      imodintro
      iapply (pointsTo_read_all (Pipeline.ucRefs τ sig) (fun b => (((c : Thread nD τ)).1, b)) (rW4 m c) s')
      isplitl [Hh] <;> iassumption)
    (hQ := fun s h c => h c)

/-- THE FRAME: the arguments end as launched. -/
theorem frame_all : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(h c _ (rmem_uc main_arg0 (by decide))).trans (rW4_main_arg0 m c),
     (h c _ (rmem_uc main_arg1 (by decide))).trans (rW4_main_arg1 m c)⟩) (run_all m ρ)

end Cert.KernelIdeal.Gen

end
-- ==== Proof.KPayload.lean ====
/-
  The kernel body's pure values, read at an index, at the ideal values (floats are extended reals).

  One grid point loads one [1, 1, 1024, 1024] block x and the four [1, 8, 128] accumulator blocks. The body
  * sums the block: first along the rows' entries (axis 1 of the [1024, 1024] matrix), then the 1024 row sums
    (as a column [1024, 1], along axis 0), to a [1, 1] total — Σ_h Σ_w x(h, w); the same for the squares;
  * adds such a total to every entry of an accumulator block (the [1, 1] total broadcast to [8, 128]);
  * or resets an accumulator block to zero.
  Reshapes only rename indices: a cast keeps the row-major position, a broadcast reads the one entry.
-/
import proofs.«160249_j59768764891231_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Payload

open Idealize.ShloMosaic Idealize.ShloMosaic.ValueIdx

/-! ### Reshapes and the broadcast of a single entry, read at an index -/

section Layout

variable {α : Type}

/-- A `[1, 1, a, b]` array cast to `[a, b]` reads, at `(i, j)`, the operand at `(0, 0, i, j)`. -/
theorem shapeCast_11ab_ab_apply {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp only [Nat.zero_mul, Nat.zero_add])

/-- A vector `[a]` cast to a column `[a, 1]` reads, at `(i, u)`, the vector at `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A `[1, 1]` array broadcast to `[a, b]` reads its one entry everywhere. -/
theorem broadcastTo_11_ab_apply {a b : ℕ} (v : (⟨2, ![1, 1]⟩ : Shape).Idx → α)
    (h : (⟨2, ![1, 1]⟩ : Shape).Broadcasts ⟨2, ![a, b]⟩) (p : Fin a) (c : Fin b) :
    broadcastTo ⟨2, ![a, b]⟩ v h (ix2 p c) = v (ix2 (0 : Fin 1) (0 : Fin 1)) := by
  refine broadcastTo_apply v h (ix2 p c) (ix2 (0 : Fin 1) (0 : Fin 1)) fun ax => ?_
  match ax with
  | ⟨0, _⟩ => rfl
  | ⟨1, _⟩ => rfl

end Layout

/-! ### A float sum along one axis of a matrix, at the ideal values -/

/-- The row index `i` with `l` put back on axis 1 is `(i, l)`. -/
theorem lift_axis1 {a b : ℕ} (hr : (⟨2, ![a, b]⟩ : Shape).Reduces [1] ⟨1, ![a]⟩) (i : Fin a) (l : Fin b) :
    hr.lift (ix1 i) l = ix2 i l :=
  funext fun ax => Fin.ext (by match ax with | ⟨0, _⟩ => rfl | ⟨1, _⟩ => rfl)

/-- The column index `j` with `k` put back on axis 0 is `(k, j)`. -/
theorem lift_axis0 {a b : ℕ} (hr : (⟨2, ![a, b]⟩ : Shape).Reduces [0] ⟨1, ![b]⟩) (j : Fin b) (k : Fin a) :
    hr.lift (ix1 j) k = ix2 k j :=
  funext fun ax => Fin.ext (by match ax with | ⟨0, _⟩ => rfl | ⟨1, _⟩ => rfl)

/-- An add reduction from the neutral accumulator along axis 1 of an `[a, b]` matrix: at `i`, the sum of row `i`. -/
theorem sum_axis1_apply {a b : ℕ} {φ : FTy} (src : FVec Ideal ⟨2, ![a, b]⟩ φ) (acc : BitVec φ.bits)
    (hr : (⟨2, ![a, b]⟩ : Shape).Reduces [1] ⟨1, ![a]⟩) (hφ : FKind.Formats φ)
    (hacc : acc = FKind.add.neutral φ hφ) (i : Fin a) :
    multiReduction .add [1] ⟨1, ![a]⟩ src acc hr hφ hacc (ix1 i) = ∑ l : Fin b, src (ix2 i l) := by
  refine (Ideal.multiReduction_add_single src acc hr hφ hacc (ix1 i)).trans ?_
  exact Finset.sum_congr rfl fun l _ => congrArg src (lift_axis1 hr i l)

/-- An add reduction from the neutral accumulator along axis 0 of an `[a, b]` matrix: at `j`, the sum of column `j`. -/
theorem sum_axis0_apply {a b : ℕ} {φ : FTy} (src : FVec Ideal ⟨2, ![a, b]⟩ φ) (acc : BitVec φ.bits)
    (hr : (⟨2, ![a, b]⟩ : Shape).Reduces [0] ⟨1, ![b]⟩) (hφ : FKind.Formats φ)
    (hacc : acc = FKind.add.neutral φ hφ) (j : Fin b) :
    multiReduction .add [0] ⟨1, ![b]⟩ src acc hr hφ hacc (ix1 j) = ∑ k : Fin a, src (ix2 k j) := by
  refine (Ideal.multiReduction_add_single src acc hr hφ hacc (ix1 j)).trans ?_
  exact Finset.sum_congr rfl fun k _ => congrArg src (lift_axis0 hr j k)

/-! ### The first launch's payloads -/

/-- The block's total: Σ_h Σ_w x(0, 0, h, w). -/
theorem pay8_apply (x : Vec Ideal S1x1x1024x1024 .f32) :
    Gen.k0_pay8 (F := Ideal) x (ix2 (0 : Fin 1) (0 : Fin 1))
      = ∑ h : Fin 1024, ∑ w : Fin 1024, x (ix4 (0 : Fin 1) (0 : Fin 1) h w) := by
  unfold Gen.k0_pay8 Gen.k0_pay7
  refine (shapeCast_a_1a_apply _ _ (0 : Fin 1) (0 : Fin 1)).trans ?_
  refine (sum_axis0_apply _ _ _ _ _ (0 : Fin 1)).trans ?_
  refine Finset.sum_congr rfl fun k _ => ?_
  refine (shapeCast_a_a1_apply _ _ k (0 : Fin 1)).trans ?_
  refine (sum_axis1_apply _ _ _ _ _ k).trans ?_
  exact Finset.sum_congr rfl fun l _ => shapeCast_11ab_ab_apply _ _ k l

/-- The block's total of squares: Σ_h Σ_w x(0, 0, h, w)². -/
theorem pay9_apply (x : Vec Ideal S1x1x1024x1024 .f32) :
    Gen.k0_pay9 (F := Ideal) x (ix2 (0 : Fin 1) (0 : Fin 1))
      = ∑ h : Fin 1024, ∑ w : Fin 1024,
          x (ix4 (0 : Fin 1) (0 : Fin 1) h w) * x (ix4 (0 : Fin 1) (0 : Fin 1) h w) := by
  unfold Gen.k0_pay9 Gen.k0_pay7
  refine (shapeCast_a_1a_apply _ _ (0 : Fin 1) (0 : Fin 1)).trans ?_
  refine (sum_axis0_apply _ _ _ _ _ (0 : Fin 1)).trans ?_
  refine Finset.sum_congr rfl fun k _ => ?_
  refine (shapeCast_a_a1_apply _ _ k (0 : Fin 1)).trans ?_
  refine (sum_axis1_apply _ _ _ _ _ k).trans ?_
  refine Finset.sum_congr rfl fun l _ => ?_
  refine (mulf_apply _ _ _).trans ?_
  rw [shapeCast_11ab_ab_apply]

/-- An accumulator block plus a [1, 1] value broadcast over it. -/
theorem pay1_apply (v : FVec Ideal S1x1 .f32) (a : Vec Ideal S1x8x128 .f32) (r : Fin 8) (l : Fin 128) :
    Gen.k0_pay1 (F := Ideal) v a (ix3 (0 : Fin 1) r l)
      = a (ix3 (0 : Fin 1) r l) + v (ix2 (0 : Fin 1) (0 : Fin 1)) := by
  unfold Gen.k0_pay1
  refine (shapeCast_ab_1ab_apply _ _ (0 : Fin 1) r l).trans ?_
  refine (addf_apply _ _ _).trans ?_
  refine congrArg₂ (· + ·) (shapeCast_1ab_ab_apply _ _ r l) ?_
  refine (broadcastTo_11_ab_apply _ _ r l).trans ?_
  exact congrFun (shapeCast_self _ _) _

theorem pay2_apply (v : FVec Ideal S1x1 .f32) (a : Vec Ideal S1x8x128 .f32) (r : Fin 8) (l : Fin 128) :
    Gen.k0_pay2 (F := Ideal) v a (ix3 (0 : Fin 1) r l)
      = a (ix3 (0 : Fin 1) r l) + v (ix2 (0 : Fin 1) (0 : Fin 1)) := by
  unfold Gen.k0_pay2
  refine (shapeCast_ab_1ab_apply _ _ (0 : Fin 1) r l).trans ?_
  refine (addf_apply _ _ _).trans ?_
  refine congrArg₂ (· + ·) (shapeCast_1ab_ab_apply _ _ r l) ?_
  refine (broadcastTo_11_ab_apply _ _ r l).trans ?_
  exact congrFun (shapeCast_self _ _) _

/-- An accumulator block plus the block's total. -/
theorem pay10_apply (x : Vec Ideal S1x1x1024x1024 .f32) (a : Vec Ideal S1x8x128 .f32) (r : Fin 8) (l : Fin 128) :
    Gen.k0_pay10 (F := Ideal) x a (ix3 (0 : Fin 1) r l)
      = a (ix3 (0 : Fin 1) r l) + Gen.k0_pay8 (F := Ideal) x (ix2 (0 : Fin 1) (0 : Fin 1)) := by
  unfold Gen.k0_pay10
  refine (shapeCast_ab_1ab_apply _ _ (0 : Fin 1) r l).trans ?_
  refine (addf_apply _ _ _).trans ?_
  refine congrArg₂ (· + ·) (shapeCast_1ab_ab_apply _ _ r l) ?_
  refine (broadcastTo_11_ab_apply _ _ r l).trans ?_
  exact congrFun (shapeCast_self _ _) _

/-- An accumulator block plus the block's total of squares. -/
theorem pay11_apply (x : Vec Ideal S1x1x1024x1024 .f32) (a : Vec Ideal S1x8x128 .f32) (r : Fin 8) (l : Fin 128) :
    Gen.k0_pay11 (F := Ideal) x a (ix3 (0 : Fin 1) r l)
      = a (ix3 (0 : Fin 1) r l) + Gen.k0_pay9 (F := Ideal) x (ix2 (0 : Fin 1) (0 : Fin 1)) := by
  unfold Gen.k0_pay11
  refine (shapeCast_ab_1ab_apply _ _ (0 : Fin 1) r l).trans ?_
  refine (addf_apply _ _ _).trans ?_
  refine congrArg₂ (· + ·) (shapeCast_1ab_ab_apply _ _ r l) ?_
  refine (broadcastTo_11_ab_apply _ _ r l).trans ?_
  exact congrFun (shapeCast_self _ _) _

/-- A reset accumulator block is zero everywhere. -/
theorem pay3_apply (r : Fin 8) (l : Fin 128) : Gen.k0_pay3 (F := Ideal) (ix3 (0 : Fin 1) r l) = 0 := by
  unfold Gen.k0_pay3
  refine (shapeCast_ab_1ab_apply _ _ (0 : Fin 1) r l).trans ?_
  exact Ideal.ofBits_zero_f32

theorem pay4_apply (r : Fin 8) (l : Fin 128) : Gen.k0_pay4 (F := Ideal) (ix3 (0 : Fin 1) r l) = 0 := by
  unfold Gen.k0_pay4
  refine (shapeCast_ab_1ab_apply _ _ (0 : Fin 1) r l).trans ?_
  exact Ideal.ofBits_zero_f32

theorem pay5_apply (r : Fin 8) (l : Fin 128) : Gen.k0_pay5 (F := Ideal) (ix3 (0 : Fin 1) r l) = 0 := by
  unfold Gen.k0_pay5
  refine (shapeCast_ab_1ab_apply _ _ (0 : Fin 1) r l).trans ?_
  exact Ideal.ofBits_zero_f32

theorem pay6_apply (r : Fin 8) (l : Fin 128) : Gen.k0_pay6 (F := Ideal) (ix3 (0 : Fin 1) r l) = 0 := by
  unfold Gen.k0_pay6
  refine (shapeCast_ab_1ab_apply _ _ (0 : Fin 1) r l).trans ?_
  exact Ideal.ofBits_zero_f32

/-! ### The second launch's payloads -/

namespace K1

/-- The block's total: Σ_h Σ_w x(0, 0, h, w). -/
theorem pay8_apply (x : Vec Ideal S1x1x1024x1024 .f32) :
    Gen.k1_pay8 (F := Ideal) x (ix2 (0 : Fin 1) (0 : Fin 1))
      = ∑ h : Fin 1024, ∑ w : Fin 1024, x (ix4 (0 : Fin 1) (0 : Fin 1) h w) := by
  unfold Gen.k1_pay8 Gen.k1_pay7
  refine (shapeCast_a_1a_apply _ _ (0 : Fin 1) (0 : Fin 1)).trans ?_
  refine (sum_axis0_apply _ _ _ _ _ (0 : Fin 1)).trans ?_
  refine Finset.sum_congr rfl fun k _ => ?_
  refine (shapeCast_a_a1_apply _ _ k (0 : Fin 1)).trans ?_
  refine (sum_axis1_apply _ _ _ _ _ k).trans ?_
  exact Finset.sum_congr rfl fun l _ => shapeCast_11ab_ab_apply _ _ k l

/-- The block's total of squares: Σ_h Σ_w x(0, 0, h, w)². -/
theorem pay9_apply (x : Vec Ideal S1x1x1024x1024 .f32) :
    Gen.k1_pay9 (F := Ideal) x (ix2 (0 : Fin 1) (0 : Fin 1))
      = ∑ h : Fin 1024, ∑ w : Fin 1024,
          x (ix4 (0 : Fin 1) (0 : Fin 1) h w) * x (ix4 (0 : Fin 1) (0 : Fin 1) h w) := by
  unfold Gen.k1_pay9 Gen.k1_pay7
  refine (shapeCast_a_1a_apply _ _ (0 : Fin 1) (0 : Fin 1)).trans ?_
  refine (sum_axis0_apply _ _ _ _ _ (0 : Fin 1)).trans ?_
  refine Finset.sum_congr rfl fun k _ => ?_
  refine (shapeCast_a_a1_apply _ _ k (0 : Fin 1)).trans ?_
  refine (sum_axis1_apply _ _ _ _ _ k).trans ?_
  refine Finset.sum_congr rfl fun l _ => ?_
  refine (mulf_apply _ _ _).trans ?_
  rw [shapeCast_11ab_ab_apply]

/-- An accumulator block plus a [1, 1] value broadcast over it. -/
theorem pay1_apply (v : FVec Ideal S1x1 .f32) (a : Vec Ideal S1x8x128 .f32) (r : Fin 8) (l : Fin 128) :
    Gen.k1_pay1 (F := Ideal) v a (ix3 (0 : Fin 1) r l)
      = a (ix3 (0 : Fin 1) r l) + v (ix2 (0 : Fin 1) (0 : Fin 1)) := by
  unfold Gen.k1_pay1
  refine (shapeCast_ab_1ab_apply _ _ (0 : Fin 1) r l).trans ?_
  refine (addf_apply _ _ _).trans ?_
  refine congrArg₂ (· + ·) (shapeCast_1ab_ab_apply _ _ r l) ?_
  refine (broadcastTo_11_ab_apply _ _ r l).trans ?_
  exact congrFun (shapeCast_self _ _) _

theorem pay2_apply (v : FVec Ideal S1x1 .f32) (a : Vec Ideal S1x8x128 .f32) (r : Fin 8) (l : Fin 128) :
    Gen.k1_pay2 (F := Ideal) v a (ix3 (0 : Fin 1) r l)
      = a (ix3 (0 : Fin 1) r l) + v (ix2 (0 : Fin 1) (0 : Fin 1)) := by
  unfold Gen.k1_pay2
  refine (shapeCast_ab_1ab_apply _ _ (0 : Fin 1) r l).trans ?_
  refine (addf_apply _ _ _).trans ?_
  refine congrArg₂ (· + ·) (shapeCast_1ab_ab_apply _ _ r l) ?_
  refine (broadcastTo_11_ab_apply _ _ r l).trans ?_
  exact congrFun (shapeCast_self _ _) _

/-- An accumulator block plus the block's total. -/
theorem pay10_apply (x : Vec Ideal S1x1x1024x1024 .f32) (a : Vec Ideal S1x8x128 .f32) (r : Fin 8) (l : Fin 128) :
    Gen.k1_pay10 (F := Ideal) x a (ix3 (0 : Fin 1) r l)
      = a (ix3 (0 : Fin 1) r l) + Gen.k1_pay8 (F := Ideal) x (ix2 (0 : Fin 1) (0 : Fin 1)) := by
  unfold Gen.k1_pay10
  refine (shapeCast_ab_1ab_apply _ _ (0 : Fin 1) r l).trans ?_
  refine (addf_apply _ _ _).trans ?_
  refine congrArg₂ (· + ·) (shapeCast_1ab_ab_apply _ _ r l) ?_
  refine (broadcastTo_11_ab_apply _ _ r l).trans ?_
  exact congrFun (shapeCast_self _ _) _

/-- An accumulator block plus the block's total of squares. -/
theorem pay11_apply (x : Vec Ideal S1x1x1024x1024 .f32) (a : Vec Ideal S1x8x128 .f32) (r : Fin 8) (l : Fin 128) :
    Gen.k1_pay11 (F := Ideal) x a (ix3 (0 : Fin 1) r l)
      = a (ix3 (0 : Fin 1) r l) + Gen.k1_pay9 (F := Ideal) x (ix2 (0 : Fin 1) (0 : Fin 1)) := by
  unfold Gen.k1_pay11
  refine (shapeCast_ab_1ab_apply _ _ (0 : Fin 1) r l).trans ?_
  refine (addf_apply _ _ _).trans ?_
  refine congrArg₂ (· + ·) (shapeCast_1ab_ab_apply _ _ r l) ?_
  refine (broadcastTo_11_ab_apply _ _ r l).trans ?_
  exact congrFun (shapeCast_self _ _) _

/-- A reset accumulator block is zero everywhere. -/
theorem pay3_apply (r : Fin 8) (l : Fin 128) : Gen.k1_pay3 (F := Ideal) (ix3 (0 : Fin 1) r l) = 0 := by
  unfold Gen.k1_pay3
  refine (shapeCast_ab_1ab_apply _ _ (0 : Fin 1) r l).trans ?_
  exact Ideal.ofBits_zero_f32

theorem pay4_apply (r : Fin 8) (l : Fin 128) : Gen.k1_pay4 (F := Ideal) (ix3 (0 : Fin 1) r l) = 0 := by
  unfold Gen.k1_pay4
  refine (shapeCast_ab_1ab_apply _ _ (0 : Fin 1) r l).trans ?_
  exact Ideal.ofBits_zero_f32

theorem pay5_apply (r : Fin 8) (l : Fin 128) : Gen.k1_pay5 (F := Ideal) (ix3 (0 : Fin 1) r l) = 0 := by
  unfold Gen.k1_pay5
  refine (shapeCast_ab_1ab_apply _ _ (0 : Fin 1) r l).trans ?_
  exact Ideal.ofBits_zero_f32

theorem pay6_apply (r : Fin 8) (l : Fin 128) : Gen.k1_pay6 (F := Ideal) (ix3 (0 : Fin 1) r l) = 0 := by
  unfold Gen.k1_pay6
  refine (shapeCast_ab_1ab_apply _ _ (0 : Fin 1) r l).trans ?_
  exact Ideal.ofBits_zero_f32

end K1

end Cert.KernelIdeal.Payload

end
-- ==== Proof.LibRowAccum.lean ====
/-
  Running sums over a grid of 64 points n = 8·b + c (b the block, c < 8 the position in the block).

  * A row accumulator restarts from zero at c = 0 and adds the point's term at every point; at the last point
    of block b it holds the sum of the block's eight terms.
  * A diagonal accumulator restarts from zero at c = 0 and adds the point's term only where c = b; at the last
    point of block b (b < 8) it holds the single term of the point (b, b).

  Both facts are stated for any sequence satisfying the recurrence, over an additive commutative monoid.
-/
import Mathlib.Tactic
import Mathlib.Algebra.BigOperators.Fin

namespace Cert.Moment.Accum

variable {M : Type*} [AddCommMonoid M]

/-! ### The row accumulator -/

/-- Within block b, after position k the accumulator holds the first k+1 terms of the block. -/
theorem row_core (a f : ℕ → M) (b : ℕ)
    (h : ∀ k, k < 8 →
      a (8 * b + k) = (if (8 * b + k) % 8 = 0 then 0 else a (8 * b + k - 1)) + f (8 * b + k)) :
    ∀ k, k < 8 → a (8 * b + k) = ∑ c ∈ Finset.range (k + 1), f (8 * b + c) := by
  intro k
  induction k with
  | zero =>
    intro hk
    rw [h 0 hk, if_pos (by omega), zero_add, Finset.sum_range_one]
  | succ k ih =>
    intro hk
    have hne : ¬ (8 * b + (k + 1)) % 8 = 0 := by omega
    have hpred : 8 * b + (k + 1) - 1 = 8 * b + k := by omega
    rw [h (k + 1) hk, if_neg hne, hpred, ih (by omega)]
    exact (Finset.sum_range_succ (fun c => f (8 * b + c)) (k + 1)).symm

/-- A sequence that restarts at the start of each block and adds f n at every point holds, at the end of
    block b, the sum of the block. -/
theorem rowAcc_last_of (a f : ℕ → M)
    (h : ∀ n, a n = (if n % 8 = 0 then 0 else a (n - 1)) + f n) (b : ℕ) :
    a (8 * b + 7) = ∑ c : Fin 8, f (8 * b + c.val) := by
  rw [row_core a f b (fun k _ => h _) 7 (by norm_num)]
  exact (Fin.sum_univ_eq_sum_range (fun c => f (8 * b + c)) 8).symm

/-- The same when the recurrence is known on the 64 grid points only. -/
theorem rowAcc_last_of_lt (a f : ℕ → M)
    (h : ∀ n, n < 64 → a n = (if n % 8 = 0 then 0 else a (n - 1)) + f n) (b : ℕ) (hb : b < 8) :
    a (8 * b + 7) = ∑ c : Fin 8, f (8 * b + c.val) := by
  rw [row_core a f b (fun k hk => h _ (by omega)) 7 (by norm_num)]
  exact (Fin.sum_univ_eq_sum_range (fun c => f (8 * b + c)) 8).symm

/-- The row accumulator itself. -/
def rowAcc (f : ℕ → M) : ℕ → M
  | 0 => 0 + f 0
  | n + 1 => (if (n + 1) % 8 = 0 then 0 else rowAcc f n) + f (n + 1)

theorem rowAcc_unfold (f : ℕ → M) (n : ℕ) :
    rowAcc f n = (if n % 8 = 0 then 0 else rowAcc f (n - 1)) + f n := by
  cases n with
  | zero => simp [rowAcc]
  | succ n => simp only [rowAcc, Nat.add_sub_cancel]

theorem rowAcc_last (f : ℕ → M) (b : ℕ) : rowAcc f (8 * b + 7) = ∑ c : Fin 8, f (8 * b + c.val) :=
  rowAcc_last_of (rowAcc f) f (rowAcc_unfold f) b

/-! ### The diagonal accumulator -/

/-- Within block b < 8, after position k the accumulator holds the diagonal term if position b has been
    passed, and zero before. -/
theorem diag_core (a g : ℕ → M) (b : ℕ)
    (h : ∀ k, k < 8 → a (8 * b + k) =
      (if (8 * b + k) / 8 = (8 * b + k) % 8
        then (if (8 * b + k) % 8 = 0 then 0 else a (8 * b + k - 1)) + g (8 * b + k)
        else (if (8 * b + k) % 8 = 0 then 0 else a (8 * b + k - 1)))) :
    ∀ k, k < 8 → a (8 * b + k) = if b ≤ k then g (8 * b + b) else 0 := by
  intro k
  induction k with
  | zero =>
    intro hk
    have h0 : (8 * b + 0) % 8 = 0 := by omega
    have hd : (8 * b + 0) / 8 = b := by omega
    rw [h 0 hk, h0, hd, if_pos rfl]
    by_cases hb : b = 0
    · subst hb
      simp
    · rw [if_neg hb, if_neg (by omega)]
  | succ k ih =>
    intro hk
    have hm : (8 * b + (k + 1)) % 8 = k + 1 := by omega
    have hd : (8 * b + (k + 1)) / 8 = b := by omega
    have hpred : 8 * b + (k + 1) - 1 = 8 * b + k := by omega
    rw [h (k + 1) hk, hm, hd, if_neg (Nat.succ_ne_zero k), hpred, ih (by omega)]
    by_cases hb : b = k + 1
    · rw [if_pos hb, if_neg (by omega), zero_add, if_pos (by omega), ← hb]
    · rw [if_neg hb]
      by_cases hle : b ≤ k
      · rw [if_pos hle, if_pos (by omega)]
      · rw [if_neg hle, if_neg (by omega)]

/-- A sequence that restarts at the start of each block and adds g n only on the diagonal holds, at the end
    of block b < 8, the diagonal term g (8b + b). -/
theorem diagAcc_last_of (a g : ℕ → M)
    (h : ∀ n, a n =
      (if n / 8 = n % 8 then (if n % 8 = 0 then 0 else a (n - 1)) + g n
        else (if n % 8 = 0 then 0 else a (n - 1))))
    (b : ℕ) (hb : b < 8) : a (8 * b + 7) = g (8 * b + b) := by
  rw [diag_core a g b (fun k _ => h _) 7 (by norm_num), if_pos (by omega)]

/-- The same when the recurrence is known on the 64 grid points only. -/
theorem diagAcc_last_of_lt (a g : ℕ → M)
    (h : ∀ n, n < 64 → a n =
      (if n / 8 = n % 8 then (if n % 8 = 0 then 0 else a (n - 1)) + g n
        else (if n % 8 = 0 then 0 else a (n - 1))))
    (b : ℕ) (hb : b < 8) : a (8 * b + 7) = g (8 * b + b) := by
  rw [diag_core a g b (fun k hk => h _ (by omega)) 7 (by norm_num), if_pos (by omega)]

/-- The diagonal accumulator itself. -/
def diagAcc (g : ℕ → M) : ℕ → M
  | 0 => if 0 / 8 = 0 % 8 then (0 : M) + g 0 else 0
  | n + 1 =>
    if (n + 1) / 8 = (n + 1) % 8 then (if (n + 1) % 8 = 0 then 0 else diagAcc g n) + g (n + 1)
    else (if (n + 1) % 8 = 0 then 0 else diagAcc g n)

theorem diagAcc_unfold (g : ℕ → M) (n : ℕ) :
    diagAcc g n =
      (if n / 8 = n % 8 then (if n % 8 = 0 then 0 else diagAcc g (n - 1)) + g n
        else (if n % 8 = 0 then 0 else diagAcc g (n - 1))) := by
  cases n with
  | zero => simp [diagAcc]
  | succ n => simp only [diagAcc, Nat.add_sub_cancel]

/-- The unfolding with the carried value named first. -/
theorem diagAcc_unfold_let (g : ℕ → M) (n : ℕ) :
    diagAcc g n =
      (let p := if n % 8 = 0 then 0 else diagAcc g (n - 1)
       if n / 8 = n % 8 then p + g n else p) :=
  diagAcc_unfold g n

theorem diagAcc_last (g : ℕ → M) (b : ℕ) (hb : b < 8) : diagAcc g (8 * b + 7) = g (8 * b + b) :=
  diagAcc_last_of (diagAcc g) g (diagAcc_unfold g) b hb

end Cert.Moment.Accum
-- ==== Proof.MomentSpec.lean ====
/-
  The mathematics both programs compute, stated once over the extended reals.

  An image is X : Fin 8 → Fin 8 → Fin 1024 → Fin 1024 → EReal (batch b, channel c, row h, column w).
  Per batch item b both programs need the mean and the unbiased variance of the n = 8·1024·1024 entries
  X b · · ·, and the sum over the "diagonal" slice X b b · · of the squared standardized entries.

  * the streaming form takes four sums per batch item — S = Σ x, Q = Σ x², over all of X b · · ·, and
    DS = Σ x, DQ = Σ x² over the slice X b b · · — and evaluates
        ((DQ − 2·(S/n)·DS + HW·(S/n)·(S/n)) / ((Q − S·S/n)/(n−1))) / n²        (`kTerm`);
  * the two-pass form centres first: mean = S/n, var = Σ (x − mean)² / (n−1), and sums
        ((x − mean)/√var)² over the slice, then divides by n²                    (`rMoment`).

  Division is the extended reals' total one of the Ideal instance (`Ideal.div`: x / 0 is ±∞ by the sign of x
  and 0 / 0 is −∞), the square root `Ideal.sqrt`. The result of either program is |m(X₁) − m(X₂)| with
  |y| = max y (−y).
-/
import Idealize.ShloMosaic.PureOps.Ideal
import Idealize.ShloMosaic.PureOps.Ideal.Laws

noncomputable section

namespace Cert.Moment

open Idealize.ShloMosaic

/-- An image, entry by entry. -/
abbrev Img := Fin 8 → Fin 8 → Fin 1024 → Fin 1024 → EReal

/-- n = 8·1024·1024, the number of entries of one batch item. -/
def nE : EReal := ((8388608 : ℝ) : EReal)
/-- n − 1. -/
def n1E : EReal := ((8388607 : ℝ) : EReal)
/-- H·W = 1024·1024, the number of entries of one slice. -/
def hwE : EReal := ((1048576 : ℝ) : EReal)
def twoE : EReal := ((2 : ℝ) : EReal)
/-- n² = 2⁴⁶. -/
def denE : EReal := ((70368744177664 : ℝ) : EReal)

/-- Σ x over batch item b. -/
def S (X : Img) (b : Fin 8) : EReal := ∑ c : Fin 8, ∑ h : Fin 1024, ∑ w : Fin 1024, X b c h w
/-- Σ x² over batch item b. -/
def Q (X : Img) (b : Fin 8) : EReal := ∑ c : Fin 8, ∑ h : Fin 1024, ∑ w : Fin 1024, X b c h w * X b c h w
/-- Σ x over the slice X b b · ·. -/
def DS (X : Img) (b : Fin 8) : EReal := ∑ h : Fin 1024, ∑ w : Fin 1024, X b b h w
/-- Σ x² over the slice X b b · ·. -/
def DQ (X : Img) (b : Fin 8) : EReal := ∑ h : Fin 1024, ∑ w : Fin 1024, X b b h w * X b b h w

/-- One batch item's moment from the four streamed sums, operation by operation as the streaming program's
    host tail spells it. -/
def kTerm (s q ds dq : EReal) : EReal :=
  Ideal.div
    (Ideal.div ((dq - (twoE * Ideal.div s nE) * ds) + (hwE * Ideal.div s nE) * Ideal.div s nE)
      (Ideal.div (q - Ideal.div (s * s) nE) n1E))
    denE

/-- The streaming program's moment of an image: the sum over the batch. -/
def kMoment (X : Img) : EReal := ∑ b : Fin 8, kTerm (S X b) (Q X b) (DS X b) (DQ X b)

/-- The streaming program's result. -/
def kResult (X₁ X₂ : Img) : EReal := max (kMoment X₁ - kMoment X₂) (-(kMoment X₁ - kMoment X₂))

/-- The mean of batch item b. -/
def rMean (X : Img) (b : Fin 8) : EReal := Ideal.div (S X b) nE
/-- The unbiased variance of batch item b, centred first. -/
def rVar (X : Img) (b : Fin 8) : EReal :=
  Ideal.div (∑ c : Fin 8, ∑ h : Fin 1024, ∑ w : Fin 1024, (X b c h w - rMean X b) * (X b c h w - rMean X b)) n1E
/-- A standardized entry of the slice X b b · ·. -/
def rZ (X : Img) (b : Fin 8) (h w : Fin 1024) : EReal := Ideal.div (X b b h w - rMean X b) (Ideal.sqrt (rVar X b))
/-- The two-pass program's moment of an image. -/
def rMoment (X : Img) : EReal :=
  ∑ b : Fin 8, Ideal.div (∑ h : Fin 1024, ∑ w : Fin 1024, rZ X b h w * rZ X b h w) denE

/-- The two-pass program's result. -/
def rResult (X₁ X₂ : Img) : EReal := max (rMoment X₁ - rMoment X₂) (-(rMoment X₁ - rMoment X₂))

/-- Every entry is a real number. -/
def Finite (X : Img) : Prop := ∀ b c h w, ∃ r : ℝ, X b c h w = (r : EReal)

end Cert.Moment

end
-- ==== Proof.KI.Value0.lean ====
/-
  pallas_call 0: the four output arrays after the region.

  Each output array [8, 8, 128] is tiled by its eight [1, 8, 128] blocks; block b is written back once, after the last
  point 8·b + 7 of batch item b, and holds the accumulator's value there. At the ideal values that value is, at every
  entry of the block, the sum over the batch item's eight image blocks of each block's total (windows 1 and 2: the
  entries, their squares), or the total of the one block on the diagonal (windows 3 and 4).
-/
import proofs.«160249_j59768764891231_2_alg».proof.Proof.KI.Dat0
import proofs.«160249_j59768764891231_2_alg».proof.Proof.KPayload
import proofs.«160249_j59768764891231_2_alg».proof.Proof.LibRowAccum
import proofs.«160249_j59768764891231_2_alg».proof.Proof.MomentSpec
import Idealize.ShloMosaic.Lib.Pipeline.Value
import Idealize.ShloMosaic.Lib.ValueIdx

set_option maxRecDepth 16384

noncomputable section

open scoped BigOperators

namespace Cert.KernelIdeal.Gen

open Idealize.ShloMosaic Idealize.ShloMosaic.TcCoe Idealize.ShloMosaic.ValueIdx
open Idealize.SL Idealize.SL.Sem
open Idealize.ShloMosaic.Pipeline (Dat Cfg Window)

section Blocks

variable {F : FTy → Type} [FloatOps F]
variable (V : (c : Dev nD) → (b : Ref sig .tc) → Buf (Elt F) ((c : Thread nD τ).loc b))

/-! ## The printed index maps, in closed form -/

/-- The image block at point n is block (n / 8, n % 8, 0, 0). -/
theorem idx0_0 : ∀ t : Fin cfg0.N, win0_0.index t (0 : Fin 4) = t.val / 8 ∧ win0_0.index t (1 : Fin 4) = t.val % 8
    ∧ win0_0.index t (2 : Fin 4) = 0 ∧ win0_0.index t (3 : Fin 4) = 0 :=
  (by decide +kernel : ∀ t : Fin grid0.N, win0_0.index t (0 : Fin 4) = t.val / 8 ∧ win0_0.index t (1 : Fin 4) = t.val % 8
    ∧ win0_0.index t (2 : Fin 4) = 0 ∧ win0_0.index t (3 : Fin 4) = 0)

/-- Accumulator tile 1's block index at point n is (n / 8, 0, 0). -/
theorem idx0_1 : ∀ t : Fin cfg0.N, win0_1.index t (0 : Fin 3) = t.val / 8 ∧ win0_1.index t (1 : Fin 3) = 0
    ∧ win0_1.index t (2 : Fin 3) = 0 :=
  (by decide +kernel : ∀ t : Fin grid0.N, win0_1.index t (0 : Fin 3) = t.val / 8 ∧ win0_1.index t (1 : Fin 3) = 0
    ∧ win0_1.index t (2 : Fin 3) = 0)

/-- Accumulator tile 2's block index at point n is (n / 8, 0, 0). -/
theorem idx0_2 : ∀ t : Fin cfg0.N, win0_2.index t (0 : Fin 3) = t.val / 8 ∧ win0_2.index t (1 : Fin 3) = 0
    ∧ win0_2.index t (2 : Fin 3) = 0 :=
  (by decide +kernel : ∀ t : Fin grid0.N, win0_2.index t (0 : Fin 3) = t.val / 8 ∧ win0_2.index t (1 : Fin 3) = 0
    ∧ win0_2.index t (2 : Fin 3) = 0)

/-- Accumulator tile 3's block index at point n is (n / 8, 0, 0). -/
theorem idx0_3 : ∀ t : Fin cfg0.N, win0_3.index t (0 : Fin 3) = t.val / 8 ∧ win0_3.index t (1 : Fin 3) = 0
    ∧ win0_3.index t (2 : Fin 3) = 0 :=
  (by decide +kernel : ∀ t : Fin grid0.N, win0_3.index t (0 : Fin 3) = t.val / 8 ∧ win0_3.index t (1 : Fin 3) = 0
    ∧ win0_3.index t (2 : Fin 3) = 0)

/-- Accumulator tile 4's block index at point n is (n / 8, 0, 0). -/
theorem idx0_4 : ∀ t : Fin cfg0.N, win0_4.index t (0 : Fin 3) = t.val / 8 ∧ win0_4.index t (1 : Fin 3) = 0
    ∧ win0_4.index t (2 : Fin 3) = 0 :=
  (by decide +kernel : ∀ t : Fin grid0.N, win0_4.index t (0 : Fin 3) = t.val / 8 ∧ win0_4.index t (1 : Fin 3) = 0
    ∧ win0_4.index t (2 : Fin 3) = 0)

/-- The last point of batch item b is a grid point. -/
theorem last0_lt (b : Fin 8) : 8 * b.val + 7 < cfg0.N := by
  rw [show cfg0.N = 64 from N_0]; have := b.isLt; omega

/-! ## The input block at an index -/

/-- The image block at point n, read at (0, 0, h, w), is the image at (n / 8, n % 8, h, w). -/
theorem iblk0_0_apply (c : Dev nD) (t : Fin cfg0.N) (h w : Fin 1024) (b' c' : Fin 8)
    (hb : b'.val = t.val / 8) (hc : c'.val = t.val % 8) :
    (iblk0 V c 0 t : Vec F S1x1x1024x1024 .f32) (ix4 (0 : Fin 1) (0 : Fin 1) h w)
      = (V c main_arg0 : S8x8x1024x1024.Idx → Elt F .f32) (ix4 b' c' h w) := by
  obtain ⟨e0, e1, e2, e3⟩ := idx0_0 t
  unfold iblk0
  rw [View.read_apply]
  show V c main_arg0 (((cfg0.win 0).blk t).view.emb (ix4 (0 : Fin 1) (0 : Fin 1) h w)) = V c main_arg0 (ix4 b' c' h w)
  congr 1
  funext a
  apply Fin.ext
  match a with
  | ⟨0, _⟩ => show win0_0.index t (0 : Fin 4) * 1 + 1 * 0 = b'.val; omega
  | ⟨1, _⟩ => show win0_0.index t (1 : Fin 4) * 1 + 1 * 0 = c'.val; omega
  | ⟨2, _⟩ => show win0_0.index t (2 : Fin 4) * 1024 + 1 * h.val = h.val; omega
  | ⟨3, _⟩ => show win0_0.index t (3 : Fin 4) * 1024 + 1 * w.val = w.val; omega

/-! ## From blocks to arrays -/

/-- Accumulator 1 does not depend on how the point's bound is proved. -/
theorem acc0_1_congr (c : Dev nD) (n n' : ℕ) (hn : n < cfg0.N) (hn' : n' < cfg0.N) (e : n = n') :
    acc0_1 V c n hn = acc0_1 V c n' hn' := by subst e; rfl

/-- What output array 1 ends holding: at (b, r, l), accumulator 1's value at (0, r, l) after the last point of b. -/
def G0_1 (c : Dev nD) : S8x8x128.Idx → Elt F .f32 :=
  fun i => acc0_1 V c (8 * (i 0).val + 7) (last0_lt (i 0)) (ix3 (0 : Fin 1) (i 1 : Fin 8) (i 2 : Fin 128))

/-- What a point writes back of window 1 is its block of that array. -/
theorem flushed0_1_eq (c : Dev nD) (t : Fin cfg0.N) (hf : (cfg0.win 1).flush t = true) :
    (dat0 V c).flushed 1 t = ((cfg0.win 1).blk t).view.read (Elt F) (G0_1 V c) := by
  have h7 : t.val % 8 = 7 := (flush0_1 t).mp hf
  have hN : t.val < 64 := lt_of_lt_of_eq t.isLt (show cfg0.N = 64 from N_0)
  obtain ⟨e0, e1, e2⟩ := idx0_1 t
  show (cfg0.win 1).cut (grid0.coords t) ((dat0 V c).after 1 t) = _
  rw [after0_1]
  funext j
  show acc0_1 V c t.val t.isLt j = G0_1 V c (((cfg0.win 1).blk t).view.emb j)
  unfold G0_1
  have hj0 : (j 0).val < 1 := (j 0).isLt
  have hj1 : (j 1).val < 8 := (j 1).isLt
  have hj2 : (j 2).val < 128 := (j 2).isLt
  have c0 : ((((cfg0.win 1).blk t).view.emb j) 0).val = t.val / 8 := by
    show win0_1.index t (0 : Fin 3) * 1 + 1 * (j 0).val = _; omega
  have c1 : ((((cfg0.win 1).blk t).view.emb j) 1).val = (j 1).val := by
    show win0_1.index t (1 : Fin 3) * 8 + 1 * (j 1).val = _; omega
  have c2 : ((((cfg0.win 1).blk t).view.emb j) 2).val = (j 2).val := by
    show win0_1.index t (2 : Fin 3) * 128 + 1 * (j 2).val = _; omega
  rw [acc0_1_congr V c (8 * ((((cfg0.win 1).blk t).view.emb j) 0).val + 7) t.val _ t.isLt (by rw [c0]; omega)]
  congr 1
  funext a
  match a with
  | ⟨0, _⟩ => exact Fin.ext (by show (j 0).val = 0; omega)
  | ⟨1, _⟩ => exact Fin.ext c1.symm
  | ⟨2, _⟩ => exact Fin.ext c2.symm

/-- An index of output array 1 is in point t's block iff each coordinate is in the block's range on its axis. -/
theorem mem_blk0_1 (t : Fin cfg0.N) (i : S8x8x128.Idx) :
    i ∈ ((cfg0.win 1).blk t).view.set ↔ ∀ a : Fin 3, win0_1.index t a * S1x8x128.size a ≤ (i a).val
      ∧ (i a).val < win0_1.index t a * S1x8x128.size a + S1x8x128.size a := by
  show i ∈ ((View.whole main_v0_0).slice (win0_1.rect t)).set ↔ _
  rw [View.set_slice_whole, Rect.mem_set_unit]
  exact Iff.rfl

/-- Every entry (b, r, l) of output array 1 is in the block written back after the last point of b. -/
theorem cover0_1 (i : S8x8x128.Idx) :
    ∃ t : Fin cfg0.N, (cfg0.win 1).flush t = true ∧ i ∈ ((cfg0.win 1).blk t).view.set := by
  have h0 : (i 0).val < 8 := (i 0).isLt
  have h1 : (i 1).val < 8 := (i 1).isLt
  have h2 : (i 2).val < 128 := (i 2).isLt
  refine ⟨⟨8 * (i 0).val + 7, last0_lt (i 0)⟩, (flush0_1 _).mpr (by show (8 * (i 0).val + 7) % 8 = 7; omega), ?_⟩
  rw [mem_blk0_1]
  obtain ⟨e0, e1, e2⟩ := idx0_1 ⟨8 * (i 0).val + 7, last0_lt (i 0)⟩
  have e0' : win0_1.index ⟨8 * (i 0).val + 7, last0_lt (i 0)⟩ (0 : Fin 3) = (8 * (i 0).val + 7) / 8 := e0
  intro a
  match a with
  | ⟨0, _⟩ =>
    show win0_1.index ⟨8 * (i 0).val + 7, last0_lt (i 0)⟩ (0 : Fin 3) * 1 ≤ (i 0).val
      ∧ (i 0).val < win0_1.index ⟨8 * (i 0).val + 7, last0_lt (i 0)⟩ (0 : Fin 3) * 1 + 1
    rw [e0']; omega
  | ⟨1, _⟩ =>
    show win0_1.index ⟨8 * (i 0).val + 7, last0_lt (i 0)⟩ (1 : Fin 3) * 8 ≤ (i 1).val
      ∧ (i 1).val < win0_1.index ⟨8 * (i 0).val + 7, last0_lt (i 0)⟩ (1 : Fin 3) * 8 + 8
    rw [e1]; omega
  | ⟨2, _⟩ =>
    show win0_1.index ⟨8 * (i 0).val + 7, last0_lt (i 0)⟩ (2 : Fin 3) * 128 ≤ (i 2).val
      ∧ (i 2).val < win0_1.index ⟨8 * (i 0).val + 7, last0_lt (i 0)⟩ (2 : Fin 3) * 128 + 128
    rw [e2]; omega

/-- Output array 1 after the region. -/
theorem final0_1 (c : Dev nD) : (dat0 V c).arrAt 1 cfg0.N = G0_1 V c :=
  (dat0 V c).arrAt_eq_of_cover 1 (G0_1 V c) (flushed0_1_eq V c) cover0_1

/-- The same, entry by entry. -/
theorem final0_1_apply (c : Dev nD) (b r : Fin 8) (l : Fin 128) :
    ((dat0 V c).arrAt 1 cfg0.N : S8x8x128.Idx → Elt F .f32) (ix3 b r l)
      = acc0_1 V c (8 * b.val + 7) (last0_lt b) (ix3 (0 : Fin 1) r l) := by
  rw [final0_1]; rfl

/-- Accumulator 2 does not depend on how the point's bound is proved. -/
theorem acc0_2_congr (c : Dev nD) (n n' : ℕ) (hn : n < cfg0.N) (hn' : n' < cfg0.N) (e : n = n') :
    acc0_2 V c n hn = acc0_2 V c n' hn' := by subst e; rfl

/-- What output array 2 ends holding: at (b, r, l), accumulator 2's value at (0, r, l) after the last point of b. -/
def G0_2 (c : Dev nD) : S8x8x128.Idx → Elt F .f32 :=
  fun i => acc0_2 V c (8 * (i 0).val + 7) (last0_lt (i 0)) (ix3 (0 : Fin 1) (i 1 : Fin 8) (i 2 : Fin 128))

/-- What a point writes back of window 2 is its block of that array. -/
theorem flushed0_2_eq (c : Dev nD) (t : Fin cfg0.N) (hf : (cfg0.win 2).flush t = true) :
    (dat0 V c).flushed 2 t = ((cfg0.win 2).blk t).view.read (Elt F) (G0_2 V c) := by
  have h7 : t.val % 8 = 7 := (flush0_2 t).mp hf
  have hN : t.val < 64 := lt_of_lt_of_eq t.isLt (show cfg0.N = 64 from N_0)
  obtain ⟨e0, e1, e2⟩ := idx0_2 t
  show (cfg0.win 2).cut (grid0.coords t) ((dat0 V c).after 2 t) = _
  rw [after0_2]
  funext j
  show acc0_2 V c t.val t.isLt j = G0_2 V c (((cfg0.win 2).blk t).view.emb j)
  unfold G0_2
  have hj0 : (j 0).val < 1 := (j 0).isLt
  have hj1 : (j 1).val < 8 := (j 1).isLt
  have hj2 : (j 2).val < 128 := (j 2).isLt
  have c0 : ((((cfg0.win 2).blk t).view.emb j) 0).val = t.val / 8 := by
    show win0_2.index t (0 : Fin 3) * 1 + 1 * (j 0).val = _; omega
  have c1 : ((((cfg0.win 2).blk t).view.emb j) 1).val = (j 1).val := by
    show win0_2.index t (1 : Fin 3) * 8 + 1 * (j 1).val = _; omega
  have c2 : ((((cfg0.win 2).blk t).view.emb j) 2).val = (j 2).val := by
    show win0_2.index t (2 : Fin 3) * 128 + 1 * (j 2).val = _; omega
  rw [acc0_2_congr V c (8 * ((((cfg0.win 2).blk t).view.emb j) 0).val + 7) t.val _ t.isLt (by rw [c0]; omega)]
  congr 1
  funext a
  match a with
  | ⟨0, _⟩ => exact Fin.ext (by show (j 0).val = 0; omega)
  | ⟨1, _⟩ => exact Fin.ext c1.symm
  | ⟨2, _⟩ => exact Fin.ext c2.symm

/-- An index of output array 2 is in point t's block iff each coordinate is in the block's range on its axis. -/
theorem mem_blk0_2 (t : Fin cfg0.N) (i : S8x8x128.Idx) :
    i ∈ ((cfg0.win 2).blk t).view.set ↔ ∀ a : Fin 3, win0_2.index t a * S1x8x128.size a ≤ (i a).val
      ∧ (i a).val < win0_2.index t a * S1x8x128.size a + S1x8x128.size a := by
  show i ∈ ((View.whole main_v0_1).slice (win0_2.rect t)).set ↔ _
  rw [View.set_slice_whole, Rect.mem_set_unit]
  exact Iff.rfl

/-- Every entry (b, r, l) of output array 2 is in the block written back after the last point of b. -/
theorem cover0_2 (i : S8x8x128.Idx) :
    ∃ t : Fin cfg0.N, (cfg0.win 2).flush t = true ∧ i ∈ ((cfg0.win 2).blk t).view.set := by
  have h0 : (i 0).val < 8 := (i 0).isLt
  have h1 : (i 1).val < 8 := (i 1).isLt
  have h2 : (i 2).val < 128 := (i 2).isLt
  refine ⟨⟨8 * (i 0).val + 7, last0_lt (i 0)⟩, (flush0_2 _).mpr (by show (8 * (i 0).val + 7) % 8 = 7; omega), ?_⟩
  rw [mem_blk0_2]
  obtain ⟨e0, e1, e2⟩ := idx0_2 ⟨8 * (i 0).val + 7, last0_lt (i 0)⟩
  have e0' : win0_2.index ⟨8 * (i 0).val + 7, last0_lt (i 0)⟩ (0 : Fin 3) = (8 * (i 0).val + 7) / 8 := e0
  intro a
  match a with
  | ⟨0, _⟩ =>
    show win0_2.index ⟨8 * (i 0).val + 7, last0_lt (i 0)⟩ (0 : Fin 3) * 1 ≤ (i 0).val
      ∧ (i 0).val < win0_2.index ⟨8 * (i 0).val + 7, last0_lt (i 0)⟩ (0 : Fin 3) * 1 + 1
    rw [e0']; omega
  | ⟨1, _⟩ =>
    show win0_2.index ⟨8 * (i 0).val + 7, last0_lt (i 0)⟩ (1 : Fin 3) * 8 ≤ (i 1).val
      ∧ (i 1).val < win0_2.index ⟨8 * (i 0).val + 7, last0_lt (i 0)⟩ (1 : Fin 3) * 8 + 8
    rw [e1]; omega
  | ⟨2, _⟩ =>
    show win0_2.index ⟨8 * (i 0).val + 7, last0_lt (i 0)⟩ (2 : Fin 3) * 128 ≤ (i 2).val
      ∧ (i 2).val < win0_2.index ⟨8 * (i 0).val + 7, last0_lt (i 0)⟩ (2 : Fin 3) * 128 + 128
    rw [e2]; omega

/-- Output array 2 after the region. -/
theorem final0_2 (c : Dev nD) : (dat0 V c).arrAt 2 cfg0.N = G0_2 V c :=
  (dat0 V c).arrAt_eq_of_cover 2 (G0_2 V c) (flushed0_2_eq V c) cover0_2

/-- The same, entry by entry. -/
theorem final0_2_apply (c : Dev nD) (b r : Fin 8) (l : Fin 128) :
    ((dat0 V c).arrAt 2 cfg0.N : S8x8x128.Idx → Elt F .f32) (ix3 b r l)
      = acc0_2 V c (8 * b.val + 7) (last0_lt b) (ix3 (0 : Fin 1) r l) := by
  rw [final0_2]; rfl

/-- Accumulator 3 does not depend on how the point's bound is proved. -/
theorem acc0_3_congr (c : Dev nD) (n n' : ℕ) (hn : n < cfg0.N) (hn' : n' < cfg0.N) (e : n = n') :
    acc0_3 V c n hn = acc0_3 V c n' hn' := by subst e; rfl

/-- What output array 3 ends holding: at (b, r, l), accumulator 3's value at (0, r, l) after the last point of b. -/
def G0_3 (c : Dev nD) : S8x8x128.Idx → Elt F .f32 :=
  fun i => acc0_3 V c (8 * (i 0).val + 7) (last0_lt (i 0)) (ix3 (0 : Fin 1) (i 1 : Fin 8) (i 2 : Fin 128))

/-- What a point writes back of window 3 is its block of that array. -/
theorem flushed0_3_eq (c : Dev nD) (t : Fin cfg0.N) (hf : (cfg0.win 3).flush t = true) :
    (dat0 V c).flushed 3 t = ((cfg0.win 3).blk t).view.read (Elt F) (G0_3 V c) := by
  have h7 : t.val % 8 = 7 := (flush0_3 t).mp hf
  have hN : t.val < 64 := lt_of_lt_of_eq t.isLt (show cfg0.N = 64 from N_0)
  obtain ⟨e0, e1, e2⟩ := idx0_3 t
  show (cfg0.win 3).cut (grid0.coords t) ((dat0 V c).after 3 t) = _
  rw [after0_3]
  funext j
  show acc0_3 V c t.val t.isLt j = G0_3 V c (((cfg0.win 3).blk t).view.emb j)
  unfold G0_3
  have hj0 : (j 0).val < 1 := (j 0).isLt
  have hj1 : (j 1).val < 8 := (j 1).isLt
  have hj2 : (j 2).val < 128 := (j 2).isLt
  have c0 : ((((cfg0.win 3).blk t).view.emb j) 0).val = t.val / 8 := by
    show win0_3.index t (0 : Fin 3) * 1 + 1 * (j 0).val = _; omega
  have c1 : ((((cfg0.win 3).blk t).view.emb j) 1).val = (j 1).val := by
    show win0_3.index t (1 : Fin 3) * 8 + 1 * (j 1).val = _; omega
  have c2 : ((((cfg0.win 3).blk t).view.emb j) 2).val = (j 2).val := by
    show win0_3.index t (2 : Fin 3) * 128 + 1 * (j 2).val = _; omega
  rw [acc0_3_congr V c (8 * ((((cfg0.win 3).blk t).view.emb j) 0).val + 7) t.val _ t.isLt (by rw [c0]; omega)]
  congr 1
  funext a
  match a with
  | ⟨0, _⟩ => exact Fin.ext (by show (j 0).val = 0; omega)
  | ⟨1, _⟩ => exact Fin.ext c1.symm
  | ⟨2, _⟩ => exact Fin.ext c2.symm

/-- An index of output array 3 is in point t's block iff each coordinate is in the block's range on its axis. -/
theorem mem_blk0_3 (t : Fin cfg0.N) (i : S8x8x128.Idx) :
    i ∈ ((cfg0.win 3).blk t).view.set ↔ ∀ a : Fin 3, win0_3.index t a * S1x8x128.size a ≤ (i a).val
      ∧ (i a).val < win0_3.index t a * S1x8x128.size a + S1x8x128.size a := by
  show i ∈ ((View.whole main_v0_2).slice (win0_3.rect t)).set ↔ _
  rw [View.set_slice_whole, Rect.mem_set_unit]
  exact Iff.rfl

/-- Every entry (b, r, l) of output array 3 is in the block written back after the last point of b. -/
theorem cover0_3 (i : S8x8x128.Idx) :
    ∃ t : Fin cfg0.N, (cfg0.win 3).flush t = true ∧ i ∈ ((cfg0.win 3).blk t).view.set := by
  have h0 : (i 0).val < 8 := (i 0).isLt
  have h1 : (i 1).val < 8 := (i 1).isLt
  have h2 : (i 2).val < 128 := (i 2).isLt
  refine ⟨⟨8 * (i 0).val + 7, last0_lt (i 0)⟩, (flush0_3 _).mpr (by show (8 * (i 0).val + 7) % 8 = 7; omega), ?_⟩
  rw [mem_blk0_3]
  obtain ⟨e0, e1, e2⟩ := idx0_3 ⟨8 * (i 0).val + 7, last0_lt (i 0)⟩
  have e0' : win0_3.index ⟨8 * (i 0).val + 7, last0_lt (i 0)⟩ (0 : Fin 3) = (8 * (i 0).val + 7) / 8 := e0
  intro a
  match a with
  | ⟨0, _⟩ =>
    show win0_3.index ⟨8 * (i 0).val + 7, last0_lt (i 0)⟩ (0 : Fin 3) * 1 ≤ (i 0).val
      ∧ (i 0).val < win0_3.index ⟨8 * (i 0).val + 7, last0_lt (i 0)⟩ (0 : Fin 3) * 1 + 1
    rw [e0']; omega
  | ⟨1, _⟩ =>
    show win0_3.index ⟨8 * (i 0).val + 7, last0_lt (i 0)⟩ (1 : Fin 3) * 8 ≤ (i 1).val
      ∧ (i 1).val < win0_3.index ⟨8 * (i 0).val + 7, last0_lt (i 0)⟩ (1 : Fin 3) * 8 + 8
    rw [e1]; omega
  | ⟨2, _⟩ =>
    show win0_3.index ⟨8 * (i 0).val + 7, last0_lt (i 0)⟩ (2 : Fin 3) * 128 ≤ (i 2).val
      ∧ (i 2).val < win0_3.index ⟨8 * (i 0).val + 7, last0_lt (i 0)⟩ (2 : Fin 3) * 128 + 128
    rw [e2]; omega

/-- Output array 3 after the region. -/
theorem final0_3 (c : Dev nD) : (dat0 V c).arrAt 3 cfg0.N = G0_3 V c :=
  (dat0 V c).arrAt_eq_of_cover 3 (G0_3 V c) (flushed0_3_eq V c) cover0_3

/-- The same, entry by entry. -/
theorem final0_3_apply (c : Dev nD) (b r : Fin 8) (l : Fin 128) :
    ((dat0 V c).arrAt 3 cfg0.N : S8x8x128.Idx → Elt F .f32) (ix3 b r l)
      = acc0_3 V c (8 * b.val + 7) (last0_lt b) (ix3 (0 : Fin 1) r l) := by
  rw [final0_3]; rfl

/-- Accumulator 4 does not depend on how the point's bound is proved. -/
theorem acc0_4_congr (c : Dev nD) (n n' : ℕ) (hn : n < cfg0.N) (hn' : n' < cfg0.N) (e : n = n') :
    acc0_4 V c n hn = acc0_4 V c n' hn' := by subst e; rfl

/-- What output array 4 ends holding: at (b, r, l), accumulator 4's value at (0, r, l) after the last point of b. -/
def G0_4 (c : Dev nD) : S8x8x128.Idx → Elt F .f32 :=
  fun i => acc0_4 V c (8 * (i 0).val + 7) (last0_lt (i 0)) (ix3 (0 : Fin 1) (i 1 : Fin 8) (i 2 : Fin 128))

/-- What a point writes back of window 4 is its block of that array. -/
theorem flushed0_4_eq (c : Dev nD) (t : Fin cfg0.N) (hf : (cfg0.win 4).flush t = true) :
    (dat0 V c).flushed 4 t = ((cfg0.win 4).blk t).view.read (Elt F) (G0_4 V c) := by
  have h7 : t.val % 8 = 7 := (flush0_4 t).mp hf
  have hN : t.val < 64 := lt_of_lt_of_eq t.isLt (show cfg0.N = 64 from N_0)
  obtain ⟨e0, e1, e2⟩ := idx0_4 t
  show (cfg0.win 4).cut (grid0.coords t) ((dat0 V c).after 4 t) = _
  rw [after0_4]
  funext j
  show acc0_4 V c t.val t.isLt j = G0_4 V c (((cfg0.win 4).blk t).view.emb j)
  unfold G0_4
  have hj0 : (j 0).val < 1 := (j 0).isLt
  have hj1 : (j 1).val < 8 := (j 1).isLt
  have hj2 : (j 2).val < 128 := (j 2).isLt
  have c0 : ((((cfg0.win 4).blk t).view.emb j) 0).val = t.val / 8 := by
    show win0_4.index t (0 : Fin 3) * 1 + 1 * (j 0).val = _; omega
  have c1 : ((((cfg0.win 4).blk t).view.emb j) 1).val = (j 1).val := by
    show win0_4.index t (1 : Fin 3) * 8 + 1 * (j 1).val = _; omega
  have c2 : ((((cfg0.win 4).blk t).view.emb j) 2).val = (j 2).val := by
    show win0_4.index t (2 : Fin 3) * 128 + 1 * (j 2).val = _; omega
  rw [acc0_4_congr V c (8 * ((((cfg0.win 4).blk t).view.emb j) 0).val + 7) t.val _ t.isLt (by rw [c0]; omega)]
  congr 1
  funext a
  match a with
  | ⟨0, _⟩ => exact Fin.ext (by show (j 0).val = 0; omega)
  | ⟨1, _⟩ => exact Fin.ext c1.symm
  | ⟨2, _⟩ => exact Fin.ext c2.symm

/-- An index of output array 4 is in point t's block iff each coordinate is in the block's range on its axis. -/
theorem mem_blk0_4 (t : Fin cfg0.N) (i : S8x8x128.Idx) :
    i ∈ ((cfg0.win 4).blk t).view.set ↔ ∀ a : Fin 3, win0_4.index t a * S1x8x128.size a ≤ (i a).val
      ∧ (i a).val < win0_4.index t a * S1x8x128.size a + S1x8x128.size a := by
  show i ∈ ((View.whole main_v0_3).slice (win0_4.rect t)).set ↔ _
  rw [View.set_slice_whole, Rect.mem_set_unit]
  exact Iff.rfl

/-- Every entry (b, r, l) of output array 4 is in the block written back after the last point of b. -/
theorem cover0_4 (i : S8x8x128.Idx) :
    ∃ t : Fin cfg0.N, (cfg0.win 4).flush t = true ∧ i ∈ ((cfg0.win 4).blk t).view.set := by
  have h0 : (i 0).val < 8 := (i 0).isLt
  have h1 : (i 1).val < 8 := (i 1).isLt
  have h2 : (i 2).val < 128 := (i 2).isLt
  refine ⟨⟨8 * (i 0).val + 7, last0_lt (i 0)⟩, (flush0_4 _).mpr (by show (8 * (i 0).val + 7) % 8 = 7; omega), ?_⟩
  rw [mem_blk0_4]
  obtain ⟨e0, e1, e2⟩ := idx0_4 ⟨8 * (i 0).val + 7, last0_lt (i 0)⟩
  have e0' : win0_4.index ⟨8 * (i 0).val + 7, last0_lt (i 0)⟩ (0 : Fin 3) = (8 * (i 0).val + 7) / 8 := e0
  intro a
  match a with
  | ⟨0, _⟩ =>
    show win0_4.index ⟨8 * (i 0).val + 7, last0_lt (i 0)⟩ (0 : Fin 3) * 1 ≤ (i 0).val
      ∧ (i 0).val < win0_4.index ⟨8 * (i 0).val + 7, last0_lt (i 0)⟩ (0 : Fin 3) * 1 + 1
    rw [e0']; omega
  | ⟨1, _⟩ =>
    show win0_4.index ⟨8 * (i 0).val + 7, last0_lt (i 0)⟩ (1 : Fin 3) * 8 ≤ (i 1).val
      ∧ (i 1).val < win0_4.index ⟨8 * (i 0).val + 7, last0_lt (i 0)⟩ (1 : Fin 3) * 8 + 8
    rw [e1]; omega
  | ⟨2, _⟩ =>
    show win0_4.index ⟨8 * (i 0).val + 7, last0_lt (i 0)⟩ (2 : Fin 3) * 128 ≤ (i 2).val
      ∧ (i 2).val < win0_4.index ⟨8 * (i 0).val + 7, last0_lt (i 0)⟩ (2 : Fin 3) * 128 + 128
    rw [e2]; omega

/-- Output array 4 after the region. -/
theorem final0_4 (c : Dev nD) : (dat0 V c).arrAt 4 cfg0.N = G0_4 V c :=
  (dat0 V c).arrAt_eq_of_cover 4 (G0_4 V c) (flushed0_4_eq V c) cover0_4

/-- The same, entry by entry. -/
theorem final0_4_apply (c : Dev nD) (b r : Fin 8) (l : Fin 128) :
    ((dat0 V c).arrAt 4 cfg0.N : S8x8x128.Idx → Elt F .f32) (ix3 b r l)
      = acc0_4 V c (8 * b.val + 7) (last0_lt b) (ix3 (0 : Fin 1) r l) := by
  rw [final0_4]; rfl

end Blocks

/-! ## The values, at the ideal instance -/

section Values

variable (V : (c : Dev nD) → (b : Ref sig .tc) → Buf (Elt Ideal) ((c : Thread nD τ).loc b))

/-- An image array read entry by entry. -/
def kimg (x : FVec Ideal S8x8x1024x1024 .f32) : Cert.Moment.Img := fun b c h w => x (ix4 b c h w)

/-- The total of the image block at point n (zero past the grid). -/
def tot0 (c : Dev nD) (n : ℕ) : EReal :=
  if h : n < cfg0.N then k0_pay8 (F := Ideal) (iblk0 V c 0 ⟨n, h⟩) (ix2 (0 : Fin 1) (0 : Fin 1)) else 0
/-- The total of squares of the image block at point n (zero past the grid). -/
def totsq0 (c : Dev nD) (n : ℕ) : EReal :=
  if h : n < cfg0.N then k0_pay9 (F := Ideal) (iblk0 V c 0 ⟨n, h⟩) (ix2 (0 : Fin 1) (0 : Fin 1)) else 0

/-- The block total at point n is the sum of the image's entries (n / 8, n % 8, ·, ·). -/
theorem tot0_eq (c : Dev nD) (n : ℕ) (hn : n < 64) (b' c' : Fin 8) (hb : b'.val = n / 8) (hc : c'.val = n % 8) :
    tot0 V c n = ∑ h : Fin 1024, ∑ w : Fin 1024, kimg (V c main_arg0) b' c' h w := by
  have hN : n < cfg0.N := by rw [show cfg0.N = 64 from N_0]; exact hn
  unfold tot0
  rw [dif_pos hN]
  refine (Payload.pay8_apply _).trans ?_
  refine Finset.sum_congr rfl fun h _ => Finset.sum_congr rfl fun w _ => ?_
  exact iblk0_0_apply V c ⟨n, hN⟩ h w b' c' hb hc

/-- The block total of squares at point n. -/
theorem totsq0_eq (c : Dev nD) (n : ℕ) (hn : n < 64) (b' c' : Fin 8) (hb : b'.val = n / 8) (hc : c'.val = n % 8) :
    totsq0 V c n = ∑ h : Fin 1024, ∑ w : Fin 1024, kimg (V c main_arg0) b' c' h w * kimg (V c main_arg0) b' c' h w := by
  have hN : n < cfg0.N := by rw [show cfg0.N = 64 from N_0]; exact hn
  unfold totsq0
  rw [dif_pos hN]
  refine (Payload.pay9_apply _).trans ?_
  refine Finset.sum_congr rfl fun h _ => Finset.sum_congr rfl fun w _ => ?_
  rw [iblk0_0_apply V c ⟨n, hN⟩ h w b' c' hb hc]
  rfl

/-- Accumulator 1 at entry (0, r, l), point by point (zero past the grid). -/
def seq0_1 (c : Dev nD) (r : Fin 8) (l : Fin 128) (n : ℕ) : EReal :=
  if h : n < cfg0.N then acc0_1 V c n h (ix3 (0 : Fin 1) r l) else 0

/-- It restarts from zero at the first point of a batch item and adds the block's total at every point. -/
theorem rec0_1 (c : Dev nD) (r : Fin 8) (l : Fin 128) : ∀ n, n < 64 →
    seq0_1 V c r l n = (if n % 8 = 0 then 0 else seq0_1 V c r l (n - 1)) + tot0 V c n := by
  intro n hn
  have hN : n < cfg0.N := by rw [show cfg0.N = 64 from N_0]; exact hn
  have hN' : n - 1 < cfg0.N := lt_of_le_of_lt (Nat.sub_le _ _) hN
  unfold seq0_1 tot0
  rw [dif_pos hN, dif_pos hN', dif_pos hN]
  have e := acc0_1_eq V c ⟨n, hN⟩
  dsimp only at e
  refine (congrFun e _).trans ?_
  refine (Payload.pay10_apply _ _ r l).trans ?_
  congr 1
  by_cases h0 : n % 8 = 0
  · simp only [if_pos h0]
    exact Payload.pay3_apply r l
  · simp only [if_neg h0]

/-- Output array 1 at the ideal values. -/
theorem arr0_1_value (c : Dev nD) (b r : Fin 8) (l : Fin 128) :
    ((dat0 V c).arrAt 1 cfg0.N : S8x8x128.Idx → Elt Ideal .f32) (ix3 b r l)
      = Cert.Moment.S (kimg (V c main_arg0)) b := by
  rw [final0_1_apply]
  show @Eq EReal _ _
  have hl := Cert.Moment.Accum.rowAcc_last_of_lt (seq0_1 V c r l) (tot0 V c) (rec0_1 V c r l) b.val b.isLt
  have hs : seq0_1 V c r l (8 * b.val + 7) = acc0_1 V c (8 * b.val + 7) (last0_lt b) (ix3 (0 : Fin 1) r l) := by
    unfold seq0_1; rw [dif_pos (last0_lt b)]
  rw [← hs, hl]
  unfold Cert.Moment.S
  refine Finset.sum_congr rfl fun c' _ => ?_
  have hb8 : b.val < 8 := b.isLt
  have hc8 : c'.val < 8 := c'.isLt
  exact tot0_eq V c (8 * b.val + c'.val) (by omega) b c' (by omega) (by omega)

/-- Accumulator 2 at entry (0, r, l), point by point (zero past the grid). -/
def seq0_2 (c : Dev nD) (r : Fin 8) (l : Fin 128) (n : ℕ) : EReal :=
  if h : n < cfg0.N then acc0_2 V c n h (ix3 (0 : Fin 1) r l) else 0

/-- It restarts from zero at the first point of a batch item and adds the block's total at every point. -/
theorem rec0_2 (c : Dev nD) (r : Fin 8) (l : Fin 128) : ∀ n, n < 64 →
    seq0_2 V c r l n = (if n % 8 = 0 then 0 else seq0_2 V c r l (n - 1)) + totsq0 V c n := by
  intro n hn
  have hN : n < cfg0.N := by rw [show cfg0.N = 64 from N_0]; exact hn
  have hN' : n - 1 < cfg0.N := lt_of_le_of_lt (Nat.sub_le _ _) hN
  unfold seq0_2 totsq0
  rw [dif_pos hN, dif_pos hN', dif_pos hN]
  have e := acc0_2_eq V c ⟨n, hN⟩
  dsimp only at e
  refine (congrFun e _).trans ?_
  refine (Payload.pay11_apply _ _ r l).trans ?_
  congr 1
  by_cases h0 : n % 8 = 0
  · simp only [if_pos h0]
    exact Payload.pay4_apply r l
  · simp only [if_neg h0]

/-- Output array 2 at the ideal values. -/
theorem arr0_2_value (c : Dev nD) (b r : Fin 8) (l : Fin 128) :
    ((dat0 V c).arrAt 2 cfg0.N : S8x8x128.Idx → Elt Ideal .f32) (ix3 b r l)
      = Cert.Moment.Q (kimg (V c main_arg0)) b := by
  rw [final0_2_apply]
  show @Eq EReal _ _
  have hl := Cert.Moment.Accum.rowAcc_last_of_lt (seq0_2 V c r l) (totsq0 V c) (rec0_2 V c r l) b.val b.isLt
  have hs : seq0_2 V c r l (8 * b.val + 7) = acc0_2 V c (8 * b.val + 7) (last0_lt b) (ix3 (0 : Fin 1) r l) := by
    unfold seq0_2; rw [dif_pos (last0_lt b)]
  rw [← hs, hl]
  unfold Cert.Moment.Q
  refine Finset.sum_congr rfl fun c' _ => ?_
  have hb8 : b.val < 8 := b.isLt
  have hc8 : c'.val < 8 := c'.isLt
  exact totsq0_eq V c (8 * b.val + c'.val) (by omega) b c' (by omega) (by omega)

/-- Accumulator 3 at entry (0, r, l), point by point (zero past the grid). -/
def seq0_3 (c : Dev nD) (r : Fin 8) (l : Fin 128) (n : ℕ) : EReal :=
  if h : n < cfg0.N then acc0_3 V c n h (ix3 (0 : Fin 1) r l) else 0

/-- It restarts from zero at the first point of a batch item and adds the block's total on the diagonal only. -/
theorem rec0_3 (c : Dev nD) (r : Fin 8) (l : Fin 128) : ∀ n, n < 64 →
    seq0_3 V c r l n
      = (if n / 8 = n % 8 then (if n % 8 = 0 then 0 else seq0_3 V c r l (n - 1)) + tot0 V c n
          else (if n % 8 = 0 then 0 else seq0_3 V c r l (n - 1))) := by
  intro n hn
  have hN : n < cfg0.N := by rw [show cfg0.N = 64 from N_0]; exact hn
  have hN' : n - 1 < cfg0.N := lt_of_le_of_lt (Nat.sub_le _ _) hN
  unfold seq0_3 tot0
  rw [dif_pos hN, dif_pos hN', dif_pos hN]
  have e := acc0_3_eq V c ⟨n, hN⟩
  dsimp only at e
  refine (congrFun e _).trans ?_
  unfold step0_3
  by_cases hd : n / 8 = n % 8
  · simp only [if_pos hd]
    refine (Payload.pay1_apply _ _ r l).trans ?_
    congr 1
    by_cases h0 : n % 8 = 0
    · simp only [if_pos h0]
      exact Payload.pay5_apply r l
    · simp only [if_neg h0]
  · simp only [if_neg hd]
    by_cases h0 : n % 8 = 0
    · simp only [if_pos h0]
      exact Payload.pay5_apply r l
    · simp only [if_neg h0]

/-- Output array 3 at the ideal values. -/
theorem arr0_3_value (c : Dev nD) (b r : Fin 8) (l : Fin 128) :
    ((dat0 V c).arrAt 3 cfg0.N : S8x8x128.Idx → Elt Ideal .f32) (ix3 b r l)
      = Cert.Moment.DS (kimg (V c main_arg0)) b := by
  rw [final0_3_apply]
  show @Eq EReal _ _
  have hl := Cert.Moment.Accum.diagAcc_last_of_lt (seq0_3 V c r l) (tot0 V c) (rec0_3 V c r l) b.val b.isLt
  have hs : seq0_3 V c r l (8 * b.val + 7) = acc0_3 V c (8 * b.val + 7) (last0_lt b) (ix3 (0 : Fin 1) r l) := by
    unfold seq0_3; rw [dif_pos (last0_lt b)]
  rw [← hs, hl]
  unfold Cert.Moment.DS
  have hb8 : b.val < 8 := b.isLt
  exact tot0_eq V c (8 * b.val + b.val) (by omega) b b (by omega) (by omega)

/-- Accumulator 4 at entry (0, r, l), point by point (zero past the grid). -/
def seq0_4 (c : Dev nD) (r : Fin 8) (l : Fin 128) (n : ℕ) : EReal :=
  if h : n < cfg0.N then acc0_4 V c n h (ix3 (0 : Fin 1) r l) else 0

/-- It restarts from zero at the first point of a batch item and adds the block's total on the diagonal only. -/
theorem rec0_4 (c : Dev nD) (r : Fin 8) (l : Fin 128) : ∀ n, n < 64 →
    seq0_4 V c r l n
      = (if n / 8 = n % 8 then (if n % 8 = 0 then 0 else seq0_4 V c r l (n - 1)) + totsq0 V c n
          else (if n % 8 = 0 then 0 else seq0_4 V c r l (n - 1))) := by
  intro n hn
  have hN : n < cfg0.N := by rw [show cfg0.N = 64 from N_0]; exact hn
  have hN' : n - 1 < cfg0.N := lt_of_le_of_lt (Nat.sub_le _ _) hN
  unfold seq0_4 totsq0
  rw [dif_pos hN, dif_pos hN', dif_pos hN]
  have e := acc0_4_eq V c ⟨n, hN⟩
  dsimp only at e
  refine (congrFun e _).trans ?_
  unfold step0_4
  by_cases hd : n / 8 = n % 8
  · simp only [if_pos hd]
    refine (Payload.pay2_apply _ _ r l).trans ?_
    congr 1
    by_cases h0 : n % 8 = 0
    · simp only [if_pos h0]
      exact Payload.pay6_apply r l
    · simp only [if_neg h0]
  · simp only [if_neg hd]
    by_cases h0 : n % 8 = 0
    · simp only [if_pos h0]
      exact Payload.pay6_apply r l
    · simp only [if_neg h0]

/-- Output array 4 at the ideal values. -/
theorem arr0_4_value (c : Dev nD) (b r : Fin 8) (l : Fin 128) :
    ((dat0 V c).arrAt 4 cfg0.N : S8x8x128.Idx → Elt Ideal .f32) (ix3 b r l)
      = Cert.Moment.DQ (kimg (V c main_arg0)) b := by
  rw [final0_4_apply]
  show @Eq EReal _ _
  have hl := Cert.Moment.Accum.diagAcc_last_of_lt (seq0_4 V c r l) (totsq0 V c) (rec0_4 V c r l) b.val b.isLt
  have hs : seq0_4 V c r l (8 * b.val + 7) = acc0_4 V c (8 * b.val + 7) (last0_lt b) (ix3 (0 : Fin 1) r l) := by
    unfold seq0_4; rw [dif_pos (last0_lt b)]
  rw [← hs, hl]
  unfold Cert.Moment.DQ
  have hb8 : b.val < 8 := b.isLt
  exact totsq0_eq V c (8 * b.val + b.val) (by omega) b b (by omega) (by omega)

end Values

end Cert.KernelIdeal.Gen

end
-- ==== Proof.KI.Value1.lean ====
/-
  pallas_call 1: the four output arrays after the region.

  Each output array [8, 8, 128] is tiled by its eight [1, 8, 128] blocks; block b is written back once, after the last
  point 8·b + 7 of batch item b, and holds the accumulator's value there. At the ideal values that value is, at every
  entry of the block, the sum over the batch item's eight image blocks of each block's total (windows 1 and 2: the
  entries, their squares), or the total of the one block on the diagonal (windows 3 and 4).
-/
import proofs.«160249_j59768764891231_2_alg».proof.Proof.KI.Dat1
import proofs.«160249_j59768764891231_2_alg».proof.Proof.KI.Value0
import proofs.«160249_j59768764891231_2_alg».proof.Proof.KPayload
import proofs.«160249_j59768764891231_2_alg».proof.Proof.LibRowAccum
import proofs.«160249_j59768764891231_2_alg».proof.Proof.MomentSpec
import Idealize.ShloMosaic.Lib.Pipeline.Value
import Idealize.ShloMosaic.Lib.ValueIdx

set_option maxRecDepth 16384

noncomputable section

open scoped BigOperators

namespace Cert.KernelIdeal.Gen

open Idealize.ShloMosaic Idealize.ShloMosaic.TcCoe Idealize.ShloMosaic.ValueIdx
open Idealize.SL Idealize.SL.Sem
open Idealize.ShloMosaic.Pipeline (Dat Cfg Window)

section Blocks

variable {F : FTy → Type} [FloatOps F]
variable (V : (c : Dev nD) → (b : Ref sig .tc) → Buf (Elt F) ((c : Thread nD τ).loc b))

/-! ## The printed index maps, in closed form -/

/-- The image block at point n is block (n / 8, n % 8, 0, 0). -/
theorem idx1_0 : ∀ t : Fin cfg1.N, win1_0.index t (0 : Fin 4) = t.val / 8 ∧ win1_0.index t (1 : Fin 4) = t.val % 8
    ∧ win1_0.index t (2 : Fin 4) = 0 ∧ win1_0.index t (3 : Fin 4) = 0 :=
  (by decide +kernel : ∀ t : Fin grid1.N, win1_0.index t (0 : Fin 4) = t.val / 8 ∧ win1_0.index t (1 : Fin 4) = t.val % 8
    ∧ win1_0.index t (2 : Fin 4) = 0 ∧ win1_0.index t (3 : Fin 4) = 0)

/-- Accumulator tile 1's block index at point n is (n / 8, 0, 0). -/
theorem idx1_1 : ∀ t : Fin cfg1.N, win1_1.index t (0 : Fin 3) = t.val / 8 ∧ win1_1.index t (1 : Fin 3) = 0
    ∧ win1_1.index t (2 : Fin 3) = 0 :=
  (by decide +kernel : ∀ t : Fin grid1.N, win1_1.index t (0 : Fin 3) = t.val / 8 ∧ win1_1.index t (1 : Fin 3) = 0
    ∧ win1_1.index t (2 : Fin 3) = 0)

/-- Accumulator tile 2's block index at point n is (n / 8, 0, 0). -/
theorem idx1_2 : ∀ t : Fin cfg1.N, win1_2.index t (0 : Fin 3) = t.val / 8 ∧ win1_2.index t (1 : Fin 3) = 0
    ∧ win1_2.index t (2 : Fin 3) = 0 :=
  (by decide +kernel : ∀ t : Fin grid1.N, win1_2.index t (0 : Fin 3) = t.val / 8 ∧ win1_2.index t (1 : Fin 3) = 0
    ∧ win1_2.index t (2 : Fin 3) = 0)

/-- Accumulator tile 3's block index at point n is (n / 8, 0, 0). -/
theorem idx1_3 : ∀ t : Fin cfg1.N, win1_3.index t (0 : Fin 3) = t.val / 8 ∧ win1_3.index t (1 : Fin 3) = 0
    ∧ win1_3.index t (2 : Fin 3) = 0 :=
  (by decide +kernel : ∀ t : Fin grid1.N, win1_3.index t (0 : Fin 3) = t.val / 8 ∧ win1_3.index t (1 : Fin 3) = 0
    ∧ win1_3.index t (2 : Fin 3) = 0)

/-- Accumulator tile 4's block index at point n is (n / 8, 0, 0). -/
theorem idx1_4 : ∀ t : Fin cfg1.N, win1_4.index t (0 : Fin 3) = t.val / 8 ∧ win1_4.index t (1 : Fin 3) = 0
    ∧ win1_4.index t (2 : Fin 3) = 0 :=
  (by decide +kernel : ∀ t : Fin grid1.N, win1_4.index t (0 : Fin 3) = t.val / 8 ∧ win1_4.index t (1 : Fin 3) = 0
    ∧ win1_4.index t (2 : Fin 3) = 0)

/-- The last point of batch item b is a grid point. -/
theorem last1_lt (b : Fin 8) : 8 * b.val + 7 < cfg1.N := by
  rw [show cfg1.N = 64 from N_1]; have := b.isLt; omega

/-! ## The input block at an index -/

/-- The image block at point n, read at (0, 0, h, w), is the image at (n / 8, n % 8, h, w). -/
theorem iblk1_0_apply (c : Dev nD) (t : Fin cfg1.N) (h w : Fin 1024) (b' c' : Fin 8)
    (hb : b'.val = t.val / 8) (hc : c'.val = t.val % 8) :
    (iblk1 V c 0 t : Vec F S1x1x1024x1024 .f32) (ix4 (0 : Fin 1) (0 : Fin 1) h w)
      = (V c main_arg1 : S8x8x1024x1024.Idx → Elt F .f32) (ix4 b' c' h w) := by
  obtain ⟨e0, e1, e2, e3⟩ := idx1_0 t
  unfold iblk1
  rw [View.read_apply]
  show V c main_arg1 (((cfg1.win 0).blk t).view.emb (ix4 (0 : Fin 1) (0 : Fin 1) h w)) = V c main_arg1 (ix4 b' c' h w)
  congr 1
  funext a
  apply Fin.ext
  match a with
  | ⟨0, _⟩ => show win1_0.index t (0 : Fin 4) * 1 + 1 * 0 = b'.val; omega
  | ⟨1, _⟩ => show win1_0.index t (1 : Fin 4) * 1 + 1 * 0 = c'.val; omega
  | ⟨2, _⟩ => show win1_0.index t (2 : Fin 4) * 1024 + 1 * h.val = h.val; omega
  | ⟨3, _⟩ => show win1_0.index t (3 : Fin 4) * 1024 + 1 * w.val = w.val; omega

/-! ## From blocks to arrays -/

/-- Accumulator 1 does not depend on how the point's bound is proved. -/
theorem acc1_1_congr (c : Dev nD) (n n' : ℕ) (hn : n < cfg1.N) (hn' : n' < cfg1.N) (e : n = n') :
    acc1_1 V c n hn = acc1_1 V c n' hn' := by subst e; rfl

/-- What output array 1 ends holding: at (b, r, l), accumulator 1's value at (0, r, l) after the last point of b. -/
def G1_1 (c : Dev nD) : S8x8x128.Idx → Elt F .f32 :=
  fun i => acc1_1 V c (8 * (i 0).val + 7) (last1_lt (i 0)) (ix3 (0 : Fin 1) (i 1 : Fin 8) (i 2 : Fin 128))

/-- What a point writes back of window 1 is its block of that array. -/
theorem flushed1_1_eq (c : Dev nD) (t : Fin cfg1.N) (hf : (cfg1.win 1).flush t = true) :
    (dat1 V c).flushed 1 t = ((cfg1.win 1).blk t).view.read (Elt F) (G1_1 V c) := by
  have h7 : t.val % 8 = 7 := (flush1_1 t).mp hf
  have hN : t.val < 64 := lt_of_lt_of_eq t.isLt (show cfg1.N = 64 from N_1)
  obtain ⟨e0, e1, e2⟩ := idx1_1 t
  show (cfg1.win 1).cut (grid1.coords t) ((dat1 V c).after 1 t) = _
  rw [after1_1]
  funext j
  show acc1_1 V c t.val t.isLt j = G1_1 V c (((cfg1.win 1).blk t).view.emb j)
  unfold G1_1
  have hj0 : (j 0).val < 1 := (j 0).isLt
  have hj1 : (j 1).val < 8 := (j 1).isLt
  have hj2 : (j 2).val < 128 := (j 2).isLt
  have c0 : ((((cfg1.win 1).blk t).view.emb j) 0).val = t.val / 8 := by
    show win1_1.index t (0 : Fin 3) * 1 + 1 * (j 0).val = _; omega
  have c1 : ((((cfg1.win 1).blk t).view.emb j) 1).val = (j 1).val := by
    show win1_1.index t (1 : Fin 3) * 8 + 1 * (j 1).val = _; omega
  have c2 : ((((cfg1.win 1).blk t).view.emb j) 2).val = (j 2).val := by
    show win1_1.index t (2 : Fin 3) * 128 + 1 * (j 2).val = _; omega
  rw [acc1_1_congr V c (8 * ((((cfg1.win 1).blk t).view.emb j) 0).val + 7) t.val _ t.isLt (by rw [c0]; omega)]
  congr 1
  funext a
  match a with
  | ⟨0, _⟩ => exact Fin.ext (by show (j 0).val = 0; omega)
  | ⟨1, _⟩ => exact Fin.ext c1.symm
  | ⟨2, _⟩ => exact Fin.ext c2.symm

/-- An index of output array 1 is in point t's block iff each coordinate is in the block's range on its axis. -/
theorem mem_blk1_1 (t : Fin cfg1.N) (i : S8x8x128.Idx) :
    i ∈ ((cfg1.win 1).blk t).view.set ↔ ∀ a : Fin 3, win1_1.index t a * S1x8x128.size a ≤ (i a).val
      ∧ (i a).val < win1_1.index t a * S1x8x128.size a + S1x8x128.size a := by
  show i ∈ ((View.whole main_v29_0).slice (win1_1.rect t)).set ↔ _
  rw [View.set_slice_whole, Rect.mem_set_unit]
  exact Iff.rfl

/-- Every entry (b, r, l) of output array 1 is in the block written back after the last point of b. -/
theorem cover1_1 (i : S8x8x128.Idx) :
    ∃ t : Fin cfg1.N, (cfg1.win 1).flush t = true ∧ i ∈ ((cfg1.win 1).blk t).view.set := by
  have h0 : (i 0).val < 8 := (i 0).isLt
  have h1 : (i 1).val < 8 := (i 1).isLt
  have h2 : (i 2).val < 128 := (i 2).isLt
  refine ⟨⟨8 * (i 0).val + 7, last1_lt (i 0)⟩, (flush1_1 _).mpr (by show (8 * (i 0).val + 7) % 8 = 7; omega), ?_⟩
  rw [mem_blk1_1]
  obtain ⟨e0, e1, e2⟩ := idx1_1 ⟨8 * (i 0).val + 7, last1_lt (i 0)⟩
  have e0' : win1_1.index ⟨8 * (i 0).val + 7, last1_lt (i 0)⟩ (0 : Fin 3) = (8 * (i 0).val + 7) / 8 := e0
  intro a
  match a with
  | ⟨0, _⟩ =>
    show win1_1.index ⟨8 * (i 0).val + 7, last1_lt (i 0)⟩ (0 : Fin 3) * 1 ≤ (i 0).val
      ∧ (i 0).val < win1_1.index ⟨8 * (i 0).val + 7, last1_lt (i 0)⟩ (0 : Fin 3) * 1 + 1
    rw [e0']; omega
  | ⟨1, _⟩ =>
    show win1_1.index ⟨8 * (i 0).val + 7, last1_lt (i 0)⟩ (1 : Fin 3) * 8 ≤ (i 1).val
      ∧ (i 1).val < win1_1.index ⟨8 * (i 0).val + 7, last1_lt (i 0)⟩ (1 : Fin 3) * 8 + 8
    rw [e1]; omega
  | ⟨2, _⟩ =>
    show win1_1.index ⟨8 * (i 0).val + 7, last1_lt (i 0)⟩ (2 : Fin 3) * 128 ≤ (i 2).val
      ∧ (i 2).val < win1_1.index ⟨8 * (i 0).val + 7, last1_lt (i 0)⟩ (2 : Fin 3) * 128 + 128
    rw [e2]; omega

/-- Output array 1 after the region. -/
theorem final1_1 (c : Dev nD) : (dat1 V c).arrAt 1 cfg1.N = G1_1 V c :=
  (dat1 V c).arrAt_eq_of_cover 1 (G1_1 V c) (flushed1_1_eq V c) cover1_1

/-- The same, entry by entry. -/
theorem final1_1_apply (c : Dev nD) (b r : Fin 8) (l : Fin 128) :
    ((dat1 V c).arrAt 1 cfg1.N : S8x8x128.Idx → Elt F .f32) (ix3 b r l)
      = acc1_1 V c (8 * b.val + 7) (last1_lt b) (ix3 (0 : Fin 1) r l) := by
  rw [final1_1]; rfl

/-- Accumulator 2 does not depend on how the point's bound is proved. -/
theorem acc1_2_congr (c : Dev nD) (n n' : ℕ) (hn : n < cfg1.N) (hn' : n' < cfg1.N) (e : n = n') :
    acc1_2 V c n hn = acc1_2 V c n' hn' := by subst e; rfl

/-- What output array 2 ends holding: at (b, r, l), accumulator 2's value at (0, r, l) after the last point of b. -/
def G1_2 (c : Dev nD) : S8x8x128.Idx → Elt F .f32 :=
  fun i => acc1_2 V c (8 * (i 0).val + 7) (last1_lt (i 0)) (ix3 (0 : Fin 1) (i 1 : Fin 8) (i 2 : Fin 128))

/-- What a point writes back of window 2 is its block of that array. -/
theorem flushed1_2_eq (c : Dev nD) (t : Fin cfg1.N) (hf : (cfg1.win 2).flush t = true) :
    (dat1 V c).flushed 2 t = ((cfg1.win 2).blk t).view.read (Elt F) (G1_2 V c) := by
  have h7 : t.val % 8 = 7 := (flush1_2 t).mp hf
  have hN : t.val < 64 := lt_of_lt_of_eq t.isLt (show cfg1.N = 64 from N_1)
  obtain ⟨e0, e1, e2⟩ := idx1_2 t
  show (cfg1.win 2).cut (grid1.coords t) ((dat1 V c).after 2 t) = _
  rw [after1_2]
  funext j
  show acc1_2 V c t.val t.isLt j = G1_2 V c (((cfg1.win 2).blk t).view.emb j)
  unfold G1_2
  have hj0 : (j 0).val < 1 := (j 0).isLt
  have hj1 : (j 1).val < 8 := (j 1).isLt
  have hj2 : (j 2).val < 128 := (j 2).isLt
  have c0 : ((((cfg1.win 2).blk t).view.emb j) 0).val = t.val / 8 := by
    show win1_2.index t (0 : Fin 3) * 1 + 1 * (j 0).val = _; omega
  have c1 : ((((cfg1.win 2).blk t).view.emb j) 1).val = (j 1).val := by
    show win1_2.index t (1 : Fin 3) * 8 + 1 * (j 1).val = _; omega
  have c2 : ((((cfg1.win 2).blk t).view.emb j) 2).val = (j 2).val := by
    show win1_2.index t (2 : Fin 3) * 128 + 1 * (j 2).val = _; omega
  rw [acc1_2_congr V c (8 * ((((cfg1.win 2).blk t).view.emb j) 0).val + 7) t.val _ t.isLt (by rw [c0]; omega)]
  congr 1
  funext a
  match a with
  | ⟨0, _⟩ => exact Fin.ext (by show (j 0).val = 0; omega)
  | ⟨1, _⟩ => exact Fin.ext c1.symm
  | ⟨2, _⟩ => exact Fin.ext c2.symm

/-- An index of output array 2 is in point t's block iff each coordinate is in the block's range on its axis. -/
theorem mem_blk1_2 (t : Fin cfg1.N) (i : S8x8x128.Idx) :
    i ∈ ((cfg1.win 2).blk t).view.set ↔ ∀ a : Fin 3, win1_2.index t a * S1x8x128.size a ≤ (i a).val
      ∧ (i a).val < win1_2.index t a * S1x8x128.size a + S1x8x128.size a := by
  show i ∈ ((View.whole main_v29_1).slice (win1_2.rect t)).set ↔ _
  rw [View.set_slice_whole, Rect.mem_set_unit]
  exact Iff.rfl

/-- Every entry (b, r, l) of output array 2 is in the block written back after the last point of b. -/
theorem cover1_2 (i : S8x8x128.Idx) :
    ∃ t : Fin cfg1.N, (cfg1.win 2).flush t = true ∧ i ∈ ((cfg1.win 2).blk t).view.set := by
  have h0 : (i 0).val < 8 := (i 0).isLt
  have h1 : (i 1).val < 8 := (i 1).isLt
  have h2 : (i 2).val < 128 := (i 2).isLt
  refine ⟨⟨8 * (i 0).val + 7, last1_lt (i 0)⟩, (flush1_2 _).mpr (by show (8 * (i 0).val + 7) % 8 = 7; omega), ?_⟩
  rw [mem_blk1_2]
  obtain ⟨e0, e1, e2⟩ := idx1_2 ⟨8 * (i 0).val + 7, last1_lt (i 0)⟩
  have e0' : win1_2.index ⟨8 * (i 0).val + 7, last1_lt (i 0)⟩ (0 : Fin 3) = (8 * (i 0).val + 7) / 8 := e0
  intro a
  match a with
  | ⟨0, _⟩ =>
    show win1_2.index ⟨8 * (i 0).val + 7, last1_lt (i 0)⟩ (0 : Fin 3) * 1 ≤ (i 0).val
      ∧ (i 0).val < win1_2.index ⟨8 * (i 0).val + 7, last1_lt (i 0)⟩ (0 : Fin 3) * 1 + 1
    rw [e0']; omega
  | ⟨1, _⟩ =>
    show win1_2.index ⟨8 * (i 0).val + 7, last1_lt (i 0)⟩ (1 : Fin 3) * 8 ≤ (i 1).val
      ∧ (i 1).val < win1_2.index ⟨8 * (i 0).val + 7, last1_lt (i 0)⟩ (1 : Fin 3) * 8 + 8
    rw [e1]; omega
  | ⟨2, _⟩ =>
    show win1_2.index ⟨8 * (i 0).val + 7, last1_lt (i 0)⟩ (2 : Fin 3) * 128 ≤ (i 2).val
      ∧ (i 2).val < win1_2.index ⟨8 * (i 0).val + 7, last1_lt (i 0)⟩ (2 : Fin 3) * 128 + 128
    rw [e2]; omega

/-- Output array 2 after the region. -/
theorem final1_2 (c : Dev nD) : (dat1 V c).arrAt 2 cfg1.N = G1_2 V c :=
  (dat1 V c).arrAt_eq_of_cover 2 (G1_2 V c) (flushed1_2_eq V c) cover1_2

/-- The same, entry by entry. -/
theorem final1_2_apply (c : Dev nD) (b r : Fin 8) (l : Fin 128) :
    ((dat1 V c).arrAt 2 cfg1.N : S8x8x128.Idx → Elt F .f32) (ix3 b r l)
      = acc1_2 V c (8 * b.val + 7) (last1_lt b) (ix3 (0 : Fin 1) r l) := by
  rw [final1_2]; rfl

/-- Accumulator 3 does not depend on how the point's bound is proved. -/
theorem acc1_3_congr (c : Dev nD) (n n' : ℕ) (hn : n < cfg1.N) (hn' : n' < cfg1.N) (e : n = n') :
    acc1_3 V c n hn = acc1_3 V c n' hn' := by subst e; rfl

/-- What output array 3 ends holding: at (b, r, l), accumulator 3's value at (0, r, l) after the last point of b. -/
def G1_3 (c : Dev nD) : S8x8x128.Idx → Elt F .f32 :=
  fun i => acc1_3 V c (8 * (i 0).val + 7) (last1_lt (i 0)) (ix3 (0 : Fin 1) (i 1 : Fin 8) (i 2 : Fin 128))

/-- What a point writes back of window 3 is its block of that array. -/
theorem flushed1_3_eq (c : Dev nD) (t : Fin cfg1.N) (hf : (cfg1.win 3).flush t = true) :
    (dat1 V c).flushed 3 t = ((cfg1.win 3).blk t).view.read (Elt F) (G1_3 V c) := by
  have h7 : t.val % 8 = 7 := (flush1_3 t).mp hf
  have hN : t.val < 64 := lt_of_lt_of_eq t.isLt (show cfg1.N = 64 from N_1)
  obtain ⟨e0, e1, e2⟩ := idx1_3 t
  show (cfg1.win 3).cut (grid1.coords t) ((dat1 V c).after 3 t) = _
  rw [after1_3]
  funext j
  show acc1_3 V c t.val t.isLt j = G1_3 V c (((cfg1.win 3).blk t).view.emb j)
  unfold G1_3
  have hj0 : (j 0).val < 1 := (j 0).isLt
  have hj1 : (j 1).val < 8 := (j 1).isLt
  have hj2 : (j 2).val < 128 := (j 2).isLt
  have c0 : ((((cfg1.win 3).blk t).view.emb j) 0).val = t.val / 8 := by
    show win1_3.index t (0 : Fin 3) * 1 + 1 * (j 0).val = _; omega
  have c1 : ((((cfg1.win 3).blk t).view.emb j) 1).val = (j 1).val := by
    show win1_3.index t (1 : Fin 3) * 8 + 1 * (j 1).val = _; omega
  have c2 : ((((cfg1.win 3).blk t).view.emb j) 2).val = (j 2).val := by
    show win1_3.index t (2 : Fin 3) * 128 + 1 * (j 2).val = _; omega
  rw [acc1_3_congr V c (8 * ((((cfg1.win 3).blk t).view.emb j) 0).val + 7) t.val _ t.isLt (by rw [c0]; omega)]
  congr 1
  funext a
  match a with
  | ⟨0, _⟩ => exact Fin.ext (by show (j 0).val = 0; omega)
  | ⟨1, _⟩ => exact Fin.ext c1.symm
  | ⟨2, _⟩ => exact Fin.ext c2.symm

/-- An index of output array 3 is in point t's block iff each coordinate is in the block's range on its axis. -/
theorem mem_blk1_3 (t : Fin cfg1.N) (i : S8x8x128.Idx) :
    i ∈ ((cfg1.win 3).blk t).view.set ↔ ∀ a : Fin 3, win1_3.index t a * S1x8x128.size a ≤ (i a).val
      ∧ (i a).val < win1_3.index t a * S1x8x128.size a + S1x8x128.size a := by
  show i ∈ ((View.whole main_v29_2).slice (win1_3.rect t)).set ↔ _
  rw [View.set_slice_whole, Rect.mem_set_unit]
  exact Iff.rfl

/-- Every entry (b, r, l) of output array 3 is in the block written back after the last point of b. -/
theorem cover1_3 (i : S8x8x128.Idx) :
    ∃ t : Fin cfg1.N, (cfg1.win 3).flush t = true ∧ i ∈ ((cfg1.win 3).blk t).view.set := by
  have h0 : (i 0).val < 8 := (i 0).isLt
  have h1 : (i 1).val < 8 := (i 1).isLt
  have h2 : (i 2).val < 128 := (i 2).isLt
  refine ⟨⟨8 * (i 0).val + 7, last1_lt (i 0)⟩, (flush1_3 _).mpr (by show (8 * (i 0).val + 7) % 8 = 7; omega), ?_⟩
  rw [mem_blk1_3]
  obtain ⟨e0, e1, e2⟩ := idx1_3 ⟨8 * (i 0).val + 7, last1_lt (i 0)⟩
  have e0' : win1_3.index ⟨8 * (i 0).val + 7, last1_lt (i 0)⟩ (0 : Fin 3) = (8 * (i 0).val + 7) / 8 := e0
  intro a
  match a with
  | ⟨0, _⟩ =>
    show win1_3.index ⟨8 * (i 0).val + 7, last1_lt (i 0)⟩ (0 : Fin 3) * 1 ≤ (i 0).val
      ∧ (i 0).val < win1_3.index ⟨8 * (i 0).val + 7, last1_lt (i 0)⟩ (0 : Fin 3) * 1 + 1
    rw [e0']; omega
  | ⟨1, _⟩ =>
    show win1_3.index ⟨8 * (i 0).val + 7, last1_lt (i 0)⟩ (1 : Fin 3) * 8 ≤ (i 1).val
      ∧ (i 1).val < win1_3.index ⟨8 * (i 0).val + 7, last1_lt (i 0)⟩ (1 : Fin 3) * 8 + 8
    rw [e1]; omega
  | ⟨2, _⟩ =>
    show win1_3.index ⟨8 * (i 0).val + 7, last1_lt (i 0)⟩ (2 : Fin 3) * 128 ≤ (i 2).val
      ∧ (i 2).val < win1_3.index ⟨8 * (i 0).val + 7, last1_lt (i 0)⟩ (2 : Fin 3) * 128 + 128
    rw [e2]; omega

/-- Output array 3 after the region. -/
theorem final1_3 (c : Dev nD) : (dat1 V c).arrAt 3 cfg1.N = G1_3 V c :=
  (dat1 V c).arrAt_eq_of_cover 3 (G1_3 V c) (flushed1_3_eq V c) cover1_3

/-- The same, entry by entry. -/
theorem final1_3_apply (c : Dev nD) (b r : Fin 8) (l : Fin 128) :
    ((dat1 V c).arrAt 3 cfg1.N : S8x8x128.Idx → Elt F .f32) (ix3 b r l)
      = acc1_3 V c (8 * b.val + 7) (last1_lt b) (ix3 (0 : Fin 1) r l) := by
  rw [final1_3]; rfl

/-- Accumulator 4 does not depend on how the point's bound is proved. -/
theorem acc1_4_congr (c : Dev nD) (n n' : ℕ) (hn : n < cfg1.N) (hn' : n' < cfg1.N) (e : n = n') :
    acc1_4 V c n hn = acc1_4 V c n' hn' := by subst e; rfl

/-- What output array 4 ends holding: at (b, r, l), accumulator 4's value at (0, r, l) after the last point of b. -/
def G1_4 (c : Dev nD) : S8x8x128.Idx → Elt F .f32 :=
  fun i => acc1_4 V c (8 * (i 0).val + 7) (last1_lt (i 0)) (ix3 (0 : Fin 1) (i 1 : Fin 8) (i 2 : Fin 128))

/-- What a point writes back of window 4 is its block of that array. -/
theorem flushed1_4_eq (c : Dev nD) (t : Fin cfg1.N) (hf : (cfg1.win 4).flush t = true) :
    (dat1 V c).flushed 4 t = ((cfg1.win 4).blk t).view.read (Elt F) (G1_4 V c) := by
  have h7 : t.val % 8 = 7 := (flush1_4 t).mp hf
  have hN : t.val < 64 := lt_of_lt_of_eq t.isLt (show cfg1.N = 64 from N_1)
  obtain ⟨e0, e1, e2⟩ := idx1_4 t
  show (cfg1.win 4).cut (grid1.coords t) ((dat1 V c).after 4 t) = _
  rw [after1_4]
  funext j
  show acc1_4 V c t.val t.isLt j = G1_4 V c (((cfg1.win 4).blk t).view.emb j)
  unfold G1_4
  have hj0 : (j 0).val < 1 := (j 0).isLt
  have hj1 : (j 1).val < 8 := (j 1).isLt
  have hj2 : (j 2).val < 128 := (j 2).isLt
  have c0 : ((((cfg1.win 4).blk t).view.emb j) 0).val = t.val / 8 := by
    show win1_4.index t (0 : Fin 3) * 1 + 1 * (j 0).val = _; omega
  have c1 : ((((cfg1.win 4).blk t).view.emb j) 1).val = (j 1).val := by
    show win1_4.index t (1 : Fin 3) * 8 + 1 * (j 1).val = _; omega
  have c2 : ((((cfg1.win 4).blk t).view.emb j) 2).val = (j 2).val := by
    show win1_4.index t (2 : Fin 3) * 128 + 1 * (j 2).val = _; omega
  rw [acc1_4_congr V c (8 * ((((cfg1.win 4).blk t).view.emb j) 0).val + 7) t.val _ t.isLt (by rw [c0]; omega)]
  congr 1
  funext a
  match a with
  | ⟨0, _⟩ => exact Fin.ext (by show (j 0).val = 0; omega)
  | ⟨1, _⟩ => exact Fin.ext c1.symm
  | ⟨2, _⟩ => exact Fin.ext c2.symm

/-- An index of output array 4 is in point t's block iff each coordinate is in the block's range on its axis. -/
theorem mem_blk1_4 (t : Fin cfg1.N) (i : S8x8x128.Idx) :
    i ∈ ((cfg1.win 4).blk t).view.set ↔ ∀ a : Fin 3, win1_4.index t a * S1x8x128.size a ≤ (i a).val
      ∧ (i a).val < win1_4.index t a * S1x8x128.size a + S1x8x128.size a := by
  show i ∈ ((View.whole main_v29_3).slice (win1_4.rect t)).set ↔ _
  rw [View.set_slice_whole, Rect.mem_set_unit]
  exact Iff.rfl

/-- Every entry (b, r, l) of output array 4 is in the block written back after the last point of b. -/
theorem cover1_4 (i : S8x8x128.Idx) :
    ∃ t : Fin cfg1.N, (cfg1.win 4).flush t = true ∧ i ∈ ((cfg1.win 4).blk t).view.set := by
  have h0 : (i 0).val < 8 := (i 0).isLt
  have h1 : (i 1).val < 8 := (i 1).isLt
  have h2 : (i 2).val < 128 := (i 2).isLt
  refine ⟨⟨8 * (i 0).val + 7, last1_lt (i 0)⟩, (flush1_4 _).mpr (by show (8 * (i 0).val + 7) % 8 = 7; omega), ?_⟩
  rw [mem_blk1_4]
  obtain ⟨e0, e1, e2⟩ := idx1_4 ⟨8 * (i 0).val + 7, last1_lt (i 0)⟩
  have e0' : win1_4.index ⟨8 * (i 0).val + 7, last1_lt (i 0)⟩ (0 : Fin 3) = (8 * (i 0).val + 7) / 8 := e0
  intro a
  match a with
  | ⟨0, _⟩ =>
    show win1_4.index ⟨8 * (i 0).val + 7, last1_lt (i 0)⟩ (0 : Fin 3) * 1 ≤ (i 0).val
      ∧ (i 0).val < win1_4.index ⟨8 * (i 0).val + 7, last1_lt (i 0)⟩ (0 : Fin 3) * 1 + 1
    rw [e0']; omega
  | ⟨1, _⟩ =>
    show win1_4.index ⟨8 * (i 0).val + 7, last1_lt (i 0)⟩ (1 : Fin 3) * 8 ≤ (i 1).val
      ∧ (i 1).val < win1_4.index ⟨8 * (i 0).val + 7, last1_lt (i 0)⟩ (1 : Fin 3) * 8 + 8
    rw [e1]; omega
  | ⟨2, _⟩ =>
    show win1_4.index ⟨8 * (i 0).val + 7, last1_lt (i 0)⟩ (2 : Fin 3) * 128 ≤ (i 2).val
      ∧ (i 2).val < win1_4.index ⟨8 * (i 0).val + 7, last1_lt (i 0)⟩ (2 : Fin 3) * 128 + 128
    rw [e2]; omega

/-- Output array 4 after the region. -/
theorem final1_4 (c : Dev nD) : (dat1 V c).arrAt 4 cfg1.N = G1_4 V c :=
  (dat1 V c).arrAt_eq_of_cover 4 (G1_4 V c) (flushed1_4_eq V c) cover1_4

/-- The same, entry by entry. -/
theorem final1_4_apply (c : Dev nD) (b r : Fin 8) (l : Fin 128) :
    ((dat1 V c).arrAt 4 cfg1.N : S8x8x128.Idx → Elt F .f32) (ix3 b r l)
      = acc1_4 V c (8 * b.val + 7) (last1_lt b) (ix3 (0 : Fin 1) r l) := by
  rw [final1_4]; rfl

end Blocks

/-! ## The values, at the ideal instance -/

section Values

variable (V : (c : Dev nD) → (b : Ref sig .tc) → Buf (Elt Ideal) ((c : Thread nD τ).loc b))

/-- The total of the image block at point n (zero past the grid). -/
def tot1 (c : Dev nD) (n : ℕ) : EReal :=
  if h : n < cfg1.N then k1_pay8 (F := Ideal) (iblk1 V c 0 ⟨n, h⟩) (ix2 (0 : Fin 1) (0 : Fin 1)) else 0
/-- The total of squares of the image block at point n (zero past the grid). -/
def totsq1 (c : Dev nD) (n : ℕ) : EReal :=
  if h : n < cfg1.N then k1_pay9 (F := Ideal) (iblk1 V c 0 ⟨n, h⟩) (ix2 (0 : Fin 1) (0 : Fin 1)) else 0

/-- The block total at point n is the sum of the image's entries (n / 8, n % 8, ·, ·). -/
theorem tot1_eq (c : Dev nD) (n : ℕ) (hn : n < 64) (b' c' : Fin 8) (hb : b'.val = n / 8) (hc : c'.val = n % 8) :
    tot1 V c n = ∑ h : Fin 1024, ∑ w : Fin 1024, kimg (V c main_arg1) b' c' h w := by
  have hN : n < cfg1.N := by rw [show cfg1.N = 64 from N_1]; exact hn
  unfold tot1
  rw [dif_pos hN]
  refine (Payload.K1.pay8_apply _).trans ?_
  refine Finset.sum_congr rfl fun h _ => Finset.sum_congr rfl fun w _ => ?_
  exact iblk1_0_apply V c ⟨n, hN⟩ h w b' c' hb hc

/-- The block total of squares at point n. -/
theorem totsq1_eq (c : Dev nD) (n : ℕ) (hn : n < 64) (b' c' : Fin 8) (hb : b'.val = n / 8) (hc : c'.val = n % 8) :
    totsq1 V c n = ∑ h : Fin 1024, ∑ w : Fin 1024, kimg (V c main_arg1) b' c' h w * kimg (V c main_arg1) b' c' h w := by
  have hN : n < cfg1.N := by rw [show cfg1.N = 64 from N_1]; exact hn
  unfold totsq1
  rw [dif_pos hN]
  refine (Payload.K1.pay9_apply _).trans ?_
  refine Finset.sum_congr rfl fun h _ => Finset.sum_congr rfl fun w _ => ?_
  rw [iblk1_0_apply V c ⟨n, hN⟩ h w b' c' hb hc]
  rfl

/-- Accumulator 1 at entry (0, r, l), point by point (zero past the grid). -/
def seq1_1 (c : Dev nD) (r : Fin 8) (l : Fin 128) (n : ℕ) : EReal :=
  if h : n < cfg1.N then acc1_1 V c n h (ix3 (0 : Fin 1) r l) else 0

/-- It restarts from zero at the first point of a batch item and adds the block's total at every point. -/
theorem rec1_1 (c : Dev nD) (r : Fin 8) (l : Fin 128) : ∀ n, n < 64 →
    seq1_1 V c r l n = (if n % 8 = 0 then 0 else seq1_1 V c r l (n - 1)) + tot1 V c n := by
  intro n hn
  have hN : n < cfg1.N := by rw [show cfg1.N = 64 from N_1]; exact hn
  have hN' : n - 1 < cfg1.N := lt_of_le_of_lt (Nat.sub_le _ _) hN
  unfold seq1_1 tot1
  rw [dif_pos hN, dif_pos hN', dif_pos hN]
  have e := acc1_1_eq V c ⟨n, hN⟩
  dsimp only at e
  refine (congrFun e _).trans ?_
  refine (Payload.K1.pay10_apply _ _ r l).trans ?_
  congr 1
  by_cases h0 : n % 8 = 0
  · simp only [if_pos h0]
    exact Payload.K1.pay3_apply r l
  · simp only [if_neg h0]

/-- Output array 1 at the ideal values. -/
theorem arr1_1_value (c : Dev nD) (b r : Fin 8) (l : Fin 128) :
    ((dat1 V c).arrAt 1 cfg1.N : S8x8x128.Idx → Elt Ideal .f32) (ix3 b r l)
      = Cert.Moment.S (kimg (V c main_arg1)) b := by
  rw [final1_1_apply]
  show @Eq EReal _ _
  have hl := Cert.Moment.Accum.rowAcc_last_of_lt (seq1_1 V c r l) (tot1 V c) (rec1_1 V c r l) b.val b.isLt
  have hs : seq1_1 V c r l (8 * b.val + 7) = acc1_1 V c (8 * b.val + 7) (last1_lt b) (ix3 (0 : Fin 1) r l) := by
    unfold seq1_1; rw [dif_pos (last1_lt b)]
  rw [← hs, hl]
  unfold Cert.Moment.S
  refine Finset.sum_congr rfl fun c' _ => ?_
  have hb8 : b.val < 8 := b.isLt
  have hc8 : c'.val < 8 := c'.isLt
  exact tot1_eq V c (8 * b.val + c'.val) (by omega) b c' (by omega) (by omega)

/-- Accumulator 2 at entry (0, r, l), point by point (zero past the grid). -/
def seq1_2 (c : Dev nD) (r : Fin 8) (l : Fin 128) (n : ℕ) : EReal :=
  if h : n < cfg1.N then acc1_2 V c n h (ix3 (0 : Fin 1) r l) else 0

/-- It restarts from zero at the first point of a batch item and adds the block's total at every point. -/
theorem rec1_2 (c : Dev nD) (r : Fin 8) (l : Fin 128) : ∀ n, n < 64 →
    seq1_2 V c r l n = (if n % 8 = 0 then 0 else seq1_2 V c r l (n - 1)) + totsq1 V c n := by
  intro n hn
  have hN : n < cfg1.N := by rw [show cfg1.N = 64 from N_1]; exact hn
  have hN' : n - 1 < cfg1.N := lt_of_le_of_lt (Nat.sub_le _ _) hN
  unfold seq1_2 totsq1
  rw [dif_pos hN, dif_pos hN', dif_pos hN]
  have e := acc1_2_eq V c ⟨n, hN⟩
  dsimp only at e
  refine (congrFun e _).trans ?_
  refine (Payload.K1.pay11_apply _ _ r l).trans ?_
  congr 1
  by_cases h0 : n % 8 = 0
  · simp only [if_pos h0]
    exact Payload.K1.pay4_apply r l
  · simp only [if_neg h0]

/-- Output array 2 at the ideal values. -/
theorem arr1_2_value (c : Dev nD) (b r : Fin 8) (l : Fin 128) :
    ((dat1 V c).arrAt 2 cfg1.N : S8x8x128.Idx → Elt Ideal .f32) (ix3 b r l)
      = Cert.Moment.Q (kimg (V c main_arg1)) b := by
  rw [final1_2_apply]
  show @Eq EReal _ _
  have hl := Cert.Moment.Accum.rowAcc_last_of_lt (seq1_2 V c r l) (totsq1 V c) (rec1_2 V c r l) b.val b.isLt
  have hs : seq1_2 V c r l (8 * b.val + 7) = acc1_2 V c (8 * b.val + 7) (last1_lt b) (ix3 (0 : Fin 1) r l) := by
    unfold seq1_2; rw [dif_pos (last1_lt b)]
  rw [← hs, hl]
  unfold Cert.Moment.Q
  refine Finset.sum_congr rfl fun c' _ => ?_
  have hb8 : b.val < 8 := b.isLt
  have hc8 : c'.val < 8 := c'.isLt
  exact totsq1_eq V c (8 * b.val + c'.val) (by omega) b c' (by omega) (by omega)

/-- Accumulator 3 at entry (0, r, l), point by point (zero past the grid). -/
def seq1_3 (c : Dev nD) (r : Fin 8) (l : Fin 128) (n : ℕ) : EReal :=
  if h : n < cfg1.N then acc1_3 V c n h (ix3 (0 : Fin 1) r l) else 0

/-- It restarts from zero at the first point of a batch item and adds the block's total on the diagonal only. -/
theorem rec1_3 (c : Dev nD) (r : Fin 8) (l : Fin 128) : ∀ n, n < 64 →
    seq1_3 V c r l n
      = (if n / 8 = n % 8 then (if n % 8 = 0 then 0 else seq1_3 V c r l (n - 1)) + tot1 V c n
          else (if n % 8 = 0 then 0 else seq1_3 V c r l (n - 1))) := by
  intro n hn
  have hN : n < cfg1.N := by rw [show cfg1.N = 64 from N_1]; exact hn
  have hN' : n - 1 < cfg1.N := lt_of_le_of_lt (Nat.sub_le _ _) hN
  unfold seq1_3 tot1
  rw [dif_pos hN, dif_pos hN', dif_pos hN]
  have e := acc1_3_eq V c ⟨n, hN⟩
  dsimp only at e
  refine (congrFun e _).trans ?_
  unfold step1_3
  by_cases hd : n / 8 = n % 8
  · simp only [if_pos hd]
    refine (Payload.K1.pay1_apply _ _ r l).trans ?_
    congr 1
    by_cases h0 : n % 8 = 0
    · simp only [if_pos h0]
      exact Payload.K1.pay5_apply r l
    · simp only [if_neg h0]
  · simp only [if_neg hd]
    by_cases h0 : n % 8 = 0
    · simp only [if_pos h0]
      exact Payload.K1.pay5_apply r l
    · simp only [if_neg h0]

/-- Output array 3 at the ideal values. -/
theorem arr1_3_value (c : Dev nD) (b r : Fin 8) (l : Fin 128) :
    ((dat1 V c).arrAt 3 cfg1.N : S8x8x128.Idx → Elt Ideal .f32) (ix3 b r l)
      = Cert.Moment.DS (kimg (V c main_arg1)) b := by
  rw [final1_3_apply]
  show @Eq EReal _ _
  have hl := Cert.Moment.Accum.diagAcc_last_of_lt (seq1_3 V c r l) (tot1 V c) (rec1_3 V c r l) b.val b.isLt
  have hs : seq1_3 V c r l (8 * b.val + 7) = acc1_3 V c (8 * b.val + 7) (last1_lt b) (ix3 (0 : Fin 1) r l) := by
    unfold seq1_3; rw [dif_pos (last1_lt b)]
  rw [← hs, hl]
  unfold Cert.Moment.DS
  have hb8 : b.val < 8 := b.isLt
  exact tot1_eq V c (8 * b.val + b.val) (by omega) b b (by omega) (by omega)

/-- Accumulator 4 at entry (0, r, l), point by point (zero past the grid). -/
def seq1_4 (c : Dev nD) (r : Fin 8) (l : Fin 128) (n : ℕ) : EReal :=
  if h : n < cfg1.N then acc1_4 V c n h (ix3 (0 : Fin 1) r l) else 0

/-- It restarts from zero at the first point of a batch item and adds the block's total on the diagonal only. -/
theorem rec1_4 (c : Dev nD) (r : Fin 8) (l : Fin 128) : ∀ n, n < 64 →
    seq1_4 V c r l n
      = (if n / 8 = n % 8 then (if n % 8 = 0 then 0 else seq1_4 V c r l (n - 1)) + totsq1 V c n
          else (if n % 8 = 0 then 0 else seq1_4 V c r l (n - 1))) := by
  intro n hn
  have hN : n < cfg1.N := by rw [show cfg1.N = 64 from N_1]; exact hn
  have hN' : n - 1 < cfg1.N := lt_of_le_of_lt (Nat.sub_le _ _) hN
  unfold seq1_4 totsq1
  rw [dif_pos hN, dif_pos hN', dif_pos hN]
  have e := acc1_4_eq V c ⟨n, hN⟩
  dsimp only at e
  refine (congrFun e _).trans ?_
  unfold step1_4
  by_cases hd : n / 8 = n % 8
  · simp only [if_pos hd]
    refine (Payload.K1.pay2_apply _ _ r l).trans ?_
    congr 1
    by_cases h0 : n % 8 = 0
    · simp only [if_pos h0]
      exact Payload.K1.pay6_apply r l
    · simp only [if_neg h0]
  · simp only [if_neg hd]
    by_cases h0 : n % 8 = 0
    · simp only [if_pos h0]
      exact Payload.K1.pay6_apply r l
    · simp only [if_neg h0]

/-- Output array 4 at the ideal values. -/
theorem arr1_4_value (c : Dev nD) (b r : Fin 8) (l : Fin 128) :
    ((dat1 V c).arrAt 4 cfg1.N : S8x8x128.Idx → Elt Ideal .f32) (ix3 b r l)
      = Cert.Moment.DQ (kimg (V c main_arg1)) b := by
  rw [final1_4_apply]
  show @Eq EReal _ _
  have hl := Cert.Moment.Accum.diagAcc_last_of_lt (seq1_4 V c r l) (totsq1 V c) (rec1_4 V c r l) b.val b.isLt
  have hs : seq1_4 V c r l (8 * b.val + 7) = acc1_4 V c (8 * b.val + 7) (last1_lt b) (ix3 (0 : Fin 1) r l) := by
    unfold seq1_4; rw [dif_pos (last1_lt b)]
  rw [← hs, hl]
  unfold Cert.Moment.DQ
  have hb8 : b.val < 8 := b.isLt
  exact totsq1_eq V c (8 * b.val + b.val) (by omega) b b (by omega) (by omega)

end Values

end Cert.KernelIdeal.Gen

end
-- ==== Proof.KernelConsts.lean ====
/-
  The float constants the streaming program's host code spells, as the extended reals their bit patterns denote
  at the Ideal instance: n = 2²³, n − 1, 2, H·W = 2²⁰, n² = 2⁴⁶ and 0.
-/
import Idealize.ShloMosaic.PureOps.Ideal
import proofs.«160249_j59768764891231_2_alg».proof.Proof.MomentSpec

noncomputable section

namespace Cert.KernelConsts

open Idealize.ShloMosaic

/-- `0x4B000000` is 2²³ = 8388608 = n. -/
theorem ofBits_n : Ideal.ofBits .f32 0x4B000000#32 = Cert.Moment.nE := by
  simp [Ideal.ofBits, Ideal.ieee, Cert.Moment.nE, -EReal.coe_mul]

/-- `0x4AFFFFFE` is 8388607 = n − 1. -/
theorem ofBits_n1 : Ideal.ofBits .f32 0x4AFFFFFE#32 = Cert.Moment.n1E := by
  simp [Ideal.ofBits, Ideal.ieee, Cert.Moment.n1E, -EReal.coe_mul]; norm_num

/-- `0x40000000` is 2. -/
theorem ofBits_two : Ideal.ofBits .f32 0x40000000#32 = Cert.Moment.twoE := by
  simp [Ideal.ofBits, Ideal.ieee, Cert.Moment.twoE, -EReal.coe_mul]; norm_num

/-- `0x49800000` is 2²⁰ = 1048576 = H·W. -/
theorem ofBits_hw : Ideal.ofBits .f32 0x49800000#32 = Cert.Moment.hwE := by
  simp [Ideal.ofBits, Ideal.ieee, Cert.Moment.hwE, -EReal.coe_mul]; norm_num

/-- `0x56800000` is 2⁴⁶ = 70368744177664 = n². -/
theorem ofBits_den : Ideal.ofBits .f32 0x56800000#32 = Cert.Moment.denE := by
  simp [Ideal.ofBits, Ideal.ieee, Cert.Moment.denE, -EReal.coe_mul]; norm_num

/-- `+0.0` is 0. -/
theorem ofBits_zero : Ideal.ofBits .f32 0x00000000#32 = 0 := by
  simp [Ideal.ofBits, Ideal.ieee]

end Cert.KernelConsts

end
-- ==== Proof.TailMoment.lean ====
/-
  The streaming program's host code after a launch, as one function of the four arrays the launch leaves, and
  that function's value.

  A launch leaves four arrays of shape [8, 8, 128]; entry (b, 0, 0) of each holds one of batch item b's four
  streamed sums (Σ x and Σ x² over the item, Σ x and Σ x² over its diagonal slice). The host code reads those
  entries off (a slice [0:8, 0:1, 0:1] and a reshape to [8]), forms mean = S/n, var = (Q − S·S/n)/(n − 1) and
  ((DQ − (2·mean)·DS + (H·W·mean)·mean)/var)/n² per batch item, and adds the eight results up from 0.
  `tailMoment` is that code, operation by operation; `tailMoment_eq` says its value is Σ_b `kTerm` of the four
  entries (b, 0, 0).
-/
import proofs.«160249_j59768764891231_2_alg».proof.Proof.Gen.KernelIdeal
import proofs.«160249_j59768764891231_2_alg».proof.Proof.MomentSpec
import proofs.«160249_j59768764891231_2_alg».proof.Proof.KernelConsts
import Idealize.ShloMosaic.Lib.ValueIdx
import Idealize.ShloMosaic.Lib.ValueLayout
import Idealize.ShloMosaic.PureOps.Ideal.Laws

noncomputable section

namespace Cert.KernelIdeal.TailValue

open Idealize.ShloMosaic Idealize.ShloMosaic.ValueIdx
open Cert.KernelIdeal Cert.KernelIdeal.Facts₀ Cert.KernelIdeal.Facts

/-! ## The host code as a function -/

/-- The entries (b, 0, 0) of an [8, 8, 128] array as a vector of 8: the slice [0:8, 0:1, 0:1], reshaped. -/
def pick (o : FVec Ideal S8x8x128 .f32) : FVec Ideal S8 .f32 :=
  shapeCast S8 (extractStridedSlice S8x1x1 ![0, 0, 0] o slices_S8x8x128_S8x1x1_0_0_0) shapeCasts_S8x1x1_S8

/-- A float literal broadcast over the batch. -/
def cst (w : BitVec 32) : FVec Ideal S8 .f32 :=
  broadcastInDim S8 ![] bcast_S_S8 (constant (F := Ideal) S_ .f32 w)

/-- mean = S / n. -/
def meanV (s : FVec Ideal S8 .f32) : FVec Ideal S8 .f32 :=
  Host.divf (F := Ideal) s (cst 0x4B000000#32)

/-- var = (Q − S·S / n) / (n − 1). -/
def varV (s q : FVec Ideal S8 .f32) : FVec Ideal S8 .f32 :=
  Host.divf (F := Ideal) (subf q (Host.divf (F := Ideal) (mulf s s) (cst 0x4B000000#32))) (cst 0x4AFFFFFE#32)

/-- ((DQ − (2·mean)·DS + (H·W·mean)·mean) / var) / n², per batch item. -/
def termV (s q ds dq : FVec Ideal S8 .f32) : FVec Ideal S8 .f32 :=
  Host.divf (F := Ideal)
    (Host.divf (F := Ideal)
      (addf (subf dq (mulf (mulf (cst 0x40000000#32) (meanV s)) ds))
        (mulf (mulf (cst 0x49800000#32) (meanV s)) (meanV s)))
      (varV s q))
    (cst 0x56800000#32)

/-- The host code after a launch: from the launch's four arrays to the moment, a scalar. -/
def tailMoment (o₁ o₂ o₃ o₄ : FVec Ideal S8x8x128 .f32) : FVec Ideal S_ .f32 :=
  Host.reduceAdd (F := Ideal) (termV (pick o₁) (pick o₂) (pick o₃) (pick o₄))
    (constant (F := Ideal) S_ .f32 0x00000000#32) reducesTo_S8_S_d0 h_S_

/-! ## Its value -/

/-- The slice and the reshape read entry (b, 0, 0). -/
theorem pick_apply (o : FVec Ideal S8x8x128 .f32) (b : Fin 8) :
    pick o (ix1 b) = o (ix3 b (0 : Fin 8) (0 : Fin 128)) := by
  unfold pick
  refine (shapeCast_apply (extractStridedSlice S8x1x1 ![0, 0, 0] o slices_S8x8x128_S8x1x1_0_0_0)
    shapeCasts_S8x1x1_S8 (ix1 b) (ix3 b (0 : Fin 1) (0 : Fin 1)) ?_).trans ?_
  · rw [Shape.rowMajor_val_three, Shape.rowMajor_val_one]
    show (b.val * 1 + 0) * 1 + 0 = b.val
    omega
  · exact extractStridedSlice_apply ![0, 0, 0] o slices_S8x8x128_S8x1x1_0_0_0
      (ix3 b (0 : Fin 1) (0 : Fin 1)) (ix3 b (0 : Fin 8) (0 : Fin 128))
      (fun a => match a with
        | ⟨0, _⟩ => by show b.val = 0 + b.val; omega
        | ⟨1, _⟩ => by show 0 = 0 + 0; rfl
        | ⟨2, _⟩ => by show 0 = 0 + 0; rfl)

/-- A broadcast literal is the literal at every batch item. -/
theorem cst_apply (w : BitVec 32) (i : S8.Idx) : cst w i = Ideal.ofBits .f32 w := by
  unfold cst
  exact (broadcastInDim_apply ![] bcast_S_S8 (constant (F := Ideal) S_ .f32 w) i ix0 (fun a => a.elim0)).trans rfl

/-- One batch item's term is `kTerm` of the four sums there. -/
theorem termV_apply (s q ds dq : FVec Ideal S8 .f32) (i : S8.Idx) :
    termV s q ds dq i = Cert.Moment.kTerm (s i) (q i) (ds i) (dq i) := by
  show Ideal.div
      (Ideal.div
        ((dq i - (cst 0x40000000#32 i * Ideal.div (s i) (cst 0x4B000000#32 i)) * ds i)
          + (cst 0x49800000#32 i * Ideal.div (s i) (cst 0x4B000000#32 i)) * Ideal.div (s i) (cst 0x4B000000#32 i))
        (Ideal.div (q i - Ideal.div (s i * s i) (cst 0x4B000000#32 i)) (cst 0x4AFFFFFE#32 i)))
      (cst 0x56800000#32 i) = _
  rw [cst_apply, cst_apply, cst_apply, cst_apply, cst_apply, KernelConsts.ofBits_n, KernelConsts.ofBits_n1,
    KernelConsts.ofBits_two, KernelConsts.ofBits_hw, KernelConsts.ofBits_den]
  rfl

/-- A rank-1 index is its coordinate … -/
def idxEquiv1 {n : Nat} : (⟨1, ![n]⟩ : Shape).Idx ≃ Fin n where
  toFun i := i 0
  invFun a := ix1 a
  left_inv i := (eq_ix1 i).symm
  right_inv _ := rfl

/-- … so a sum over a rank-1 index set is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- The host code's value: the sum over the batch of `kTerm` of the four streamed sums. -/
theorem tailMoment_eq (o₁ o₂ o₃ o₄ : FVec Ideal S8x8x128 .f32) :
    tailMoment o₁ o₂ o₃ o₄ = fun _ => ∑ b : Fin 8,
      Cert.Moment.kTerm (o₁ (ix3 b (0 : Fin 8) (0 : Fin 128))) (o₂ (ix3 b (0 : Fin 8) (0 : Fin 128)))
        (o₃ (ix3 b (0 : Fin 8) (0 : Fin 128))) (o₄ (ix3 b (0 : Fin 8) (0 : Fin 128))) := by
  funext j
  -- the reduction over the one axis into the scalar shape is the initial value, 0, plus the sum over every index
  show Ideal.hostReduceAdd reducesTo_S8_S_d0 (termV (pick o₁) (pick o₂) (pick o₃) (pick o₄))
      (Ideal.ofBits .f32 0x00000000#32) j = _
  rw [Ideal.hostReduceAdd_total reducesTo_S8_S_d0 (fun b => b.elim0), KernelConsts.ofBits_zero, zero_add, sum_idx1]
  refine Finset.sum_congr rfl fun (b : Fin 8) _ => ?_
  rw [termV_apply, pick_apply, pick_apply, pick_apply, pick_apply]

end Cert.KernelIdeal.TailValue

end
-- ==== Proof.TailValue.lean ====
/-
  The streaming program's two host stretches are `tailMoment` (Proof/TailMoment.lean): the first leaves
  `tailMoment` of the first launch's four arrays; the second leaves |m₁ − `tailMoment` of the second launch's
  four arrays|, m₁ being what the first stretch left.
-/
import proofs.«160249_j59768764891231_2_alg».proof.Proof.Gen.KernelIdeal.Launch
import proofs.«160249_j59768764891231_2_alg».proof.Proof.TailMoment
import Idealize.ShloMosaic.Lib.StableHlo.Run

noncomputable section

namespace Cert.KernelIdeal.TailValue

open Idealize.ShloMosaic
open Cert.KernelIdeal Cert.KernelIdeal.Facts₀ Cert.KernelIdeal.Facts

/-- The first stretch leaves `tailMoment` of the first launch's four arrays in `main_v28`. -/
theorem after_hostOps1 (V : Valuation τ sig (Elt Ideal)) :
    StableHlo.after (Gen.hostOps1 (F := Ideal)) V (Proc.devRef .tc main_v28)
      = tailMoment (V (Proc.devRef .tc main_v0_0)) (V (Proc.devRef .tc main_v0_1))
          (V (Proc.devRef .tc main_v0_2)) (V (Proc.devRef .tc main_v0_3)) := by
  dsimp only [Gen.hostOps1]
  after_results_simp
  rfl

/-- The second stretch leaves, in `main_v59`, the absolute value of what `main_v28` held less `tailMoment` of the
    second launch's four arrays. -/
theorem after_hostOps2 (V : Valuation τ sig (Elt Ideal)) :
    StableHlo.after (Gen.hostOps2 (F := Ideal)) V (Proc.devRef .tc main_v59)
      = Host.absf (F := Ideal) (s := S_) (φ := .f32)
          (subf (F := Ideal) (s := S_) (φ := .f32) (V (Proc.devRef .tc main_v28))
            (tailMoment (V (Proc.devRef .tc main_v29_0)) (V (Proc.devRef .tc main_v29_1))
              (V (Proc.devRef .tc main_v29_2)) (V (Proc.devRef .tc main_v29_3)))) := by
  dsimp only [Gen.hostOps2]
  after_results_simp
  rfl

end Cert.KernelIdeal.TailValue

end
-- ==== Proof.KI.Value.lean ====
/-
  The streaming program's final value. The buffer contents at @main's boundaries (Proof/KI/Frame.lean) are read
  back to front: the last stretch leaves |m₁ − m₂|, m₂ the host code's value on the second launch's four arrays and
  m₁ what the first stretch left, the host code's value on the first launch's four arrays; each launch's arrays hold,
  at entry (b, 0, 0), the four streamed sums of the image it was given (Proof/KI/Value0.lean, Proof/KI/Value1.lean),
  and the host code on such arrays is the image's streaming moment (Proof/TailMoment.lean). So the result buffer
  ends at `kResult` of the two images, and every execution ends there, with the two arguments as launched.
-/
import proofs.«160249_j59768764891231_2_alg».proof.Proof.KI.Frame
import proofs.«160249_j59768764891231_2_alg».proof.Proof.KI.Value0
import proofs.«160249_j59768764891231_2_alg».proof.Proof.KI.Value1
import proofs.«160249_j59768764891231_2_alg».proof.Proof.TailValue
import proofs.«160249_j59768764891231_2_alg».proof.Proof.MomentSpec

noncomputable section

namespace Cert.KernelIdeal.Gen

open Idealize.ShloMosaic Idealize.ShloMosaic.TcCoe Idealize.ShloMosaic.ValueIdx
open Idealize.SL Idealize.SL.Sem

/-! ## The host code on arrays that hold an image's streamed sums -/

/-- The host code after a launch whose four arrays hold, at entry (b, 0, 0), the four streamed sums of an image:
    the image's streaming moment. -/
theorem tailMoment_of_sums (o₁ o₂ o₃ o₄ : FVec Ideal S8x8x128 .f32) (X : Cert.Moment.Img)
    (h₁ : ∀ b : Fin 8, o₁ (ix3 b (0 : Fin 8) (0 : Fin 128)) = Cert.Moment.S X b)
    (h₂ : ∀ b : Fin 8, o₂ (ix3 b (0 : Fin 8) (0 : Fin 128)) = Cert.Moment.Q X b)
    (h₃ : ∀ b : Fin 8, o₃ (ix3 b (0 : Fin 8) (0 : Fin 128)) = Cert.Moment.DS X b)
    (h₄ : ∀ b : Fin 8, o₄ (ix3 b (0 : Fin 8) (0 : Fin 128)) = Cert.Moment.DQ X b) :
    TailValue.tailMoment o₁ o₂ o₃ o₄ = fun _ => Cert.Moment.kMoment X := by
  rw [TailValue.tailMoment_eq]
  funext _
  unfold Cert.Moment.kMoment
  exact Finset.sum_congr rfl fun b _ => by rw [h₁ b, h₂ b, h₃ b, h₄ b]

/-- The last two operations, on two scalars: |a − b| = max (a − b) (−(a − b)). -/
theorem absf_subf_const (a b : EReal) :
    Host.absf (F := Ideal) (s := S_) (φ := .f32) (subf (F := Ideal) (s := S_) (φ := .f32) (fun _ => a) (fun _ => b))
      = fun _ => max (a - b) (-(a - b)) := rfl

/-! ## The boundaries, back to front -/

variable (m : (ℓ : Loc nD τ sig) → Buf (Elt Ideal) ℓ)

/-- After the first stretch `main_v28` holds the first image's streaming moment. -/
theorem moment_first (c : Dev nD) :
    rW2 m c (Proc.devRef .tc main_v28)
      = fun _ => Cert.Moment.kMoment (kimg (m ((c : Thread nD τ).loc main_arg0))) := by
  refine (TailValue.after_hostOps1 (rW1 m c)).trans ?_
  refine tailMoment_of_sums _ _ _ _ (kimg (m ((c : Thread nD τ).loc main_arg0)))
    (fun b => (congrFun (rW1_arr m c 1) _).trans ?_) (fun b => (congrFun (rW1_arr m c 2) _).trans ?_)
    (fun b => (congrFun (rW1_arr m c 3) _).trans ?_) (fun b => (congrFun (rW1_arr m c 4) _).trans ?_)
  · exact arr0_1_value (rV0 m) c b 0 0
  · exact arr0_2_value (rV0 m) c b 0 0
  · exact arr0_3_value (rV0 m) c b 0 0
  · exact arr0_4_value (rV0 m) c b 0 0

/-- The second launch is entered with `main_arg1` as launched, so its four arrays hold the second image's sums,
    and the host code on them is the second image's streaming moment. -/
theorem moment_second (c : Dev nD) :
    TailValue.tailMoment (rW3 m c (Proc.devRef .tc main_v29_0)) (rW3 m c (Proc.devRef .tc main_v29_1))
        (rW3 m c (Proc.devRef .tc main_v29_2)) (rW3 m c (Proc.devRef .tc main_v29_3))
      = fun _ => Cert.Moment.kMoment (kimg (m ((c : Thread nD τ).loc main_arg1))) := by
  have harg : rV2 m c main_arg1 = m ((c : Thread nD τ).loc main_arg1) := rW2_main_arg1 m c
  refine tailMoment_of_sums _ _ _ _ (kimg (m ((c : Thread nD τ).loc main_arg1)))
    (fun b => (congrFun (rW3_arr m c 1) _).trans ?_) (fun b => (congrFun (rW3_arr m c 2) _).trans ?_)
    (fun b => (congrFun (rW3_arr m c 3) _).trans ?_) (fun b => (congrFun (rW3_arr m c 4) _).trans ?_)
  · rw [← harg]; exact arr1_1_value (rV2 m) c b 0 0
  · rw [← harg]; exact arr1_2_value (rV2 m) c b 0 0
  · rw [← harg]; exact arr1_3_value (rV2 m) c b 0 0
  · rw [← harg]; exact arr1_4_value (rV2 m) c b 0 0

/-- THE VALUE: the result buffer ends at the streaming result of the two images as launched. -/
theorem kernel_value (c : Dev nD) :
    rW4 m c (Proc.devRef .tc main_v59)
      = fun _ => Cert.Moment.kResult (kimg (m ((c : Thread nD τ).loc main_arg0)))
          (kimg (m ((c : Thread nD τ).loc main_arg1))) := by
  -- no array of the second launch is `main_v28`: it still holds what the first stretch left
  have h28 : rW3 m c (Proc.devRef .tc main_v28)
      = fun _ => Cert.Moment.kMoment (kimg (m ((c : Thread nD τ).loc main_arg0))) :=
    (rW3_of_ne m c main_v28 (by decide)).trans (moment_first m c)
  refine (TailValue.after_hostOps2 (rW3 m c)).trans ?_
  rw [h28, moment_second m c]
  exact absf_subf_const _ _

/-! ## The run -/

/-- THE RUN with the value. From any memory with zero counters every weakly fair execution of @main terminates,
    nothing faulting, with the result buffer at the streaming result of the two arguments and the arguments as
    launched. -/
theorem run_value (ρ : Dev nD → PrngReg) :
    θ_run (defs (F := Ideal)) (onTc (τ := τ) (main (F := Ideal))) ⟨m, fun _ => 0, ρ⟩ (fun r => ∀ c : Dev nD,
      r.2.mem ((c.tc : Thread nD τ).loc main_v59)
          = (fun _ => Cert.Moment.kResult (kimg (m ((c.tc : Thread nD τ).loc main_arg0)))
              (kimg (m ((c.tc : Thread nD τ).loc main_arg1))))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(h c _ (rmem_uc main_v59 (by decide))).trans (kernel_value m c),
     (h c _ (rmem_uc main_arg0 (by decide))).trans (rW4_main_arg0 m c),
     (h c _ (rmem_uc main_arg1 (by decide))).trans (rW4_main_arg1 m c)⟩) (run_all m ρ)

end Cert.KernelIdeal.Gen

end
-- ==== Proof.RefRunOps.lean ====
/-
  The reference program's @main as a straight line of host operations.

  @main is printed in two consecutive windows and calls the outlined function @_var twice (once per image),
  which calls @_where once. A call executes the callee's body on the operands, each value of the body in a buffer
  of its own, so the program is one line of 126 operations: each call's operations listed at the call site over
  that call's buffer record. `ops0` and `ops1` are the two windows' lines, `ops` their concatenation, and
  `main_eq` says @main is that line; the remaining statements are the side conditions the run of a straight
  line takes (no buffer or semaphore of the signature is scoped; every operation touches TensorCore buffers only).
-/
import proofs.«160249_j59768764891231_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The first window's operations in order (statements 1 … 60 of @main): the first image's mean, its unbiased
    variance (@_var's twenty operations and, inside it, @_where's three), the standardized diagonal slice and its
    moment; then the second image's mean, its variance (the second call) and the start of its slice indices. -/
abbrev ops0 : List (HloOp τ sig (Elt F)) :=
  [ StableHlo.nullary main_cst (constant S_ .f32 0x00000000#32),
    StableHlo.binary main_arg0 main_cst main_v0 ((fun x v => Host.reduceAdd x v reducesTo_S8x8x1024x1024_S8_d1_2_3 h_S_) : (⟨S8x8x1024x1024, .f32⟩ : BufTy).Contents (Elt F) → (⟨S_, .f32⟩ : BufTy).Contents (Elt F) → (⟨S8, .f32⟩ : BufTy).Contents (Elt F)),
    StableHlo.nullary main_cst_0 (constant S_ .f32 0x4B000000#32),
    StableHlo.unary main_cst_0 main_v1 (broadcastInDim S8 ![] bcast_S_S8 : (⟨S_, .f32⟩ : BufTy).Contents (Elt F) → (⟨S8, .f32⟩ : BufTy).Contents (Elt F)),
    StableHlo.binary main_v0 main_v1 main_v2 (Host.divf : (⟨S8, .f32⟩ : BufTy).Contents (Elt F) → (⟨S8, .f32⟩ : BufTy).Contents (Elt F) → (⟨S8, .f32⟩ : BufTy).Contents (Elt F)),
    StableHlo.nullary main_c (constantI S_ 32 1#32),
    StableHlo.TRef.nullary main_call0.cst (constant S_ .f32 0x00000000#32),
    StableHlo.TRef.binary (.of main_arg0 : StableHlo.TRef sig ⟨S8x8x1024x1024, .f32⟩) main_call0.cst main_call0.v0 (fun x v => Host.reduceAdd x v reducesTo_S8x8x1024x1024_S8_d1_2_3 h_S_),
    StableHlo.TRef.unary main_call0.v0 main_call0.v1 (broadcastInDim S8x1x1x1 ![0] bcast_S8_S8x1x1x1_0),
    StableHlo.TRef.nullary main_call0.cst_0 (constant S_ .f32 0x4B000000#32),
    StableHlo.TRef.unary main_call0.cst_0 main_call0.v2 (broadcastInDim S8x1x1x1 ![] bcast_S_S8x1x1x1),
    StableHlo.TRef.binary main_call0.v1 main_call0.v2 main_call0.v3 Host.divf,
    StableHlo.TRef.unary main_call0.v3 main_call0.v4 (broadcastInDim S8x8x1024x1024 ![0, 1, 2, 3] bcast_S8x1x1x1_S8x8x1024x1024_0_1_2_3),
    StableHlo.TRef.binary (.of main_arg0 : StableHlo.TRef sig ⟨S8x8x1024x1024, .f32⟩) main_call0.v4 main_call0.v5 subf,
    StableHlo.TRef.binary main_call0.v5 main_call0.v5 main_call0.v6 mulf,
    StableHlo.TRef.unary (.of main_c : StableHlo.TRef sig ⟨S_, .i32⟩) main_call0.v7 (sitofp .f32),
    StableHlo.TRef.nullary main_call0.cst_1 (constant S_ .f32 0x4B000000#32),
    StableHlo.TRef.binary main_call0.cst_1 main_call0.v7 main_call0.v8 subf,
    StableHlo.TRef.nullary main_call0.cst_2 (constant S_ .f32 0x00000000#32),
    StableHlo.TRef.binary main_call0.v6 main_call0.cst_2 main_call0.v9 (fun x v => Host.reduceAdd x v reducesTo_S8x8x1024x1024_S8_d1_2_3 h_S_),
    StableHlo.TRef.unary main_call0.v8 main_call0.v10 (broadcastInDim S8 ![] bcast_S_S8),
    StableHlo.TRef.binary main_call0.v9 main_call0.v10 main_call0.v11 Host.divf,
    StableHlo.TRef.nullary main_call0.cst_3 (constant S_ .f32 0x00000000#32),
    StableHlo.TRef.binary main_call0.v8 main_call0.cst_3 main_call0.v12 (cmpf .ogt),
    StableHlo.TRef.nullary main_call0.cst_4 (constant S_ .f32 0x7FC00000#32),
    StableHlo.TRef.unary main_call0.cst_4 main_call0.call0.v0 id,
    StableHlo.TRef.unary main_call0.call0.v0 main_call0.call0.v1 (broadcastInDim S8 ![] bcast_S_S8),
    StableHlo.TRef.ternary main_call0.v12 main_call0.v11 main_call0.call0.v1 main_call0.call0.v2 (fun p a b => select (broadcastInDim S8 ![] bcast_S_S8 p) a b),
    StableHlo.unary main_v3 main_v4 (Host.sqrt : (⟨S8, .f32⟩ : BufTy).Contents (Elt F) → (⟨S8, .f32⟩ : BufTy).Contents (Elt F)),
    StableHlo.nullary main_v5 (iotaInDim S8 32 0),
    StableHlo.nullary main_c_1 (constantI S_ 32 0#32),
    StableHlo.unary main_c_1 main_v6 (broadcastInDim S8 ![] bcast_S_S8 : (⟨S_, .i32⟩ : BufTy).Contents (Elt F) → (⟨S8, .i32⟩ : BufTy).Contents (Elt F)),
    StableHlo.binary main_v5 main_v6 main_v7 (cmpi .slt : (⟨S8, .i32⟩ : BufTy).Contents (Elt F) → (⟨S8, .i32⟩ : BufTy).Contents (Elt F) → (⟨S8, .i1⟩ : BufTy).Contents (Elt F)),
    StableHlo.nullary main_c_2 (constantI S_ 32 8#32),
    StableHlo.unary main_c_2 main_v8 (broadcastInDim S8 ![] bcast_S_S8 : (⟨S_, .i32⟩ : BufTy).Contents (Elt F) → (⟨S8, .i32⟩ : BufTy).Contents (Elt F)),
    StableHlo.binary main_v5 main_v8 main_v9 (addi : (⟨S8, .i32⟩ : BufTy).Contents (Elt F) → (⟨S8, .i32⟩ : BufTy).Contents (Elt F) → (⟨S8, .i32⟩ : BufTy).Contents (Elt F)),
    StableHlo.ternary main_v7 main_v9 main_v5 main_v10 (select : (⟨S8, .i1⟩ : BufTy).Contents (Elt F) → (⟨S8, .i32⟩ : BufTy).Contents (Elt F) → (⟨S8, .i32⟩ : BufTy).Contents (Elt F) → (⟨S8, .i32⟩ : BufTy).Contents (Elt F)),
    StableHlo.nullary main_c_3 (constantI S_ 32 0#32),
    StableHlo.unary main_c_3 main_v11 (broadcastInDim S8 ![] bcast_S_S8 : (⟨S_, .i32⟩ : BufTy).Contents (Elt F) → (⟨S8, .i32⟩ : BufTy).Contents (Elt F)),
    StableHlo.binary main_v5 main_v11 main_v12 (cmpi .slt : (⟨S8, .i32⟩ : BufTy).Contents (Elt F) → (⟨S8, .i32⟩ : BufTy).Contents (Elt F) → (⟨S8, .i1⟩ : BufTy).Contents (Elt F)),
    StableHlo.nullary main_c_4 (constantI S_ 32 8#32),
    StableHlo.unary main_c_4 main_v13 (broadcastInDim S8 ![] bcast_S_S8 : (⟨S_, .i32⟩ : BufTy).Contents (Elt F) → (⟨S8, .i32⟩ : BufTy).Contents (Elt F)),
    StableHlo.binary main_v5 main_v13 main_v14 (addi : (⟨S8, .i32⟩ : BufTy).Contents (Elt F) → (⟨S8, .i32⟩ : BufTy).Contents (Elt F) → (⟨S8, .i32⟩ : BufTy).Contents (Elt F)),
    StableHlo.ternary main_v12 main_v14 main_v5 main_v15 (select : (⟨S8, .i1⟩ : BufTy).Contents (Elt F) → (⟨S8, .i32⟩ : BufTy).Contents (Elt F) → (⟨S8, .i32⟩ : BufTy).Contents (Elt F) → (⟨S8, .i32⟩ : BufTy).Contents (Elt F)),
    StableHlo.unary main_v10 main_v16 (broadcastInDim S8x1 ![0] bcast_S8_S8x1_0 : (⟨S8, .i32⟩ : BufTy).Contents (Elt F) → (⟨S8x1, .i32⟩ : BufTy).Contents (Elt F)),
    StableHlo.unary main_v15 main_v17 (broadcastInDim S8x1 ![0] bcast_S8_S8x1_0 : (⟨S8, .i32⟩ : BufTy).Contents (Elt F) → (⟨S8x1, .i32⟩ : BufTy).Contents (Elt F)),
    StableHlo.binary main_v16 main_v17 main_v18 ((fun a b => concatenate S8x2 1 [⟨S8x1, a⟩, ⟨S8x1, b⟩] concatenates_S8x1_S8x1_S8x2_d1) : (⟨S8x1, .i32⟩ : BufTy).Contents (Elt F) → (⟨S8x1, .i32⟩ : BufTy).Contents (Elt F) → (⟨S8x2, .i32⟩ : BufTy).Contents (Elt F)),
    StableHlo.binary main_arg0 main_v18 main_v19 ((fun x i => Host.gather gather_S8x8x1024x1024_S8x2_S8x1024x1024_12_01_n_n_01_1_1110241024 x i) : (⟨S8x8x1024x1024, .f32⟩ : BufTy).Contents (Elt F) → (⟨S8x2, .i32⟩ : BufTy).Contents (Elt F) → (⟨S8x1024x1024, .f32⟩ : BufTy).Contents (Elt F)),
    StableHlo.unary main_v2 main_v20 (broadcastInDim S8x1x1 ![0] bcast_S8_S8x1x1_0 : (⟨S8, .f32⟩ : BufTy).Contents (Elt F) → (⟨S8x1x1, .f32⟩ : BufTy).Contents (Elt F)),
    StableHlo.unary main_v20 main_v21 (broadcastInDim S8x1024x1024 ![0, 1, 2] bcast_S8x1x1_S8x1024x1024_0_1_2 : (⟨S8x1x1, .f32⟩ : BufTy).Contents (Elt F) → (⟨S8x1024x1024, .f32⟩ : BufTy).Contents (Elt F)),
    StableHlo.binary main_v19 main_v21 main_v22 (subf : (⟨S8x1024x1024, .f32⟩ : BufTy).Contents (Elt F) → (⟨S8x1024x1024, .f32⟩ : BufTy).Contents (Elt F) → (⟨S8x1024x1024, .f32⟩ : BufTy).Contents (Elt F)),
    StableHlo.unary main_v4 main_v23 (broadcastInDim S8x1x1 ![0] bcast_S8_S8x1x1_0 : (⟨S8, .f32⟩ : BufTy).Contents (Elt F) → (⟨S8x1x1, .f32⟩ : BufTy).Contents (Elt F)),
    StableHlo.unary main_v23 main_v24 (broadcastInDim S8x1024x1024 ![0, 1, 2] bcast_S8x1x1_S8x1024x1024_0_1_2 : (⟨S8x1x1, .f32⟩ : BufTy).Contents (Elt F) → (⟨S8x1024x1024, .f32⟩ : BufTy).Contents (Elt F)),
    StableHlo.binary main_v22 main_v24 main_v25 (Host.divf : (⟨S8x1024x1024, .f32⟩ : BufTy).Contents (Elt F) → (⟨S8x1024x1024, .f32⟩ : BufTy).Contents (Elt F) → (⟨S8x1024x1024, .f32⟩ : BufTy).Contents (Elt F)),
    StableHlo.binary main_v25 main_v25 main_v26 (mulf : (⟨S8x1024x1024, .f32⟩ : BufTy).Contents (Elt F) → (⟨S8x1024x1024, .f32⟩ : BufTy).Contents (Elt F) → (⟨S8x1024x1024, .f32⟩ : BufTy).Contents (Elt F)),
    StableHlo.nullary main_cst_5 (constant S_ .f32 0x00000000#32),
    StableHlo.binary main_v26 main_cst_5 main_v27 ((fun x v => Host.reduceAdd x v reducesTo_S8x1024x1024_S8_d1_2 h_S_) : (⟨S8x1024x1024, .f32⟩ : BufTy).Contents (Elt F) → (⟨S_, .f32⟩ : BufTy).Contents (Elt F) → (⟨S8, .f32⟩ : BufTy).Contents (Elt F)),
    StableHlo.nullary main_cst_6 (constant S_ .f32 0x56800000#32),
    StableHlo.unary main_cst_6 main_v28 (broadcastInDim S8 ![] bcast_S_S8 : (⟨S_, .f32⟩ : BufTy).Contents (Elt F) → (⟨S8, .f32⟩ : BufTy).Contents (Elt F)),
    StableHlo.binary main_v27 main_v28 main_v29 (Host.divf : (⟨S8, .f32⟩ : BufTy).Contents (Elt F) → (⟨S8, .f32⟩ : BufTy).Contents (Elt F) → (⟨S8, .f32⟩ : BufTy).Contents (Elt F)),
    StableHlo.nullary main_cst_7 (constant S_ .f32 0x00000000#32),
    StableHlo.binary main_v29 main_cst_7 main_v30 ((fun x v => Host.reduceAdd x v reducesTo_S8_S_d0 h_S_) : (⟨S8, .f32⟩ : BufTy).Contents (Elt F) → (⟨S_, .f32⟩ : BufTy).Contents (Elt F) → (⟨S_, .f32⟩ : BufTy).Contents (Elt F)),
    StableHlo.nullary main_cst_8 (constant S_ .f32 0x00000000#32),
    StableHlo.binary main_arg1 main_cst_8 main_v31 ((fun x v => Host.reduceAdd x v reducesTo_S8x8x1024x1024_S8_d1_2_3 h_S_) : (⟨S8x8x1024x1024, .f32⟩ : BufTy).Contents (Elt F) → (⟨S_, .f32⟩ : BufTy).Contents (Elt F) → (⟨S8, .f32⟩ : BufTy).Contents (Elt F)),
    StableHlo.nullary main_cst_9 (constant S_ .f32 0x4B000000#32),
    StableHlo.unary main_cst_9 main_v32 (broadcastInDim S8 ![] bcast_S_S8 : (⟨S_, .f32⟩ : BufTy).Contents (Elt F) → (⟨S8, .f32⟩ : BufTy).Contents (Elt F)),
    StableHlo.binary main_v31 main_v32 main_v33 (Host.divf : (⟨S8, .f32⟩ : BufTy).Contents (Elt F) → (⟨S8, .f32⟩ : BufTy).Contents (Elt F) → (⟨S8, .f32⟩ : BufTy).Contents (Elt F)),
    StableHlo.nullary main_c_10 (constantI S_ 32 1#32),
    StableHlo.TRef.nullary main_call1.cst (constant S_ .f32 0x00000000#32),
    StableHlo.TRef.binary (.of main_arg1 : StableHlo.TRef sig ⟨S8x8x1024x1024, .f32⟩) main_call1.cst main_call1.v0 (fun x v => Host.reduceAdd x v reducesTo_S8x8x1024x1024_S8_d1_2_3 h_S_),
    StableHlo.TRef.unary main_call1.v0 main_call1.v1 (broadcastInDim S8x1x1x1 ![0] bcast_S8_S8x1x1x1_0),
    StableHlo.TRef.nullary main_call1.cst_0 (constant S_ .f32 0x4B000000#32),
    StableHlo.TRef.unary main_call1.cst_0 main_call1.v2 (broadcastInDim S8x1x1x1 ![] bcast_S_S8x1x1x1),
    StableHlo.TRef.binary main_call1.v1 main_call1.v2 main_call1.v3 Host.divf,
    StableHlo.TRef.unary main_call1.v3 main_call1.v4 (broadcastInDim S8x8x1024x1024 ![0, 1, 2, 3] bcast_S8x1x1x1_S8x8x1024x1024_0_1_2_3),
    StableHlo.TRef.binary (.of main_arg1 : StableHlo.TRef sig ⟨S8x8x1024x1024, .f32⟩) main_call1.v4 main_call1.v5 subf,
    StableHlo.TRef.binary main_call1.v5 main_call1.v5 main_call1.v6 mulf,
    StableHlo.TRef.unary (.of main_c_10 : StableHlo.TRef sig ⟨S_, .i32⟩) main_call1.v7 (sitofp .f32),
    StableHlo.TRef.nullary main_call1.cst_1 (constant S_ .f32 0x4B000000#32),
    StableHlo.TRef.binary main_call1.cst_1 main_call1.v7 main_call1.v8 subf,
    StableHlo.TRef.nullary main_call1.cst_2 (constant S_ .f32 0x00000000#32),
    StableHlo.TRef.binary main_call1.v6 main_call1.cst_2 main_call1.v9 (fun x v => Host.reduceAdd x v reducesTo_S8x8x1024x1024_S8_d1_2_3 h_S_),
    StableHlo.TRef.unary main_call1.v8 main_call1.v10 (broadcastInDim S8 ![] bcast_S_S8),
    StableHlo.TRef.binary main_call1.v9 main_call1.v10 main_call1.v11 Host.divf,
    StableHlo.TRef.nullary main_call1.cst_3 (constant S_ .f32 0x00000000#32),
    StableHlo.TRef.binary main_call1.v8 main_call1.cst_3 main_call1.v12 (cmpf .ogt),
    StableHlo.TRef.nullary main_call1.cst_4 (constant S_ .f32 0x7FC00000#32),
    StableHlo.TRef.unary main_call1.cst_4 main_call1.call0.v0 id,
    StableHlo.TRef.unary main_call1.call0.v0 main_call1.call0.v1 (broadcastInDim S8 ![] bcast_S_S8),
    StableHlo.TRef.ternary main_call1.v12 main_call1.v11 main_call1.call0.v1 main_call1.call0.v2 (fun p a b => select (broadcastInDim S8 ![] bcast_S_S8 p) a b),
    StableHlo.unary main_v34 main_v35 (Host.sqrt : (⟨S8, .f32⟩ : BufTy).Contents (Elt F) → (⟨S8, .f32⟩ : BufTy).Contents (Elt F)),
    StableHlo.nullary main_v36 (iotaInDim S8 32 0),
    StableHlo.nullary main_c_11 (constantI S_ 32 0#32),
    StableHlo.unary main_c_11 main_v37 (broadcastInDim S8 ![] bcast_S_S8 : (⟨S_, .i32⟩ : BufTy).Contents (Elt F) → (⟨S8, .i32⟩ : BufTy).Contents (Elt F)),
    StableHlo.binary main_v36 main_v37 main_v38 (cmpi .slt : (⟨S8, .i32⟩ : BufTy).Contents (Elt F) → (⟨S8, .i32⟩ : BufTy).Contents (Elt F) → (⟨S8, .i1⟩ : BufTy).Contents (Elt F)),
    StableHlo.nullary main_c_12 (constantI S_ 32 8#32),
    StableHlo.unary main_c_12 main_v39 (broadcastInDim S8 ![] bcast_S_S8 : (⟨S_, .i32⟩ : BufTy).Contents (Elt F) → (⟨S8, .i32⟩ : BufTy).Contents (Elt F)),
    StableHlo.binary main_v36 main_v39 main_v40 (addi : (⟨S8, .i32⟩ : BufTy).Contents (Elt F) → (⟨S8, .i32⟩ : BufTy).Contents (Elt F) → (⟨S8, .i32⟩ : BufTy).Contents (Elt F)),
    StableHlo.ternary main_v38 main_v40 main_v36 main_v41 (select : (⟨S8, .i1⟩ : BufTy).Contents (Elt F) → (⟨S8, .i32⟩ : BufTy).Contents (Elt F) → (⟨S8, .i32⟩ : BufTy).Contents (Elt F) → (⟨S8, .i32⟩ : BufTy).Contents (Elt F)),
    StableHlo.nullary main_c_13 (constantI S_ 32 0#32),
    StableHlo.unary main_c_13 main_v42 (broadcastInDim S8 ![] bcast_S_S8 : (⟨S_, .i32⟩ : BufTy).Contents (Elt F) → (⟨S8, .i32⟩ : BufTy).Contents (Elt F)),
    StableHlo.binary main_v36 main_v42 main_v43 (cmpi .slt : (⟨S8, .i32⟩ : BufTy).Contents (Elt F) → (⟨S8, .i32⟩ : BufTy).Contents (Elt F) → (⟨S8, .i1⟩ : BufTy).Contents (Elt F)) ]

/-- The second window's operations in order (statements 61 … 84): the rest of the second image's moment, the
    difference of the two moments and its absolute value. -/
abbrev ops1 : List (HloOp τ sig (Elt F)) :=
  [ StableHlo.nullary main_c_14 (constantI S_ 32 8#32),
    StableHlo.unary main_c_14 main_v44 (broadcastInDim S8 ![] bcast_S_S8 : (⟨S_, .i32⟩ : BufTy).Contents (Elt F) → (⟨S8, .i32⟩ : BufTy).Contents (Elt F)),
    StableHlo.binary main_v36 main_v44 main_v45 (addi : (⟨S8, .i32⟩ : BufTy).Contents (Elt F) → (⟨S8, .i32⟩ : BufTy).Contents (Elt F) → (⟨S8, .i32⟩ : BufTy).Contents (Elt F)),
    StableHlo.ternary main_v43 main_v45 main_v36 main_v46 (select : (⟨S8, .i1⟩ : BufTy).Contents (Elt F) → (⟨S8, .i32⟩ : BufTy).Contents (Elt F) → (⟨S8, .i32⟩ : BufTy).Contents (Elt F) → (⟨S8, .i32⟩ : BufTy).Contents (Elt F)),
    StableHlo.unary main_v41 main_v47 (broadcastInDim S8x1 ![0] bcast_S8_S8x1_0 : (⟨S8, .i32⟩ : BufTy).Contents (Elt F) → (⟨S8x1, .i32⟩ : BufTy).Contents (Elt F)),
    StableHlo.unary main_v46 main_v48 (broadcastInDim S8x1 ![0] bcast_S8_S8x1_0 : (⟨S8, .i32⟩ : BufTy).Contents (Elt F) → (⟨S8x1, .i32⟩ : BufTy).Contents (Elt F)),
    StableHlo.binary main_v47 main_v48 main_v49 ((fun a b => concatenate S8x2 1 [⟨S8x1, a⟩, ⟨S8x1, b⟩] concatenates_S8x1_S8x1_S8x2_d1) : (⟨S8x1, .i32⟩ : BufTy).Contents (Elt F) → (⟨S8x1, .i32⟩ : BufTy).Contents (Elt F) → (⟨S8x2, .i32⟩ : BufTy).Contents (Elt F)),
    StableHlo.binary main_arg1 main_v49 main_v50 ((fun x i => Host.gather gather_S8x8x1024x1024_S8x2_S8x1024x1024_12_01_n_n_01_1_1110241024 x i) : (⟨S8x8x1024x1024, .f32⟩ : BufTy).Contents (Elt F) → (⟨S8x2, .i32⟩ : BufTy).Contents (Elt F) → (⟨S8x1024x1024, .f32⟩ : BufTy).Contents (Elt F)),
    StableHlo.unary main_v33 main_v51 (broadcastInDim S8x1x1 ![0] bcast_S8_S8x1x1_0 : (⟨S8, .f32⟩ : BufTy).Contents (Elt F) → (⟨S8x1x1, .f32⟩ : BufTy).Contents (Elt F)),
    StableHlo.unary main_v51 main_v52 (broadcastInDim S8x1024x1024 ![0, 1, 2] bcast_S8x1x1_S8x1024x1024_0_1_2 : (⟨S8x1x1, .f32⟩ : BufTy).Contents (Elt F) → (⟨S8x1024x1024, .f32⟩ : BufTy).Contents (Elt F)),
    StableHlo.binary main_v50 main_v52 main_v53 (subf : (⟨S8x1024x1024, .f32⟩ : BufTy).Contents (Elt F) → (⟨S8x1024x1024, .f32⟩ : BufTy).Contents (Elt F) → (⟨S8x1024x1024, .f32⟩ : BufTy).Contents (Elt F)),
    StableHlo.unary main_v35 main_v54 (broadcastInDim S8x1x1 ![0] bcast_S8_S8x1x1_0 : (⟨S8, .f32⟩ : BufTy).Contents (Elt F) → (⟨S8x1x1, .f32⟩ : BufTy).Contents (Elt F)),
    StableHlo.unary main_v54 main_v55 (broadcastInDim S8x1024x1024 ![0, 1, 2] bcast_S8x1x1_S8x1024x1024_0_1_2 : (⟨S8x1x1, .f32⟩ : BufTy).Contents (Elt F) → (⟨S8x1024x1024, .f32⟩ : BufTy).Contents (Elt F)),
    StableHlo.binary main_v53 main_v55 main_v56 (Host.divf : (⟨S8x1024x1024, .f32⟩ : BufTy).Contents (Elt F) → (⟨S8x1024x1024, .f32⟩ : BufTy).Contents (Elt F) → (⟨S8x1024x1024, .f32⟩ : BufTy).Contents (Elt F)),
    StableHlo.binary main_v56 main_v56 main_v57 (mulf : (⟨S8x1024x1024, .f32⟩ : BufTy).Contents (Elt F) → (⟨S8x1024x1024, .f32⟩ : BufTy).Contents (Elt F) → (⟨S8x1024x1024, .f32⟩ : BufTy).Contents (Elt F)),
    StableHlo.nullary main_cst_15 (constant S_ .f32 0x00000000#32),
    StableHlo.binary main_v57 main_cst_15 main_v58 ((fun x v => Host.reduceAdd x v reducesTo_S8x1024x1024_S8_d1_2 h_S_) : (⟨S8x1024x1024, .f32⟩ : BufTy).Contents (Elt F) → (⟨S_, .f32⟩ : BufTy).Contents (Elt F) → (⟨S8, .f32⟩ : BufTy).Contents (Elt F)),
    StableHlo.nullary main_cst_16 (constant S_ .f32 0x56800000#32),
    StableHlo.unary main_cst_16 main_v59 (broadcastInDim S8 ![] bcast_S_S8 : (⟨S_, .f32⟩ : BufTy).Contents (Elt F) → (⟨S8, .f32⟩ : BufTy).Contents (Elt F)),
    StableHlo.binary main_v58 main_v59 main_v60 (Host.divf : (⟨S8, .f32⟩ : BufTy).Contents (Elt F) → (⟨S8, .f32⟩ : BufTy).Contents (Elt F) → (⟨S8, .f32⟩ : BufTy).Contents (Elt F)),
    StableHlo.nullary main_cst_17 (constant S_ .f32 0x00000000#32),
    StableHlo.binary main_v60 main_cst_17 main_v61 ((fun x v => Host.reduceAdd x v reducesTo_S8_S_d0 h_S_) : (⟨S8, .f32⟩ : BufTy).Contents (Elt F) → (⟨S_, .f32⟩ : BufTy).Contents (Elt F) → (⟨S_, .f32⟩ : BufTy).Contents (Elt F)),
    StableHlo.binary main_v30 main_v61 main_v62 (subf : (⟨S_, .f32⟩ : BufTy).Contents (Elt F) → (⟨S_, .f32⟩ : BufTy).Contents (Elt F) → (⟨S_, .f32⟩ : BufTy).Contents (Elt F)),
    StableHlo.unary main_v62 main_v63 (Host.absf : (⟨S_, .f32⟩ : BufTy).Contents (Elt F) → (⟨S_, .f32⟩ : BufTy).Contents (Elt F)) ]

/-- @main's operations, in order, the calls unfolded. -/
abbrev ops : List (HloOp τ sig (Elt F)) := ops0 ++ ops1

set_option maxRecDepth 8192 in
set_option maxHeartbeats 4000000 in
/-- The first window is its line: the functions' definitions unfolded at their calls, both sides are one chain of
    steps once sequencing is reassociated. -/
theorem main_part0_eq (c : Dev nD) : main_part0 (F := F) c = seq ops0 := by
  simp only [main_part0, fn_var.body, fn_where.body, seq, bind_assoc, pure_bind]
  rfl

set_option maxRecDepth 8192 in
set_option maxHeartbeats 4000000 in
/-- The second window is its line. -/
theorem main_part1_eq (c : Dev nD) : main_part1 (F := F) c = seq ops1 := rfl

set_option maxRecDepth 8192 in
/-- @main runs its two windows in order, which is the concatenated line run as one. -/
theorem main_eq (c : Dev nD) : main (F := F) c = seq ops := by
  simp only [ops, seq_append, ← main_part0_eq c, ← main_part1_eq c]
  rfl

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
theorem ops0_sub : (ops0 : List (HloOp τ sig (Elt F))).Forall fun op => op.bufs ⊆ tcRefs τ sig :=
  ⟨StableHlo.nullary_bufs_sub .., StableHlo.binary_bufs_sub .., StableHlo.nullary_bufs_sub .., StableHlo.unary_bufs_sub ..,
    StableHlo.binary_bufs_sub .., StableHlo.nullary_bufs_sub .., StableHlo.nullary_bufs_sub .., StableHlo.binary_bufs_sub ..,
    StableHlo.unary_bufs_sub .., StableHlo.nullary_bufs_sub .., StableHlo.unary_bufs_sub .., StableHlo.binary_bufs_sub ..,
    StableHlo.unary_bufs_sub .., StableHlo.binary_bufs_sub .., StableHlo.binary_bufs_sub .., StableHlo.unary_bufs_sub ..,
    StableHlo.nullary_bufs_sub .., StableHlo.binary_bufs_sub .., StableHlo.nullary_bufs_sub .., StableHlo.binary_bufs_sub ..,
    StableHlo.unary_bufs_sub .., StableHlo.binary_bufs_sub .., StableHlo.nullary_bufs_sub .., StableHlo.binary_bufs_sub ..,
    StableHlo.nullary_bufs_sub .., StableHlo.unary_bufs_sub .., StableHlo.unary_bufs_sub .., StableHlo.ternary_bufs_sub ..,
    StableHlo.unary_bufs_sub .., StableHlo.nullary_bufs_sub .., StableHlo.nullary_bufs_sub .., StableHlo.unary_bufs_sub ..,
    StableHlo.binary_bufs_sub .., StableHlo.nullary_bufs_sub .., StableHlo.unary_bufs_sub .., StableHlo.binary_bufs_sub ..,
    StableHlo.ternary_bufs_sub .., StableHlo.nullary_bufs_sub .., StableHlo.unary_bufs_sub .., StableHlo.binary_bufs_sub ..,
    StableHlo.nullary_bufs_sub .., StableHlo.unary_bufs_sub .., StableHlo.binary_bufs_sub .., StableHlo.ternary_bufs_sub ..,
    StableHlo.unary_bufs_sub .., StableHlo.unary_bufs_sub .., StableHlo.binary_bufs_sub .., StableHlo.binary_bufs_sub ..,
    StableHlo.unary_bufs_sub .., StableHlo.unary_bufs_sub .., StableHlo.binary_bufs_sub .., StableHlo.unary_bufs_sub ..,
    StableHlo.unary_bufs_sub .., StableHlo.binary_bufs_sub .., StableHlo.binary_bufs_sub .., StableHlo.nullary_bufs_sub ..,
    StableHlo.binary_bufs_sub .., StableHlo.nullary_bufs_sub .., StableHlo.unary_bufs_sub .., StableHlo.binary_bufs_sub ..,
    StableHlo.nullary_bufs_sub .., StableHlo.binary_bufs_sub .., StableHlo.nullary_bufs_sub .., StableHlo.binary_bufs_sub ..,
    StableHlo.nullary_bufs_sub .., StableHlo.unary_bufs_sub .., StableHlo.binary_bufs_sub .., StableHlo.nullary_bufs_sub ..,
    StableHlo.nullary_bufs_sub .., StableHlo.binary_bufs_sub .., StableHlo.unary_bufs_sub .., StableHlo.nullary_bufs_sub ..,
    StableHlo.unary_bufs_sub .., StableHlo.binary_bufs_sub .., StableHlo.unary_bufs_sub .., StableHlo.binary_bufs_sub ..,
    StableHlo.binary_bufs_sub .., StableHlo.unary_bufs_sub .., StableHlo.nullary_bufs_sub .., StableHlo.binary_bufs_sub ..,
    StableHlo.nullary_bufs_sub .., StableHlo.binary_bufs_sub .., StableHlo.unary_bufs_sub .., StableHlo.binary_bufs_sub ..,
    StableHlo.nullary_bufs_sub .., StableHlo.binary_bufs_sub .., StableHlo.nullary_bufs_sub .., StableHlo.unary_bufs_sub ..,
    StableHlo.unary_bufs_sub .., StableHlo.ternary_bufs_sub .., StableHlo.unary_bufs_sub .., StableHlo.nullary_bufs_sub ..,
    StableHlo.nullary_bufs_sub .., StableHlo.unary_bufs_sub .., StableHlo.binary_bufs_sub .., StableHlo.nullary_bufs_sub ..,
    StableHlo.unary_bufs_sub .., StableHlo.binary_bufs_sub .., StableHlo.ternary_bufs_sub .., StableHlo.nullary_bufs_sub ..,
    StableHlo.unary_bufs_sub .., StableHlo.binary_bufs_sub ..⟩

set_option maxRecDepth 8192 in
theorem ops1_sub : (ops1 : List (HloOp τ sig (Elt F))).Forall fun op => op.bufs ⊆ tcRefs τ sig :=
  ⟨StableHlo.nullary_bufs_sub .., StableHlo.unary_bufs_sub .., StableHlo.binary_bufs_sub .., StableHlo.ternary_bufs_sub ..,
    StableHlo.unary_bufs_sub .., StableHlo.unary_bufs_sub .., StableHlo.binary_bufs_sub .., StableHlo.binary_bufs_sub ..,
    StableHlo.unary_bufs_sub .., StableHlo.unary_bufs_sub .., StableHlo.binary_bufs_sub .., StableHlo.unary_bufs_sub ..,
    StableHlo.unary_bufs_sub .., StableHlo.binary_bufs_sub .., StableHlo.binary_bufs_sub .., StableHlo.nullary_bufs_sub ..,
    StableHlo.binary_bufs_sub .., StableHlo.nullary_bufs_sub .., StableHlo.unary_bufs_sub .., StableHlo.binary_bufs_sub ..,
    StableHlo.nullary_bufs_sub .., StableHlo.binary_bufs_sub .., StableHlo.binary_bufs_sub .., StableHlo.unary_bufs_sub ..⟩

theorem ops_sub : (ops : List (HloOp τ sig (Elt F))).Forall fun op => op.bufs ⊆ tcRefs τ sig :=
  List.forall_iff_forall_mem.mpr fun op h => by
    simp only [ops, List.mem_append] at h
    rcases h with h | h
    exacts [List.forall_iff_forall_mem.mp ops0_sub op h, List.forall_iff_forall_mem.mp ops1_sub op h]

/-- Running two lines one after the other folds the second over the first's contents. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

end Cert.ReferenceIdeal.RefRun

end
-- ==== Proof.RefTerm.lean ====
/-
  The two-pass program's value, written as one closed term over the extended reals: the program's own
  operations, composed in the order the program applies them, nothing simplified.

  Per image: the mean (sum over axes 1, 2, 3 divided by n); the unbiased variance as the outlined variance
  function computes it (the mean again, centred squares, their sum divided by n − 1, kept where n − 1 > 0);
  its square root; the index pairs (b, b) built from an iota; the slices gathered at those pairs;
  the standardized slices squared and summed over axes 1, 2, divided by n², and summed over the batch.
  The result is the absolute difference of the two images' values.
-/
import proofs.«160249_j59768764891231_2_alg».proof.Proof.Gen.ReferenceIdeal
import proofs.«160249_j59768764891231_2_alg».proof.Proof.MomentSpec
import Idealize.ShloMosaic.Lib.ValueIdx

noncomputable section

namespace Cert.ReferenceIdeal.RefValue

open Idealize.ShloMosaic Cert.ReferenceIdeal Cert.ReferenceIdeal.Facts₀

/-- An image array read entry by entry. -/
def img (x : FVec Ideal S8x8x1024x1024 .f32) : Cert.Moment.Img := fun b c h w => x (ValueIdx.ix4 b c h w)

/-- The per-item sum over axes 1, 2, 3 from the initial value zero. -/
def refSum (x : FVec Ideal S8x8x1024x1024 .f32) : FVec Ideal S8 .f32 :=
  Host.reduceAdd x (constant (F := Ideal) S_ .f32 0x00000000#32) reducesTo_S8x8x1024x1024_S8_d1_2_3 h_S_

/-- The per-item mean as @main computes it: the sum divided by the broadcast count. -/
def refMean (x : FVec Ideal S8x8x1024x1024 .f32) : FVec Ideal S8 .f32 :=
  Host.divf (refSum x) (broadcastInDim S8 ![] bcast_S_S8 (constant (F := Ideal) S_ .f32 0x4B000000#32))

/-- The centred entries as the variance function computes them: its own mean, kept with unit axes,
    broadcast back over the image and subtracted. -/
def refCentred (x : FVec Ideal S8x8x1024x1024 .f32) : FVec Ideal S8x8x1024x1024 .f32 :=
  subf x
    (broadcastInDim S8x8x1024x1024 ![0, 1, 2, 3] bcast_S8x1x1x1_S8x8x1024x1024_0_1_2_3
      (Host.divf
        (broadcastInDim S8x1x1x1 ![0] bcast_S8_S8x1x1x1_0 (refSum x))
        (broadcastInDim S8x1x1x1 ![] bcast_S_S8x1x1x1 (constant (F := Ideal) S_ .f32 0x4B000000#32))))

/-- The divisor n − ddof, with ddof the integer word 1 converted. -/
def refDof : FVec Ideal S_ .f32 :=
  subf (constant (F := Ideal) S_ .f32 0x4B000000#32) (sitofp (F := Ideal) .f32 (constantI S_ 32 1#32))

/-- The sum of centred squares divided by the broadcast divisor. -/
def refVarRaw (x : FVec Ideal S8x8x1024x1024 .f32) : FVec Ideal S8 .f32 :=
  Host.divf
    (Host.reduceAdd (mulf (refCentred x) (refCentred x)) (constant (F := Ideal) S_ .f32 0x00000000#32)
      reducesTo_S8x8x1024x1024_S8_d1_2_3 h_S_)
    (broadcastInDim S8 ![] bcast_S_S8 refDof)

/-- The variance function's result: the quotient where the divisor is positive, the NaN word's value elsewhere. -/
def refVar (x : FVec Ideal S8x8x1024x1024 .f32) : FVec Ideal S8 .f32 :=
  select
    (broadcastInDim S8 ![] bcast_S_S8 (cmpf .ogt refDof (constant (F := Ideal) S_ .f32 0x00000000#32)))
    (refVarRaw x)
    (broadcastInDim S8 ![] bcast_S_S8 (id (constant (F := Ideal) S_ .f32 0x7FC00000#32)))

/-- The standard deviation. -/
def refStd (x : FVec Ideal S8x8x1024x1024 .f32) : FVec Ideal S8 .f32 := Host.sqrt (refVar x)

/-- One index column: the iota, with negative entries moved up by 8. -/
def refIdxCol : IVec S8 32 :=
  select
    (cmpi .slt (iotaInDim S8 32 0) (broadcastInDim S8 ![] bcast_S_S8 (constantI S_ 32 0#32)))
    (addi (iotaInDim S8 32 0) (broadcastInDim S8 ![] bcast_S_S8 (constantI S_ 32 8#32)))
    (iotaInDim S8 32 0)

/-- The index pairs: the column twice, side by side. -/
def refIdx : IVec S8x2 32 :=
  concatenate S8x2 1
    [⟨S8x1, broadcastInDim S8x1 ![0] bcast_S8_S8x1_0 refIdxCol⟩,
     ⟨S8x1, broadcastInDim S8x1 ![0] bcast_S8_S8x1_0 refIdxCol⟩]
    concatenates_S8x1_S8x1_S8x2_d1

/-- The slices gathered at the index pairs. -/
def refSlices (x : FVec Ideal S8x8x1024x1024 .f32) : FVec Ideal S8x1024x1024 .f32 :=
  Host.gather gather_S8x8x1024x1024_S8x2_S8x1024x1024_12_01_n_n_01_1_1110241024 x refIdx

/-- The standardized slices. -/
def refZ (x : FVec Ideal S8x8x1024x1024 .f32) : FVec Ideal S8x1024x1024 .f32 :=
  Host.divf
    (subf (refSlices x)
      (broadcastInDim S8x1024x1024 ![0, 1, 2] bcast_S8x1x1_S8x1024x1024_0_1_2
        (broadcastInDim S8x1x1 ![0] bcast_S8_S8x1x1_0 (refMean x))))
    (broadcastInDim S8x1024x1024 ![0, 1, 2] bcast_S8x1x1_S8x1024x1024_0_1_2
      (broadcastInDim S8x1x1 ![0] bcast_S8_S8x1x1_0 (refStd x)))

/-- Per item: the sum of squared standardized entries over axes 1, 2, divided by the broadcast n². -/
def refPerItem (x : FVec Ideal S8x8x1024x1024 .f32) : FVec Ideal S8 .f32 :=
  Host.divf
    (Host.reduceAdd (mulf (refZ x) (refZ x)) (constant (F := Ideal) S_ .f32 0x00000000#32)
      reducesTo_S8x1024x1024_S8_d1_2 h_S_)
    (broadcastInDim S8 ![] bcast_S_S8 (constant (F := Ideal) S_ .f32 0x56800000#32))

/-- One image's value: the per-item values summed over the batch. -/
def refMoment (x : FVec Ideal S8x8x1024x1024 .f32) : FVec Ideal S_ .f32 :=
  Host.reduceAdd (refPerItem x) (constant (F := Ideal) S_ .f32 0x00000000#32) reducesTo_S8_S_d0 h_S_

/-- The program's result: the absolute difference of the two images' values. -/
def refResult (x₁ x₂ : FVec Ideal S8x8x1024x1024 .f32) : FVec Ideal S_ .f32 :=
  Host.absf (subf (refMoment x₁) (refMoment x₂))

end Cert.ReferenceIdeal.RefValue

end
-- ==== Proof.RefRun.lean ====
/-
  The reference program's run, read back.

  @main is a straight line of host operations (`ops`, the two calls of the variance function listed inline), so every
  weakly fair execution terminates with each buffer at the fold of the operations' results over the launch contents.
  What the result buffer then holds is computed stretch by stretch: the line is cut in four —

    t1  the first image's mean and its variance (the variance function's operations and, inside it, the select's);
    t2  the first image's standard deviation, the index pairs, the gathered slices, their standardization and the moment;
    t3  the second image's mean and its variance;
    t4  the second image's standard deviation, indices, slices, moment, the difference of the two moments and its absolute value

  — and for each stretch, from ANY contents `W`, the buffers a later stretch reads are stated: a result at the closed term of
  the program's operations applied to the contents of what the stretch reads, every other buffer unchanged. Chained, the
  result buffer holds `refResult` of the two images' launch contents, and the images are unchanged.
-/
import proofs.«160249_j59768764891231_2_alg».proof.Proof.RefRunOps
import proofs.«160249_j59768764891231_2_alg».proof.Proof.RefTerm

noncomputable section

namespace Cert.ReferenceIdeal.RefRun

open Cert.ReferenceIdeal Cert.ReferenceIdeal.Gen Idealize.ShloMosaic Idealize.ShloMosaic.TcCoe Idealize.SL.Sem Idealize.ShloMosaic.StableHlo
open Cert.ReferenceIdeal.RefValue

/-! ## No operation leaves a buffer's contents open -/

section Fresh
variable {F : FTy → Type} [FloatOps F]

set_option maxRecDepth 8192 in
theorem ops0_fresh : (ops0 : List (HloOp τ sig (Elt F))).Forall fun op => op.fresh = ∅ :=
  ⟨rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl,
    rfl, rfl, rfl, rfl, rfl, rfl⟩

set_option maxRecDepth 8192 in
theorem ops1_fresh : (ops1 : List (HloOp τ sig (Elt F))).Forall fun op => op.fresh = ∅ :=
  ⟨rfl, rfl, rfl, rfl, rfl, rfl, rfl, rfl, rfl, rfl, rfl, rfl, rfl, rfl, rfl, rfl,
    rfl, rfl, rfl, rfl, rfl, rfl, rfl, rfl⟩

theorem ops_fresh : ∀ op ∈ (ops : List (HloOp τ sig (Elt F))), op.fresh = ∅ := fun op h => by
  simp only [ops, List.mem_append] at h
  rcases h with h | h
  exacts [List.forall_iff_forall_mem.mp ops0_fresh op h, List.forall_iff_forall_mem.mp ops1_fresh op h]

end Fresh

/-! ## The four stretches -/

section Stretches
variable {F : FTy → Type} [FloatOps F]

/-- The first image's mean, then its variance: operations 1 … 28. -/
abbrev t1 : List (HloOp τ sig (Elt F)) :=
  [ StableHlo.nullary main_cst (constant S_ .f32 0x00000000#32),
    StableHlo.binary main_arg0 main_cst main_v0 ((fun x v => Host.reduceAdd x v reducesTo_S8x8x1024x1024_S8_d1_2_3 h_S_) : (⟨S8x8x1024x1024, .f32⟩ : BufTy).Contents (Elt F) → (⟨S_, .f32⟩ : BufTy).Contents (Elt F) → (⟨S8, .f32⟩ : BufTy).Contents (Elt F)),
    StableHlo.nullary main_cst_0 (constant S_ .f32 0x4B000000#32),
    StableHlo.unary main_cst_0 main_v1 (broadcastInDim S8 ![] bcast_S_S8 : (⟨S_, .f32⟩ : BufTy).Contents (Elt F) → (⟨S8, .f32⟩ : BufTy).Contents (Elt F)),
    StableHlo.binary main_v0 main_v1 main_v2 (Host.divf : (⟨S8, .f32⟩ : BufTy).Contents (Elt F) → (⟨S8, .f32⟩ : BufTy).Contents (Elt F) → (⟨S8, .f32⟩ : BufTy).Contents (Elt F)),
    StableHlo.nullary main_c (constantI S_ 32 1#32),
    StableHlo.TRef.nullary main_call0.cst (constant S_ .f32 0x00000000#32),
    StableHlo.TRef.binary (.of main_arg0 : StableHlo.TRef sig ⟨S8x8x1024x1024, .f32⟩) main_call0.cst main_call0.v0 (fun x v => Host.reduceAdd x v reducesTo_S8x8x1024x1024_S8_d1_2_3 h_S_),
    StableHlo.TRef.unary main_call0.v0 main_call0.v1 (broadcastInDim S8x1x1x1 ![0] bcast_S8_S8x1x1x1_0),
    StableHlo.TRef.nullary main_call0.cst_0 (constant S_ .f32 0x4B000000#32),
    StableHlo.TRef.unary main_call0.cst_0 main_call0.v2 (broadcastInDim S8x1x1x1 ![] bcast_S_S8x1x1x1),
    StableHlo.TRef.binary main_call0.v1 main_call0.v2 main_call0.v3 Host.divf,
    StableHlo.TRef.unary main_call0.v3 main_call0.v4 (broadcastInDim S8x8x1024x1024 ![0, 1, 2, 3] bcast_S8x1x1x1_S8x8x1024x1024_0_1_2_3),
    StableHlo.TRef.binary (.of main_arg0 : StableHlo.TRef sig ⟨S8x8x1024x1024, .f32⟩) main_call0.v4 main_call0.v5 subf,
    StableHlo.TRef.binary main_call0.v5 main_call0.v5 main_call0.v6 mulf,
    StableHlo.TRef.unary (.of main_c : StableHlo.TRef sig ⟨S_, .i32⟩) main_call0.v7 (sitofp .f32),
    StableHlo.TRef.nullary main_call0.cst_1 (constant S_ .f32 0x4B000000#32),
    StableHlo.TRef.binary main_call0.cst_1 main_call0.v7 main_call0.v8 subf,
    StableHlo.TRef.nullary main_call0.cst_2 (constant S_ .f32 0x00000000#32),
    StableHlo.TRef.binary main_call0.v6 main_call0.cst_2 main_call0.v9 (fun x v => Host.reduceAdd x v reducesTo_S8x8x1024x1024_S8_d1_2_3 h_S_),
    StableHlo.TRef.unary main_call0.v8 main_call0.v10 (broadcastInDim S8 ![] bcast_S_S8),
    StableHlo.TRef.binary main_call0.v9 main_call0.v10 main_call0.v11 Host.divf,
    StableHlo.TRef.nullary main_call0.cst_3 (constant S_ .f32 0x00000000#32),
    StableHlo.TRef.binary main_call0.v8 main_call0.cst_3 main_call0.v12 (cmpf .ogt),
    StableHlo.TRef.nullary main_call0.cst_4 (constant S_ .f32 0x7FC00000#32),
    StableHlo.TRef.unary main_call0.cst_4 main_call0.call0.v0 id,
    StableHlo.TRef.unary main_call0.call0.v0 main_call0.call0.v1 (broadcastInDim S8 ![] bcast_S_S8),
    StableHlo.TRef.ternary main_call0.v12 main_call0.v11 main_call0.call0.v1 main_call0.call0.v2 (fun p a b => select (broadcastInDim S8 ![] bcast_S_S8 p) a b) ]

/-- The first image's standard deviation, index pairs, slices, standardization and moment: operations 29 … 62. -/
abbrev t2 : List (HloOp τ sig (Elt F)) :=
  [ StableHlo.unary main_v3 main_v4 (Host.sqrt : (⟨S8, .f32⟩ : BufTy).Contents (Elt F) → (⟨S8, .f32⟩ : BufTy).Contents (Elt F)),
    StableHlo.nullary main_v5 (iotaInDim S8 32 0),
    StableHlo.nullary main_c_1 (constantI S_ 32 0#32),
    StableHlo.unary main_c_1 main_v6 (broadcastInDim S8 ![] bcast_S_S8 : (⟨S_, .i32⟩ : BufTy).Contents (Elt F) → (⟨S8, .i32⟩ : BufTy).Contents (Elt F)),
    StableHlo.binary main_v5 main_v6 main_v7 (cmpi .slt : (⟨S8, .i32⟩ : BufTy).Contents (Elt F) → (⟨S8, .i32⟩ : BufTy).Contents (Elt F) → (⟨S8, .i1⟩ : BufTy).Contents (Elt F)),
    StableHlo.nullary main_c_2 (constantI S_ 32 8#32),
    StableHlo.unary main_c_2 main_v8 (broadcastInDim S8 ![] bcast_S_S8 : (⟨S_, .i32⟩ : BufTy).Contents (Elt F) → (⟨S8, .i32⟩ : BufTy).Contents (Elt F)),
    StableHlo.binary main_v5 main_v8 main_v9 (addi : (⟨S8, .i32⟩ : BufTy).Contents (Elt F) → (⟨S8, .i32⟩ : BufTy).Contents (Elt F) → (⟨S8, .i32⟩ : BufTy).Contents (Elt F)),
    StableHlo.ternary main_v7 main_v9 main_v5 main_v10 (select : (⟨S8, .i1⟩ : BufTy).Contents (Elt F) → (⟨S8, .i32⟩ : BufTy).Contents (Elt F) → (⟨S8, .i32⟩ : BufTy).Contents (Elt F) → (⟨S8, .i32⟩ : BufTy).Contents (Elt F)),
    StableHlo.nullary main_c_3 (constantI S_ 32 0#32),
    StableHlo.unary main_c_3 main_v11 (broadcastInDim S8 ![] bcast_S_S8 : (⟨S_, .i32⟩ : BufTy).Contents (Elt F) → (⟨S8, .i32⟩ : BufTy).Contents (Elt F)),
    StableHlo.binary main_v5 main_v11 main_v12 (cmpi .slt : (⟨S8, .i32⟩ : BufTy).Contents (Elt F) → (⟨S8, .i32⟩ : BufTy).Contents (Elt F) → (⟨S8, .i1⟩ : BufTy).Contents (Elt F)),
    StableHlo.nullary main_c_4 (constantI S_ 32 8#32),
    StableHlo.unary main_c_4 main_v13 (broadcastInDim S8 ![] bcast_S_S8 : (⟨S_, .i32⟩ : BufTy).Contents (Elt F) → (⟨S8, .i32⟩ : BufTy).Contents (Elt F)),
    StableHlo.binary main_v5 main_v13 main_v14 (addi : (⟨S8, .i32⟩ : BufTy).Contents (Elt F) → (⟨S8, .i32⟩ : BufTy).Contents (Elt F) → (⟨S8, .i32⟩ : BufTy).Contents (Elt F)),
    StableHlo.ternary main_v12 main_v14 main_v5 main_v15 (select : (⟨S8, .i1⟩ : BufTy).Contents (Elt F) → (⟨S8, .i32⟩ : BufTy).Contents (Elt F) → (⟨S8, .i32⟩ : BufTy).Contents (Elt F) → (⟨S8, .i32⟩ : BufTy).Contents (Elt F)),
    StableHlo.unary main_v10 main_v16 (broadcastInDim S8x1 ![0] bcast_S8_S8x1_0 : (⟨S8, .i32⟩ : BufTy).Contents (Elt F) → (⟨S8x1, .i32⟩ : BufTy).Contents (Elt F)),
    StableHlo.unary main_v15 main_v17 (broadcastInDim S8x1 ![0] bcast_S8_S8x1_0 : (⟨S8, .i32⟩ : BufTy).Contents (Elt F) → (⟨S8x1, .i32⟩ : BufTy).Contents (Elt F)),
    StableHlo.binary main_v16 main_v17 main_v18 ((fun a b => concatenate S8x2 1 [⟨S8x1, a⟩, ⟨S8x1, b⟩] concatenates_S8x1_S8x1_S8x2_d1) : (⟨S8x1, .i32⟩ : BufTy).Contents (Elt F) → (⟨S8x1, .i32⟩ : BufTy).Contents (Elt F) → (⟨S8x2, .i32⟩ : BufTy).Contents (Elt F)),
    StableHlo.binary main_arg0 main_v18 main_v19 ((fun x i => Host.gather gather_S8x8x1024x1024_S8x2_S8x1024x1024_12_01_n_n_01_1_1110241024 x i) : (⟨S8x8x1024x1024, .f32⟩ : BufTy).Contents (Elt F) → (⟨S8x2, .i32⟩ : BufTy).Contents (Elt F) → (⟨S8x1024x1024, .f32⟩ : BufTy).Contents (Elt F)),
    StableHlo.unary main_v2 main_v20 (broadcastInDim S8x1x1 ![0] bcast_S8_S8x1x1_0 : (⟨S8, .f32⟩ : BufTy).Contents (Elt F) → (⟨S8x1x1, .f32⟩ : BufTy).Contents (Elt F)),
    StableHlo.unary main_v20 main_v21 (broadcastInDim S8x1024x1024 ![0, 1, 2] bcast_S8x1x1_S8x1024x1024_0_1_2 : (⟨S8x1x1, .f32⟩ : BufTy).Contents (Elt F) → (⟨S8x1024x1024, .f32⟩ : BufTy).Contents (Elt F)),
    StableHlo.binary main_v19 main_v21 main_v22 (subf : (⟨S8x1024x1024, .f32⟩ : BufTy).Contents (Elt F) → (⟨S8x1024x1024, .f32⟩ : BufTy).Contents (Elt F) → (⟨S8x1024x1024, .f32⟩ : BufTy).Contents (Elt F)),
    StableHlo.unary main_v4 main_v23 (broadcastInDim S8x1x1 ![0] bcast_S8_S8x1x1_0 : (⟨S8, .f32⟩ : BufTy).Contents (Elt F) → (⟨S8x1x1, .f32⟩ : BufTy).Contents (Elt F)),
    StableHlo.unary main_v23 main_v24 (broadcastInDim S8x1024x1024 ![0, 1, 2] bcast_S8x1x1_S8x1024x1024_0_1_2 : (⟨S8x1x1, .f32⟩ : BufTy).Contents (Elt F) → (⟨S8x1024x1024, .f32⟩ : BufTy).Contents (Elt F)),
    StableHlo.binary main_v22 main_v24 main_v25 (Host.divf : (⟨S8x1024x1024, .f32⟩ : BufTy).Contents (Elt F) → (⟨S8x1024x1024, .f32⟩ : BufTy).Contents (Elt F) → (⟨S8x1024x1024, .f32⟩ : BufTy).Contents (Elt F)),
    StableHlo.binary main_v25 main_v25 main_v26 (mulf : (⟨S8x1024x1024, .f32⟩ : BufTy).Contents (Elt F) → (⟨S8x1024x1024, .f32⟩ : BufTy).Contents (Elt F) → (⟨S8x1024x1024, .f32⟩ : BufTy).Contents (Elt F)),
    StableHlo.nullary main_cst_5 (constant S_ .f32 0x00000000#32),
    StableHlo.binary main_v26 main_cst_5 main_v27 ((fun x v => Host.reduceAdd x v reducesTo_S8x1024x1024_S8_d1_2 h_S_) : (⟨S8x1024x1024, .f32⟩ : BufTy).Contents (Elt F) → (⟨S_, .f32⟩ : BufTy).Contents (Elt F) → (⟨S8, .f32⟩ : BufTy).Contents (Elt F)),
    StableHlo.nullary main_cst_6 (constant S_ .f32 0x56800000#32),
    StableHlo.unary main_cst_6 main_v28 (broadcastInDim S8 ![] bcast_S_S8 : (⟨S_, .f32⟩ : BufTy).Contents (Elt F) → (⟨S8, .f32⟩ : BufTy).Contents (Elt F)),
    StableHlo.binary main_v27 main_v28 main_v29 (Host.divf : (⟨S8, .f32⟩ : BufTy).Contents (Elt F) → (⟨S8, .f32⟩ : BufTy).Contents (Elt F) → (⟨S8, .f32⟩ : BufTy).Contents (Elt F)),
    StableHlo.nullary main_cst_7 (constant S_ .f32 0x00000000#32),
    StableHlo.binary main_v29 main_cst_7 main_v30 ((fun x v => Host.reduceAdd x v reducesTo_S8_S_d0 h_S_) : (⟨S8, .f32⟩ : BufTy).Contents (Elt F) → (⟨S_, .f32⟩ : BufTy).Contents (Elt F) → (⟨S_, .f32⟩ : BufTy).Contents (Elt F)) ]

/-- The second image's mean, then its variance: operations 63 … 90. -/
abbrev t3 : List (HloOp τ sig (Elt F)) :=
  [ StableHlo.nullary main_cst_8 (constant S_ .f32 0x00000000#32),
    StableHlo.binary main_arg1 main_cst_8 main_v31 ((fun x v => Host.reduceAdd x v reducesTo_S8x8x1024x1024_S8_d1_2_3 h_S_) : (⟨S8x8x1024x1024, .f32⟩ : BufTy).Contents (Elt F) → (⟨S_, .f32⟩ : BufTy).Contents (Elt F) → (⟨S8, .f32⟩ : BufTy).Contents (Elt F)),
    StableHlo.nullary main_cst_9 (constant S_ .f32 0x4B000000#32),
    StableHlo.unary main_cst_9 main_v32 (broadcastInDim S8 ![] bcast_S_S8 : (⟨S_, .f32⟩ : BufTy).Contents (Elt F) → (⟨S8, .f32⟩ : BufTy).Contents (Elt F)),
    StableHlo.binary main_v31 main_v32 main_v33 (Host.divf : (⟨S8, .f32⟩ : BufTy).Contents (Elt F) → (⟨S8, .f32⟩ : BufTy).Contents (Elt F) → (⟨S8, .f32⟩ : BufTy).Contents (Elt F)),
    StableHlo.nullary main_c_10 (constantI S_ 32 1#32),
    StableHlo.TRef.nullary main_call1.cst (constant S_ .f32 0x00000000#32),
    StableHlo.TRef.binary (.of main_arg1 : StableHlo.TRef sig ⟨S8x8x1024x1024, .f32⟩) main_call1.cst main_call1.v0 (fun x v => Host.reduceAdd x v reducesTo_S8x8x1024x1024_S8_d1_2_3 h_S_),
    StableHlo.TRef.unary main_call1.v0 main_call1.v1 (broadcastInDim S8x1x1x1 ![0] bcast_S8_S8x1x1x1_0),
    StableHlo.TRef.nullary main_call1.cst_0 (constant S_ .f32 0x4B000000#32),
    StableHlo.TRef.unary main_call1.cst_0 main_call1.v2 (broadcastInDim S8x1x1x1 ![] bcast_S_S8x1x1x1),
    StableHlo.TRef.binary main_call1.v1 main_call1.v2 main_call1.v3 Host.divf,
    StableHlo.TRef.unary main_call1.v3 main_call1.v4 (broadcastInDim S8x8x1024x1024 ![0, 1, 2, 3] bcast_S8x1x1x1_S8x8x1024x1024_0_1_2_3),
    StableHlo.TRef.binary (.of main_arg1 : StableHlo.TRef sig ⟨S8x8x1024x1024, .f32⟩) main_call1.v4 main_call1.v5 subf,
    StableHlo.TRef.binary main_call1.v5 main_call1.v5 main_call1.v6 mulf,
    StableHlo.TRef.unary (.of main_c_10 : StableHlo.TRef sig ⟨S_, .i32⟩) main_call1.v7 (sitofp .f32),
    StableHlo.TRef.nullary main_call1.cst_1 (constant S_ .f32 0x4B000000#32),
    StableHlo.TRef.binary main_call1.cst_1 main_call1.v7 main_call1.v8 subf,
    StableHlo.TRef.nullary main_call1.cst_2 (constant S_ .f32 0x00000000#32),
    StableHlo.TRef.binary main_call1.v6 main_call1.cst_2 main_call1.v9 (fun x v => Host.reduceAdd x v reducesTo_S8x8x1024x1024_S8_d1_2_3 h_S_),
    StableHlo.TRef.unary main_call1.v8 main_call1.v10 (broadcastInDim S8 ![] bcast_S_S8),
    StableHlo.TRef.binary main_call1.v9 main_call1.v10 main_call1.v11 Host.divf,
    StableHlo.TRef.nullary main_call1.cst_3 (constant S_ .f32 0x00000000#32),
    StableHlo.TRef.binary main_call1.v8 main_call1.cst_3 main_call1.v12 (cmpf .ogt),
    StableHlo.TRef.nullary main_call1.cst_4 (constant S_ .f32 0x7FC00000#32),
    StableHlo.TRef.unary main_call1.cst_4 main_call1.call0.v0 id,
    StableHlo.TRef.unary main_call1.call0.v0 main_call1.call0.v1 (broadcastInDim S8 ![] bcast_S_S8),
    StableHlo.TRef.ternary main_call1.v12 main_call1.v11 main_call1.call0.v1 main_call1.call0.v2 (fun p a b => select (broadcastInDim S8 ![] bcast_S_S8 p) a b) ]

/-- The second image's standard deviation, index pairs, slices, standardization and moment, the difference and its
    absolute value: operations 91 … 126. -/
abbrev t4 : List (HloOp τ sig (Elt F)) :=
  [ StableHlo.unary main_v34 main_v35 (Host.sqrt : (⟨S8, .f32⟩ : BufTy).Contents (Elt F) → (⟨S8, .f32⟩ : BufTy).Contents (Elt F)),
    StableHlo.nullary main_v36 (iotaInDim S8 32 0),
    StableHlo.nullary main_c_11 (constantI S_ 32 0#32),
    StableHlo.unary main_c_11 main_v37 (broadcastInDim S8 ![] bcast_S_S8 : (⟨S_, .i32⟩ : BufTy).Contents (Elt F) → (⟨S8, .i32⟩ : BufTy).Contents (Elt F)),
    StableHlo.binary main_v36 main_v37 main_v38 (cmpi .slt : (⟨S8, .i32⟩ : BufTy).Contents (Elt F) → (⟨S8, .i32⟩ : BufTy).Contents (Elt F) → (⟨S8, .i1⟩ : BufTy).Contents (Elt F)),
    StableHlo.nullary main_c_12 (constantI S_ 32 8#32),
    StableHlo.unary main_c_12 main_v39 (broadcastInDim S8 ![] bcast_S_S8 : (⟨S_, .i32⟩ : BufTy).Contents (Elt F) → (⟨S8, .i32⟩ : BufTy).Contents (Elt F)),
    StableHlo.binary main_v36 main_v39 main_v40 (addi : (⟨S8, .i32⟩ : BufTy).Contents (Elt F) → (⟨S8, .i32⟩ : BufTy).Contents (Elt F) → (⟨S8, .i32⟩ : BufTy).Contents (Elt F)),
    StableHlo.ternary main_v38 main_v40 main_v36 main_v41 (select : (⟨S8, .i1⟩ : BufTy).Contents (Elt F) → (⟨S8, .i32⟩ : BufTy).Contents (Elt F) → (⟨S8, .i32⟩ : BufTy).Contents (Elt F) → (⟨S8, .i32⟩ : BufTy).Contents (Elt F)),
    StableHlo.nullary main_c_13 (constantI S_ 32 0#32),
    StableHlo.unary main_c_13 main_v42 (broadcastInDim S8 ![] bcast_S_S8 : (⟨S_, .i32⟩ : BufTy).Contents (Elt F) → (⟨S8, .i32⟩ : BufTy).Contents (Elt F)),
    StableHlo.binary main_v36 main_v42 main_v43 (cmpi .slt : (⟨S8, .i32⟩ : BufTy).Contents (Elt F) → (⟨S8, .i32⟩ : BufTy).Contents (Elt F) → (⟨S8, .i1⟩ : BufTy).Contents (Elt F)),
    StableHlo.nullary main_c_14 (constantI S_ 32 8#32),
    StableHlo.unary main_c_14 main_v44 (broadcastInDim S8 ![] bcast_S_S8 : (⟨S_, .i32⟩ : BufTy).Contents (Elt F) → (⟨S8, .i32⟩ : BufTy).Contents (Elt F)),
    StableHlo.binary main_v36 main_v44 main_v45 (addi : (⟨S8, .i32⟩ : BufTy).Contents (Elt F) → (⟨S8, .i32⟩ : BufTy).Contents (Elt F) → (⟨S8, .i32⟩ : BufTy).Contents (Elt F)),
    StableHlo.ternary main_v43 main_v45 main_v36 main_v46 (select : (⟨S8, .i1⟩ : BufTy).Contents (Elt F) → (⟨S8, .i32⟩ : BufTy).Contents (Elt F) → (⟨S8, .i32⟩ : BufTy).Contents (Elt F) → (⟨S8, .i32⟩ : BufTy).Contents (Elt F)),
    StableHlo.unary main_v41 main_v47 (broadcastInDim S8x1 ![0] bcast_S8_S8x1_0 : (⟨S8, .i32⟩ : BufTy).Contents (Elt F) → (⟨S8x1, .i32⟩ : BufTy).Contents (Elt F)),
    StableHlo.unary main_v46 main_v48 (broadcastInDim S8x1 ![0] bcast_S8_S8x1_0 : (⟨S8, .i32⟩ : BufTy).Contents (Elt F) → (⟨S8x1, .i32⟩ : BufTy).Contents (Elt F)),
    StableHlo.binary main_v47 main_v48 main_v49 ((fun a b => concatenate S8x2 1 [⟨S8x1, a⟩, ⟨S8x1, b⟩] concatenates_S8x1_S8x1_S8x2_d1) : (⟨S8x1, .i32⟩ : BufTy).Contents (Elt F) → (⟨S8x1, .i32⟩ : BufTy).Contents (Elt F) → (⟨S8x2, .i32⟩ : BufTy).Contents (Elt F)),
    StableHlo.binary main_arg1 main_v49 main_v50 ((fun x i => Host.gather gather_S8x8x1024x1024_S8x2_S8x1024x1024_12_01_n_n_01_1_1110241024 x i) : (⟨S8x8x1024x1024, .f32⟩ : BufTy).Contents (Elt F) → (⟨S8x2, .i32⟩ : BufTy).Contents (Elt F) → (⟨S8x1024x1024, .f32⟩ : BufTy).Contents (Elt F)),
    StableHlo.unary main_v33 main_v51 (broadcastInDim S8x1x1 ![0] bcast_S8_S8x1x1_0 : (⟨S8, .f32⟩ : BufTy).Contents (Elt F) → (⟨S8x1x1, .f32⟩ : BufTy).Contents (Elt F)),
    StableHlo.unary main_v51 main_v52 (broadcastInDim S8x1024x1024 ![0, 1, 2] bcast_S8x1x1_S8x1024x1024_0_1_2 : (⟨S8x1x1, .f32⟩ : BufTy).Contents (Elt F) → (⟨S8x1024x1024, .f32⟩ : BufTy).Contents (Elt F)),
    StableHlo.binary main_v50 main_v52 main_v53 (subf : (⟨S8x1024x1024, .f32⟩ : BufTy).Contents (Elt F) → (⟨S8x1024x1024, .f32⟩ : BufTy).Contents (Elt F) → (⟨S8x1024x1024, .f32⟩ : BufTy).Contents (Elt F)),
    StableHlo.unary main_v35 main_v54 (broadcastInDim S8x1x1 ![0] bcast_S8_S8x1x1_0 : (⟨S8, .f32⟩ : BufTy).Contents (Elt F) → (⟨S8x1x1, .f32⟩ : BufTy).Contents (Elt F)),
    StableHlo.unary main_v54 main_v55 (broadcastInDim S8x1024x1024 ![0, 1, 2] bcast_S8x1x1_S8x1024x1024_0_1_2 : (⟨S8x1x1, .f32⟩ : BufTy).Contents (Elt F) → (⟨S8x1024x1024, .f32⟩ : BufTy).Contents (Elt F)),
    StableHlo.binary main_v53 main_v55 main_v56 (Host.divf : (⟨S8x1024x1024, .f32⟩ : BufTy).Contents (Elt F) → (⟨S8x1024x1024, .f32⟩ : BufTy).Contents (Elt F) → (⟨S8x1024x1024, .f32⟩ : BufTy).Contents (Elt F)),
    StableHlo.binary main_v56 main_v56 main_v57 (mulf : (⟨S8x1024x1024, .f32⟩ : BufTy).Contents (Elt F) → (⟨S8x1024x1024, .f32⟩ : BufTy).Contents (Elt F) → (⟨S8x1024x1024, .f32⟩ : BufTy).Contents (Elt F)),
    StableHlo.nullary main_cst_15 (constant S_ .f32 0x00000000#32),
    StableHlo.binary main_v57 main_cst_15 main_v58 ((fun x v => Host.reduceAdd x v reducesTo_S8x1024x1024_S8_d1_2 h_S_) : (⟨S8x1024x1024, .f32⟩ : BufTy).Contents (Elt F) → (⟨S_, .f32⟩ : BufTy).Contents (Elt F) → (⟨S8, .f32⟩ : BufTy).Contents (Elt F)),
    StableHlo.nullary main_cst_16 (constant S_ .f32 0x56800000#32),
    StableHlo.unary main_cst_16 main_v59 (broadcastInDim S8 ![] bcast_S_S8 : (⟨S_, .f32⟩ : BufTy).Contents (Elt F) → (⟨S8, .f32⟩ : BufTy).Contents (Elt F)),
    StableHlo.binary main_v58 main_v59 main_v60 (Host.divf : (⟨S8, .f32⟩ : BufTy).Contents (Elt F) → (⟨S8, .f32⟩ : BufTy).Contents (Elt F) → (⟨S8, .f32⟩ : BufTy).Contents (Elt F)),
    StableHlo.nullary main_cst_17 (constant S_ .f32 0x00000000#32),
    StableHlo.binary main_v60 main_cst_17 main_v61 ((fun x v => Host.reduceAdd x v reducesTo_S8_S_d0 h_S_) : (⟨S8, .f32⟩ : BufTy).Contents (Elt F) → (⟨S_, .f32⟩ : BufTy).Contents (Elt F) → (⟨S_, .f32⟩ : BufTy).Contents (Elt F)),
    StableHlo.binary main_v30 main_v61 main_v62 (subf : (⟨S_, .f32⟩ : BufTy).Contents (Elt F) → (⟨S_, .f32⟩ : BufTy).Contents (Elt F) → (⟨S_, .f32⟩ : BufTy).Contents (Elt F)),
    StableHlo.unary main_v62 main_v63 (Host.absf : (⟨S_, .f32⟩ : BufTy).Contents (Elt F) → (⟨S_, .f32⟩ : BufTy).Contents (Elt F)) ]

set_option maxRecDepth 8192 in
/-- The line is its four stretches in order. -/
theorem ops_split : (ops : List (HloOp τ sig (Elt F))) = t1 ++ (t2 ++ (t3 ++ t4)) := rfl

end Stretches

/-! ## What each stretch leaves -/

section Values

variable (W : Valuation τ sig (Elt Ideal))

-- the sums, the gather and the shape operations are folds and searches over the operand's elements: the equations below
-- never look inside them, and they stay folded while two spellings of one term are compared
attribute [local irreducible] Host.reduceAdd Host.gather broadcastInDim concatenate

set_option maxRecDepth 8192 in
set_option maxHeartbeats 2000000 in
/-- After the first stretch the mean buffer holds the first image's mean. -/
theorem t1_v2 : after (t1 (F := Ideal)) W (Proc.devRef .tc main_v2) = refMean (W (Proc.devRef .tc main_arg0)) := by
  after_results_simp <;> rfl

set_option maxRecDepth 8192 in
set_option maxHeartbeats 2000000 in
/-- After the first stretch the variance function's result buffer holds the first image's variance. -/
theorem t1_v3 : after (t1 (F := Ideal)) W (Proc.devRef .tc main_v3) = refVar (W (Proc.devRef .tc main_arg0)) := by
  after_results_simp <;> rfl

set_option maxRecDepth 8192 in
theorem t1_arg0 : after (t1 (F := Ideal)) W (Proc.devRef .tc main_arg0) = W (Proc.devRef .tc main_arg0) := by
  after_results_simp

set_option maxRecDepth 8192 in
theorem t1_arg1 : after (t1 (F := Ideal)) W (Proc.devRef .tc main_arg1) = W (Proc.devRef .tc main_arg1) := by
  after_results_simp

set_option maxRecDepth 8192 in
set_option maxHeartbeats 2000000 in
/-- From contents holding an image, its mean and its variance, the second stretch leaves the image's moment. -/
theorem t2_v30 (x : FVec Ideal S8x8x1024x1024 .f32) (h0 : W (Proc.devRef .tc main_arg0) = x) (h2 : W (Proc.devRef .tc main_v2) = refMean x)
    (h3 : W (Proc.devRef .tc main_v3) = refVar x) : after (t2 (F := Ideal)) W (Proc.devRef .tc main_v30) = refMoment x := by
  after_results_simp
  rw [h0, h2, h3]
  rfl

set_option maxRecDepth 8192 in
theorem t2_arg0 : after (t2 (F := Ideal)) W (Proc.devRef .tc main_arg0) = W (Proc.devRef .tc main_arg0) := by
  after_results_simp

set_option maxRecDepth 8192 in
theorem t2_arg1 : after (t2 (F := Ideal)) W (Proc.devRef .tc main_arg1) = W (Proc.devRef .tc main_arg1) := by
  after_results_simp

set_option maxRecDepth 8192 in
set_option maxHeartbeats 2000000 in
/-- After the third stretch the second mean buffer holds the second image's mean. -/
theorem t3_v33 : after (t3 (F := Ideal)) W (Proc.devRef .tc main_v33) = refMean (W (Proc.devRef .tc main_arg1)) := by
  after_results_simp <;> rfl

set_option maxRecDepth 8192 in
set_option maxHeartbeats 2000000 in
/-- After the third stretch the second call's result buffer holds the second image's variance. -/
theorem t3_v34 : after (t3 (F := Ideal)) W (Proc.devRef .tc main_v34) = refVar (W (Proc.devRef .tc main_arg1)) := by
  after_results_simp <;> rfl

set_option maxRecDepth 8192 in
theorem t3_v30 : after (t3 (F := Ideal)) W (Proc.devRef .tc main_v30) = W (Proc.devRef .tc main_v30) := by
  after_results_simp

set_option maxRecDepth 8192 in
theorem t3_arg0 : after (t3 (F := Ideal)) W (Proc.devRef .tc main_arg0) = W (Proc.devRef .tc main_arg0) := by
  after_results_simp

set_option maxRecDepth 8192 in
theorem t3_arg1 : after (t3 (F := Ideal)) W (Proc.devRef .tc main_arg1) = W (Proc.devRef .tc main_arg1) := by
  after_results_simp

set_option maxRecDepth 8192 in
set_option maxHeartbeats 2000000 in
/-- From contents holding the first moment, the second image, its mean and its variance, the last stretch leaves the
    absolute difference of the two moments. -/
theorem t4_v63 (x : FVec Ideal S8x8x1024x1024 .f32) (μ : FVec Ideal S_ .f32) (h1 : W (Proc.devRef .tc main_arg1) = x)
    (h30 : W (Proc.devRef .tc main_v30) = μ) (h33 : W (Proc.devRef .tc main_v33) = refMean x) (h34 : W (Proc.devRef .tc main_v34) = refVar x) :
    after (t4 (F := Ideal)) W (Proc.devRef .tc main_v63) = Host.absf (subf μ (refMoment x)) := by
  after_results_simp
  rw [h1, h30, h33, h34]
  rfl

set_option maxRecDepth 8192 in
theorem t4_arg0 : after (t4 (F := Ideal)) W (Proc.devRef .tc main_arg0) = W (Proc.devRef .tc main_arg0) := by
  after_results_simp

set_option maxRecDepth 8192 in
theorem t4_arg1 : after (t4 (F := Ideal)) W (Proc.devRef .tc main_arg1) = W (Proc.devRef .tc main_arg1) := by
  after_results_simp

end Values

/-! ## The whole line -/

section Whole

variable (V : Valuation τ sig (Elt Ideal))

theorem arg0_eq : after ops V (Proc.devRef .tc main_arg0) = V (Proc.devRef .tc main_arg0) := by
  rw [ops_split]; simp only [after_append]
  rw [t4_arg0, t3_arg0, t2_arg0, t1_arg0]

theorem arg1_eq : after ops V (Proc.devRef .tc main_arg1) = V (Proc.devRef .tc main_arg1) := by
  rw [ops_split]; simp only [after_append]
  rw [t4_arg1, t3_arg1, t2_arg1, t1_arg1]

/-- The result buffer after the whole line: the absolute difference of the two images' moments. -/
theorem out_eq : after ops V (Proc.devRef .tc main_v63) = refResult (V (Proc.devRef .tc main_arg0)) (V (Proc.devRef .tc main_arg1)) := by
  rw [ops_split]; simp only [after_append]
  exact t4_v63 _ (V (Proc.devRef .tc main_arg1)) (refMoment (V (Proc.devRef .tc main_arg0)))
    ((t3_arg1 _).trans ((t2_arg1 _).trans (t1_arg1 V)))
    ((t3_v30 _).trans (t2_v30 _ (V (Proc.devRef .tc main_arg0)) (t1_arg0 V) (t1_v2 V) (t1_v3 V)))
    ((t3_v33 _).trans (congrArg refMean ((t2_arg1 _).trans (t1_arg1 V))))
    ((t3_v34 _).trans (congrArg refVar ((t2_arg1 _).trans (t1_arg1 V))))

end Whole

/-- At the ideal instance, from any memory with zero counters: every weakly fair execution of @main terminates with the
    result buffer at `refResult` of the two images' launch contents, and the images unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v63) = Cert.ReferenceIdeal.RefValue.refResult (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c main_v63).trans (out_eq _), (h c main_arg0).trans (arg0_eq _),
      (h c main_arg1).trans (arg1_eq _)⟩)
    (run_seq scopedRefs_eq scopedSems_eq defs main (fun _ => ops) main_eq (fun _ => ops_sub) m ρ (fun _ => ops_fresh))

end Cert.ReferenceIdeal.RefRun

end
-- ==== Proof.RefConsts.lean ====
/-
  The float and integer literals of the two-pass program, as the extended reals they denote:
  0x4B000000 is n = 8·1024·1024, 0x56800000 is n² = 2⁴⁶, the integer word 1 converts to 1, so that the
  divisor n − 1 is 8388607, which is positive.
-/
import Idealize.ShloMosaic.PureOps.Ideal
import Idealize.ShloMosaic.PureOps.Ideal.Laws
import proofs.«160249_j59768764891231_2_alg».proof.Proof.MomentSpec

noncomputable section

namespace Cert.ReferenceIdeal.RefValue

open Idealize.ShloMosaic

/-- The pattern 0x4B000000 denotes n = 8388608. -/
theorem ofBits_nE : Ideal.ofBits .f32 0x4B000000#32 = Cert.Moment.nE := by
  unfold Cert.Moment.nE
  simp [Ideal.ofBits, Ideal.ieee, -EReal.coe_mul] <;> norm_num

/-- The pattern 0x56800000 denotes n² = 70368744177664. -/
theorem ofBits_denE : Ideal.ofBits .f32 0x56800000#32 = Cert.Moment.denE := by
  unfold Cert.Moment.denE
  simp [Ideal.ofBits, Ideal.ieee, -EReal.coe_mul] <;> norm_num

/-- The integer word 1 converts to the real 1. -/
theorem sitofp_one : FloatOps.sitofp (F := Ideal) .f32 (1#32) = ((1 : ℝ) : EReal) := by
  show (((1#32 : BitVec 32).toInt : ℝ) : EReal) = ((1 : ℝ) : EReal)
  have : (1#32 : BitVec 32).toInt = 1 := by decide
  rw [this]; norm_num

/-- n − 1 as extended reals. -/
theorem nE_sub_one : Cert.Moment.nE - ((1 : ℝ) : EReal) = Cert.Moment.n1E := by
  unfold Cert.Moment.nE Cert.Moment.n1E
  rw [← EReal.coe_sub]; norm_num

/-- n − 1 is positive. -/
theorem n1E_pos : (0 : EReal) < Cert.Moment.n1E := by
  unfold Cert.Moment.n1E
  exact EReal.coe_pos.mpr (by norm_num)

end Cert.ReferenceIdeal.RefValue

end
-- ==== Proof.LibIdxSums.lean ====
/-
  Sums over a rank-4 index set, and real sums inside the extended reals.

  A rank-4 index set is the product of its four coordinate ranges, so a sum over it is the fourfold iterated sum over
  the coordinates (`sum_idx4`); when the two leading axes are unit axes only the two trailing sums remain
  (`sum_idx4_unit2`). The inclusion of the reals in the extended reals commutes with finite sums (`coe_sum`), which
  is what lets an identity between real sums be read as one between extended-real sums of real data.
-/
import Idealize.ShloMosaic.Lib.ValueIdx

noncomputable section

open scoped BigOperators

namespace Cert.LibIdxSums

open Idealize.ShloMosaic Idealize.ShloMosaic.ValueIdx

/-- A rank-4 index set is the product of its four coordinate ranges … -/
def idxEquiv4 {n0 n1 n2 n3 : Nat} : (⟨4, ![n0, n1, n2, n3]⟩ : Shape).Idx ≃ Fin n0 × Fin n1 × Fin n2 × Fin n3 where
  toFun i := (i 0, i 1, i 2, i 3)
  invFun p := ix4 p.1 p.2.1 p.2.2.1 p.2.2.2
  left_inv i := (eq_ix4 i).symm
  right_inv _ := rfl

/-- … so a sum over it is the fourfold sum over the coordinates. -/
theorem sum_idx4 {M : Type*} [AddCommMonoid M] {n0 n1 n2 n3 : Nat} (f : (⟨4, ![n0, n1, n2, n3]⟩ : Shape).Idx → M) :
    ∑ i, f i = ∑ a : Fin n0, ∑ b : Fin n1, ∑ c : Fin n2, ∑ d : Fin n3, f (ix4 a b c d) := by
  rw [← Equiv.sum_comp (idxEquiv4 (n0 := n0) (n1 := n1) (n2 := n2) (n3 := n3)).symm f]
  simp only [Fintype.sum_prod_type]
  rfl

/-- With two leading unit axes the sum is the double sum over the two trailing coordinates. -/
theorem sum_idx4_unit2 {M : Type*} [AddCommMonoid M] {n2 n3 : Nat} (f : (⟨4, ![1, 1, n2, n3]⟩ : Shape).Idx → M) :
    ∑ i, f i = ∑ c : Fin n2, ∑ d : Fin n3, f (ix4 (0 : Fin 1) (0 : Fin 1) c d) := by
  rw [sum_idx4, Fin.sum_univ_one, Fin.sum_univ_one]

/-- The inclusion of the reals in the extended reals commutes with finite sums. -/
@[norm_cast]
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

end Cert.LibIdxSums

end
-- ==== Proof.RefReduce.lean ====
/-
  The host's float sums of the two-pass program read at an index, as iterated sums over coordinates.

  A float sum over some axes of an array is, at a result index, the initial value plus the sum of the entries
  whose kept coordinates are that index's. For a rank-4 array summed over its three trailing axes this is the
  threefold sum over the trailing coordinates at a fixed leading one; for a rank-3 array summed over its two
  trailing axes the double sum; for a vector summed over its one axis the sum of its entries.
-/
import Idealize.ShloMosaic.Lib.IdealHost
import Idealize.ShloMosaic.PureOps.Reduce
import proofs.«160249_j59768764891231_2_alg».proof.Proof.LibIdxSums

noncomputable section

open scoped BigOperators

namespace Cert.ReferenceIdeal.RefValue

open Idealize.ShloMosaic Idealize.ShloMosaic.ValueIdx Cert.LibIdxSums

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the threefold sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f]
  simp only [Fintype.sum_prod_type]
  rfl

/-- A rank-1 index set is its one coordinate range. -/
def idxEquiv1 {n : Nat} : (⟨1, ![n]⟩ : Shape).Idx ≃ Fin n where
  toFun i := i 0
  invFun a := ix1 a
  left_inv i := (eq_ix1 i).symm
  right_inv _ := rfl

theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- Dropping the three trailing axes of a rank-4 index keeps its leading coordinate. -/
theorem drop123_ix4 {n0 n1 n2 n3 : Nat}
    (hR : (⟨4, ![n0, n1, n2, n3]⟩ : Shape).ReducesTo [1, 2, 3] ⟨1, ![n0]⟩)
    (a : Fin n0) (c : Fin n1) (h : Fin n2) (w : Fin n3) : hR.drop (ix4 a c h w) = ix1 a := by
  rw [eq_ix1 (hR.drop (ix4 a c h w))]
  congr 1

/-- Dropping the two trailing axes of a rank-3 index keeps its leading coordinate. -/
theorem drop12_ix3 {n0 n1 n2 : Nat}
    (hR : (⟨3, ![n0, n1, n2]⟩ : Shape).ReducesTo [1, 2] ⟨1, ![n0]⟩)
    (a : Fin n0) (h : Fin n1) (w : Fin n2) : hR.drop (ix3 a h w) = ix1 a := by
  rw [eq_ix1 (hR.drop (ix3 a h w))]
  congr 1

/-- The entries of a rank-4 array whose leading coordinate is b, summed: the threefold sum over the others. -/
theorem sum_filter_drop123 {n0 n1 n2 n3 : Nat}
    (hR : (⟨4, ![n0, n1, n2, n3]⟩ : Shape).ReducesTo [1, 2, 3] ⟨1, ![n0]⟩)
    (f : (⟨4, ![n0, n1, n2, n3]⟩ : Shape).Idx → EReal) (b : Fin n0)
    [DecidablePred fun i => hR.drop i = ix1 b] :
    ∑ i ∈ Finset.univ.filter (fun i => hR.drop i = ix1 b), f i
      = ∑ c : Fin n1, ∑ h : Fin n2, ∑ w : Fin n3, f (ix4 b c h w) := by
  rw [Finset.sum_filter, sum_idx4, Finset.sum_eq_single b]
  · simp only [drop123_ix4, if_true]
  · intro a _ hab
    have hne : ∀ c h w, ¬ (hR.drop (ix4 a c h w) = ix1 b) := by
      intro c h w e
      rw [drop123_ix4] at e
      exact hab (congrFun e 0)
    simp only [hne, if_false, Finset.sum_const_zero]
  · intro h; exact absurd (Finset.mem_univ b) h

/-- The entries of a rank-3 array whose leading coordinate is b, summed: the double sum over the others. -/
theorem sum_filter_drop12 {n0 n1 n2 : Nat}
    (hR : (⟨3, ![n0, n1, n2]⟩ : Shape).ReducesTo [1, 2] ⟨1, ![n0]⟩)
    (f : (⟨3, ![n0, n1, n2]⟩ : Shape).Idx → EReal) (b : Fin n0)
    [DecidablePred fun i => hR.drop i = ix1 b] :
    ∑ i ∈ Finset.univ.filter (fun i => hR.drop i = ix1 b), f i
      = ∑ h : Fin n1, ∑ w : Fin n2, f (ix3 b h w) := by
  rw [Finset.sum_filter, sum_idx3, Finset.sum_eq_single b]
  · simp only [drop12_ix3, if_true]
  · intro a _ hab
    have hne : ∀ h w, ¬ (hR.drop (ix3 a h w) = ix1 b) := by
      intro h w e
      rw [drop12_ix3] at e
      exact hab (congrFun e 0)
    simp only [hne, if_false, Finset.sum_const_zero]
  · intro h; exact absurd (Finset.mem_univ b) h

/-- The host's float sum of a rank-4 array over its three trailing axes, read at b. -/
theorem hostReduceAdd123_apply {n0 n1 n2 n3 : Nat} {u : Shape}
    (hR : (⟨4, ![n0, n1, n2, n3]⟩ : Shape).ReducesTo [1, 2, 3] ⟨1, ![n0]⟩)
    (x : FVec Ideal ⟨4, ![n0, n1, n2, n3]⟩ .f32) (init : u.Idx → Ideal .f32) (hu : 0 < u.numel) (b : Fin n0) :
    Host.reduceAdd x init hR hu (ix1 b)
      = init (Shape.Idx.first hu) + ∑ c : Fin n1, ∑ h : Fin n2, ∑ w : Fin n3, x (ix4 b c h w) := by
  rw [hostReduceAdd_apply]
  unfold Ideal.hostReduceAdd
  rw [sum_filter_drop123]

/-- The host's float sum of a rank-3 array over its two trailing axes, read at b. -/
theorem hostReduceAdd12_apply {n0 n1 n2 : Nat} {u : Shape}
    (hR : (⟨3, ![n0, n1, n2]⟩ : Shape).ReducesTo [1, 2] ⟨1, ![n0]⟩)
    (x : FVec Ideal ⟨3, ![n0, n1, n2]⟩ .f32) (init : u.Idx → Ideal .f32) (hu : 0 < u.numel) (b : Fin n0) :
    Host.reduceAdd x init hR hu (ix1 b)
      = init (Shape.Idx.first hu) + ∑ h : Fin n1, ∑ w : Fin n2, x (ix3 b h w) := by
  rw [hostReduceAdd_apply]
  unfold Ideal.hostReduceAdd
  rw [sum_filter_drop12]

/-- The host's float sum of a vector over its one axis, read at the scalar's one index. -/
theorem hostReduceAdd0_apply {n : Nat} {u : Shape}
    (hR : (⟨1, ![n]⟩ : Shape).ReducesTo [0] ⟨0, ![]⟩)
    (x : FVec Ideal ⟨1, ![n]⟩ .f32) (init : u.Idx → Ideal .f32) (hu : 0 < u.numel) (j : (⟨0, ![]⟩ : Shape).Idx) :
    Host.reduceAdd x init hR hu j = init (Shape.Idx.first hu) + ∑ b : Fin n, x (ix1 b) := by
  rw [hostReduceAdd_apply, Ideal.hostReduceAdd_total hR (fun b => b.elim0), sum_idx1]

end Cert.ReferenceIdeal.RefValue

end
-- ==== Proof.RefGather.lean ====
/-
  The index pairs of the two-pass program and its gather, read at an index.

  The index column is the iota 0..7 with negative entries moved up by 8: on 0..7 nothing is negative, so it is the
  iota. The index array holds the column twice, so its row b is the pair (b, b). A gather of a rank-4 array at
  pairs of start indices for its two leading axes, both collapsed, with full slices of the two trailing axes, reads
  at (b, h, w) the array at (r, c, h, w) where (r, c) is the b-th pair read signed and clamped into range.
-/
import Idealize.ShloMosaic.Lib.IdealHost
import Idealize.ShloMosaic.Lib.Pipeline.Value
import proofs.«160249_j59768764891231_2_alg».proof.Proof.RefTerm

noncomputable section

namespace Cert.ReferenceIdeal.RefValue

open Idealize.ShloMosaic Idealize.ShloMosaic.ValueIdx Cert.ReferenceIdeal Cert.ReferenceIdeal.Facts₀

/-- The index column at b is the word b. -/
theorem refIdxCol_apply (b : Fin 8) : refIdxCol (ix1 b) = BitVec.ofNat 32 b.val := by
  unfold refIdxCol
  rw [select_apply]
  fin_cases b <;> rfl

/-- Row b of the index array is the pair (b, b). -/
theorem refIdx_apply (b : Fin 8) (k : Fin 2) : refIdx (ix2 b k) = BitVec.ofNat 32 b.val := by
  unfold refIdx
  match k with
  | ⟨0, _⟩ =>
    refine (concatenate_pair_apply_left (1 : Fin S8x2.rank) _ _ concatenates_S8x1_S8x1_S8x2_d1
      (ix2 b (⟨0, by decide⟩ : Fin 2)) rfl (ix2 b (0 : Fin 1))
      (fun a => match a with | ⟨0, _⟩ => rfl | ⟨1, _⟩ => rfl)).trans ?_
    refine (broadcastInDim_apply _ bcast_S8_S8x1_0 refIdxCol (ix2 b (0 : Fin 1)) (ix1 b)
      (fun a => match a with | ⟨0, _⟩ => rfl)).trans ?_
    exact refIdxCol_apply b
  | ⟨1, _⟩ =>
    refine (concatenate_pair_apply_right (1 : Fin S8x2.rank) _ _ concatenates_S8x1_S8x1_S8x2_d1
      (ix2 b (⟨1, by decide⟩ : Fin 2)) rfl rfl (ix2 b (0 : Fin 1))
      (fun a => match a with | ⟨0, _⟩ => fun _ => rfl | ⟨1, _⟩ => fun hne => absurd rfl hne) rfl).trans ?_
    refine (broadcastInDim_apply _ bcast_S8_S8x1_0 refIdxCol (ix2 b (0 : Fin 1)) (ix1 b)
      (fun a => match a with | ⟨0, _⟩ => rfl)).trans ?_
    exact refIdxCol_apply b

section Gather
variable {α : Type}

/-- The dimension numbers of a gather of a rank-4 array at pairs of start indices for its two leading axes, both
    collapsed, with full slices of the two trailing axes. -/
abbrev diagDims (B C H W : Nat)
    (wf : GatherDims.WF ⟨4, ![B, C, H, W]⟩ ⟨2, ![B, 2]⟩ ⟨3, ![B, H, W]⟩ [1, 2] [0, 1] [] [0, 1] [] 1 ![1, 1, H, W]) :
    GatherDims ⟨4, ![B, C, H, W]⟩ ⟨2, ![B, 2]⟩ ⟨3, ![B, H, W]⟩ where
  offsetDims := [1, 2]
  collapsedSliceDims := [0, 1]
  operandBatchingDims := []
  startIndicesBatchingDims := []
  startIndexMap := [0, 1]
  indexVectorDim := 1
  sliceSizes := ![1, 1, H, W]
  wf := wf

/-- That gather read at (b, h, w): the array at (r, c, h, w), with (r, c) the b-th pair of start indices read signed
    and clamped into range. -/
theorem gather_diag_apply {B C H W w : Nat}
    (wf : GatherDims.WF ⟨4, ![B, C, H, W]⟩ ⟨2, ![B, 2]⟩ ⟨3, ![B, H, W]⟩ [1, 2] [0, 1] [] [0, 1] [] 1 ![1, 1, H, W])
    (x : (⟨4, ![B, C, H, W]⟩ : Shape).Idx → α) (idx : IVec ⟨2, ![B, 2]⟩ w)
    (b : Fin B) (h : Fin H) (v : Fin W) (r : Fin B) (c : Fin C)
    (hr : min (idx (ix2 b (0 : Fin 2))).toInt.toNat (B - 1) = r.val)
    (hc : min (idx (ix2 b (1 : Fin 2))).toInt.toNat (C - 1) = c.val) :
    Host.gather (diagDims B C H W wf) x idx (ix3 b h v) = x (ix4 r c h v) := by
  have m0 : (0 : Fin 4) ∈ ([0, 1] : List (Fin 4)) := by decide
  have m1 : (1 : Fin 4) ∈ ([0, 1] : List (Fin 4)) := by decide
  have n2 : (2 : Fin 4) ∉ ([0, 1] : List (Fin 4)) := by decide
  have n3 : (3 : Fin 4) ∉ ([0, 1] : List (Fin 4)) := by decide
  unfold Host.gather
  refine congrArg x (funext fun a => Fin.ext ?_)
  show (diagDims B C H W wf).start (ix3 b h v) idx a + (diagDims B C H W wf).batchCoord (ix3 b h v) a
    + (diagDims B C H W wf).offCoord (ix3 b h v) a = _
  rw [GatherDims.batchCoord_eq_zero _ _ _ List.not_mem_nil, Nat.add_zero]
  match a with
  | ⟨0, _⟩ =>
    rw [GatherDims.offCoord_eq_zero _ _ _ (fun hm => ((GatherDims.mem_sKept _ _).mp hm).1 m0), Nat.add_zero]
    unfold GatherDims.start
    rw [dif_pos (show (⟨0, by decide⟩ : Fin 4) ∈ (diagDims B C H W wf).startIndexMap from m0)]
    have hsi : (diagDims B C H W wf).siIdx (ix3 b h v) ⟨List.idxOf (⟨0, by decide⟩ : Fin 4) (diagDims B C H W wf).startIndexMap,
        List.idxOf_lt_length_iff.2 m0⟩ = ix2 b (0 : Fin 2) := by
      funext k; refine Fin.ext ?_
      match k with
      | ⟨0, _⟩ => rfl
      | ⟨1, _⟩ => rfl
    rw [hsi]
    exact hr
  | ⟨1, _⟩ =>
    rw [GatherDims.offCoord_eq_zero _ _ _ (fun hm => ((GatherDims.mem_sKept _ _).mp hm).1 m1), Nat.add_zero]
    unfold GatherDims.start
    rw [dif_pos (show (⟨1, by decide⟩ : Fin 4) ∈ (diagDims B C H W wf).startIndexMap from m1)]
    have hsi : (diagDims B C H W wf).siIdx (ix3 b h v) ⟨List.idxOf (⟨1, by decide⟩ : Fin 4) (diagDims B C H W wf).startIndexMap,
        List.idxOf_lt_length_iff.2 m1⟩ = ix2 b (1 : Fin 2) := by
      funext k; refine Fin.ext ?_
      match k with
      | ⟨0, _⟩ => rfl
      | ⟨1, _⟩ => rfl
    rw [hsi]
    exact hc
  | ⟨2, _⟩ =>
    unfold GatherDims.start
    rw [dif_neg (show (⟨2, by decide⟩ : Fin 4) ∉ (diagDims B C H W wf).startIndexMap from n2), Nat.zero_add]
    unfold GatherDims.offCoord
    rw [dif_pos (show (⟨2, by decide⟩ : Fin 4) ∈ (diagDims B C H W wf).sKept from
      (GatherDims.mem_sKept _ _).mpr ⟨n2, List.not_mem_nil⟩)]
    rfl
  | ⟨3, _⟩ =>
    unfold GatherDims.start
    rw [dif_neg (show (⟨3, by decide⟩ : Fin 4) ∉ (diagDims B C H W wf).startIndexMap from n3), Nat.zero_add]
    unfold GatherDims.offCoord
    rw [dif_pos (show (⟨3, by decide⟩ : Fin 4) ∈ (diagDims B C H W wf).sKept from
      (GatherDims.mem_sKept _ _).mpr ⟨n3, List.not_mem_nil⟩)]
    rfl

end Gather

/-- The program's gather is that gather. -/
theorem gather_eq_diagDims :
    gather_S8x8x1024x1024_S8x2_S8x1024x1024_12_01_n_n_01_1_1110241024
      = diagDims 8 8 1024 1024 gather_S8x8x1024x1024_S8x2_S8x1024x1024_12_01_n_n_01_1_1110241024_wf := rfl

/-- The gathered slices at (b, h, w) are the image at (b, b, h, w). -/
theorem refSlices_apply (x : FVec Ideal S8x8x1024x1024 .f32) (b : Fin 8) (h w : Fin 1024) :
    refSlices x (ix3 b h w) = x (ix4 b b h w) := by
  unfold refSlices
  rw [gather_eq_diagDims]
  refine gather_diag_apply _ x refIdx b h w b b ?_ ?_
  · rw [refIdx_apply]; fin_cases b <;> decide
  · rw [refIdx_apply]; fin_cases b <;> decide

end Cert.ReferenceIdeal.RefValue

end
-- ==== Proof.RefValue.lean ====
/-
  The two-pass program's value is the specification's: its term, read operation by operation at an index.

  Per batch item b: the sum over the three trailing axes is S; divided by n it is the mean; the variance function's
  centred entries are x − mean, its sum of their squares divided by n − 1 is the unbiased variance (n − 1 is
  positive, so the guarded choice keeps it); the gathered slice at (b, h, w) is the entry at (b, b, h, w); the
  standardized entries squared, summed over the slice and divided by n², summed over the batch, are the moment.
  The result is |m(X₁) − m(X₂)| with |y| = max y (−y).
-/
import proofs.«160249_j59768764891231_2_alg».proof.Proof.RefTerm
import proofs.«160249_j59768764891231_2_alg».proof.Proof.RefConsts
import proofs.«160249_j59768764891231_2_alg».proof.Proof.RefReduce
import proofs.«160249_j59768764891231_2_alg».proof.Proof.RefGather

noncomputable section

open scoped BigOperators

namespace Cert.ReferenceIdeal.RefValue

open Idealize.ShloMosaic Idealize.ShloMosaic.ValueIdx Cert.ReferenceIdeal Cert.ReferenceIdeal.Facts₀
open Cert.Moment

/-- The zero word's constant read anywhere is zero. -/
theorem const_zero_apply {s : Shape} (i : s.Idx) : constant (F := Ideal) s .f32 0x00000000#32 i = (0 : EReal) := by
  rw [constant_apply]; exact Ideal.ofBits_zero_f32

/-- The per-item sum is S. -/
theorem refSum_apply (x : FVec Ideal S8x8x1024x1024 .f32) (b : Fin 8) : refSum x (ix1 b) = S (img x) b := by
  unfold refSum
  rw [hostReduceAdd123_apply, const_zero_apply, zero_add]
  rfl

/-- The per-item mean is the specification's. -/
theorem refMean_apply (x : FVec Ideal S8x8x1024x1024 .f32) (b : Fin 8) : refMean x (ix1 b) = rMean (img x) b := by
  unfold refMean
  rw [hostDivf_apply, refSum_apply, broadcastInDim_scalar_apply, constant_apply, ofBits_nE]
  rfl

/-- The variance function's centred entries. -/
theorem refCentred_apply (x : FVec Ideal S8x8x1024x1024 .f32) (b c : Fin 8) (h w : Fin 1024) :
    refCentred x (ix4 b c h w) = img x b c h w - rMean (img x) b := by
  unfold refCentred
  rw [subf_apply]
  rw [broadcastInDim_apply _ bcast_S8x1x1x1_S8x8x1024x1024_0_1_2_3 _ (ix4 b c h w)
    (ix4 b (0 : Fin 1) (0 : Fin 1) (0 : Fin 1))
    (fun a => match a with | ⟨0, _⟩ => rfl | ⟨1, _⟩ => rfl | ⟨2, _⟩ => rfl | ⟨3, _⟩ => rfl)]
  rw [hostDivf_apply]
  rw [broadcastInDim_apply _ bcast_S8_S8x1x1x1_0 _ (ix4 b (0 : Fin 1) (0 : Fin 1) (0 : Fin 1)) (ix1 b)
    (fun a => match a with | ⟨0, _⟩ => rfl)]
  rw [refSum_apply, broadcastInDim_scalar_apply, constant_apply, ofBits_nE]
  rfl

/-- The divisor is n − 1. -/
theorem refDof_apply (j : S_.Idx) : refDof j = n1E := by
  unfold refDof
  rw [subf_apply, constant_apply, ofBits_nE, sitofp_apply]
  show nE - FloatOps.sitofp (F := Ideal) .f32 (1#32) = n1E
  rw [sitofp_one, nE_sub_one]

/-- The quotient of the centred squares' sum by the divisor is the unbiased variance. -/
theorem refVarRaw_apply (x : FVec Ideal S8x8x1024x1024 .f32) (b : Fin 8) : refVarRaw x (ix1 b) = rVar (img x) b := by
  unfold refVarRaw
  rw [hostDivf_apply, hostReduceAdd123_apply, const_zero_apply, zero_add, broadcastInDim_scalar_apply, refDof_apply]
  simp only [mulf_apply, refCentred_apply]
  rfl

/-- The divisor is positive, so the guarded choice keeps the quotient. -/
theorem refVar_apply (x : FVec Ideal S8x8x1024x1024 .f32) (b : Fin 8) : refVar x (ix1 b) = rVar (img x) b := by
  unfold refVar
  rw [select_apply, broadcastInDim_scalar_apply, cmpf_apply, refDof_apply, const_zero_apply, refVarRaw_apply]
  have hc : FloatOps.cmpf (F := Ideal) (φ := .f32) .ogt n1E (0 : EReal) = 1#1 := by
    show Ideal.cmp .ogt n1E 0 = 1#1
    unfold Ideal.cmp
    simp only [n1E_pos, decide_true]
    rfl
  rw [hc, select_one]

/-- The standard deviation. -/
theorem refStd_apply (x : FVec Ideal S8x8x1024x1024 .f32) (b : Fin 8) :
    refStd x (ix1 b) = Ideal.sqrt (rVar (img x) b) := by
  unfold refStd
  show FloatOps.hostUnary (F := Ideal) .sqrt (refVar x (ix1 b)) = _
  rw [Ideal.hostUnary_sqrt_def, refVar_apply]

/-- The standardized slice entries. -/
theorem refZ_apply (x : FVec Ideal S8x8x1024x1024 .f32) (b : Fin 8) (h w : Fin 1024) :
    refZ x (ix3 b h w) = rZ (img x) b h w := by
  unfold refZ
  rw [hostDivf_apply, subf_apply, refSlices_apply]
  rw [broadcastInDim_apply _ bcast_S8x1x1_S8x1024x1024_0_1_2 _ (ix3 b h w) (ix3 b (0 : Fin 1) (0 : Fin 1))
    (fun a => match a with | ⟨0, _⟩ => rfl | ⟨1, _⟩ => rfl | ⟨2, _⟩ => rfl)]
  rw [broadcastInDim_apply _ bcast_S8_S8x1x1_0 _ (ix3 b (0 : Fin 1) (0 : Fin 1)) (ix1 b)
    (fun a => match a with | ⟨0, _⟩ => rfl)]
  rw [broadcastInDim_apply _ bcast_S8x1x1_S8x1024x1024_0_1_2 _ (ix3 b h w) (ix3 b (0 : Fin 1) (0 : Fin 1))
    (fun a => match a with | ⟨0, _⟩ => rfl | ⟨1, _⟩ => rfl | ⟨2, _⟩ => rfl)]
  rw [broadcastInDim_apply _ bcast_S8_S8x1x1_0 _ (ix3 b (0 : Fin 1) (0 : Fin 1)) (ix1 b)
    (fun a => match a with | ⟨0, _⟩ => rfl)]
  rw [refMean_apply, refStd_apply]
  rfl

/-- One batch item's term. -/
theorem refPerItem_apply (x : FVec Ideal S8x8x1024x1024 .f32) (b : Fin 8) :
    refPerItem x (ix1 b)
      = Ideal.div (∑ h : Fin 1024, ∑ w : Fin 1024, rZ (img x) b h w * rZ (img x) b h w) denE := by
  unfold refPerItem
  rw [hostDivf_apply, hostReduceAdd12_apply, const_zero_apply, zero_add, broadcastInDim_scalar_apply,
    constant_apply, ofBits_denE]
  simp only [mulf_apply, refZ_apply]

/-- One image's value is the specification's moment. -/
theorem refMoment_eq (x : FVec Ideal S8x8x1024x1024 .f32) : refMoment x = fun _ => rMoment (img x) := by
  funext j
  unfold refMoment
  rw [hostReduceAdd0_apply, const_zero_apply, zero_add]
  simp only [refPerItem_apply]
  rfl

/-- The program's result is the specification's. -/
theorem refResult_eq (x₁ x₂ : FVec Ideal S8x8x1024x1024 .f32) :
    refResult x₁ x₂ = fun _ => rResult (img x₁) (img x₂) := by
  funext j
  unfold refResult
  show FloatOps.hostAbsf (F := Ideal) (subf (refMoment x₁) (refMoment x₂) j) = _
  rw [Ideal.hostAbsf_def, Ideal.absf_def, subf_apply, refMoment_eq, refMoment_eq]
  rfl

end Cert.ReferenceIdeal.RefValue

end
-- ==== Proof.PreFinite.lean ====
/-
  From the precondition to "every entry is a real number".

  The precondition is the conjunction of two `all`s: for each image, the reduction by `and`, over all four axes and
  from the word 1, of the entrywise comparison |x| < +∞ (the pattern 0x7F800000). If the conjunction is the word 1 then
  each reduction is; a reduction by `and` into a single result that is 1 met a 1 at every index; and over the extended
  reals, where |x| is max x (−x) and the comparison is the order's, max x (−x) < ⊤ excludes x = ⊥ and x = ⊤.
-/
import proofs.«160249_j59768764891231_2_alg».proof.Proof.Gen.Pre_finite_inputs
import proofs.«160249_j59768764891231_2_alg».proof.Proof.MomentSpec
import Idealize.ShloMosaic.Lib.ReduceAll
import Idealize.ShloMosaic.Lib.ValueIdx
import Idealize.ShloMosaic.PureOps.Ideal
import Idealize.ShloMosaic.PureOps.Ideal.Laws

noncomputable section

namespace Cert.Pre_finite_inputs.Finite

open Idealize.ShloMosaic Cert.Pre_finite_inputs Cert.Pre_finite_inputs.Gen

/-- A scalar has one index. -/
instance : Subsingleton S_.Idx := ⟨fun a b => funext fun d => d.elim0⟩

/-- The pattern 0x7F800000 denotes +∞. -/
theorem inf_eq_top : Ideal.ofBits .f32 0x7F800000#32 = (⊤ : EReal) := by simp [Ideal.ofBits, Ideal.ieee]

/-- An extended real whose absolute value max x (−x) compares below +∞ is a real number. -/
theorem real_of_abs_lt_inf (x : EReal) (h : Ideal.cmp .olt (max x (-x)) (Ideal.ofBits .f32 0x7F800000#32) = 1#1) :
    ∃ r : ℝ, x = (r : EReal) := by
  rw [inf_eq_top] at h
  induction x using EReal.rec with
  | bot => simp [Ideal.cmp] at h
  | coe r => exact ⟨r, rfl⟩
  | top => simp [Ideal.cmp] at h

/-- One image: if the `all` of |x| < +∞ is the word 1 then every entry is a real number. -/
theorem entries_real_of_all (x : FVec Ideal S8x8x1024x1024 .f32)
    (h : Host.reduce IntOp.andi
          (cmpf .olt (Host.absf x)
            (broadcastInDim S8x8x1024x1024 ![] bcast_S_S8x8x1024x1024 (constant (F := Ideal) S_ .f32 0x7F800000#32)))
          (constantI S_ 1 1#1) reducesTo_S8x8x1024x1024_S_d0_1_2_3 h_S_ ValueIdx.ix0 = 1#1) :
    ∀ i, ∃ r : ℝ, x i = (r : EReal) := fun i =>
  real_of_abs_lt_inf (x i) (Host.reduce_andi_all _ _ _ _ _ h i)

/-- If the precondition holds of two images, every entry of each is a real number. -/
theorem entries_real (x₁ x₂ : FVec Ideal Cert.Pre_finite_inputs.S8x8x1024x1024 .f32)
    (h : Cert.Pre_finite_inputs.fn (F := Ideal) x₁ x₂ = fun _ => 1#1) :
    (∀ i, ∃ r : ℝ, x₁ i = (r : EReal)) ∧ (∀ i, ∃ r : ℝ, x₂ i = (r : EReal)) := by
  have h0 : IntOp.andi _ _ = 1#1 := congrFun h ValueIdx.ix0
  obtain ⟨h1, h2⟩ := IntOp.andi_eq_one.1 h0
  exact ⟨entries_real_of_all x₁ h1, entries_real_of_all x₂ h2⟩

/-- An image array read entry by entry. -/
def pimg (x : FVec Ideal Cert.Pre_finite_inputs.S8x8x1024x1024 .f32) : Cert.Moment.Img :=
  fun b c h w => x (ValueIdx.ix4 b c h w)

/-- The same in the specification's words: under the precondition both images are finite. -/
theorem finite_of_pre (x₁ x₂ : FVec Ideal Cert.Pre_finite_inputs.S8x8x1024x1024 .f32)
    (h : Cert.Pre_finite_inputs.fn (F := Ideal) x₁ x₂ = fun _ => 1#1) :
    Cert.Moment.Finite (pimg x₁) ∧ Cert.Moment.Finite (pimg x₂) :=
  ⟨fun b c h' w => (entries_real x₁ x₂ h).1 (ValueIdx.ix4 b c h' w),
   fun b c h' w => (entries_real x₁ x₂ h).2 (ValueIdx.ix4 b c h' w)⟩

end Cert.Pre_finite_inputs.Finite

end
-- ==== Proof.LibMomentAlgebra.lean ====
/-
  The pure mathematics of the standardized second moment: the streaming form (four sums per batch item)
  and the two-pass form (centre, then standardize) agree as extended reals on every image with real entries.

  Per batch item, with real entries x, n entries in the item and the mean μ = S/n:
    Σ (x − μ)² = Q − S²/n, so both forms compute the same variance v ≥ 0, and on the slice
    Σ (x − μ)² = DQ − 2μ·DS + HW·μ².
  * If v > 0, both summands are the real number (Σ_slice (x − μ)²) / v / n².
  * If v = 0, every entry equals μ; the streaming numerator is 0 and 0/0 is −∞, whereas the two-pass form
    squares ±∞ and gets +∞.
  Hence for each image either both moments are the same real, or the streaming one is −∞ and the two-pass one +∞;
  in all four combinations for a pair of images the absolute differences agree.
-/
import Mathlib.Tactic
import Idealize.ShloMosaic.PureOps.Ideal
import Idealize.ShloMosaic.PureOps.Ideal.Laws
import proofs.«160249_j59768764891231_2_alg».proof.Proof.MomentSpec

noncomputable section

namespace Cert.Moment

open Idealize.ShloMosaic

/-! ### Finite sums of extended reals -/

/-- The coercion of a finite real sum is the sum of the coercions. -/
theorem coe_sum {ι : Type*} (s : Finset ι) (f : ι → ℝ) :
    ((∑ i ∈ s, f i : ℝ) : EReal) = ∑ i ∈ s, (f i : EReal) := by
  classical
  refine Finset.induction_on s ?_ ?_
  · simp
  · intro a s ha ih
    rw [Finset.sum_insert ha, Finset.sum_insert ha, EReal.coe_add, ih]

/-- A finite sum with a −∞ summand is −∞. -/
theorem sum_eq_bot {ι : Type*} (s : Finset ι) (f : ι → EReal) (i : ι) (hi : i ∈ s) (h : f i = ⊥) :
    ∑ j ∈ s, f j = ⊥ := by
  classical
  rw [← Finset.add_sum_erase s f hi, h, EReal.bot_add]

/-- A finite sum without a −∞ summand is not −∞. -/
theorem sum_ne_bot {ι : Type*} (s : Finset ι) (f : ι → EReal) (h : ∀ j ∈ s, f j ≠ ⊥) :
    ∑ j ∈ s, f j ≠ ⊥ := by
  classical
  revert h
  refine Finset.induction_on s ?_ ?_
  · intro _
    simp
  · intro a s ha ih h
    rw [Finset.sum_insert ha]
    have h1 : f a ≠ ⊥ := h a (Finset.mem_insert_self a s)
    have h2 : ∑ j ∈ s, f j ≠ ⊥ := ih (fun j hj => h j (Finset.mem_insert_of_mem hj))
    intro h3
    rcases EReal.add_eq_bot_iff.1 h3 with h4 | h4
    · exact h1 h4
    · exact h2 h4

/-- A finite sum with a +∞ summand and no −∞ summand is +∞. -/
theorem sum_eq_top {ι : Type*} (s : Finset ι) (f : ι → EReal) (i : ι) (hi : i ∈ s) (h : f i = ⊤)
    (hb : ∀ j ∈ s, f j ≠ ⊥) : ∑ j ∈ s, f j = ⊤ := by
  classical
  rw [← Finset.add_sum_erase s f hi, h]
  exact EReal.top_add_of_ne_bot (sum_ne_bot _ _ (fun j hj => hb j (Finset.mem_of_mem_erase hj)))

/-! ### The absolute difference in the four combinations -/

/-- If each of two pairs is either (the same real, the same real) or (−∞, +∞), the absolute differences
    |a − b| and |a' − b'| agree: with an infinity on either side both are +∞. -/
theorem absdiff_cases (a b a' b' : EReal)
    (ha : (∃ r : ℝ, a = r ∧ a' = r) ∨ (a = ⊥ ∧ a' = ⊤))
    (hb : (∃ r : ℝ, b = r ∧ b' = r) ∨ (b = ⊥ ∧ b' = ⊤)) :
    max (a - b) (-(a - b)) = max (a' - b') (-(a' - b')) := by
  rcases ha with ⟨r, rfl, rfl⟩ | ⟨rfl, rfl⟩ <;> rcases hb with ⟨t, rfl, rfl⟩ | ⟨rfl, rfl⟩
  · rfl
  · rw [EReal.coe_sub_bot, EReal.sub_top, EReal.neg_top, EReal.neg_bot, max_comm]
  · rw [EReal.bot_sub, EReal.top_sub_coe, EReal.neg_bot, EReal.neg_top, max_comm]
  · rw [EReal.bot_sub, EReal.sub_top]

/-! ### Real algebra of one batch item -/

/-- Expanding the centred squares over a batch item of 8·1024·1024 entries. -/
theorem sum3_center (y : Fin 8 → Fin 1024 → Fin 1024 → ℝ) (μ : ℝ) :
    ∑ c, ∑ h, ∑ w, (y c h w - μ) * (y c h w - μ)
      = (∑ c, ∑ h, ∑ w, y c h w * y c h w) - 2 * μ * (∑ c, ∑ h, ∑ w, y c h w) + 8388608 * μ * μ := by
  have e : ∀ c h w, (y c h w - μ) * (y c h w - μ) = y c h w * y c h w - 2 * μ * y c h w + μ * μ := by
    intro c h w; ring
  simp only [e, Finset.sum_add_distrib, Finset.sum_sub_distrib, ← Finset.mul_sum, Finset.sum_const,
    Finset.card_univ, Fintype.card_fin, nsmul_eq_mul]
  push_cast
  ring

/-- Expanding the centred squares over a slice of 1024·1024 entries. -/
theorem sum2_center (y : Fin 1024 → Fin 1024 → ℝ) (μ : ℝ) :
    ∑ h, ∑ w, (y h w - μ) * (y h w - μ)
      = (∑ h, ∑ w, y h w * y h w) - 2 * μ * (∑ h, ∑ w, y h w) + 1048576 * μ * μ := by
  have e : ∀ h w, (y h w - μ) * (y h w - μ) = y h w * y h w - 2 * μ * y h w + μ * μ := by
    intro h w; ring
  simp only [e, Finset.sum_add_distrib, Finset.sum_sub_distrib, ← Finset.mul_sum, Finset.sum_const,
    Finset.card_univ, Fintype.card_fin, nsmul_eq_mul]
  push_cast
  ring

/-- With μ the mean, the centred sum of squares is Q − S²/n. -/
theorem sum3_center_mean (y : Fin 8 → Fin 1024 → Fin 1024 → ℝ) :
    ∑ c, ∑ h, ∑ w, (y c h w - (∑ c, ∑ h, ∑ w, y c h w) / 8388608) * (y c h w - (∑ c, ∑ h, ∑ w, y c h w) / 8388608)
      = (∑ c, ∑ h, ∑ w, y c h w * y c h w)
        - (∑ c, ∑ h, ∑ w, y c h w) * (∑ c, ∑ h, ∑ w, y c h w) / 8388608 := by
  rw [sum3_center]
  field_simp
  ring

/-- The slice's centred sum of squares is nonnegative and at most the whole item's. -/
theorem slice_le (y : Fin 8 → Fin 1024 → Fin 1024 → ℝ) (μ : ℝ) (d : Fin 8) :
    0 ≤ ∑ h, ∑ w, (y d h w - μ) * (y d h w - μ) ∧
    ∑ h, ∑ w, (y d h w - μ) * (y d h w - μ) ≤ ∑ c, ∑ h, ∑ w, (y c h w - μ) * (y c h w - μ) := by
  have nn : ∀ c, 0 ≤ ∑ h, ∑ w, (y c h w - μ) * (y c h w - μ) := fun c =>
    Finset.sum_nonneg (fun h _ => Finset.sum_nonneg (fun w _ => mul_self_nonneg _))
  exact ⟨nn d, Finset.single_le_sum (f := fun c => ∑ h, ∑ w, (y c h w - μ) * (y c h w - μ))
    (fun c _ => nn c) (Finset.mem_univ d)⟩

/-! ### An image with real entries, and the real data of one batch item -/

/-- The image whose entries are the given reals. -/
def cI (x : Fin 8 → Fin 8 → Fin 1024 → Fin 1024 → ℝ) : Img := fun b c h w => (x b c h w : EReal)

section Item

variable (x : Fin 8 → Fin 8 → Fin 1024 → Fin 1024 → ℝ) (b : Fin 8)

/-- The mean of batch item b. -/
def meanR : ℝ := (∑ c, ∑ h, ∑ w, x b c h w) / 8388608
/-- The centred sum of squares of batch item b. -/
def ssqR : ℝ := ∑ c, ∑ h, ∑ w, (x b c h w - meanR x b) * (x b c h w - meanR x b)
/-- The centred sum of squares of the slice (b, b). -/
def dsqR : ℝ := ∑ h, ∑ w, (x b b h w - meanR x b) * (x b b h w - meanR x b)
/-- The unbiased variance of batch item b. -/
def varR : ℝ := ssqR x b / 8388607

theorem S_coe : S (cI x) b = ((∑ c, ∑ h, ∑ w, x b c h w : ℝ) : EReal) := by
  simp only [S, cI, coe_sum]

theorem Q_coe : Q (cI x) b = ((∑ c, ∑ h, ∑ w, x b c h w * x b c h w : ℝ) : EReal) := by
  simp only [Q, cI, coe_sum, EReal.coe_mul]

theorem DS_coe : DS (cI x) b = ((∑ h, ∑ w, x b b h w : ℝ) : EReal) := by
  simp only [DS, cI, coe_sum]

theorem DQ_coe : DQ (cI x) b = ((∑ h, ∑ w, x b b h w * x b b h w : ℝ) : EReal) := by
  simp only [DQ, cI, coe_sum, EReal.coe_mul]

theorem dsqR_eq : dsqR x b = (∑ h, ∑ w, x b b h w * x b b h w) - 2 * meanR x b * (∑ h, ∑ w, x b b h w)
    + 1048576 * meanR x b * meanR x b :=
  sum2_center (fun h w => x b b h w) (meanR x b)

theorem ssqR_eq : ssqR x b = (∑ c, ∑ h, ∑ w, x b c h w * x b c h w)
    - (∑ c, ∑ h, ∑ w, x b c h w) * (∑ c, ∑ h, ∑ w, x b c h w) / 8388608 :=
  sum3_center_mean (fun c h w => x b c h w)

theorem ssqR_nonneg : 0 ≤ ssqR x b :=
  Finset.sum_nonneg (fun c _ => Finset.sum_nonneg (fun h _ => Finset.sum_nonneg (fun w _ => mul_self_nonneg _)))

theorem varR_nonneg : 0 ≤ varR x b := div_nonneg (ssqR_nonneg x b) (by norm_num)

theorem dsqR_bounds : 0 ≤ dsqR x b ∧ dsqR x b ≤ ssqR x b :=
  slice_le (fun c h w => x b c h w) (meanR x b) b

/-- The streaming summand on real sums: every operation but the last two divisions stays real. -/
theorem kTerm_coe (s q ds dq : ℝ) :
    kTerm s q ds dq
      = Ideal.div (Ideal.div
          ((dq - 2 * (s / 8388608) * ds + 1048576 * (s / 8388608) * (s / 8388608) : ℝ) : EReal)
          (((q - s * s / 8388608) / 8388607 : ℝ) : EReal)) denE := by
  have h1 : (8388608 : ℝ) ≠ 0 := by norm_num
  have h2 : (8388607 : ℝ) ≠ 0 := by norm_num
  simp only [kTerm, nE, n1E, hwE, twoE, Ideal.div_coe h1, Ideal.div_coe h2, ← EReal.coe_mul, ← EReal.coe_sub,
    ← EReal.coe_add]
  congr 3 <;> ring

/-- The streaming summand of batch item b: (slice's centred squares / variance) / n². -/
theorem kTerm_eval : kTerm (S (cI x) b) (Q (cI x) b) (DS (cI x) b) (DQ (cI x) b)
    = Ideal.div (Ideal.div (dsqR x b : EReal) (varR x b : EReal)) denE := by
  rw [S_coe, Q_coe, DS_coe, DQ_coe, kTerm_coe]
  congr 3
  · rw [dsqR_eq]; rfl
  · rw [varR, ssqR_eq]

theorem rMean_coe : rMean (cI x) b = (meanR x b : EReal) := by
  have h1 : (8388608 : ℝ) ≠ 0 := by norm_num
  rw [rMean, S_coe, nE, Ideal.div_coe h1, ← EReal.coe_mul, mul_one_div, meanR]

theorem rVar_coe : rVar (cI x) b = (varR x b : EReal) := by
  have h2 : (8388607 : ℝ) ≠ 0 := by norm_num
  rw [rVar, rMean_coe]
  simp only [cI, ← EReal.coe_sub, ← EReal.coe_mul, ← coe_sum]
  rw [n1E, Ideal.div_coe h2, ← EReal.coe_mul, mul_one_div, varR, ssqR]

theorem rZ_coe (h w : Fin 1024) : rZ (cI x) b h w
    = Ideal.div ((x b b h w - meanR x b : ℝ) : EReal) (Ideal.sqrt (varR x b : EReal)) := by
  rw [rZ, rMean_coe, rVar_coe, cI, ← EReal.coe_sub]

end Item

/-! ### The two cases for one batch item -/

section Cases

variable (x : Fin 8 → Fin 8 → Fin 1024 → Fin 1024 → ℝ) (b : Fin 8)

theorem div_zero_zero : Ideal.div 0 0 = ⊥ := by simp [Ideal.div]

theorem div_bot_den : Ideal.div ⊥ denE = ⊥ := by
  rw [denE, Ideal.div_coe (by norm_num)]
  exact EReal.bot_mul_coe_of_pos (by norm_num)

theorem div_top_den : Ideal.div ⊤ denE = ⊤ := by
  rw [denE, Ideal.div_coe (by norm_num)]
  exact EReal.top_mul_coe_of_pos (by norm_num)

/-- Positive variance: the streaming summand is the real (Σ_slice (x − μ)²) / v / n². -/
theorem kTerm_pos (hv : 0 < varR x b) :
    kTerm (S (cI x) b) (Q (cI x) b) (DS (cI x) b) (DQ (cI x) b)
      = ((dsqR x b * (1 / varR x b) * (1 / 70368744177664) : ℝ) : EReal) := by
  rw [kTerm_eval, Ideal.div_coe hv.ne', ← EReal.coe_mul, denE, Ideal.div_coe (by norm_num), ← EReal.coe_mul]

/-- Positive variance: the two-pass summand is the same real. -/
theorem rTerm_pos (hv : 0 < varR x b) :
    Ideal.div (∑ h : Fin 1024, ∑ w : Fin 1024, rZ (cI x) b h w * rZ (cI x) b h w) denE
      = ((dsqR x b * (1 / varR x b) * (1 / 70368744177664) : ℝ) : EReal) := by
  have hs : 0 < Real.sqrt (varR x b) := Real.sqrt_pos.2 hv
  have ht : (1 / Real.sqrt (varR x b)) * (1 / Real.sqrt (varR x b)) = 1 / varR x b := by
    rw [one_div, one_div, ← mul_inv, Real.mul_self_sqrt hv.le]
  have hz : ∀ h w : Fin 1024, rZ (cI x) b h w * rZ (cI x) b h w
      = (((x b b h w - meanR x b) * (x b b h w - meanR x b) * (1 / varR x b) : ℝ) : EReal) := by
    intro h w
    rw [rZ_coe, Ideal.sqrt_coe, if_neg (not_lt.2 hv.le), Ideal.div_coe hs.ne', ← EReal.coe_mul, ← EReal.coe_mul, ← ht]
    congr 1
    ring
  simp only [hz, ← coe_sum, ← Finset.sum_mul]
  rw [denE, Ideal.div_coe (by norm_num), ← EReal.coe_mul, dsqR]

/-- Zero variance: the slice's centred squares vanish too, and 0/0 = −∞ survives the division by n². -/
theorem kTerm_zero (hv : varR x b = 0) :
    kTerm (S (cI x) b) (Q (cI x) b) (DS (cI x) b) (DQ (cI x) b) = ⊥ := by
  have hs : ssqR x b = 0 := by
    have h0 : ssqR x b / 8388607 = 0 := hv
    rcases div_eq_zero_iff.1 h0 with h1 | h1
    · exact h1
    · norm_num at h1
  have hd : dsqR x b = 0 := by
    have h := dsqR_bounds x b
    linarith [h.1, h.2]
  rw [kTerm_eval, hd, hv, EReal.coe_zero, div_zero_zero, div_bot_den]

/-- Zero variance: a standardized entry is ±∞, its square +∞. -/
theorem rZ_sq_zero (hv : varR x b = 0) (h w : Fin 1024) : rZ (cI x) b h w * rZ (cI x) b h w = ⊤ := by
  rw [rZ_coe, hv, Ideal.sqrt_coe, if_neg (lt_irrefl 0), Real.sqrt_zero, EReal.coe_zero]
  simp only [Ideal.div, if_true]
  split_ifs <;> rfl

/-- Zero variance: the two-pass summand is +∞. -/
theorem rTerm_zero (hv : varR x b = 0) :
    Ideal.div (∑ h : Fin 1024, ∑ w : Fin 1024, rZ (cI x) b h w * rZ (cI x) b h w) denE = ⊤ := by
  have hin : ∑ _w : Fin 1024, (⊤ : EReal) = ⊤ :=
    sum_eq_top _ _ 0 (Finset.mem_univ _) rfl (fun _ _ => top_ne_bot)
  have hout : ∑ _h : Fin 1024, (⊤ : EReal) = ⊤ :=
    sum_eq_top _ _ 0 (Finset.mem_univ _) rfl (fun _ _ => top_ne_bot)
  simp only [rZ_sq_zero x b hv, hin, hout]
  exact div_top_den

/-- One batch item: both summands are the same real, or the streaming one is −∞ and the two-pass one +∞. -/
theorem term_cases :
    (∃ r : ℝ, kTerm (S (cI x) b) (Q (cI x) b) (DS (cI x) b) (DQ (cI x) b) = r ∧
      Ideal.div (∑ h : Fin 1024, ∑ w : Fin 1024, rZ (cI x) b h w * rZ (cI x) b h w) denE = r) ∨
    (kTerm (S (cI x) b) (Q (cI x) b) (DS (cI x) b) (DQ (cI x) b) = ⊥ ∧
      Ideal.div (∑ h : Fin 1024, ∑ w : Fin 1024, rZ (cI x) b h w * rZ (cI x) b h w) denE = ⊤) := by
  rcases (varR_nonneg x b).lt_or_eq with hv | hv
  · exact Or.inl ⟨_, kTerm_pos x b hv, rTerm_pos x b hv⟩
  · exact Or.inr ⟨kTerm_zero x b hv.symm, rTerm_zero x b hv.symm⟩

end Cases

/-! ### The moments of an image, and the result -/

theorem moment_cases_coe (x : Fin 8 → Fin 8 → Fin 1024 → Fin 1024 → ℝ) :
    (∃ r : ℝ, kMoment (cI x) = r ∧ rMoment (cI x) = r) ∨ (kMoment (cI x) = ⊥ ∧ rMoment (cI x) = ⊤) := by
  unfold kMoment rMoment
  by_cases hall : ∀ b : Fin 8, ∃ r : ℝ,
      kTerm (S (cI x) b) (Q (cI x) b) (DS (cI x) b) (DQ (cI x) b) = r ∧
      Ideal.div (∑ h : Fin 1024, ∑ w : Fin 1024, rZ (cI x) b h w * rZ (cI x) b h w) denE = r
  · choose r hr using hall
    refine Or.inl ⟨∑ b, r b, ?_, ?_⟩
    · rw [coe_sum]
      exact Finset.sum_congr rfl (fun b _ => (hr b).1)
    · rw [coe_sum]
      exact Finset.sum_congr rfl (fun b _ => (hr b).2)
  · obtain ⟨b, hb⟩ := not_forall.1 hall
    have hb' := (term_cases x b).resolve_left hb
    refine Or.inr ⟨sum_eq_bot _ _ b (Finset.mem_univ _) hb'.1, sum_eq_top _ _ b (Finset.mem_univ _) hb'.2 ?_⟩
    intro j _
    rcases term_cases x j with ⟨r, _, h2⟩ | ⟨_, h2⟩
    · rw [h2]; exact EReal.coe_ne_bot r
    · rw [h2]; exact top_ne_bot

/-- For an image with real entries: both moments are the same real, or the streaming one is −∞ and the
    two-pass one +∞ (some batch item is constant). -/
theorem moment_cases (X : Img) (h : Finite X) :
    (∃ r : ℝ, kMoment X = r ∧ rMoment X = r) ∨ (kMoment X = ⊥ ∧ rMoment X = ⊤) := by
  choose x hx using h
  have hX : X = cI x := by
    funext b c h w
    exact hx b c h w
  rw [hX]
  exact moment_cases_coe x

/-- The two programs' results agree on every pair of images with real entries. -/
theorem result_eq (X₁ X₂ : Img) (h₁ : Finite X₁) (h₂ : Finite X₂) : kResult X₁ X₂ = rResult X₁ X₂ :=
  absdiff_cases _ _ _ _ (moment_cases X₁ h₁) (moment_cases X₂ h₂)

end Cert.Moment

end
-- ==== Proof.lean ====
/-
  Two ways to a standardized second moment of the diagonal slices of two images, and that they agree.

  The streaming program reads each image f32[8, 8, 1024, 1024] once, block (b, c) by block, and keeps per batch item b four
  running sums in [8, 128] tiles: S = Σ x and Q = Σ x² over all of image[b], and DS, DQ the same two sums over the slice
  image[b, b] only (the block visited at c = b). Host code then forms mean = S/n, var = (Q − S·S/n)/(n − 1) and
  (DQ − 2·mean·DS + HW·mean²)/var/n², summed over the batch; the result is |m(image1) − m(image2)|.
  The reference centres first: mean, var = Σ (x − mean)²/(n − 1), z = (x − mean)/√var on the slice, Σ z²/n², summed.

  Over the extended reals, with every entry a real number (the precondition): Σ (x − mean)² = Q − S·S/n, so the two
  variances are one real v ≥ 0. Where v > 0 for every batch item, ((x − mean)/√v)² = (x − mean)²/v and the slice's sum is
  (DQ − 2·mean·DS + HW·mean²)/v: the two moments are the same real. Where v = 0 for some batch item (its entries all
  equal) the streaming side meets 0/0 = −∞ and its moment is −∞, the reference meets (0/0)² = +∞ and its moment is +∞; and
  |a − b| is +∞ on both sides whenever either image is of that kind. So the results agree in every case.

  The frames: each pallas_call is run as a pipeline over its 64 grid points, the body proved case by case ("c = 0",
  "b = c"), the accumulator tiles carried in their staging buffers along c and written back after c = 7; the reference is
  a straight line of host operations.
-/
import proofs.«160249_j59768764891231_2_alg».proof.Defs
import proofs.«160249_j59768764891231_2_alg».proof.Proof.Gen.Kernel
import proofs.«160249_j59768764891231_2_alg».proof.Proof.Gen.KernelIdeal
import proofs.«160249_j59768764891231_2_alg».proof.Proof.Gen.ReferenceIdeal
import proofs.«160249_j59768764891231_2_alg».proof.Proof.Gen.Pre_finite_inputs
import proofs.«160249_j59768764891231_2_alg».proof.Proof.KB.Frame
import proofs.«160249_j59768764891231_2_alg».proof.Proof.KI.Value
import proofs.«160249_j59768764891231_2_alg».proof.Proof.RefRun
import proofs.«160249_j59768764891231_2_alg».proof.Proof.RefValue
import proofs.«160249_j59768764891231_2_alg».proof.Proof.PreFinite
import proofs.«160249_j59768764891231_2_alg».proof.Proof.LibMomentAlgebra

noncomputable section

namespace Cert.Proof

open Idealize.ShloMosaic Idealize.SL.Sem

/-- The word-level program runs to the end and leaves its arguments as launched. -/
theorem frame_k : Cert.frame_Kernel (hKernel := Cert.Kernel.Gen.facts) (hPre_finite_inputs := Cert.Pre_finite_inputs.Gen.facts) :=
  fun m ρ _ => Cert.Kernel.Gen.frame_all m ρ

/-- So does the idealized program. -/
theorem frame_ki : Cert.frame_KernelIdeal (hKernelIdeal := Cert.KernelIdeal.Gen.facts) (hPre_finite_inputs := Cert.Pre_finite_inputs.Gen.facts) :=
  fun m ρ _ => Cert.KernelIdeal.Gen.frame_all m ρ

/-- The reference is a line of host operations: its run, with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.RefRun.run m ρ)

/-- At the extended reals the streaming program ends at |kMoment(image1) − kMoment(image2)| and the reference at
    |rMoment(image1) − rMoment(image2)| of arguments that agree and whose entries are real: one number. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨_, Cert.KernelIdeal.Gen.run_value m ρ, ?_⟩
  refine (θ_run Cert.ReferenceIdeal.defs _ _).mono (fun _ h c => ⟨(h c).1.trans ?_, (h c).2⟩)
    (Cert.ReferenceIdeal.RefRun.run m' ρ')
  rw [Cert.ReferenceIdeal.RefValue.refResult_eq, (hagree c).1, (hagree c).2]
  obtain ⟨f1, f2⟩ := Cert.Pre_finite_inputs.Finite.finite_of_pre _ _ (hpre c)
  funext _
  exact (Cert.Moment.result_eq _ _ f1 f2).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
